-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x257x257 : Shape := ⟨4, ![32, 16, 257, 257]⟩
abbrev S964x16 : Shape := ⟨2, ![964, 16]⟩
abbrev S257x257 : Shape := ⟨2, ![257, 257]⟩
abbrev S_ : Shape := ⟨0, ![]⟩

class Facts : Prop where
  bcast_S_S32x16x257x257 : S_.BroadcastsInDim S32x16x257x257 (![] : Fin 0 → Fin S32x16x257x257.rank)
  reducesTo_S32x16x257x257_S_d0_1_2_3 : S32x16x257x257.ReducesTo [0, 1, 2, 3] S_
  h_S_ : 0 < S_.numel
  bcast_S_S964x16 : S_.BroadcastsInDim S964x16 (![] : Fin 0 → Fin S964x16.rank)
  reducesTo_S964x16_S_d0_1 : S964x16.ReducesTo [0, 1] S_
  bcast_S_S257x257 : S_.BroadcastsInDim S257x257 (![] : Fin 0 → Fin S257x257.rank)
  reducesTo_S257x257_S_d0_1 : S257x257.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S32x16x257x257 .f32) (main_arg1 : FVec F S964x16 .f32) (main_arg2 : IVec S257x257 32) : IVec S_ 1 :=
  let main_v0 : FVec F S32x16x257x257 .f32 := Host.absf main_arg0
  let main_cst : FVec F S_ .f32 := constant S_ .f32 0x7F800000#32
  let main_v1 : FVec F S32x16x257x257 .f32 := broadcastInDim S32x16x257x257 ![] bcast_S_S32x16x257x257 main_cst
  let main_v2 : IVec S32x16x257x257 1 := cmpf .olt main_v0 main_v1
  let main_c : IVec S_ 1 := constantI S_ 1 1#1
  let main_v3 : IVec S_ 1 := (fun x v => Host.reduce IntOp.andi x v reducesTo_S32x16x257x257_S_d0_1_2_3 h_S_) main_v2 main_c
  let main_v4 : FVec F S964x16 .f32 := Host.absf main_arg1
  let main_cst_0 : FVec F S_ .f32 := constant S_ .f32 0x7F800000#32
  let main_v5 : FVec F S964x16 .f32 := broadcastInDim S964x16 ![] bcast_S_S964x16 main_cst_0
  let main_v6 : IVec S964x16 1 := cmpf .olt main_v4 main_v5
  let main_c_1 : IVec S_ 1 := constantI S_ 1 1#1
  let main_v7 : IVec S_ 1 := (fun x v => Host.reduce IntOp.andi x v reducesTo_S964x16_S_d0_1 h_S_) main_v6 main_c_1
  let main_v8 : IVec S_ 1 := andi main_v3 main_v7
  let main_c_2 : IVec S_ 32 := constantI S_ 32 0#32
  let main_v9 : IVec S257x257 32 := broadcastInDim S257x257 ![] bcast_S_S257x257 main_c_2
  let main_v10 : IVec S257x257 1 := cmpi .sge main_arg2 main_v9
  let main_c_3 : IVec S_ 1 := constantI S_ 1 1#1
  let main_v11 : IVec S_ 1 := (fun x v => Host.reduce IntOp.andi x v reducesTo_S257x257_S_d0_1 h_S_) main_v10 main_c_3
  let main_v12 : IVec S_ 1 := andi main_v8 main_v11
  let main_c_4 : IVec S_ 32 := constantI S_ 32 964#32
  let main_v13 : IVec S257x257 32 := broadcastInDim S257x257 ![] bcast_S_S257x257 main_c_4
  let main_v14 : IVec S257x257 1 := cmpi .slt main_arg2 main_v13
  let main_c_5 : IVec S_ 1 := constantI S_ 1 1#1
  let main_v15 : IVec S_ 1 := (fun x v => Host.reduce IntOp.andi x v reducesTo_S257x257_S_d0_1 h_S_) main_v14 main_c_5
  fn_part1 (F := F) main_v12 main_v15
-- ==== Kernel.lean ====
abbrev S32x16x257x257 : Shape := ⟨4, ![32, 16, 257, 257]⟩
abbrev S964x16 : Shape := ⟨2, ![964, 16]⟩
abbrev S257x257 : Shape := ⟨2, ![257, 257]⟩
abbrev S15424 : Shape := ⟨1, ![15424]⟩
abbrev S16x257x257 : Shape := ⟨3, ![16, 257, 257]⟩
abbrev S9x257 : Shape := ⟨2, ![9, 257]⟩
abbrev S16x9x257 : Shape := ⟨3, ![16, 9, 257]⟩
abbrev S_ : Shape := ⟨0, ![]⟩
abbrev S8x257 : Shape := ⟨2, ![8, 257]⟩
abbrev S16 : Shape := ⟨1, ![16]⟩
abbrev S1x16 : Shape := ⟨2, ![1, 16]⟩
abbrev S1x1x16 : Shape := ⟨3, ![1, 1, 16]⟩
abbrev S16x8x257 : Shape := ⟨3, ![16, 8, 257]⟩
abbrev S1x257 : Shape := ⟨2, ![1, 257]⟩
abbrev S16x1x257 : Shape := ⟨3, ![16, 1, 257]⟩
abbrev S1x16x257x257 : Shape := ⟨4, ![1, 16, 257, 257]⟩

abbrev nBuf : Table → Nat
  | .hbm => 8
  | .local .scVector .vmem => 3
  | _ => 0

abbrev bufTy : (tb : Table) → Fin (nBuf tb) → BufTy
  | .hbm, ⟨0, _⟩ => ⟨S32x16x257x257, .f32⟩
  | .hbm, ⟨1, _⟩ => ⟨S964x16, .f32⟩
  | .hbm, ⟨2, _⟩ => ⟨S257x257, .i32⟩
  | .hbm, ⟨3, _⟩ => ⟨S15424, .f32⟩
  | .hbm, ⟨4, _⟩ => ⟨S16x257x257, .f32⟩
  | .hbm, ⟨5, _⟩ => ⟨S1x16x257x257, .f32⟩
  | .hbm, ⟨6, _⟩ => ⟨S32x16x257x257, .f32⟩
  | .hbm, ⟨7, _⟩ => ⟨S32x16x257x257, .f32⟩
  | .local .scVector .vmem, ⟨0, _⟩ => ⟨S15424, .f32⟩
  | .local .scVector .vmem, ⟨1, _⟩ => ⟨S9x257, .i32⟩
  | .local .scVector .vmem, ⟨2, _⟩ => ⟨S16x9x257, .f32⟩
  | _, _ => ⟨S32x16x257x257, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 3, rfl⟩
abbrev main_arg2_scv : Ref sig .scVector := ⟨.hbm, 2, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_6_r1 : BitVec 32 := 0#32
  ![v2.toNat, 0]
@[reducible] def k0_t1_loop : Scf.Loop 32 :=
  let c0_i32_0 : BitVec 32 := 0#32
  let c8_i32_1 : BitVec 32 := 8#32
  let v3 : BitVec 32 := Scalar.addi c0_i32_0 c8_i32_1
  let c1_i32 : BitVec 32 := 1#32
  ⟨c0_i32_0, v3, c1_i32⟩
@[reducible] def k0_t2_loop : Scf.Loop 32 :=
  let c0_i32_5 : BitVec 32 := 0#32
  let c16_i32 : BitVec 32 := 16#32
  let v7 : BitVec 32 := Scalar.addi c0_i32_5 c16_i32
  let c1_i32_6 : BitVec 32 := 1#32
  ⟨c0_i32_5, v7, c1_i32_6⟩
def k0_off2 (k0_t1 : Fin k0_t1_loop.trips) (k0_t2 : Fin k0_t2_loop.trips) : Fin 2 → Nat :=
  let c0_i32_0 : BitVec 32 := 0#32
  let c1_i32 : BitVec 32 := 1#32
  let arg8 : BitVec 32 := Scf.iv c0_i32_0 c1_i32 k0_t1
  let v17 : Index := Scalar.indexCast arg8
  let c0_i32_5 : BitVec 32 := 0#32
  let c1_i32_6 : BitVec 32 := 1#32
  let arg9 : BitVec 32 := Scf.iv c0_i32_5 c1_i32_6 k0_t2
  let c16_i32_9 : BitVec 32 := 16#32
  let v16 : BitVec 32 := Scalar.muli arg9 c16_i32_9
  let v18 : Index := Scalar.indexCast v16
  ![v17.toNat, v18.toNat]

def k0_chk1 (v23 : IVec S16 32) : Prop :=
  (∀ a x, ((![v23] : Fin 1 → IVec S16 32) a x).toNat < S15424.size a)
instance k0_chk1.dec : ∀ (v23 : IVec S16 32), Decidable (k0_chk1 v23) := fun v23 => decidable_of_iff' _ (Iff.of_eq (k0_chk1.eq_1 v23))
theorem k0_idx1_inb : ∀ (v23 : IVec S16 32) (k0_hw1 : k0_chk1 v23), ∀ a x, ((![v23] : Fin 1 → IVec S16 32) a x).toNat < S15424.size a := fun v23 k0_hw1 => k0_hw1
def k0_off3 (k0_t1 : Fin k0_t1_loop.trips) (k0_t2 : Fin k0_t2_loop.trips) : Fin 3 → Nat :=
  let c0_i32_12 : BitVec 32 := 0#32
  let v25 : Index := Scalar.indexCast c0_i32_12
  let c0_i32_0 : BitVec 32 := 0#32
  let c1_i32 : BitVec 32 := 1#32
  let arg8 : BitVec 32 := Scf.iv c0_i32_0 c1_i32 k0_t1
  let v26 : Index := Scalar.indexCast arg8
  let c0_i32_5 : BitVec 32 := 0#32
  let c1_i32_6 : BitVec 32 := 1#32
  let arg9 : BitVec 32 := Scf.iv c0_i32_5 c1_i32_6 k0_t2
  let c16_i32_9 : BitVec 32 := 16#32
  let v16 : BitVec 32 := Scalar.muli arg9 c16_i32_9
  let v27 : Index := Scalar.indexCast v16
  ![0, v26.toNat, v27.toNat]

def k0_chk2 (v30 : IVec S16 32) : Prop :=
  (∀ a x, ((![v30] : Fin 1 → IVec S16 32) a x).toNat < S15424.size a)
instance k0_chk2.dec : ∀ (v30 : IVec S16 32), Decidable (k0_chk2 v30) := fun v30 => decidable_of_iff' _ (Iff.of_eq (k0_chk2.eq_1 v30))
theorem k0_idx2_inb : ∀ (v30 : IVec S16 32) (k0_hw2 : k0_chk2 v30), ∀ a x, ((![v30] : Fin 1 → IVec S16 32) a x).toNat < S15424.size a := fun v30 k0_hw2 => k0_hw2
def k0_off4 (k0_t1 : Fin k0_t1_loop.trips) (k0_t2 : Fin k0_t2_loop.trips) : Fin 3 → Nat :=
  let c1_i32_14 : BitVec 32 := 1#32
  let v32 : Index := Scalar.indexCast c1_i32_14
  let c0_i32_0 : BitVec 32 := 0#32
  let c1_i32 : BitVec 32 := 1#32
  let arg8 : BitVec 32 := Scf.iv c0_i32_0 c1_i32 k0_t1
  let v33 : Index := Scalar.indexCast arg8
  let c0_i32_5 : BitVec 32 := 0#32
  let c1_i32_6 : BitVec 32 := 1#32
  let arg9 : BitVec 32 := Scf.iv c0_i32_5 c1_i32_6 k0_t2
  let c16_i32_9 : BitVec 32 := 16#32
  let v16 : BitVec 32 := Scalar.muli arg9 c16_i32_9
  let v34 : Index := Scalar.indexCast v16
  ![1, v33.toNat, v34.toNat]

def k0_chk3 (v37 : IVec S16 32) : Prop :=
  (∀ a x, ((![v37] : Fin 1 → IVec S16 32) a x).toNat < S15424.size a)
instance k0_chk3.dec : ∀ (v37 : IVec S16 32), Decidable (k0_chk3 v37) := fun v37 => decidable_of_iff' _ (Iff.of_eq (k0_chk3.eq_1 v37))
theorem k0_idx3_inb : ∀ (v37 : IVec S16 32) (k0_hw3 : k0_chk3 v37), ∀ a x, ((![v37] : Fin 1 → IVec S16 32) a x).toNat < S15424.size a := fun v37 k0_hw3 => k0_hw3
def k0_off5 (k0_t1 : Fin k0_t1_loop.trips) (k0_t2 : Fin k0_t2_loop.trips) : Fin 3 → Nat :=
  let c2_i32_16 : BitVec 32 := 2#32
  let v39 : Index := Scalar.indexCast c2_i32_16
  let c0_i32_0 : BitVec 32 := 0#32
  let c1_i32 : BitVec 32 := 1#32
  let arg8 : BitVec 32 := Scf.iv c0_i32_0 c1_i32 k0_t1
  let v40 : Index := Scalar.indexCast arg8
  let c0_i32_5 : BitVec 32 := 0#32
  let c1_i32_6 : BitVec 32 := 1#32
  let arg9 : BitVec 32 := Scf.iv c0_i32_5 c1_i32_6 k0_t2
  let c16_i32_9 : BitVec 32 := 16#32
  let v16 : BitVec 32 := Scalar.muli arg9 c16_i32_9
  let v41 : Index := Scalar.indexCast v16
  ![2, v40.toNat, v41.toNat]

def k0_chk4 (v44 : IVec S16 32) : Prop :=
  (∀ a x, ((![v44] : Fin 1 → IVec S16 32) a x).toNat < S15424.size a)
instance k0_chk4.dec : ∀ (v44 : IVec S16 32), Decidable (k0_chk4 v44) := fun v44 => decidable_of_iff' _ (Iff.of_eq (k0_chk4.eq_1 v44))
theorem k0_idx4_inb : ∀ (v44 : IVec S16 32) (k0_hw4 : k0_chk4 v44), ∀ a x, ((![v44] : Fin 1 → IVec S16 32) a x).toNat < S15424.size a := fun v44 k0_hw4 => k0_hw4
def k0_off6 (k0_t1 : Fin k0_t1_loop.trips) (k0_t2 : Fin k0_t2_loop.trips) : Fin 3 → Nat :=
  let c3_i32_17 : BitVec 32 := 3#32
  let v46 : Index := Scalar.indexCast c3_i32_17
  let c0_i32_0 : BitVec 32 := 0#32
  let c1_i32 : BitVec 32 := 1#32
  let arg8 : BitVec 32 := Scf.iv c0_i32_0 c1_i32 k0_t1
  let v47 : Index := Scalar.indexCast arg8
  let c0_i32_5 : BitVec 32 := 0#32
  let c1_i32_6 : BitVec 32 := 1#32
  let arg9 : BitVec 32 := Scf.iv c0_i32_5 c1_i32_6 k0_t2
  let c16_i32_9 : BitVec 32 := 16#32
  let v16 : BitVec 32 := Scalar.muli arg9 c16_i32_9
  let v48 : Index := Scalar.indexCast v16
  ![3, v47.toNat, v48.toNat]

def k0_chk5 (v51 : IVec S16 32) : Prop :=
  (∀ a x, ((![v51] : Fin 1 → IVec S16 32) a x).toNat < S15424.size a)
instance k0_chk5.dec : ∀ (v51 : IVec S16 32), Decidable (k0_chk5 v51) := fun v51 => decidable_of_iff' _ (Iff.of_eq (k0_chk5.eq_1 v51))
theorem k0_idx5_inb : ∀ (v51 : IVec S16 32) (k0_hw5 : k0_chk5 v51), ∀ a x, ((![v51] : Fin 1 → IVec S16 32) a x).toNat < S15424.size a := fun v51 k0_hw5 => k0_hw5
def k0_off7 (k0_t1 : Fin k0_t1_loop.trips) (k0_t2 : Fin k0_t2_loop.trips) : Fin 3 → Nat :=
  let c4_i32_18 : BitVec 32 := 4#32
  let v53 : Index := Scalar.indexCast c4_i32_18
  let c0_i32_0 : BitVec 32 := 0#32
  let c1_i32 : BitVec 32 := 1#32
  let arg8 : BitVec 32 := Scf.iv c0_i32_0 c1_i32 k0_t1
  let v54 : Index := Scalar.indexCast arg8
  let c0_i32_5 : BitVec 32 := 0#32
  let c1_i32_6 : BitVec 32 := 1#32
  let arg9 : BitVec 32 := Scf.iv c0_i32_5 c1_i32_6 k0_t2
  let c16_i32_9 : BitVec 32 := 16#32
  let v16 : BitVec 32 := Scalar.muli arg9 c16_i32_9
  let v55 : Index := Scalar.indexCast v16
  ![4, v54.toNat, v55.toNat]

def k0_chk6 (v58 : IVec S16 32) : Prop :=
  (∀ a x, ((![v58] : Fin 1 → IVec S16 32) a x).toNat < S15424.size a)
instance k0_chk6.dec : ∀ (v58 : IVec S16 32), Decidable (k0_chk6 v58) := fun v58 => decidable_of_iff' _ (Iff.of_eq (k0_chk6.eq_1 v58))
theorem k0_idx6_inb : ∀ (v58 : IVec S16 32) (k0_hw6 : k0_chk6 v58), ∀ a x, ((![v58] : Fin 1 → IVec S16 32) a x).toNat < S15424.size a := fun v58 k0_hw6 => k0_hw6
def k0_off8 (k0_t1 : Fin k0_t1_loop.trips) (k0_t2 : Fin k0_t2_loop.trips) : Fin 3 → Nat :=
  let c5_i32_19 : BitVec 32 := 5#32
  let v60 : Index := Scalar.indexCast c5_i32_19
  let c0_i32_0 : BitVec 32 := 0#32
  let c1_i32 : BitVec 32 := 1#32
  let arg8 : BitVec 32 := Scf.iv c0_i32_0 c1_i32 k0_t1
  let v61 : Index := Scalar.indexCast arg8
  let c0_i32_5 : BitVec 32 := 0#32
  let c1_i32_6 : BitVec 32 := 1#32
  let arg9 : BitVec 32 := Scf.iv c0_i32_5 c1_i32_6 k0_t2
  let c16_i32_9 : BitVec 32 := 16#32
  let v16 : BitVec 32 := Scalar.muli arg9 c16_i32_9
  let v62 : Index := Scalar.indexCast v16
  ![5, v61.toNat, v62.toNat]

def k0_chk7 (v65 : IVec S16 32) : Prop :=
  (∀ a x, ((![v65] : Fin 1 → IVec S16 32) a x).toNat < S15424.size a)
instance k0_chk7.dec : ∀ (v65 : IVec S16 32), Decidable (k0_chk7 v65) := fun v65 => decidable_of_iff' _ (Iff.of_eq (k0_chk7.eq_1 v65))
theorem k0_idx7_inb : ∀ (v65 : IVec S16 32) (k0_hw7 : k0_chk7 v65), ∀ a x, ((![v65] : Fin 1 → IVec S16 32) a x).toNat < S15424.size a := fun v65 k0_hw7 => k0_hw7
def k0_off9 (k0_t1 : Fin k0_t1_loop.trips) (k0_t2 : Fin k0_t2_loop.trips) : Fin 3 → Nat :=
  let c6_i32_20 : BitVec 32 := 6#32
  let v67 : Index := Scalar.indexCast c6_i32_20
  let c0_i32_0 : BitVec 32 := 0#32
  let c1_i32 : BitVec 32 := 1#32
  let arg8 : BitVec 32 := Scf.iv c0_i32_0 c1_i32 k0_t1
  let v68 : Index := Scalar.indexCast arg8
  let c0_i32_5 : BitVec 32 := 0#32
  let c1_i32_6 : BitVec 32 := 1#32
  let arg9 : BitVec 32 := Scf.iv c0_i32_5 c1_i32_6 k0_t2
  let c16_i32_9 : BitVec 32 := 16#32
  let v16 : BitVec 32 := Scalar.muli arg9 c16_i32_9
  let v69 : Index := Scalar.indexCast v16
  ![6, v68.toNat, v69.toNat]

def k0_chk8 (v72 : IVec S16 32) : Prop :=
  (∀ a x, ((![v72] : Fin 1 → IVec S16 32) a x).toNat < S15424.size a)
instance k0_chk8.dec : ∀ (v72 : IVec S16 32), Decidable (k0_chk8 v72) := fun v72 => decidable_of_iff' _ (Iff.of_eq (k0_chk8.eq_1 v72))
theorem k0_idx8_inb : ∀ (v72 : IVec S16 32) (k0_hw8 : k0_chk8 v72), ∀ a x, ((![v72] : Fin 1 → IVec S16 32) a x).toNat < S15424.size a := fun v72 k0_hw8 => k0_hw8
def k0_off10 (k0_t1 : Fin k0_t1_loop.trips) (k0_t2 : Fin k0_t2_loop.trips) : Fin 3 → Nat :=
  let c7_i32_21 : BitVec 32 := 7#32
  let v74 : Index := Scalar.indexCast c7_i32_21
  let c0_i32_0 : BitVec 32 := 0#32
  let c1_i32 : BitVec 32 := 1#32
  let arg8 : BitVec 32 := Scf.iv c0_i32_0 c1_i32 k0_t1
  let v75 : Index := Scalar.indexCast arg8
  let c0_i32_5 : BitVec 32 := 0#32
  let c1_i32_6 : BitVec 32 := 1#32
  let arg9 : BitVec 32 := Scf.iv c0_i32_5 c1_i32_6 k0_t2
  let c16_i32_9 : BitVec 32 := 16#32
  let v16 : BitVec 32 := Scalar.muli arg9 c16_i32_9
  let v76 : Index := Scalar.indexCast v16
  ![7, v75.toNat, v76.toNat]

def k0_chk9 (v79 : IVec S16 32) : Prop :=
  (∀ a x, ((![v79] : Fin 1 → IVec S16 32) a x).toNat < S15424.size a)
instance k0_chk9.dec : ∀ (v79 : IVec S16 32), Decidable (k0_chk9 v79) := fun v79 => decidable_of_iff' _ (Iff.of_eq (k0_chk9.eq_1 v79))
theorem k0_idx9_inb : ∀ (v79 : IVec S16 32) (k0_hw9 : k0_chk9 v79), ∀ a x, ((![v79] : Fin 1 → IVec S16 32) a x).toNat < S15424.size a := fun v79 k0_hw9 => k0_hw9
def k0_off11 (k0_t1 : Fin k0_t1_loop.trips) (k0_t2 : Fin k0_t2_loop.trips) : Fin 3 → Nat :=
  let c8_i32_23 : BitVec 32 := 8#32
  let v81 : Index := Scalar.indexCast c8_i32_23
  let c0_i32_0 : BitVec 32 := 0#32
  let c1_i32 : BitVec 32 := 1#32
  let arg8 : BitVec 32 := Scf.iv c0_i32_0 c1_i32 k0_t1
  let v82 : Index := Scalar.indexCast arg8
  let c0_i32_5 : BitVec 32 := 0#32
  let c1_i32_6 : BitVec 32 := 1#32
  let arg9 : BitVec 32 := Scf.iv c0_i32_5 c1_i32_6 k0_t2
  let c16_i32_9 : BitVec 32 := 16#32
  let v16 : BitVec 32 := Scalar.muli arg9 c16_i32_9
  let v83 : Index := Scalar.indexCast v16
  ![8, v82.toNat, v83.toNat]

def k0_chk10 (v86 : IVec S16 32) : Prop :=
  (∀ a x, ((![v86] : Fin 1 → IVec S16 32) a x).toNat < S15424.size a)
instance k0_chk10.dec : ∀ (v86 : IVec S16 32), Decidable (k0_chk10 v86) := fun v86 => decidable_of_iff' _ (Iff.of_eq (k0_chk10.eq_1 v86))
theorem k0_idx10_inb : ∀ (v86 : IVec S16 32) (k0_hw10 : k0_chk10 v86), ∀ a x, ((![v86] : Fin 1 → IVec S16 32) a x).toNat < S15424.size a := fun v86 k0_hw10 => k0_hw10
def k0_off12 (k0_t1 : Fin k0_t1_loop.trips) (k0_t2 : Fin k0_t2_loop.trips) : Fin 3 → Nat :=
  let c9_i32_24 : BitVec 32 := 9#32
  let v88 : Index := Scalar.indexCast c9_i32_24
  let c0_i32_0 : BitVec 32 := 0#32
  let c1_i32 : BitVec 32 := 1#32
  let arg8 : BitVec 32 := Scf.iv c0_i32_0 c1_i32 k0_t1
  let v89 : Index := Scalar.indexCast arg8
  let c0_i32_5 : BitVec 32 := 0#32
  let c1_i32_6 : BitVec 32 := 1#32
  let arg9 : BitVec 32 := Scf.iv c0_i32_5 c1_i32_6 k0_t2
  let c16_i32_9 : BitVec 32 := 16#32
  let v16 : BitVec 32 := Scalar.muli arg9 c16_i32_9
  let v90 : Index := Scalar.indexCast v16
  ![9, v89.toNat, v90.toNat]

def k0_chk11 (v93 : IVec S16 32) : Prop :=
  (∀ a x, ((![v93] : Fin 1 → IVec S16 32) a x).toNat < S15424.size a)
instance k0_chk11.dec : ∀ (v93 : IVec S16 32), Decidable (k0_chk11 v93) := fun v93 => decidable_of_iff' _ (Iff.of_eq (k0_chk11.eq_1 v93))
theorem k0_idx11_inb : ∀ (v93 : IVec S16 32) (k0_hw11 : k0_chk11 v93), ∀ a x, ((![v93] : Fin 1 → IVec S16 32) a x).toNat < S15424.size a := fun v93 k0_hw11 => k0_hw11
def k0_off13 (k0_t1 : Fin k0_t1_loop.trips) (k0_t2 : Fin k0_t2_loop.trips) : Fin 3 → Nat :=
  let c10_i32_25 : BitVec 32 := 10#32
  let v95 : Index := Scalar.indexCast c10_i32_25
  let c0_i32_0 : BitVec 32 := 0#32
  let c1_i32 : BitVec 32 := 1#32
  let arg8 : BitVec 32 := Scf.iv c0_i32_0 c1_i32 k0_t1
  let v96 : Index := Scalar.indexCast arg8
  let c0_i32_5 : BitVec 32 := 0#32
  let c1_i32_6 : BitVec 32 := 1#32
  let arg9 : BitVec 32 := Scf.iv c0_i32_5 c1_i32_6 k0_t2
  let c16_i32_9 : BitVec 32 := 16#32
  let v16 : BitVec 32 := Scalar.muli arg9 c16_i32_9
  let v97 : Index := Scalar.indexCast v16
  ![10, v96.toNat, v97.toNat]

def k0_chk12 (v100 : IVec S16 32) : Prop :=
  (∀ a x, ((![v100] : Fin 1 → IVec S16 32) a x).toNat < S15424.size a)
instance k0_chk12.dec : ∀ (v100 : IVec S16 32), Decidable (k0_chk12 v100) := fun v100 => decidable_of_iff' _ (Iff.of_eq (k0_chk12.eq_1 v100))
theorem k0_idx12_inb : ∀ (v100 : IVec S16 32) (k0_hw12 : k0_chk12 v100), ∀ a x, ((![v100] : Fin 1 → IVec S16 32) a x).toNat < S15424.size a := fun v100 k0_hw12 => k0_hw12
def k0_off14 (k0_t1 : Fin k0_t1_loop.trips) (k0_t2 : Fin k0_t2_loop.trips) : Fin 3 → Nat :=
  let c11_i32_26 : BitVec 32 := 11#32
  let v102 : Index := Scalar.indexCast c11_i32_26
  let c0_i32_0 : BitVec 32 := 0#32
  let c1_i32 : BitVec 32 := 1#32
  let arg8 : BitVec 32 := Scf.iv c0_i32_0 c1_i32 k0_t1
  let v103 : Index := Scalar.indexCast arg8
  let c0_i32_5 : BitVec 32 := 0#32
  let c1_i32_6 : BitVec 32 := 1#32
  let arg9 : BitVec 32 := Scf.iv c0_i32_5 c1_i32_6 k0_t2
  let c16_i32_9 : BitVec 32 := 16#32
  let v16 : BitVec 32 := Scalar.muli arg9 c16_i32_9
  let v104 : Index := Scalar.indexCast v16
  ![11, v103.toNat, v104.toNat]

def k0_chk13 (v107 : IVec S16 32) : Prop :=
  (∀ a x, ((![v107] : Fin 1 → IVec S16 32) a x).toNat < S15424.size a)
instance k0_chk13.dec : ∀ (v107 : IVec S16 32), Decidable (k0_chk13 v107) := fun v107 => decidable_of_iff' _ (Iff.of_eq (k0_chk13.eq_1 v107))
theorem k0_idx13_inb : ∀ (v107 : IVec S16 32) (k0_hw13 : k0_chk13 v107), ∀ a x, ((![v107] : Fin 1 → IVec S16 32) a x).toNat < S15424.size a := fun v107 k0_hw13 => k0_hw13
def k0_off15 (k0_t1 : Fin k0_t1_loop.trips) (k0_t2 : Fin k0_t2_loop.trips) : Fin 3 → Nat :=
  let c12_i32_27 : BitVec 32 := 12#32
  let v109 : Index := Scalar.indexCast c12_i32_27
  let c0_i32_0 : BitVec 32 := 0#32
  let c1_i32 : BitVec 32 := 1#32
  let arg8 : BitVec 32 := Scf.iv c0_i32_0 c1_i32 k0_t1
  let v110 : Index := Scalar.indexCast arg8
  let c0_i32_5 : BitVec 32 := 0#32
  let c1_i32_6 : BitVec 32 := 1#32
  let arg9 : BitVec 32 := Scf.iv c0_i32_5 c1_i32_6 k0_t2
  let c16_i32_9 : BitVec 32 := 16#32
  let v16 : BitVec 32 := Scalar.muli arg9 c16_i32_9
  let v111 : Index := Scalar.indexCast v16
  ![12, v110.toNat, v111.toNat]

def k0_chk14 (v114 : IVec S16 32) : Prop :=
  (∀ a x, ((![v114] : Fin 1 → IVec S16 32) a x).toNat < S15424.size a)
instance k0_chk14.dec : ∀ (v114 : IVec S16 32), Decidable (k0_chk14 v114) := fun v114 => decidable_of_iff' _ (Iff.of_eq (k0_chk14.eq_1 v114))
theorem k0_idx14_inb : ∀ (v114 : IVec S16 32) (k0_hw14 : k0_chk14 v114), ∀ a x, ((![v114] : Fin 1 → IVec S16 32) a x).toNat < S15424.size a := fun v114 k0_hw14 => k0_hw14
def k0_off16 (k0_t1 : Fin k0_t1_loop.trips) (k0_t2 : Fin k0_t2_loop.trips) : Fin 3 → Nat :=
  let c13_i32_28 : BitVec 32 := 13#32
  let v116 : Index := Scalar.indexCast c13_i32_28
  let c0_i32_0 : BitVec 32 := 0#32
  let c1_i32 : BitVec 32 := 1#32
  let arg8 : BitVec 32 := Scf.iv c0_i32_0 c1_i32 k0_t1
  let v117 : Index := Scalar.indexCast arg8
  let c0_i32_5 : BitVec 32 := 0#32
  let c1_i32_6 : BitVec 32 := 1#32
  let arg9 : BitVec 32 := Scf.iv c0_i32_5 c1_i32_6 k0_t2
  let c16_i32_9 : BitVec 32 := 16#32
  let v16 : BitVec 32 := Scalar.muli arg9 c16_i32_9
  let v118 : Index := Scalar.indexCast v16
  ![13, v117.toNat, v118.toNat]

def k0_chk15 (v121 : IVec S16 32) : Prop :=
  (∀ a x, ((![v121] : Fin 1 → IVec S16 32) a x).toNat < S15424.size a)
instance k0_chk15.dec : ∀ (v121 : IVec S16 32), Decidable (k0_chk15 v121) := fun v121 => decidable_of_iff' _ (Iff.of_eq (k0_chk15.eq_1 v121))
theorem k0_idx15_inb : ∀ (v121 : IVec S16 32) (k0_hw15 : k0_chk15 v121), ∀ a x, ((![v121] : Fin 1 → IVec S16 32) a x).toNat < S15424.size a := fun v121 k0_hw15 => k0_hw15
def k0_off17 (k0_t1 : Fin k0_t1_loop.trips) (k0_t2 : Fin k0_t2_loop.trips) : Fin 3 → Nat :=
  let c14_i32_29 : BitVec 32 := 14#32
  let v123 : Index := Scalar.indexCast c14_i32_29
  let c0_i32_0 : BitVec 32 := 0#32
  let c1_i32 : BitVec 32 := 1#32
  let arg8 : BitVec 32 := Scf.iv c0_i32_0 c1_i32 k0_t1
  let v124 : Index := Scalar.indexCast arg8
  let c0_i32_5 : BitVec 32 := 0#32
  let c1_i32_6 : BitVec 32 := 1#32
  let arg9 : BitVec 32 := Scf.iv c0_i32_5 c1_i32_6 k0_t2
  let c16_i32_9 : BitVec 32 := 16#32
  let v16 : BitVec 32 := Scalar.muli arg9 c16_i32_9
  let v125 : Index := Scalar.indexCast v16
  ![14, v124.toNat, v125.toNat]

def k0_chk16 (v128 : IVec S16 32) : Prop :=
  (∀ a x, ((![v128] : Fin 1 → IVec S16 32) a x).toNat < S15424.size a)
instance k0_chk16.dec : ∀ (v128 : IVec S16 32), Decidable (k0_chk16 v128) := fun v128 => decidable_of_iff' _ (Iff.of_eq (k0_chk16.eq_1 v128))
theorem k0_idx16_inb : ∀ (v128 : IVec S16 32) (k0_hw16 : k0_chk16 v128), ∀ a x, ((![v128] : Fin 1 → IVec S16 32) a x).toNat < S15424.size a := fun v128 k0_hw16 => k0_hw16
def k0_off18 (k0_t1 : Fin k0_t1_loop.trips) (k0_t2 : Fin k0_t2_loop.trips) : Fin 3 → Nat :=
  let c15_i32_30 : BitVec 32 := 15#32
  let v130 : Index := Scalar.indexCast c15_i32_30
  let c0_i32_0 : BitVec 32 := 0#32
  let c1_i32 : BitVec 32 := 1#32
  let arg8 : BitVec 32 := Scf.iv c0_i32_0 c1_i32 k0_t1
  let v131 : Index := Scalar.indexCast arg8
  let c0_i32_5 : BitVec 32 := 0#32
  let c1_i32_6 : BitVec 32 := 1#32
  let arg9 : BitVec 32 := Scf.iv c0_i32_5 c1_i32_6 k0_t2
  let c16_i32_9 : BitVec 32 := 16#32
  let v16 : BitVec 32 := Scalar.muli arg9 c16_i32_9
  let v132 : Index := Scalar.indexCast v16
  ![15, v131.toNat, v132.toNat]

def k0_chk18 (v14 : IVec S16 32) : Prop :=
  (∀ a x, ((![v14] : Fin 1 → IVec S16 32) a x).toNat < S15424.size a)
instance k0_chk18.dec : ∀ (v14 : IVec S16 32), Decidable (k0_chk18 v14) := fun v14 => decidable_of_iff' _ (Iff.of_eq (k0_chk18.eq_1 v14))
theorem k0_idx18_inb : ∀ (v14 : IVec S16 32) (k0_hw18 : k0_chk18 v14), ∀ a x, ((![v14] : Fin 1 → IVec S16 32) a x).toNat < S15424.size a := fun v14 k0_hw18 => k0_hw18

def k0_chk17 (v8 : IVec S16 32) (v9 : IVec S16 32) (v10 : IVec S16 32) : Prop :=
  (∀ a x, ((![v9, v10] : Fin 2 → IVec S16 32) a x).toNat < S9x257.size a) ∧
  (∀ a x, ((![v8, v9, v10] : Fin 3 → IVec S16 32) a x).toNat < S16x9x257.size a)
instance k0_chk17.dec : ∀ (v8 : IVec S16 32) (v9 : IVec S16 32) (v10 : IVec S16 32), Decidable (k0_chk17 v8 v9 v10) := fun v8 v9 v10 => decidable_of_iff' _ (Iff.of_eq (k0_chk17.eq_1 v8 v9 v10))
theorem k0_idx17_inb : ∀ (v8 : IVec S16 32) (v9 : IVec S16 32) (v10 : IVec S16 32) (k0_hw17 : k0_chk17 v8 v9 v10), ∀ a x, ((![v9, v10] : Fin 2 → IVec S16 32) a x).toNat < S9x257.size a := fun v8 v9 v10 k0_hw17 => k0_hw17.1
theorem k0_idx19_inb : ∀ (v8 : IVec S16 32) (v9 : IVec S16 32) (v10 : IVec S16 32) (k0_hw17 : k0_chk17 v8 v9 v10), ∀ a x, ((![v8, v9, v10] : Fin 3 → IVec S16 32) a x).toNat < S16x9x257.size a := fun v8 v9 v10 k0_hw17 => k0_hw17.2
def k0_off19 (i : grid0.Coords) : Fin 3 → Nat :=
  let c0_i32_7_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_8_r2 : BitVec 32 := 0#32
  ![0, v2.toNat, 0]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v4 : BitVec 1 := Scalar.cmpi .eq v1 c31_i32
  let v5 : BitVec 32 := Scalar.extui v4
  let c0_i32_3 : BitVec 32 := 0#32
  let v6 : BitVec 1 := Scalar.cmpi .ne v5 c0_i32_3
  v6

@[reducible] def k0_t3_loop : Scf.Loop 32 :=
  let c0_i32_5 : BitVec 32 := 0#32
  let c16_i32 : BitVec 32 := 16#32
  let v7 : BitVec 32 := Scalar.addi c0_i32_5 c16_i32
  let c1_i32_6 : BitVec 32 := 1#32
  ⟨c0_i32_5, v7, c1_i32_6⟩
def k0_off20 (k0_t3 : Fin k0_t3_loop.trips) : Fin 2 → Nat :=
  let c8_i32_11 : BitVec 32 := 8#32
  let v17 : Index := Scalar.indexCast c8_i32_11
  let c0_i32_5 : BitVec 32 := 0#32
  let c1_i32_6 : BitVec 32 := 1#32
  let arg8 : BitVec 32 := Scf.iv c0_i32_5 c1_i32_6 k0_t3
  let c16_i32_10 : BitVec 32 := 16#32
  let v16 : BitVec 32 := Scalar.muli arg8 c16_i32_10
  let v18 : Index := Scalar.indexCast v16
  ![8, v18.toNat]

def k0_chk19 (i : grid0.Coords) (v23 : IVec S16 32) : Prop :=
  (∀ (k0_h1 : k0_cond1 i = 1#1), ∀ a x, ((![v23] : Fin 1 → IVec S16 32) a x).toNat < S15424.size a)
instance k0_chk19.dec : ∀ (i : grid0.Coords) (v23 : IVec S16 32), Decidable (k0_chk19 i v23) := fun i v23 => decidable_of_iff' _ (Iff.of_eq (k0_chk19.eq_1 i v23))
theorem k0_idx20_inb : ∀ (i : grid0.Coords) (v23 : IVec S16 32) (k0_hw19 : k0_chk19 i v23), ∀ (k0_h1 : k0_cond1 i = 1#1), ∀ a x, ((![v23] : Fin 1 → IVec S16 32) a x).toNat < S15424.size a := fun i v23 k0_hw19 k0_h1 => k0_hw19 k0_h1
def k0_off21 (k0_t3 : Fin k0_t3_loop.trips) : Fin 3 → Nat :=
  let c0_i32_14 : BitVec 32 := 0#32
  let v25 : Index := Scalar.indexCast c0_i32_14
  let c8_i32_15 : BitVec 32 := 8#32
  let v26 : Index := Scalar.indexCast c8_i32_15
  let c0_i32_5 : BitVec 32 := 0#32
  let c1_i32_6 : BitVec 32 := 1#32
  let arg8 : BitVec 32 := Scf.iv c0_i32_5 c1_i32_6 k0_t3
  let c16_i32_10 : BitVec 32 := 16#32
  let v16 : BitVec 32 := Scalar.muli arg8 c16_i32_10
  let v27 : Index := Scalar.indexCast v16
  ![0, 8, v27.toNat]

def k0_chk20 (i : grid0.Coords) (v30 : IVec S16 32) : Prop :=
  (∀ (k0_h1 : k0_cond1 i = 1#1), ∀ a x, ((![v30] : Fin 1 → IVec S16 32) a x).toNat < S15424.size a)
instance k0_chk20.dec : ∀ (i : grid0.Coords) (v30 : IVec S16 32), Decidable (k0_chk20 i v30) := fun i v30 => decidable_of_iff' _ (Iff.of_eq (k0_chk20.eq_1 i v30))
theorem k0_idx21_inb : ∀ (i : grid0.Coords) (v30 : IVec S16 32) (k0_hw20 : k0_chk20 i v30), ∀ (k0_h1 : k0_cond1 i = 1#1), ∀ a x, ((![v30] : Fin 1 → IVec S16 32) a x).toNat < S15424.size a := fun i v30 k0_hw20 k0_h1 => k0_hw20 k0_h1
def k0_off22 (k0_t3 : Fin k0_t3_loop.trips) : Fin 3 → Nat :=
  let c1_i32_17 : BitVec 32 := 1#32
  let v32 : Index := Scalar.indexCast c1_i32_17
  let c8_i32_18 : BitVec 32 := 8#32
  let v33 : Index := Scalar.indexCast c8_i32_18
  let c0_i32_5 : BitVec 32 := 0#32
  let c1_i32_6 : BitVec 32 := 1#32
  let arg8 : BitVec 32 := Scf.iv c0_i32_5 c1_i32_6 k0_t3
  let c16_i32_10 : BitVec 32 := 16#32
  let v16 : BitVec 32 := Scalar.muli arg8 c16_i32_10
  let v34 : Index := Scalar.indexCast v16
  ![1, 8, v34.toNat]

def k0_chk21 (i : grid0.Coords) (v37 : IVec S16 32) : Prop :=
  (∀ (k0_h1 : k0_cond1 i = 1#1), ∀ a x, ((![v37] : Fin 1 → IVec S16 32) a x).toNat < S15424.size a)
instance k0_chk21.dec : ∀ (i : grid0.Coords) (v37 : IVec S16 32), Decidable (k0_chk21 i v37) := fun i v37 => decidable_of_iff' _ (Iff.of_eq (k0_chk21.eq_1 i v37))
theorem k0_idx22_inb : ∀ (i : grid0.Coords) (v37 : IVec S16 32) (k0_hw21 : k0_chk21 i v37), ∀ (k0_h1 : k0_cond1 i = 1#1), ∀ a x, ((![v37] : Fin 1 → IVec S16 32) a x).toNat < S15424.size a := fun i v37 k0_hw21 k0_h1 => k0_hw21 k0_h1
def k0_off23 (k0_t3 : Fin k0_t3_loop.trips) : Fin 3 → Nat :=
  let c2_i32_20 : BitVec 32 := 2#32
  let v39 : Index := Scalar.indexCast c2_i32_20
  let c8_i32_21 : BitVec 32 := 8#32
  let v40 : Index := Scalar.indexCast c8_i32_21
  let c0_i32_5 : BitVec 32 := 0#32
  let c1_i32_6 : BitVec 32 := 1#32
  let arg8 : BitVec 32 := Scf.iv c0_i32_5 c1_i32_6 k0_t3
  let c16_i32_10 : BitVec 32 := 16#32
  let v16 : BitVec 32 := Scalar.muli arg8 c16_i32_10
  let v41 : Index := Scalar.indexCast v16
  ![2, 8, v41.toNat]

def k0_chk22 (i : grid0.Coords) (v44 : IVec S16 32) : Prop :=
  (∀ (k0_h1 : k0_cond1 i = 1#1), ∀ a x, ((![v44] : Fin 1 → IVec S16 32) a x).toNat < S15424.size a)
instance k0_chk22.dec : ∀ (i : grid0.Coords) (v44 : IVec S16 32), Decidable (k0_chk22 i v44) := fun i v44 => decidable_of_iff' _ (Iff.of_eq (k0_chk22.eq_1 i v44))
theorem k0_idx23_inb : ∀ (i : grid0.Coords) (v44 : IVec S16 32) (k0_hw22 : k0_chk22 i v44), ∀ (k0_h1 : k0_cond1 i = 1#1), ∀ a x, ((![v44] : Fin 1 → IVec S16 32) a x).toNat < S15424.size a := fun i v44 k0_hw22 k0_h1 => k0_hw22 k0_h1
def k0_off24 (k0_t3 : Fin k0_t3_loop.trips) : Fin 3 → Nat :=
  let c3_i32_22 : BitVec 32 := 3#32
  let v46 : Index := Scalar.indexCast c3_i32_22
  let c8_i32_23 : BitVec 32 := 8#32
  let v47 : Index := Scalar.indexCast c8_i32_23
  let c0_i32_5 : BitVec 32 := 0#32
  let c1_i32_6 : BitVec 32 := 1#32
  let arg8 : BitVec 32 := Scf.iv c0_i32_5 c1_i32_6 k0_t3
  let c16_i32_10 : BitVec 32 := 16#32
  let v16 : BitVec 32 := Scalar.muli arg8 c16_i32_10
  let v48 : Index := Scalar.indexCast v16
  ![3, 8, v48.toNat]

def k0_chk23 (i : grid0.Coords) (v51 : IVec S16 32) : Prop :=
  (∀ (k0_h1 : k0_cond1 i = 1#1), ∀ a x, ((![v51] : Fin 1 → IVec S16 32) a x).toNat < S15424.size a)
instance k0_chk23.dec : ∀ (i : grid0.Coords) (v51 : IVec S16 32), Decidable (k0_chk23 i v51) := fun i v51 => decidable_of_iff' _ (Iff.of_eq (k0_chk23.eq_1 i v51))
theorem k0_idx24_inb : ∀ (i : grid0.Coords) (v51 : IVec S16 32) (k0_hw23 : k0_chk23 i v51), ∀ (k0_h1 : k0_cond1 i = 1#1), ∀ a x, ((![v51] : Fin 1 → IVec S16 32) a x).toNat < S15424.size a := fun i v51 k0_hw23 k0_h1 => k0_hw23 k0_h1
def k0_off25 (k0_t3 : Fin k0_t3_loop.trips) : Fin 3 → Nat :=
  let c4_i32_24 : BitVec 32 := 4#32
  let v53 : Index := Scalar.indexCast c4_i32_24
  let c8_i32_25 : BitVec 32 := 8#32
  let v54 : Index := Scalar.indexCast c8_i32_25
  let c0_i32_5 : BitVec 32 := 0#32
  let c1_i32_6 : BitVec 32 := 1#32
  let arg8 : BitVec 32 := Scf.iv c0_i32_5 c1_i32_6 k0_t3
  let c16_i32_10 : BitVec 32 := 16#32
  let v16 : BitVec 32 := Scalar.muli arg8 c16_i32_10
  let v55 : Index := Scalar.indexCast v16
  ![4, 8, v55.toNat]

def k0_chk24 (i : grid0.Coords) (v58 : IVec S16 32) : Prop :=
  (∀ (k0_h1 : k0_cond1 i = 1#1), ∀ a x, ((![v58] : Fin 1 → IVec S16 32) a x).toNat < S15424.size a)
instance k0_chk24.dec : ∀ (i : grid0.Coords) (v58 : IVec S16 32), Decidable (k0_chk24 i v58) := fun i v58 => decidable_of_iff' _ (Iff.of_eq (k0_chk24.eq_1 i v58))
theorem k0_idx25_inb : ∀ (i : grid0.Coords) (v58 : IVec S16 32) (k0_hw24 : k0_chk24 i v58), ∀ (k0_h1 : k0_cond1 i = 1#1), ∀ a x, ((![v58] : Fin 1 → IVec S16 32) a x).toNat < S15424.size a := fun i v58 k0_hw24 k0_h1 => k0_hw24 k0_h1
def k0_off26 (k0_t3 : Fin k0_t3_loop.trips) : Fin 3 → Nat :=
  let c5_i32_26 : BitVec 32 := 5#32
  let v60 : Index := Scalar.indexCast c5_i32_26
  let c8_i32_27 : BitVec 32 := 8#32
  let v61 : Index := Scalar.indexCast c8_i32_27
  let c0_i32_5 : BitVec 32 := 0#32
  let c1_i32_6 : BitVec 32 := 1#32
  let arg8 : BitVec 32 := Scf.iv c0_i32_5 c1_i32_6 k0_t3
  let c16_i32_10 : BitVec 32 := 16#32
  let v16 : BitVec 32 := Scalar.muli arg8 c16_i32_10
  let v62 : Index := Scalar.indexCast v16
  ![5, 8, v62.toNat]

def k0_chk25 (i : grid0.Coords) (v65 : IVec S16 32) : Prop :=
  (∀ (k0_h1 : k0_cond1 i = 1#1), ∀ a x, ((![v65] : Fin 1 → IVec S16 32) a x).toNat < S15424.size a)
instance k0_chk25.dec : ∀ (i : grid0.Coords) (v65 : IVec S16 32), Decidable (k0_chk25 i v65) := fun i v65 => decidable_of_iff' _ (Iff.of_eq (k0_chk25.eq_1 i v65))
theorem k0_idx26_inb : ∀ (i : grid0.Coords) (v65 : IVec S16 32) (k0_hw25 : k0_chk25 i v65), ∀ (k0_h1 : k0_cond1 i = 1#1), ∀ a x, ((![v65] : Fin 1 → IVec S16 32) a x).toNat < S15424.size a := fun i v65 k0_hw25 k0_h1 => k0_hw25 k0_h1
def k0_off27 (k0_t3 : Fin k0_t3_loop.trips) : Fin 3 → Nat :=
  let c6_i32_28 : BitVec 32 := 6#32
  let v67 : Index := Scalar.indexCast c6_i32_28
  let c8_i32_29 : BitVec 32 := 8#32
  let v68 : Index := Scalar.indexCast c8_i32_29
  let c0_i32_5 : BitVec 32 := 0#32
  let c1_i32_6 : BitVec 32 := 1#32
  let arg8 : BitVec 32 := Scf.iv c0_i32_5 c1_i32_6 k0_t3
  let c16_i32_10 : BitVec 32 := 16#32
  let v16 : BitVec 32 := Scalar.muli arg8 c16_i32_10
  let v69 : Index := Scalar.indexCast v16
  ![6, 8, v69.toNat]

def k0_chk26 (i : grid0.Coords) (v72 : IVec S16 32) : Prop :=
  (∀ (k0_h1 : k0_cond1 i = 1#1), ∀ a x, ((![v72] : Fin 1 → IVec S16 32) a x).toNat < S15424.size a)
instance k0_chk26.dec : ∀ (i : grid0.Coords) (v72 : IVec S16 32), Decidable (k0_chk26 i v72) := fun i v72 => decidable_of_iff' _ (Iff.of_eq (k0_chk26.eq_1 i v72))
theorem k0_idx27_inb : ∀ (i : grid0.Coords) (v72 : IVec S16 32) (k0_hw26 : k0_chk26 i v72), ∀ (k0_h1 : k0_cond1 i = 1#1), ∀ a x, ((![v72] : Fin 1 → IVec S16 32) a x).toNat < S15424.size a := fun i v72 k0_hw26 k0_h1 => k0_hw26 k0_h1
def k0_off28 (k0_t3 : Fin k0_t3_loop.trips) : Fin 3 → Nat :=
  let c7_i32_30 : BitVec 32 := 7#32
  let v74 : Index := Scalar.indexCast c7_i32_30
  let c8_i32_31 : BitVec 32 := 8#32
  let v75 : Index := Scalar.indexCast c8_i32_31
  let c0_i32_5 : BitVec 32 := 0#32
  let c1_i32_6 : BitVec 32 := 1#32
  let arg8 : BitVec 32 := Scf.iv c0_i32_5 c1_i32_6 k0_t3
  let c16_i32_10 : BitVec 32 := 16#32
  let v16 : BitVec 32 := Scalar.muli arg8 c16_i32_10
  let v76 : Index := Scalar.indexCast v16
  ![7, 8, v76.toNat]

def k0_chk27 (i : grid0.Coords) (v79 : IVec S16 32) : Prop :=
  (∀ (k0_h1 : k0_cond1 i = 1#1), ∀ a x, ((![v79] : Fin 1 → IVec S16 32) a x).toNat < S15424.size a)
instance k0_chk27.dec : ∀ (i : grid0.Coords) (v79 : IVec S16 32), Decidable (k0_chk27 i v79) := fun i v79 => decidable_of_iff' _ (Iff.of_eq (k0_chk27.eq_1 i v79))
theorem k0_idx28_inb : ∀ (i : grid0.Coords) (v79 : IVec S16 32) (k0_hw27 : k0_chk27 i v79), ∀ (k0_h1 : k0_cond1 i = 1#1), ∀ a x, ((![v79] : Fin 1 → IVec S16 32) a x).toNat < S15424.size a := fun i v79 k0_hw27 k0_h1 => k0_hw27 k0_h1
def k0_off29 (k0_t3 : Fin k0_t3_loop.trips) : Fin 3 → Nat :=
  let c8_i32_33 : BitVec 32 := 8#32
  let v81 : Index := Scalar.indexCast c8_i32_33
  let c8_i32_34 : BitVec 32 := 8#32
  let v82 : Index := Scalar.indexCast c8_i32_34
  let c0_i32_5 : BitVec 32 := 0#32
  let c1_i32_6 : BitVec 32 := 1#32
  let arg8 : BitVec 32 := Scf.iv c0_i32_5 c1_i32_6 k0_t3
  let c16_i32_10 : BitVec 32 := 16#32
  let v16 : BitVec 32 := Scalar.muli arg8 c16_i32_10
  let v83 : Index := Scalar.indexCast v16
  ![8, 8, v83.toNat]

def k0_chk28 (i : grid0.Coords) (v86 : IVec S16 32) : Prop :=
  (∀ (k0_h1 : k0_cond1 i = 1#1), ∀ a x, ((![v86] : Fin 1 → IVec S16 32) a x).toNat < S15424.size a)
instance k0_chk28.dec : ∀ (i : grid0.Coords) (v86 : IVec S16 32), Decidable (k0_chk28 i v86) := fun i v86 => decidable_of_iff' _ (Iff.of_eq (k0_chk28.eq_1 i v86))
theorem k0_idx29_inb : ∀ (i : grid0.Coords) (v86 : IVec S16 32) (k0_hw28 : k0_chk28 i v86), ∀ (k0_h1 : k0_cond1 i = 1#1), ∀ a x, ((![v86] : Fin 1 → IVec S16 32) a x).toNat < S15424.size a := fun i v86 k0_hw28 k0_h1 => k0_hw28 k0_h1
def k0_off30 (k0_t3 : Fin k0_t3_loop.trips) : Fin 3 → Nat :=
  let c9_i32_35 : BitVec 32 := 9#32
  let v88 : Index := Scalar.indexCast c9_i32_35
  let c8_i32_36 : BitVec 32 := 8#32
  let v89 : Index := Scalar.indexCast c8_i32_36
  let c0_i32_5 : BitVec 32 := 0#32
  let c1_i32_6 : BitVec 32 := 1#32
  let arg8 : BitVec 32 := Scf.iv c0_i32_5 c1_i32_6 k0_t3
  let c16_i32_10 : BitVec 32 := 16#32
  let v16 : BitVec 32 := Scalar.muli arg8 c16_i32_10
  let v90 : Index := Scalar.indexCast v16
  ![9, 8, v90.toNat]

def k0_chk29 (i : grid0.Coords) (v93 : IVec S16 32) : Prop :=
  (∀ (k0_h1 : k0_cond1 i = 1#1), ∀ a x, ((![v93] : Fin 1 → IVec S16 32) a x).toNat < S15424.size a)
instance k0_chk29.dec : ∀ (i : grid0.Coords) (v93 : IVec S16 32), Decidable (k0_chk29 i v93) := fun i v93 => decidable_of_iff' _ (Iff.of_eq (k0_chk29.eq_1 i v93))
theorem k0_idx30_inb : ∀ (i : grid0.Coords) (v93 : IVec S16 32) (k0_hw29 : k0_chk29 i v93), ∀ (k0_h1 : k0_cond1 i = 1#1), ∀ a x, ((![v93] : Fin 1 → IVec S16 32) a x).toNat < S15424.size a := fun i v93 k0_hw29 k0_h1 => k0_hw29 k0_h1
def k0_off31 (k0_t3 : Fin k0_t3_loop.trips) : Fin 3 → Nat :=
  let c10_i32_37 : BitVec 32 := 10#32
  let v95 : Index := Scalar.indexCast c10_i32_37
  let c8_i32_38 : BitVec 32 := 8#32
  let v96 : Index := Scalar.indexCast c8_i32_38
  let c0_i32_5 : BitVec 32 := 0#32
  let c1_i32_6 : BitVec 32 := 1#32
  let arg8 : BitVec 32 := Scf.iv c0_i32_5 c1_i32_6 k0_t3
  let c16_i32_10 : BitVec 32 := 16#32
  let v16 : BitVec 32 := Scalar.muli arg8 c16_i32_10
  let v97 : Index := Scalar.indexCast v16
  ![10, 8, v97.toNat]

def k0_chk30 (i : grid0.Coords) (v100 : IVec S16 32) : Prop :=
  (∀ (k0_h1 : k0_cond1 i = 1#1), ∀ a x, ((![v100] : Fin 1 → IVec S16 32) a x).toNat < S15424.size a)
instance k0_chk30.dec : ∀ (i : grid0.Coords) (v100 : IVec S16 32), Decidable (k0_chk30 i v100) := fun i v100 => decidable_of_iff' _ (Iff.of_eq (k0_chk30.eq_1 i v100))
theorem k0_idx31_inb : ∀ (i : grid0.Coords) (v100 : IVec S16 32) (k0_hw30 : k0_chk30 i v100), ∀ (k0_h1 : k0_cond1 i = 1#1), ∀ a x, ((![v100] : Fin 1 → IVec S16 32) a x).toNat < S15424.size a := fun i v100 k0_hw30 k0_h1 => k0_hw30 k0_h1
def k0_off32 (k0_t3 : Fin k0_t3_loop.trips) : Fin 3 → Nat :=
  let c11_i32_39 : BitVec 32 := 11#32
  let v102 : Index := Scalar.indexCast c11_i32_39
  let c8_i32_40 : BitVec 32 := 8#32
  let v103 : Index := Scalar.indexCast c8_i32_40
  let c0_i32_5 : BitVec 32 := 0#32
  let c1_i32_6 : BitVec 32 := 1#32
  let arg8 : BitVec 32 := Scf.iv c0_i32_5 c1_i32_6 k0_t3
  let c16_i32_10 : BitVec 32 := 16#32
  let v16 : BitVec 32 := Scalar.muli arg8 c16_i32_10
  let v104 : Index := Scalar.indexCast v16
  ![11, 8, v104.toNat]

def k0_chk31 (i : grid0.Coords) (v107 : IVec S16 32) : Prop :=
  (∀ (k0_h1 : k0_cond1 i = 1#1), ∀ a x, ((![v107] : Fin 1 → IVec S16 32) a x).toNat < S15424.size a)
instance k0_chk31.dec : ∀ (i : grid0.Coords) (v107 : IVec S16 32), Decidable (k0_chk31 i v107) := fun i v107 => decidable_of_iff' _ (Iff.of_eq (k0_chk31.eq_1 i v107))
theorem k0_idx32_inb : ∀ (i : grid0.Coords) (v107 : IVec S16 32) (k0_hw31 : k0_chk31 i v107), ∀ (k0_h1 : k0_cond1 i = 1#1), ∀ a x, ((![v107] : Fin 1 → IVec S16 32) a x).toNat < S15424.size a := fun i v107 k0_hw31 k0_h1 => k0_hw31 k0_h1
def k0_off33 (k0_t3 : Fin k0_t3_loop.trips) : Fin 3 → Nat :=
  let c12_i32_41 : BitVec 32 := 12#32
  let v109 : Index := Scalar.indexCast c12_i32_41
  let c8_i32_42 : BitVec 32 := 8#32
  let v110 : Index := Scalar.indexCast c8_i32_42
  let c0_i32_5 : BitVec 32 := 0#32
  let c1_i32_6 : BitVec 32 := 1#32
  let arg8 : BitVec 32 := Scf.iv c0_i32_5 c1_i32_6 k0_t3
  let c16_i32_10 : BitVec 32 := 16#32
  let v16 : BitVec 32 := Scalar.muli arg8 c16_i32_10
  let v111 : Index := Scalar.indexCast v16
  ![12, 8, v111.toNat]

def k0_chk32 (i : grid0.Coords) (v114 : IVec S16 32) : Prop :=
  (∀ (k0_h1 : k0_cond1 i = 1#1), ∀ a x, ((![v114] : Fin 1 → IVec S16 32) a x).toNat < S15424.size a)
instance k0_chk32.dec : ∀ (i : grid0.Coords) (v114 : IVec S16 32), Decidable (k0_chk32 i v114) := fun i v114 => decidable_of_iff' _ (Iff.of_eq (k0_chk32.eq_1 i v114))
theorem k0_idx33_inb : ∀ (i : grid0.Coords) (v114 : IVec S16 32) (k0_hw32 : k0_chk32 i v114), ∀ (k0_h1 : k0_cond1 i = 1#1), ∀ a x, ((![v114] : Fin 1 → IVec S16 32) a x).toNat < S15424.size a := fun i v114 k0_hw32 k0_h1 => k0_hw32 k0_h1
def k0_off34 (k0_t3 : Fin k0_t3_loop.trips) : Fin 3 → Nat :=
  let c13_i32_43 : BitVec 32 := 13#32
  let v116 : Index := Scalar.indexCast c13_i32_43
  let c8_i32_44 : BitVec 32 := 8#32
  let v117 : Index := Scalar.indexCast c8_i32_44
  let c0_i32_5 : BitVec 32 := 0#32
  let c1_i32_6 : BitVec 32 := 1#32
  let arg8 : BitVec 32 := Scf.iv c0_i32_5 c1_i32_6 k0_t3
  let c16_i32_10 : BitVec 32 := 16#32
  let v16 : BitVec 32 := Scalar.muli arg8 c16_i32_10
  let v118 : Index := Scalar.indexCast v16
  ![13, 8, v118.toNat]

def k0_chk33 (i : grid0.Coords) (v121 : IVec S16 32) : Prop :=
  (∀ (k0_h1 : k0_cond1 i = 1#1), ∀ a x, ((![v121] : Fin 1 → IVec S16 32) a x).toNat < S15424.size a)
instance k0_chk33.dec : ∀ (i : grid0.Coords) (v121 : IVec S16 32), Decidable (k0_chk33 i v121) := fun i v121 => decidable_of_iff' _ (Iff.of_eq (k0_chk33.eq_1 i v121))
theorem k0_idx34_inb : ∀ (i : grid0.Coords) (v121 : IVec S16 32) (k0_hw33 : k0_chk33 i v121), ∀ (k0_h1 : k0_cond1 i = 1#1), ∀ a x, ((![v121] : Fin 1 → IVec S16 32) a x).toNat < S15424.size a := fun i v121 k0_hw33 k0_h1 => k0_hw33 k0_h1
def k0_off35 (k0_t3 : Fin k0_t3_loop.trips) : Fin 3 → Nat :=
  let c14_i32_45 : BitVec 32 := 14#32
  let v123 : Index := Scalar.indexCast c14_i32_45
  let c8_i32_46 : BitVec 32 := 8#32
  let v124 : Index := Scalar.indexCast c8_i32_46
  let c0_i32_5 : BitVec 32 := 0#32
  let c1_i32_6 : BitVec 32 := 1#32
  let arg8 : BitVec 32 := Scf.iv c0_i32_5 c1_i32_6 k0_t3
  let c16_i32_10 : BitVec 32 := 16#32
  let v16 : BitVec 32 := Scalar.muli arg8 c16_i32_10
  let v125 : Index := Scalar.indexCast v16
  ![14, 8, v125.toNat]

def k0_chk34 (i : grid0.Coords) (v128 : IVec S16 32) : Prop :=
  (∀ (k0_h1 : k0_cond1 i = 1#1), ∀ a x, ((![v128] : Fin 1 → IVec S16 32) a x).toNat < S15424.size a)
instance k0_chk34.dec : ∀ (i : grid0.Coords) (v128 : IVec S16 32), Decidable (k0_chk34 i v128) := fun i v128 => decidable_of_iff' _ (Iff.of_eq (k0_chk34.eq_1 i v128))
theorem k0_idx35_inb : ∀ (i : grid0.Coords) (v128 : IVec S16 32) (k0_hw34 : k0_chk34 i v128), ∀ (k0_h1 : k0_cond1 i = 1#1), ∀ a x, ((![v128] : Fin 1 → IVec S16 32) a x).toNat < S15424.size a := fun i v128 k0_hw34 k0_h1 => k0_hw34 k0_h1
def k0_off36 (k0_t3 : Fin k0_t3_loop.trips) : Fin 3 → Nat :=
  let c15_i32_47 : BitVec 32 := 15#32
  let v130 : Index := Scalar.indexCast c15_i32_47
  let c8_i32_48 : BitVec 32 := 8#32
  let v131 : Index := Scalar.indexCast c8_i32_48
  let c0_i32_5 : BitVec 32 := 0#32
  let c1_i32_6 : BitVec 32 := 1#32
  let arg8 : BitVec 32 := Scf.iv c0_i32_5 c1_i32_6 k0_t3
  let c16_i32_10 : BitVec 32 := 16#32
  let v16 : BitVec 32 := Scalar.muli arg8 c16_i32_10
  let v132 : Index := Scalar.indexCast v16
  ![15, 8, v132.toNat]

def k0_chk36 (i : grid0.Coords) (v14 : IVec S16 32) : Prop :=
  (∀ (k0_h1 : k0_cond1 i = 1#1), ∀ a x, ((![v14] : Fin 1 → IVec S16 32) a x).toNat < S15424.size a)
instance k0_chk36.dec : ∀ (i : grid0.Coords) (v14 : IVec S16 32), Decidable (k0_chk36 i v14) := fun i v14 => decidable_of_iff' _ (Iff.of_eq (k0_chk36.eq_1 i v14))
theorem k0_idx37_inb : ∀ (i : grid0.Coords) (v14 : IVec S16 32) (k0_hw36 : k0_chk36 i v14), ∀ (k0_h1 : k0_cond1 i = 1#1), ∀ a x, ((![v14] : Fin 1 → IVec S16 32) a x).toNat < S15424.size a := fun i v14 k0_hw36 k0_h1 => k0_hw36 k0_h1

def k0_chk35 (i : grid0.Coords) (v8 : IVec S16 32) (v9 : IVec S16 32) (v10 : IVec S16 32) : Prop :=
  (∀ (k0_h1 : k0_cond1 i = 1#1), ∀ a x, ((![v9, v10] : Fin 2 → IVec S16 32) a x).toNat < S9x257.size a) ∧
  (∀ (k0_h1 : k0_cond1 i = 1#1), ∀ a x, ((![v8, v9, v10] : Fin 3 → IVec S16 32) a x).toNat < S16x9x257.size a)
instance k0_chk35.dec : ∀ (i : grid0.Coords) (v8 : IVec S16 32) (v9 : IVec S16 32) (v10 : IVec S16 32), Decidable (k0_chk35 i v8 v9 v10) := fun i v8 v9 v10 => decidable_of_iff' _ (Iff.of_eq (k0_chk35.eq_1 i v8 v9 v10))
theorem k0_idx36_inb : ∀ (i : grid0.Coords) (v8 : IVec S16 32) (v9 : IVec S16 32) (v10 : IVec S16 32) (k0_hw35 : k0_chk35 i v8 v9 v10), ∀ (k0_h1 : k0_cond1 i = 1#1), ∀ a x, ((![v9, v10] : Fin 2 → IVec S16 32) a x).toNat < S9x257.size a := fun i v8 v9 v10 k0_hw35 k0_h1 => k0_hw35.1 k0_h1
theorem k0_idx38_inb : ∀ (i : grid0.Coords) (v8 : IVec S16 32) (v9 : IVec S16 32) (v10 : IVec S16 32) (k0_hw35 : k0_chk35 i v8 v9 v10), ∀ (k0_h1 : k0_cond1 i = 1#1), ∀ a x, ((![v8, v9, v10] : Fin 3 → IVec S16 32) a x).toNat < S16x9x257.size a := fun i v8 v9 v10 k0_hw35 k0_h1 => k0_hw35.2 k0_h1
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S964x16_S15424 : S964x16.ShapeCasts S15424
  inb_S9x257_S8x257_0_0 : ∀ a, (![0, 0] : Fin 2 → Nat) a + S8x257.size a ≤ S9x257.size a
  h_S1x16 : 0 < S1x16.numel
  shapeCasts_S1x16_S16 : S1x16.ShapeCasts S16
  h_S15424 : 0 < S15424.numel
  h_S1x1x16 : 0 < S1x1x16.numel
  shapeCasts_S1x1x16_S16 : S1x1x16.ShapeCasts S16
  shapeCasts_S16_S1x1x16 : S16.ShapeCasts S1x1x16
  iota_S16_d0_w32_scVector : S16.Iotas .scVector 32 [0]
  h_S9x257 : 0 < S9x257.numel
  h_S16x9x257 : 0 < S16x9x257.numel
  inb_S16x9x257_S16x8x257_0_0_0 : ∀ a, (![0, 0, 0] : Fin 3 → Nat) a + S16x8x257.size a ≤ S16x9x257.size a
  inb_S9x257_S1x257_8_0 : ∀ a, (![8, 0] : Fin 2 → Nat) a + S1x257.size a ≤ S9x257.size a
  inb_S257x257_S1x257_256_0 : ∀ a, (![256, 0] : Fin 2 → Nat) a + S1x257.size a ≤ S257x257.size a
  inb_S16x9x257_S16x1x257_0_8_0 : ∀ a, (![0, 8, 0] : Fin 3 → Nat) a + S16x1x257.size a ≤ S16x9x257.size a
  inb_S16x257x257_S16x1x257_0_256_0 : ∀ a, (![0, 256, 0] : Fin 3 → Nat) a + S16x1x257.size a ≤ S16x257x257.size a
  bcast_S16x257x257_S1x16x257x257_1_2_3 : S16x257x257.BroadcastsInDim S1x16x257x257 (![1, 2, 3] : Fin 3 → Fin S1x16x257x257.rank)
  bcast_S1x16x257x257_S32x16x257x257_0_1_2_3 : S1x16x257x257.BroadcastsInDim S32x16x257x257 (![0, 1, 2, 3] : Fin 4 → Fin S32x16x257x257.rank)
  hcc0_scoped0 : 0 + S_.numel ≤ 5
  hcc0_scoped1 : 1 + S_.numel ≤ 5
  hcc0_scoped2 : 2 + S_.numel ≤ 5
  hcc0_scoped3 : 3 + S_.numel ≤ 5
  hcc0_scoped4 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S8x257.size a ≤ S257x257.size a
  k0_t1_ok : k0_t1_loop.OK
  k0_t2_ok : k0_t2_loop.OK
  k0_off2_inb : ∀ (k0_t1 : Fin k0_t1_loop.trips) (k0_t2 : Fin k0_t2_loop.trips), ∀ a, (k0_off2 k0_t1 k0_t2) a + S1x16.size a ≤ S9x257.size a
  k0_off3_inb : ∀ (k0_t1 : Fin k0_t1_loop.trips) (k0_t2 : Fin k0_t2_loop.trips), ∀ a, (k0_off3 k0_t1 k0_t2) a + S1x1x16.size a ≤ S16x9x257.size a
  k0_off4_inb : ∀ (k0_t1 : Fin k0_t1_loop.trips) (k0_t2 : Fin k0_t2_loop.trips), ∀ a, (k0_off4 k0_t1 k0_t2) a + S1x1x16.size a ≤ S16x9x257.size a
  k0_off5_inb : ∀ (k0_t1 : Fin k0_t1_loop.trips) (k0_t2 : Fin k0_t2_loop.trips), ∀ a, (k0_off5 k0_t1 k0_t2) a + S1x1x16.size a ≤ S16x9x257.size a
  k0_off6_inb : ∀ (k0_t1 : Fin k0_t1_loop.trips) (k0_t2 : Fin k0_t2_loop.trips), ∀ a, (k0_off6 k0_t1 k0_t2) a + S1x1x16.size a ≤ S16x9x257.size a
  k0_off7_inb : ∀ (k0_t1 : Fin k0_t1_loop.trips) (k0_t2 : Fin k0_t2_loop.trips), ∀ a, (k0_off7 k0_t1 k0_t2) a + S1x1x16.size a ≤ S16x9x257.size a
  k0_off8_inb : ∀ (k0_t1 : Fin k0_t1_loop.trips) (k0_t2 : Fin k0_t2_loop.trips), ∀ a, (k0_off8 k0_t1 k0_t2) a + S1x1x16.size a ≤ S16x9x257.size a
  k0_off9_inb : ∀ (k0_t1 : Fin k0_t1_loop.trips) (k0_t2 : Fin k0_t2_loop.trips), ∀ a, (k0_off9 k0_t1 k0_t2) a + S1x1x16.size a ≤ S16x9x257.size a
  k0_off10_inb : ∀ (k0_t1 : Fin k0_t1_loop.trips) (k0_t2 : Fin k0_t2_loop.trips), ∀ a, (k0_off10 k0_t1 k0_t2) a + S1x1x16.size a ≤ S16x9x257.size a
  k0_off11_inb : ∀ (k0_t1 : Fin k0_t1_loop.trips) (k0_t2 : Fin k0_t2_loop.trips), ∀ a, (k0_off11 k0_t1 k0_t2) a + S1x1x16.size a ≤ S16x9x257.size a
  k0_off12_inb : ∀ (k0_t1 : Fin k0_t1_loop.trips) (k0_t2 : Fin k0_t2_loop.trips), ∀ a, (k0_off12 k0_t1 k0_t2) a + S1x1x16.size a ≤ S16x9x257.size a
  k0_off13_inb : ∀ (k0_t1 : Fin k0_t1_loop.trips) (k0_t2 : Fin k0_t2_loop.trips), ∀ a, (k0_off13 k0_t1 k0_t2) a + S1x1x16.size a ≤ S16x9x257.size a
  k0_off14_inb : ∀ (k0_t1 : Fin k0_t1_loop.trips) (k0_t2 : Fin k0_t2_loop.trips), ∀ a, (k0_off14 k0_t1 k0_t2) a + S1x1x16.size a ≤ S16x9x257.size a
  k0_off15_inb : ∀ (k0_t1 : Fin k0_t1_loop.trips) (k0_t2 : Fin k0_t2_loop.trips), ∀ a, (k0_off15 k0_t1 k0_t2) a + S1x1x16.size a ≤ S16x9x257.size a
  k0_off16_inb : ∀ (k0_t1 : Fin k0_t1_loop.trips) (k0_t2 : Fin k0_t2_loop.trips), ∀ a, (k0_off16 k0_t1 k0_t2) a + S1x1x16.size a ≤ S16x9x257.size a
  k0_off17_inb : ∀ (k0_t1 : Fin k0_t1_loop.trips) (k0_t2 : Fin k0_t2_loop.trips), ∀ a, (k0_off17 k0_t1 k0_t2) a + S1x1x16.size a ≤ S16x9x257.size a
  k0_off18_inb : ∀ (k0_t1 : Fin k0_t1_loop.trips) (k0_t2 : Fin k0_t2_loop.trips), ∀ a, (k0_off18 k0_t1 k0_t2) a + S1x1x16.size a ≤ S16x9x257.size a
  k0_off19_inb : ∀ i : grid0.Coords, ∀ a, (k0_off19 i) a + S16x8x257.size a ≤ S16x257x257.size a
  k0_t3_ok : ∀ i : grid0.Coords, ∀ (k0_h1 : k0_cond1 i = 1#1), k0_t3_loop.OK
  k0_off20_inb : ∀ (i : grid0.Coords) (k0_t3 : Fin k0_t3_loop.trips), ∀ (k0_h1 : k0_cond1 i = 1#1), ∀ a, (k0_off20 k0_t3) a + S1x16.size a ≤ S9x257.size a
  k0_off21_inb : ∀ (i : grid0.Coords) (k0_t3 : Fin k0_t3_loop.trips), ∀ (k0_h1 : k0_cond1 i = 1#1), ∀ a, (k0_off21 k0_t3) a + S1x1x16.size a ≤ S16x9x257.size a
  k0_off22_inb : ∀ (i : grid0.Coords) (k0_t3 : Fin k0_t3_loop.trips), ∀ (k0_h1 : k0_cond1 i = 1#1), ∀ a, (k0_off22 k0_t3) a + S1x1x16.size a ≤ S16x9x257.size a
  k0_off23_inb : ∀ (i : grid0.Coords) (k0_t3 : Fin k0_t3_loop.trips), ∀ (k0_h1 : k0_cond1 i = 1#1), ∀ a, (k0_off23 k0_t3) a + S1x1x16.size a ≤ S16x9x257.size a
  k0_off24_inb : ∀ (i : grid0.Coords) (k0_t3 : Fin k0_t3_loop.trips), ∀ (k0_h1 : k0_cond1 i = 1#1), ∀ a, (k0_off24 k0_t3) a + S1x1x16.size a ≤ S16x9x257.size a
  k0_off25_inb : ∀ (i : grid0.Coords) (k0_t3 : Fin k0_t3_loop.trips), ∀ (k0_h1 : k0_cond1 i = 1#1), ∀ a, (k0_off25 k0_t3) a + S1x1x16.size a ≤ S16x9x257.size a
  k0_off26_inb : ∀ (i : grid0.Coords) (k0_t3 : Fin k0_t3_loop.trips), ∀ (k0_h1 : k0_cond1 i = 1#1), ∀ a, (k0_off26 k0_t3) a + S1x1x16.size a ≤ S16x9x257.size a
  k0_off27_inb : ∀ (i : grid0.Coords) (k0_t3 : Fin k0_t3_loop.trips), ∀ (k0_h1 : k0_cond1 i = 1#1), ∀ a, (k0_off27 k0_t3) a + S1x1x16.size a ≤ S16x9x257.size a
  k0_off28_inb : ∀ (i : grid0.Coords) (k0_t3 : Fin k0_t3_loop.trips), ∀ (k0_h1 : k0_cond1 i = 1#1), ∀ a, (k0_off28 k0_t3) a + S1x1x16.size a ≤ S16x9x257.size a
  k0_off29_inb : ∀ (i : grid0.Coords) (k0_t3 : Fin k0_t3_loop.trips), ∀ (k0_h1 : k0_cond1 i = 1#1), ∀ a, (k0_off29 k0_t3) a + S1x1x16.size a ≤ S16x9x257.size a
  k0_off30_inb : ∀ (i : grid0.Coords) (k0_t3 : Fin k0_t3_loop.trips), ∀ (k0_h1 : k0_cond1 i = 1#1), ∀ a, (k0_off30 k0_t3) a + S1x1x16.size a ≤ S16x9x257.size a
  k0_off31_inb : ∀ (i : grid0.Coords) (k0_t3 : Fin k0_t3_loop.trips), ∀ (k0_h1 : k0_cond1 i = 1#1), ∀ a, (k0_off31 k0_t3) a + S1x1x16.size a ≤ S16x9x257.size a
  k0_off32_inb : ∀ (i : grid0.Coords) (k0_t3 : Fin k0_t3_loop.trips), ∀ (k0_h1 : k0_cond1 i = 1#1), ∀ a, (k0_off32 k0_t3) a + S1x1x16.size a ≤ S16x9x257.size a
  k0_off33_inb : ∀ (i : grid0.Coords) (k0_t3 : Fin k0_t3_loop.trips), ∀ (k0_h1 : k0_cond1 i = 1#1), ∀ a, (k0_off33 k0_t3) a + S1x1x16.size a ≤ S16x9x257.size a
  k0_off34_inb : ∀ (i : grid0.Coords) (k0_t3 : Fin k0_t3_loop.trips), ∀ (k0_h1 : k0_cond1 i = 1#1), ∀ a, (k0_off34 k0_t3) a + S1x1x16.size a ≤ S16x9x257.size a
  k0_off35_inb : ∀ (i : grid0.Coords) (k0_t3 : Fin k0_t3_loop.trips), ∀ (k0_h1 : k0_cond1 i = 1#1), ∀ a, (k0_off35 k0_t3) a + S1x1x16.size a ≤ S16x9x257.size a
  k0_off36_inb : ∀ (i : grid0.Coords) (k0_t3 : Fin k0_t3_loop.trips), ∀ (k0_h1 : k0_cond1 i = 1#1), ∀ a, (k0_off36 k0_t3) a + S1x1x16.size a ≤ S16x9x257.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4

class Facts : Prop extends Facts₀ where

variable [Facts]
-- ==== ReferenceIdeal.lean ====
abbrev S32x16x257x257 : Shape := ⟨4, ![32, 16, 257, 257]⟩
abbrev S964x16 : Shape := ⟨2, ![964, 16]⟩
abbrev S257x257 : Shape := ⟨2, ![257, 257]⟩
abbrev S66049 : Shape := ⟨1, ![66049]⟩
abbrev S_ : Shape := ⟨0, ![]⟩
abbrev S66049x1 : Shape := ⟨2, ![66049, 1]⟩
abbrev S1 : Shape := ⟨1, ![1]⟩
abbrev S1x1 : Shape := ⟨2, ![1, 1]⟩
abbrev S66049x16 : Shape := ⟨2, ![66049, 16]⟩
abbrev S257x257x16 : Shape := ⟨3, ![257, 257, 16]⟩
abbrev S16x257x257 : Shape := ⟨3, ![16, 257, 257]⟩
abbrev S1x16x257x257 : Shape := ⟨4, ![1, 16, 257, 257]⟩

abbrev nBuf : Space → Nat
  | .hbm => 32
  | .vmem => 0
  | .smem => 0
  | _ => 0

abbrev bufTy : (tb : Table) → Fin (tcTables nBuf tb) → BufTy
  | .hbm, ⟨0, _⟩ => ⟨S32x16x257x257, .f32⟩
  | .hbm, ⟨1, _⟩ => ⟨S964x16, .f32⟩
  | .hbm, ⟨2, _⟩ => ⟨S257x257, .i32⟩
  | .hbm, ⟨3, _⟩ => ⟨S66049, .i32⟩
  | .hbm, ⟨4, _⟩ => ⟨S_, .i32⟩
  | .hbm, ⟨5, _⟩ => ⟨S66049, .i32⟩
  | .hbm, ⟨6, _⟩ => ⟨S66049, .i1⟩
  | .hbm, ⟨7, _⟩ => ⟨S_, .i32⟩
  | .hbm, ⟨8, _⟩ => ⟨S66049, .i32⟩
  | .hbm, ⟨9, _⟩ => ⟨S66049, .i32⟩
  | .hbm, ⟨10, _⟩ => ⟨S66049, .i32⟩
  | .hbm, ⟨11, _⟩ => ⟨S66049x1, .i32⟩
  | .hbm, ⟨12, _⟩ => ⟨S1, .i32⟩
  | .hbm, ⟨13, _⟩ => ⟨S_, .i32⟩
  | .hbm, ⟨14, _⟩ => ⟨S66049x1, .i32⟩
  | .hbm, ⟨15, _⟩ => ⟨S66049x1, .i1⟩
  | .hbm, ⟨16, _⟩ => ⟨S1x1, .i32⟩
  | .hbm, ⟨17, _⟩ => ⟨S66049x1, .i32⟩
  | .hbm, ⟨18, _⟩ => ⟨S66049x1, .i1⟩
  | .hbm, ⟨19, _⟩ => ⟨S66049x1, .i1⟩
  | .hbm, ⟨20, _⟩ => ⟨S_, .i1⟩
  | .hbm, ⟨21, _⟩ => ⟨S66049, .i1⟩
  | .hbm, ⟨22, _⟩ => ⟨S66049x16, .f32⟩
  | .hbm, ⟨23, _⟩ => ⟨S66049x16, .i1⟩
  | .hbm, ⟨24, _⟩ => ⟨S_, .f32⟩
  | .hbm, ⟨25, _⟩ => ⟨S66049x16, .f32⟩
  | .hbm, ⟨26, _⟩ => ⟨S66049x16, .f32⟩
  | .hbm, ⟨27, _⟩ => ⟨S257x257x16, .f32⟩
  | .hbm, ⟨28, _⟩ => ⟨S16x257x257, .f32⟩
  | .hbm, ⟨29, _⟩ => ⟨S1x16x257x257, .f32⟩
  | .hbm, ⟨30, _⟩ => ⟨S32x16x257x257, .f32⟩
  | .hbm, ⟨31, _⟩ => ⟨S32x16x257x257, .f32⟩
  | _, _ => ⟨S32x16x257x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩

abbrev nD : Nat := 1
abbrev τ : Topo := Topo.v7x

variable {F : FTy → Type} [FloatOps F]

class Facts₀ : Prop where
  shapeCasts_S257x257_S66049 : S257x257.ShapeCasts S66049
  bcast_S_S66049 : S_.BroadcastsInDim S66049 (![] : Fin 0 → Fin S66049.rank)
  bcast_S66049_S66049x1_0 : S66049.BroadcastsInDim S66049x1 (![0] : Fin 1 → Fin S66049x1.rank)
  bcast_S_S66049x1 : S_.BroadcastsInDim S66049x1 (![] : Fin 0 → Fin S66049x1.rank)
  bcast_S1_S1x1_1 : S1.BroadcastsInDim S1x1 (![1] : Fin 1 → Fin S1x1.rank)
  bcast_S1x1_S66049x1_0_1 : S1x1.BroadcastsInDim S66049x1 (![0, 1] : Fin 2 → Fin S66049x1.rank)
  reducesTo_S66049x1_S66049_d1 : S66049x1.ReducesTo [1] S66049
  h_S_ : 0 < S_.numel
  bcast_S66049_S66049x16_0 : S66049.BroadcastsInDim S66049x16 (![0] : Fin 1 → Fin S66049x16.rank)
  bcast_S_S66049x16 : S_.BroadcastsInDim S66049x16 (![] : Fin 0 → Fin S66049x16.rank)
  shapeCasts_S66049x16_S257x257x16 : S66049x16.ShapeCasts S257x257x16
  transposes_S257x257x16_S16x257x257_2_0_1 : S257x257x16.Transposes [2, 0, 1] S16x257x257
  bcast_S16x257x257_S1x16x257x257_1_2_3 : S16x257x257.BroadcastsInDim S1x16x257x257 (![1, 2, 3] : Fin 3 → Fin S1x16x257x257.rank)
  bcast_S1x16x257x257_S32x16x257x257_0_1_2_3 : S1x16x257x257.BroadcastsInDim S32x16x257x257 (![0, 1, 2, 3] : Fin 4 → Fin S32x16x257x257.rank)
  gather_S964x16_S66049x1_S66049x16_1_0_n_n_0_1_116_wf : GatherDims.WF S964x16 S66049x1 S66049x16 [1] [0] [] [0] [] 1 ![1, 16]

variable [Facts₀]

def gather_S964x16_S66049x1_S66049x16_1_0_n_n_0_1_116 : GatherDims S964x16 S66049x1 S66049x16 where
  offsetDims := [1]
  collapsedSliceDims := [0]
  operandBatchingDims := []
  startIndicesBatchingDims := []
  startIndexMap := [0]
  indexVectorDim := 1
  sliceSizes := ![1, 16]
  wf := gather_S964x16_S66049x1_S66049x16_1_0_n_n_0_1_116_wf

class Facts : Prop extends Facts₀ where

variable [Facts]
-- ==== Proof.PreRange.lean ====
/-
  The precondition decoded into index facts. The precondition is the conjunction (by `and` over one-bit
  rank-0 values) of four universally quantified comparisons; the last two say, of every entry v of the
  [257, 257] table of 32-bit words, that 0 ≤ v and v < 964 as SIGNED integers. A word that is non-negative
  as a signed integer has the same signed and unsigned reading, so v < 964 unsigned. From there, 32-bit
  arithmetic on 16 * v + k for k < 16 stays below 964 * 16 = 15424 and never wraps.
-/
import proofs.«201633_g9972914061550_cont_9to1c4b_803_29_alg».proof.Pre_finite_inputs
import proofs.«201633_g9972914061550_cont_9to1c4b_803_29_alg».proof.Proof.Gen.Pre_finite_inputs
import Idealize.ShloMosaic.Lib.ReduceAll
import Idealize.ShloMosaic.Lib.Affine
import Idealize.ShloMosaic.Lib.ValueIdx

noncomputable section

namespace Cert.PreRange

open Idealize.ShloMosaic

/-- A rank-0 shape has exactly one index. -/
instance : Subsingleton Cert.Pre_finite_inputs.S_.Idx := ⟨fun a b => funext fun d => d.elim0⟩

/-- A word in [0, n) as a signed integer is below n as a natural number. -/
theorem toNat_lt_of_signed (v : BitVec 32) (n : Nat) (hn : n < 2 ^ 31)
    (h0 : IntOp.cmpi .sge v (0#32) = 1#1) (h1 : IntOp.cmpi .slt v (BitVec.ofNat 32 n) = 1#1) : v.toNat < n := by
  rw [IntOp.cmpi_sge] at h0
  rw [IntOp.cmpi_slt] at h1
  have ev := BitVec.toInt_eq_toNat_cond v
  have en := BitVec.toInt_eq_toNat_cond (BitVec.ofNat 32 n)
  have hv := v.isLt
  have e0 : (0#32).toInt = 0 := by decide
  have enn : (BitVec.ofNat 32 n).toNat = n := by
    rw [BitVec.toNat_ofNat]; exact Nat.mod_eq_of_lt (by omega)
  rw [e0] at h0
  rw [enn] at en
  split at ev <;> split at en <;> omega

/-- THE PRECONDITION DECODED: every entry of the index table is below 964, read unsigned. -/
theorem idx_range {F : FTy → Type} [FloatOps F]
    (a0 : FVec F Cert.Pre_finite_inputs.S32x16x257x257 .f32) (a1 : FVec F Cert.Pre_finite_inputs.S964x16 .f32)
    (a2 : IVec Cert.Pre_finite_inputs.S257x257 32)
    (h : Cert.Pre_finite_inputs.fn (F := F) a0 a1 a2 = fun _ => 1#1) :
    ∀ x : Cert.Pre_finite_inputs.S257x257.Idx, (a2 x).toNat < 964 := by
  intro x
  have e := congrFun h ValueIdx.ix0
  dsimp only [Cert.Pre_finite_inputs.fn, Cert.Pre_finite_inputs.fn_part1, andi] at e
  obtain ⟨e12, e15⟩ := IntOp.andi_eq_one.1 e
  obtain ⟨-, e11⟩ := IntOp.andi_eq_one.1 e12
  have hge := Host.reduce_andi_all _ _ _ _ _ e11 x
  have hlt := Host.reduce_andi_all _ _ _ _ _ e15 x
  exact toNat_lt_of_signed (a2 x) 964 (by decide) hge hlt

/-- 32-bit arithmetic on 16 * v + c does not wrap when v < 964 and c < 16 (both read unsigned). -/
theorem mul16_add_word (v c : BitVec 32) (hv : v.toNat < 964) (hc : c.toNat < 16) :
    (v * 16#32 + c).toNat = v.toNat * 16 + c.toNat ∧ v.toNat * 16 + c.toNat < 15424 := by
  refine ⟨?_, by omega⟩
  simp only [BitVec.toNat_add, BitVec.toNat_mul, BitVec.toNat_ofNat]
  omega

/-- The same with the addend given as a natural number k < 16. -/
theorem mul16_add_ofNat (v : BitVec 32) (hv : v.toNat < 964) (k : Nat) (hk : k < 16) :
    (v * 16#32 + BitVec.ofNat 32 k).toNat = v.toNat * 16 + k ∧ v.toNat * 16 + k < 15424 := by
  have e : (BitVec.ofNat 32 k).toNat = k := by
    rw [BitVec.toNat_ofNat]; exact Nat.mod_eq_of_lt (by omega)
  have h := mul16_add_word v (BitVec.ofNat 32 k) hv (by omega)
  rw [e] at h
  exact h

/-- The same with the addend a coordinate k : Fin 16. -/
theorem mul16_add_toNat (v : BitVec 32) (hv : v.toNat < 964) (k : Fin 16) :
    (v * 16#32 + BitVec.ofNat 32 k.val).toNat = v.toNat * 16 + k.val ∧ v.toNat * 16 + k.val < 15424 :=
  mul16_add_ofNat v hv k.val k.isLt

/-- The same in the spelling of the scalar integer operations. -/
theorem intOp_mul16_add (v c : BitVec 32) (hv : v.toNat < 964) (hc : c.toNat < 16) :
    (IntOp.addi (IntOp.muli v 16#32) c).toNat = v.toNat * 16 + c.toNat ∧ v.toNat * 16 + c.toNat < 15424 :=
  mul16_add_word v c hv hc

/-- The same at one lane of the vector operations: a vector of table entries times the splat of 16, plus
    any vector whose lane is below 16 (a splat of a constant below 16, or the lane numbers of 16 lanes). -/
theorem lane_mul16_add {s : Shape} (v w : IVec s 32) (x : s.Idx) (hv : (v x).toNat < 964) (hw : (w x).toNat < 16) :
    (addi (muli v (broadcast s 16#32)) w x).toNat = (v x).toNat * 16 + (w x).toNat
      ∧ (v x).toNat * 16 + (w x).toNat < 15424 :=
  mul16_add_word (v x) (w x) hv hw

/-- The lane fact with the addend the splat of a word c < 16. -/
theorem lane_mul16_add_splat {s : Shape} (v : IVec s 32) (c : BitVec 32) (x : s.Idx) (hv : (v x).toNat < 964)
    (hc : c.toNat < 16) :
    (addi (muli v (broadcast s 16#32)) (broadcast s c) x).toNat = (v x).toNat * 16 + c.toNat
      ∧ (v x).toNat * 16 + c.toNat < 15424 :=
  mul16_add_word (v x) c hv hc

/-- The lane numbers of one 16-lane register, read unsigned: lane x holds x, which is below 16. -/
theorem iota16_toNat (κ : Kind) (h : (⟨1, ![16]⟩ : Shape).Iotas κ 32 [0]) (x : (⟨1, ![16]⟩ : Shape).Idx) :
    (iota κ ⟨1, ![16]⟩ 32 [0] h x).toNat = (x 0).val ∧ (x 0).val < 16 := by
  have hx : (x 0).val < 16 := (x 0).isLt
  refine ⟨?_, hx⟩
  have e : iota κ ⟨1, ![16]⟩ 32 [0] h x = BitVec.ofNat 32 (x 0).val := by simp [iota]
  rw [e, BitVec.toNat_ofNat]
  exact Nat.mod_eq_of_lt (by omega)

/-- The lane fact with the addend the lane numbers: lane x of 16 * v + lanes is 16 * v[x] + x. -/
theorem lane_mul16_add_iota (κ : Kind) (h : (⟨1, ![16]⟩ : Shape).Iotas κ 32 [0]) (v : IVec ⟨1, ![16]⟩ 32)
    (x : (⟨1, ![16]⟩ : Shape).Idx) (hv : (v x).toNat < 964) :
    (addi (muli v (broadcast ⟨1, ![16]⟩ 16#32)) (iota κ ⟨1, ![16]⟩ 32 [0] h) x).toNat = (v x).toNat * 16 + (x 0).val
      ∧ (v x).toNat * 16 + (x 0).val < 15424 := by
  obtain ⟨e, hx⟩ := iota16_toNat κ h x
  have := lane_mul16_add v (iota κ ⟨1, ![16]⟩ 32 [0] h) x hv (by omega)
  rw [e] at this
  exact this

/-- Every lane of 16 * v + c, with c < 16 a splat, indexes a one-axis array of 15424 entries: the form in which
    a gather's index vector is required to be in bounds (one index vector, one axis). -/
theorem inb_splat {s : Shape} (v : IVec s 32) (hv : ∀ x, (v x).toNat < 964) (c : BitVec 32) (hc : c.toNat < 16) :
    ∀ (a : Fin 1) (x : s.Idx), ((![addi (muli v (broadcast s 16#32)) (broadcast s c)] : Fin 1 → IVec s 32) a x).toNat
      < (⟨1, ![15424]⟩ : Shape).size a := by
  intro a x
  obtain rfl : a = 0 := Subsingleton.elim _ _
  have h := lane_mul16_add_splat v c x (hv x) hc
  exact h.1 ▸ h.2

/-- The same with the addend the lane numbers of a 16-lane register. -/
theorem inb_iota (κ : Kind) (h : (⟨1, ![16]⟩ : Shape).Iotas κ 32 [0]) (v : IVec ⟨1, ![16]⟩ 32)
    (hv : ∀ x, (v x).toNat < 964) :
    ∀ (a : Fin 1) (x : (⟨1, ![16]⟩ : Shape).Idx),
      ((![addi (muli v (broadcast ⟨1, ![16]⟩ 16#32)) (iota κ ⟨1, ![16]⟩ 32 [0] h)] : Fin 1 → IVec ⟨1, ![16]⟩ 32) a x).toNat
        < (⟨1, ![15424]⟩ : Shape).size a := by
  intro a x
  obtain rfl : a = 0 := Subsingleton.elim _ _
  have e := lane_mul16_add_iota κ h v x (hv x)
  exact e.1 ▸ e.2

end Cert.PreRange

end
-- ==== Proof.Blocks.lean ====
/-
  The vocabulary the kernel's proof is written over. The kernel gathers a table of relative-position biases: its
  result is the array  B[h, r, j] = T[16 · I[r, j] + h]  over h < 16, r, j < 257, where T is the bias table read
  as one row of 964 · 16 numbers and I the array of row indices. Thirty-two vector subcores share the work: subcore
  w = 2 · s + c (s its number on its core, c the core) produces the eight rows r ∈ [8w, 8w + 8) of every head h, and
  the last one, w = 31, also the one remaining row r = 256. Here: the arrays as the subcores address them, the set
  of entries of B each subcore writes, and B itself as a function of T and I.
-/
import proofs.«201633_g9972914061550_cont_9to1c4b_803_29_alg».proof.KernelIdeal
import proofs.«201633_g9972914061550_cont_9to1c4b_803_29_alg».proof.Proof.Gen.KernelIdeal
import Idealize.ShloMosaic.Lib.ValueIdx

noncomputable section

namespace Cert.KernelIdeal.Blocks

open Cert.KernelIdeal Cert.KernelIdeal.Gen
open Idealize.ShloMosaic Idealize.ShloMosaic.ValueIdx

variable {F : FTy → Type}

/-! ## The arrays, as a vector subcore addresses them -/

/-- The table T (one row of 15424 numbers), the indices I, the result B: whole arrays in HBM. -/
abbrev tabM : Memref sig .scVector .hbm S15424 .f32 := Memref.whole main_v0_scv
abbrev idxM : Memref sig .scVector .hbm S257x257 .i32 := Memref.whole main_arg2_scv
abbrev outM : Memref sig .scVector .hbm S16x257x257 .f32 := Memref.whole main_v1_scv
/-- A subcore's own copies: of T, of its nine rows of I, of its nine rows of B. -/
abbrev tabS : Memref sig .scVector .vmem S15424 .f32 := Memref.whole cc0_scratch0
abbrev idxS : Memref sig .scVector .vmem S9x257 .i32 := Memref.whole cc0_scratch1
abbrev outS : Memref sig .scVector .vmem S16x9x257 .f32 := Memref.whole cc0_scratch2

/-! ## What each subcore writes -/

/-- Rows [8w, 8w + 8) of every head: the box the subcore at grid point `L` copies its first eight rows to. -/
abbrev blkRect (L : grid0.Coords) : Rect S16x257x257 := Rect.unit (s := S16x257x257) (k0_off19 L) S16x8x257.size (k0_off19_inb L)
abbrev blkM (L : grid0.Coords) : Memref sig .scVector .hbm S16x8x257 .f32 := outM.slice (blkRect L) (fun _ => rfl)
abbrev blkSet (L : grid0.Coords) : Finset S16x257x257.Idx := (blkM L).view.set

/-- Row 256 of every head: the box the last subcore copies its ninth row to. -/
abbrev lastRect : Rect S16x257x257 := Rect.unit (s := S16x257x257) ![0, 256, 0] S16x1x257.size inb_S16x257x257_S16x1x257_0_256_0
abbrev lastM : Memref sig .scVector .hbm S16x1x257 .f32 := outM.slice lastRect (fun _ => rfl)
abbrev lastSet : Finset S16x257x257.Idx := lastM.view.set

/-- The rows of I a subcore reads: [8w, 8w + 8), and row 256. -/
abbrev idxRect (L : grid0.Coords) : Rect S257x257 := Rect.unit (s := S257x257) (k0_off1 L) S8x257.size (k0_off1_inb L)
abbrev idxRowsM (L : grid0.Coords) : Memref sig .scVector .hbm S8x257 .i32 := idxM.slice (idxRect L) (fun _ => rfl)

/-! ## The result as a function of the table and the indices -/

/-- The position in the table's one row of entry (h, r, j): 16 · I[r, j] + h, as a natural number. -/
def pos (fi : Vec F S257x257 .i32) (x : S16x257x257.Idx) : Nat :=
  (fi (ix2 (x 1) (x 2))).toNat * 16 + (x 0).val

/-- B[h, r, j] = T[16 · I[r, j] + h]  (the position taken modulo the row's length, which changes nothing while every
    index is below 964). -/
def gathered (ft : Vec F S15424 .f32) (fi : Vec F S257x257 .i32) : Vec F S16x257x257 .f32 :=
  fun x => ft (ix1 ⟨pos fi x % 15424, Nat.mod_lt _ (by decide)⟩)

theorem gathered_apply (ft : Vec F S15424 .f32) (fi : Vec F S257x257 .i32) (x : S16x257x257.Idx) (h : pos fi x < 15424) :
    gathered ft fi x = ft (ix1 ⟨pos fi x, h⟩) := by
  unfold gathered; congr 2; exact Fin.ext (Nat.mod_eq_of_lt h)

theorem pos_lt (fi : Vec F S257x257 .i32) (hr : ∀ y, (fi y).toNat < 964) (x : S16x257x257.Idx) : pos fi x < 15424 := by
  have h1 := hr (ix2 (x 1) (x 2)); have h2 : (x 0).val < 16 := (x 0).isLt
  unfold pos; omega

end Cert.KernelIdeal.Blocks

end
-- ==== Proof.Setup.lean ====
/-
  The launch of the gather kernel: the vocabulary its proof around the kernel body is written over.

  The device runs @main on its TensorCore:  T := reshape(table) (one row of 964 · 16 numbers),  B := the kernel's result
  on two SparseCores × sixteen vector subcores,  out := arg0 + broadcast(broadcast(B)).  The kernel's result is
  B[h, r, j] = T[16 · I[r, j] + h]  (Blocks.gathered). Here: the program as the launch theorem reads it, the ghost state (the
  launch handshakes' rounds beside the local transfers' counters: the kernel only makes local copies and waits for them),
  the locations of @main's arrays, what one vector subcore takes and gives back (tileIn / tileOut), the body's
  specification as a proposition (BodySpec), and what the handshakes carry (P): every subcore a read share of the whole
  table and of the whole index array, and the entries of B it writes — rows [8w, 8w + 8) of every head for subcore
  w = 2 · s + c, and row 256 for the last one.
-/
import proofs.«201633_g9972914061550_cont_9to1c4b_803_29_alg».proof.Proof.Blocks
import Idealize.ShloMosaic.Lib.SparseCore.Launch
import Idealize.ShloMosaic.Lib.StableHlo.Run
import Idealize.ShloMosaic.Lib.Pipeline.Kit
import Idealize.ShloMosaic.Lib.Transfers
import Idealize.ShloMosaic.Lib.Tactic

noncomputable section

namespace Cert.KernelIdeal.Launch

open Cert.KernelIdeal Cert.KernelIdeal.Gen Cert.KernelIdeal.Blocks

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem kFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

/-- The handshakes' rounds, the left factor; the transfers' counters are found by instance in the right. -/
abbrev EH : Emb UH (MT nD τ sig (HIx 1) (Elt F) ℕ UU ℕ) := embL

/-! ## The arrays -/

abbrev a0Loc (d : Dev nD) : Loc nD τ sig := (SparseCore.T d).loc main_arg0
abbrev a1Loc (d : Dev nD) : Loc nD τ sig := (SparseCore.T d).loc main_arg1
abbrev tLoc (d : Dev nD) : Loc nD τ sig := (SparseCore.T d).loc main_v0
abbrev iLoc (d : Dev nD) : Loc nD τ sig := (SparseCore.T d).loc main_arg2
abbrev oLoc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4

/-- The table as one row: what @main's reshape computes from the 964 × 16 table. -/
abbrev rowOf (a1 : Vec F S964x16 .f32) : Vec F S15424 .f32 := shapeCast S15424 a1 Facts₀.shapeCasts_S964x16_S15424

/-- @main's result as a term of its three arguments: arg0 + B broadcast over the 32 batches. -/
def kernelTerm [FloatOps F] (a0 : Vec F S32x16x257x257 .f32) (a1 : Vec F S964x16 .f32) (a2 : Vec F S257x257 .i32) : Vec F S32x16x257x257 .f32 :=
  addf a0 (broadcastInDim S32x16x257x257 ![0, 1, 2, 3] Facts₀.bcast_S1x16x257x257_S32x16x257x257_0_1_2_3
    (broadcastInDim S1x16x257x257 ![1, 2, 3] Facts₀.bcast_S16x257x257_S1x16x257x257_1_2_3 (gathered (rowOf a1) a2)))

/-! ## One vector subcore's task -/

/-- The grid point of vector subcore s of SparseCore c. -/
def gridPt (c : Fin (grid0.bound 0)) (s : Fin (grid0.bound 1)) : grid0.Coords :=
  fun | 0 => c | 1 => s | ⟨_ + 2, h⟩ => absurd h (Nat.not_lt.2 (Nat.le_add_left _ _))

/-- The thread of the vector subcore at grid point L. -/
abbrev thrOf (d : Dev nD) (L : grid0.Coords) : Thread nD τ := SparseCore.V d ((L 0).castLE Facts₀.hcore0) ((L 1).castLE Facts₀.hsub0)

/-- What the subcore at L takes: read shares of the table and of the indices, whole; the entries of B it writes. -/
def tileIn (d : Dev nD) (L : grid0.Coords) (qT qI : PosShare TreeShare)
    (ft : Buf (Elt F) (tLoc d)) (fi : Buf (Elt F) (iLoc d)) (fo : Buf (Elt F) (oLoc d)) : sProp 𝕄 :=
  iprop((tLoc d ↦{qT} ft) ∗ (iLoc d ↦{qI} fi) ∗ (oLoc d ↦[blkSet L]{fullShare} fo)
    ∗ (if k0_cond1 L = 1#1 then oLoc d ↦[lastSet]{fullShare} fo else emp))

/-- What it gives back: the shares, and its entries of B at the gathered values. -/
def tileOut (d : Dev nD) (L : grid0.Coords) (qT qI : PosShare TreeShare)
    (ft : Buf (Elt F) (tLoc d)) (fi : Buf (Elt F) (iLoc d)) : sProp 𝕄 :=
  iprop((tLoc d ↦{qT} ft) ∗ (iLoc d ↦{qI} fi)
    ∗ (∃ f : Buf (Elt F) (oLoc d), ⌜∀ x ∈ blkSet L, f x = gathered ft fi x⌝ ∗ oLoc d ↦[blkSet L]{fullShare} f)
    ∗ (if k0_cond1 L = 1#1 then ∃ f : Buf (Elt F) (oLoc d), ⌜∀ x ∈ lastSet, f x = gathered ft fi x⌝ ∗ oLoc d ↦[lastSet]{fullShare} f else emp))

/-- The kernel body at a symbolic grid point: from the task's operands and the subcore's scoped storage to the task's
    results, every index of the table it reads in range. -/
def BodySpec (F : FTy → Type) [FloatOps F] : Prop :=
  ∀ (_hF : (K (F := F)).Facts) (d : Dev nD) (L : grid0.Coords) (qT qI : PosShare TreeShare)
    (ft : Buf (Elt F) (tLoc d)) (fi : Buf (Elt F) (iLoc d)) (fo : Buf (Elt F) (oLoc d)) (_hr : ∀ y, (fi y).toNat < 964)
    (O : CellTallies nD τ sig (HIx 1)) (W : Waits sig (HIx 1)) (_hO : ∀ g, O g none = 0),
    iprop(levAts (K (F := F)).L (K (F := F)).lev ∗ emp ∗ tileIn d L qT qI ft fi fo
        ∗ scopedBufs (thrOf d L) ∗ scopedSems0 (thrOf d L) ∗ owes (thrOf d L) O W)
      ⊢ wp frame (wpE (defs₀ (F := F)) 𝒱₀ (thrOf d L) none) Set.univ
          (cc0__sc_gather_body L tabM (Memref.isWhole_whole _) idxM (Memref.isWhole_whole _) outM (Memref.isWhole_whole _)
            tabS (Memref.isWhole_whole _) idxS (Memref.isWhole_whole _) outS (Memref.isWhole_whole _)
            cc0_scoped0 cc0_scoped1 cc0_scoped2 cc0_scoped3 cc0_scoped4)
          fun _ => iprop(tileOut d L qT qI ft fi ∗ scopedBufs (thrOf d L) ∗ scopedSems0 (thrOf d L)
            ∗ ∃ W', ⌜∀ p ∈ W', p ∈ W ∨ p.2 = none⌝ ∗ owes (thrOf d L) O W')

/-! ## What the handshakes carry -/

variable (m : (ℓ : Loc nD τ sig) → Buf (Elt F) ℓ) (ρ : Dev nD → PrngReg)

/-- The three arrays' contents when the call starts. -/
abbrev ft (d : Dev nD) : Buf (Elt F) (tLoc d) := rowOf (m (a1Loc d))
abbrev fi (d : Dev nD) : Buf (Elt F) (iLoc d) := m (iLoc d)
abbrev fo (d : Dev nD) : Buf (Elt F) (oLoc d) := m (oLoc d)

/-- The read shares: the full share's token for SparseCore c, and of that the token for its subcore i. -/
abbrev qC (c : Fin ((K (F := F)).nCore 0)) : PosShare TreeShare := shareTok fullShare ((K (F := F)).nCore 0) c
abbrev qV (c : Fin ((K (F := F)).nCore 0)) (i : Fin ((K (F := F)).nSub 0)) : PosShare TreeShare := shareTok (qC (F := F) c) ((K (F := F)).nSub 0) i

def goP (d : Dev nD) (c : Fin ((K (F := F)).nCore 0)) (i : Fin ((K (F := F)).nSub 0)) : sProp 𝕄 :=
  tileIn d (gridPt c i) (qV (F := F) c i) (qV (F := F) c i) (ft m d) (fi m d) (fo m d)
def tdP (d : Dev nD) (c : Fin ((K (F := F)).nCore 0)) (i : Fin ((K (F := F)).nSub 0)) : sProp 𝕄 :=
  tileOut d (gridPt c i) (qV (F := F) c i) (qV (F := F) c i) (ft m d) (fi m d)

/-- The call hands SparseCore c its subcores' operands and takes their results back; nothing of the launch's is
    consumed by the kernel's proof. -/
def P : (K (F := F)).Pay (nD := nD) (Val := Elt F) (Name := ℕ) (U := UU) where
  st := fun q d c => match q with | 0 => bigSep Finset.univ fun i : Fin ((K (F := F)).nSub 0) => goP m d c i
  dn := fun q d c => match q with | 0 => bigSep Finset.univ fun i : Fin ((K (F := F)).nSub 0) => tdP m d c i
  go := fun q d c i => match q with | 0 => goP m d c i
  td := fun q d c i => match q with | 0 => tdP m d c i
  x := fun _ _ => iprop(emp)

instance goP_storable (d : Dev nD) (c : Fin ((K (F := F)).nCore 0)) (i : Fin ((K (F := F)).nSub 0)) :
    BI.Storable (upEmb : UEmb _ 𝕄) (goP m d c i) := by
  unfold goP tileIn; split <;> infer_instance
instance tdP_storable (d : Dev nD) (c : Fin ((K (F := F)).nCore 0)) (i : Fin ((K (F := F)).nSub 0)) :
    BI.Storable (upEmb : UEmb _ 𝕄) (tdP m d c i) := by
  unfold tdP tileOut; split <;> infer_instance

instance P_storable : (P (F := F) m).IsStorable where
  st q d c := match q with | 0 => (inferInstance : BI.Storable (upEmb : UEmb _ 𝕄) (bigSep Finset.univ fun i : Fin ((K (F := F)).nSub 0) => goP m d c i))
  dn q d c := match q with | 0 => (inferInstance : BI.Storable (upEmb : UEmb _ 𝕄) (bigSep Finset.univ fun i : Fin ((K (F := F)).nSub 0) => tdP m d c i))
  go q d c i := match q with | 0 => goP_storable m d c i
  td q d c i := match q with | 0 => tdP_storable m d c i

theorem P_st (d : Dev nD) (c : Fin ((K (F := F)).nCore 0)) : (P (F := F) m).st 0 d c = bigSep Finset.univ fun i : Fin ((K (F := F)).nSub 0) => goP m d c i := rfl
theorem P_dn (d : Dev nD) (c : Fin ((K (F := F)).nCore 0)) : (P (F := F) m).dn 0 d c = bigSep Finset.univ fun i : Fin ((K (F := F)).nSub 0) => tdP m d c i := rfl
theorem P_go (d : Dev nD) (c : Fin ((K (F := F)).nCore 0)) (i : Fin ((K (F := F)).nSub 0)) : (P (F := F) m).go 0 d c i = goP m d c i := rfl
theorem P_td (d : Dev nD) (c : Fin ((K (F := F)).nCore 0)) (i : Fin ((K (F := F)).nSub 0)) : (P (F := F) m).td 0 d c i = tdP m d c i := rfl

end Cert.KernelIdeal.Launch

end
-- ==== Proof.Launch.lean ====
/-
  The launch of the gather kernel, around its body.

  Given the body's specification at a symbolic grid point (Setup.BodySpec) and that every index of the index array is below
  964, the whole program runs: @main reshapes the table into one row T; hands every one of the 2 × 16 vector subcores a
  read share of T and of the index array I (the full share split into one token per SparseCore, each again into one per
  subcore) and the entries of B it writes — rows 16 s + 8 c ≤ r < 16 s + 8 c + 8 of every head for subcore s of SparseCore
  c, and row 256 for the subcore with 2 s + c = 31: 33 sets of rows, pairwise disjoint, covering 0 ≤ r < 257 —; takes them
  back, every entry of B at its gathered value B[h, r, j] = T[16 · I[r, j] + h]; broadcasts B over the 32 batches and adds
  it to arg0. The final memory holds arg0 + broadcast(B) in the result and the three arguments unchanged.
-/
import proofs.«201633_g9972914061550_cont_9to1c4b_803_29_alg».proof.Proof.Setup

noncomputable section

namespace Cert.KernelIdeal.Launch

open Cert.KernelIdeal Cert.KernelIdeal.Gen Cert.KernelIdeal.Blocks

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)

/-! ## The launch theorem's obligations for the kernel -/

variable [FloatOps F]

theorem defs₀_vector (c : Fin τ.nSC) (s : Fin τ.nSub) :
    defs₀ (F := F) (.scVector c s) 0 ()
      = SparseCore.onTile Facts₀.hcore0 Facts₀.hsub0 (fun c s => cc0__sc_gather_body (gridPt c s)
          tabM (Memref.isWhole_whole _) idxM (Memref.isWhole_whole _) outM (Memref.isWhole_whole _)
          tabS (Memref.isWhole_whole _) idxS (Memref.isWhole_whole _) outS (Memref.isWhole_whole _)
          cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of every vector subcore of the grid is the body at its grid point. -/
theorem tileObl (hB : BodySpec F) (hF : (K (F := F)).Facts) (hr : ∀ d y, (m (iLoc d) y).toNat < 964) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hB hF d (gridPt ⟨_, hc.1⟩ ⟨_, hc.2⟩) (qV (F := F) c i) (qV (F := F) c i) (ft m d) (fi m d) (fo m d) (hr d) O W hO).trans
    (wp_mono frame _ _ fun _ => obl_post)

/-- A SparseCore's operands are its subcores' operands, its results theirs. -/
theorem vecSplit : (K (F := F)).VecSplit' (P m) 0 := by
  intro d c
  rw [P_st, P_dn]
  simp only [P_go, P_td]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The entries of B, subcore by subcore

Subcore (c, s) writes the rows r with 16 s + 8 c ≤ r < 16 s + 8 c + 8 of every head; the subcore with 2 s + c = 31 also
row 256. These 33 sets of rows are pairwise disjoint and cover 0 ≤ r < 257. -/

omit [FloatOps F] in
theorem blkSet_eq (L : grid0.Coords) : blkSet L = (blkRect L).set := View.set_slice_whole _ _
omit [FloatOps F] in
theorem lastSet_eq : lastSet = lastRect.set := View.set_slice_whole _ _

omit [FloatOps F] in
theorem mem_blkSet (L : grid0.Coords) (x : S16x257x257.Idx) :
    x ∈ blkSet L ↔ 16 * (L 1).val + 8 * (L 0).val ≤ (x 1).val ∧ (x 1).val < 16 * (L 1).val + 8 * (L 0).val + 8 := by
  rw [blkSet_eq, Rect.mem_set_unit, k0_off19_eq]
  refine ⟨fun h => h 1, fun h a => ?_⟩
  fin_cases a
  · exact ⟨Nat.zero_le _, (x 0).isLt⟩
  · exact h
  · exact ⟨Nat.zero_le _, (x 2).isLt⟩

omit [FloatOps F] in
theorem mem_lastSet (x : S16x257x257.Idx) : x ∈ lastSet ↔ (x 1).val = 256 := by
  rw [lastSet_eq, Rect.mem_set_unit]
  refine ⟨fun h => ?_, fun h a => ?_⟩
  · have h1 := h 1
    have h2 : 256 ≤ (x 1).val ∧ (x 1).val < 256 + 1 := h1
    omega
  · fin_cases a
    · exact ⟨Nat.zero_le _, (x 0).isLt⟩
    · exact (show 256 ≤ (x 1).val ∧ (x 1).val < 256 + 1 by omega)
    · exact ⟨Nat.zero_le _, (x 2).isLt⟩

omit [FloatOps F] in
theorem cond_iff : ∀ L : grid0.Coords, k0_cond1 L = 1#1 ↔ ((L 0).val = 1 ∧ (L 1).val = 15) := by decide +kernel

/-- Everything subcore (c, s) writes. -/
def piece (p : Fin (grid0.bound 0) × Fin (grid0.bound 1)) : Finset S16x257x257.Idx :=
  blkSet (gridPt p.1 p.2) ∪ (if k0_cond1 (gridPt p.1 p.2) = 1#1 then lastSet else ∅)

omit [FloatOps F] in
theorem mem_piece (p : Fin (grid0.bound 0) × Fin (grid0.bound 1)) (x : S16x257x257.Idx) :
    x ∈ piece p ↔ (16 * p.2.val + 8 * p.1.val ≤ (x 1).val ∧ (x 1).val < 16 * p.2.val + 8 * p.1.val + 8)
      ∨ (p.1.val = 1 ∧ p.2.val = 15 ∧ (x 1).val = 256) := by
  unfold piece
  rw [Finset.mem_union, mem_blkSet]
  refine or_congr Iff.rfl ?_
  by_cases h : k0_cond1 (gridPt p.1 p.2) = 1#1
  · rw [if_pos h, mem_lastSet]
    have := (cond_iff _).mp h
    exact ⟨fun e => ⟨this.1, this.2, e⟩, fun e => e.2.2⟩
  · rw [if_neg h]
    have : ¬ (p.1.val = 1 ∧ p.2.val = 15) := fun e => h ((cond_iff _).mpr e)
    exact ⟨fun e => absurd e (Finset.notMem_empty _), fun e => absurd ⟨e.1, e.2.1⟩ this⟩

omit [FloatOps F] in
theorem pieces_disjoint : ∀ p ∈ (Finset.univ : Finset (Fin (grid0.bound 0) × Fin (grid0.bound 1))), ∀ p' ∈ (Finset.univ : Finset (Fin (grid0.bound 0) × Fin (grid0.bound 1))),
    p ≠ p' → Disjoint (piece p) (piece p') := by
  intro p _ p' _ hne
  rw [Finset.disjoint_left]
  intro x hx hx'
  rw [mem_piece] at hx hx'
  have h1 : p.1.val < 2 := p.1.isLt
  have h2 : p.2.val < 16 := p.2.isLt
  have h1' : p'.1.val < 2 := p'.1.isLt
  have h2' : p'.2.val < 16 := p'.2.isLt
  apply hne
  refine Prod.ext (Fin.ext ?_) (Fin.ext ?_) <;> omega

omit [FloatOps F] in
theorem pieces_cover : (Finset.univ : Finset (Fin (grid0.bound 0) × Fin (grid0.bound 1))).biUnion piece = Finset.univ := by
  ext x
  simp only [Finset.mem_biUnion, Finset.mem_univ, true_and, iff_true]
  have hx : (x 1).val < 257 := (x 1).isLt
  by_cases h : (x 1).val = 256
  · exact ⟨(⟨1, by decide⟩, ⟨15, by decide⟩), (mem_piece _ _).mpr (Or.inr ⟨rfl, rfl, h⟩)⟩
  · refine ⟨(⟨(x 1).val / 8 % 2, Nat.mod_lt _ (by decide)⟩, ⟨(x 1).val / 16, by show (x 1).val / 16 < 16; omega⟩), (mem_piece _ _).mpr (Or.inl ?_)⟩
    show 16 * ((x 1).val / 16) + 8 * ((x 1).val / 8 % 2) ≤ (x 1).val ∧ (x 1).val < 16 * ((x 1).val / 16) + 8 * ((x 1).val / 8 % 2) + 8
    omega

/-- The entries subcore at L writes, at contents f. -/
def outPiece (d : Dev nD) (L : grid0.Coords) (f : Buf (Elt F) (oLoc d)) : sProp 𝕄 :=
  iprop((oLoc d ↦[blkSet L]{fullShare} f) ∗ (if k0_cond1 L = 1#1 then oLoc d ↦[lastSet]{fullShare} f else emp))

omit [FloatOps F] in
theorem blk_last_disjoint (L : grid0.Coords) : Disjoint (blkSet L) lastSet := by
  rw [Finset.disjoint_left]
  intro x hx hx'
  rw [mem_blkSet] at hx; rw [mem_lastSet] at hx'
  have h1 : (L 0).val < 2 := (L 0).isLt
  have h2 : (L 1).val < 16 := (L 1).isLt
  omega

omit [FloatOps F] in
theorem pts_piece (d : Dev nD) (p : Fin (grid0.bound 0) × Fin (grid0.bound 1)) (f : Buf (Elt F) (oLoc d)) :
    (oLoc d ↦[piece p]{fullShare} f : sProp 𝕄) = outPiece d (gridPt p.1 p.2) f := by
  unfold piece outPiece
  by_cases h : k0_cond1 (gridPt p.1 p.2) = 1#1
  · rw [if_pos h, if_pos h]
    have hu : (oLoc d ↦[blkSet (gridPt p.1 p.2) ∪ lastSet]{fullShare} f : sProp 𝕄)
        ⊣⊢ iprop((oLoc d ↦[blkSet (gridPt p.1 p.2)]{fullShare} f) ∗ oLoc d ↦[lastSet]{fullShare} f) :=
      pointsTo_union (ℓ := oLoc d) (blk_last_disjoint (gridPt p.1 p.2))
    exact BI.equiv_iff.mp ⟨hu.1, hu.2⟩
  · rw [if_neg h, if_neg h, Finset.union_empty]
    exact (BI.equiv_iff.mp sep_emp).symm

/-- B whole is every subcore's entries. -/
theorem out_split (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) => outPiece d (gridPt c i) f := by
  rw [← pieces_cover, pointsTo_biUnion Finset.univ (ℓ := oLoc d) piece pieces_disjoint, bigSep_univ_prod]
  exact bigSep_congr fun c _ => bigSep_congr fun i _ => pts_piece d (c, i) f

/-! ## The read shares of an array every subcore reads whole -/

/-- What is kept back while the subcores read: the remainders of the two splits. -/
def keep (ℓ : Loc nD τ sig) (f : Buf (Elt F) ℓ) : sProp 𝕄 :=
  iprop((ℓ ↦{shareDrop fullShare ((K (F := F)).nCore 0)} f)
    ∗ bigSep Finset.univ fun c : Fin ((K (F := F)).nCore 0) => ℓ ↦{shareDrop (qC (F := F) c) ((K (F := F)).nSub 0)} f)

omit [FloatOps F] in
/-- The whole array at the full share is what is kept back and one read share per subcore. -/
theorem shares_eq (ℓ : Loc nD τ sig) (f : Buf (Elt F) ℓ) :
    (ℓ ↦{fullShare} f : sProp 𝕄)
      = iprop(keep ℓ f ∗ bigSep Finset.univ fun c : Fin ((K (F := F)).nCore 0) => bigSep Finset.univ fun i : Fin ((K (F := F)).nSub 0) => ℓ ↦{qV (F := F) c i} f) := by
  unfold keep
  have h1 := Transfers.pointsTo_toks (Lvl := ℕ) (ℓ := ℓ) (S := Finset.univ) (f := f) (Val := Elt F) (Name := ℕ) (U := UU) (Ix := HIx 1) fullShare ((K (F := F)).nCore 0)
  have h2 : ∀ c : Fin ((K (F := F)).nCore 0), (ℓ ↦{qC (F := F) c} f : sProp 𝕄)
      = iprop((ℓ ↦{shareDrop (qC (F := F) c) ((K (F := F)).nSub 0)} f) ∗ bigSep Finset.univ fun i : Fin ((K (F := F)).nSub 0) => ℓ ↦{qV (F := F) c i} f) := fun c =>
    BI.equiv_iff.mp ⟨(Transfers.pointsTo_toks (Lvl := ℕ) (ℓ := ℓ) (S := Finset.univ) (f := f) (Val := Elt F) (Name := ℕ) (U := UU) (Ix := HIx 1) (qC (F := F) c) ((K (F := F)).nSub 0)).1,
      (Transfers.pointsTo_toks (Lvl := ℕ) (ℓ := ℓ) (S := Finset.univ) (f := f) (Val := Elt F) (Name := ℕ) (U := UU) (Ix := HIx 1) (qC (F := F) c) ((K (F := F)).nSub 0)).2⟩
  rw [BI.equiv_iff.mp ⟨h1.1, h1.2⟩, bigSep_congr fun c _ => h2 c, bigSep_sep']
  exact BI.equiv_iff.mp ⟨BI.sep_assoc', BI.sep_assoc⟩

/-! ## A SparseCore's operands and results, array by array -/

omit [FloatOps F] in
theorem goP_eq (d : Dev nD) (c : Fin ((K (F := F)).nCore 0)) (i : Fin ((K (F := F)).nSub 0)) :
    goP m d c i = iprop((tLoc d ↦{qV (F := F) c i} ft m d) ∗ (iLoc d ↦{qV (F := F) c i} fi m d) ∗ outPiece d (gridPt c i) (fo m d)) := rfl

omit [FloatOps F] in
/-- Entries held at contents that agree with g on them are held at g. -/
theorem pts_at {ℓ : Loc nD τ sig} {I : Finset (Idx ℓ)} {g : Buf (Elt F) ℓ} :
    iprop(∃ f : Buf (Elt F) ℓ, ⌜∀ x ∈ I, f x = g x⌝ ∗ ℓ ↦[I]{fullShare} f) ⊢ (ℓ ↦[I]{fullShare} g : sProp 𝕄) := by
  iintro ⟨%f, %hf, Hf⟩
  have e : (ℓ ↦[I]{fullShare} f : sProp 𝕄) = ℓ ↦[I]{fullShare} g := pointsTo_congr hf
  rw [← e]; iexact Hf

omit [FloatOps F] in
/-- A subcore's results are its shares and its entries of B at the gathered values. -/
theorem tdP_elim (d : Dev nD) (c : Fin ((K (F := F)).nCore 0)) (i : Fin ((K (F := F)).nSub 0)) :
    tdP m d c i ⊢ iprop((tLoc d ↦{qV (F := F) c i} ft m d) ∗ (iLoc d ↦{qV (F := F) c i} fi m d)
      ∗ outPiece d (gridPt c i) (gathered (ft m d) (fi m d))) := by
  unfold tdP tileOut outPiece
  by_cases h : k0_cond1 (gridPt c i) = 1#1
  · simp only [if_pos h]
    iintro ⟨Ht, Hi, Hf, Hg⟩
    isplitl [Ht]; · iexact Ht
    isplitl [Hi]; · iexact Hi
    isplitl [Hf]
    · iapply pts_at; iexact Hf
    · iapply pts_at; iexact Hg
  · simp only [if_neg h]
    iintro ⟨Ht, Hi, Hf, -⟩
    isplitl [Ht]; · iexact Ht
    isplitl [Hi]; · iexact Hi
    isplitl [Hf]
    · iapply pts_at; iexact Hf
    · iempintro

omit [FloatOps F] in
theorem arrays_eq (d : Dev nD) (g : Buf (Elt F) (oLoc d)) :
    (bigSep Finset.univ fun c : Fin ((K (F := F)).nCore 0) => bigSep Finset.univ fun i : Fin ((K (F := F)).nSub 0) =>
        iprop((tLoc d ↦{qV (F := F) c i} ft m d) ∗ (iLoc d ↦{qV (F := F) c i} fi m d) ∗ outPiece d (gridPt c i) g))
      = (iprop((bigSep Finset.univ fun c : Fin ((K (F := F)).nCore 0) => bigSep Finset.univ fun i : Fin ((K (F := F)).nSub 0) => tLoc d ↦{qV (F := F) c i} ft m d)
          ∗ (bigSep Finset.univ fun c : Fin ((K (F := F)).nCore 0) => bigSep Finset.univ fun i : Fin ((K (F := F)).nSub 0) => iLoc d ↦{qV (F := F) c i} fi m d)
          ∗ bigSep Finset.univ fun c : Fin ((K (F := F)).nCore 0) => bigSep Finset.univ fun i : Fin ((K (F := F)).nSub 0) => outPiece d (gridPt c i) g) : sProp 𝕄) := by
  rw [← bigSep_sep', ← bigSep_sep']
  refine bigSep_congr fun c _ => ?_
  rw [← bigSep_sep', ← bigSep_sep']

omit [FloatOps F] in
theorem st_eq (d : Dev nD) :
    (bigSep Finset.univ fun c : Fin ((K (F := F)).nCore 0) => (P (F := F) m).st 0 d c)
      = (iprop((bigSep Finset.univ fun c : Fin ((K (F := F)).nCore 0) => bigSep Finset.univ fun i : Fin ((K (F := F)).nSub 0) => tLoc d ↦{qV (F := F) c i} ft m d)
          ∗ (bigSep Finset.univ fun c : Fin ((K (F := F)).nCore 0) => bigSep Finset.univ fun i : Fin ((K (F := F)).nSub 0) => iLoc d ↦{qV (F := F) c i} fi m d)
          ∗ bigSep Finset.univ fun c : Fin ((K (F := F)).nCore 0) => bigSep Finset.univ fun i : Fin ((K (F := F)).nSub 0) => outPiece d (gridPt c i) (fo m d)) : sProp 𝕄) := by
  rw [← arrays_eq]; rfl

omit [FloatOps F] in
theorem dn_elim (d : Dev nD) :
    (bigSep Finset.univ fun c : Fin ((K (F := F)).nCore 0) => (P (F := F) m).dn 0 d c)
      ⊢ (iprop((bigSep Finset.univ fun c : Fin ((K (F := F)).nCore 0) => bigSep Finset.univ fun i : Fin ((K (F := F)).nSub 0) => tLoc d ↦{qV (F := F) c i} ft m d)
          ∗ (bigSep Finset.univ fun c : Fin ((K (F := F)).nCore 0) => bigSep Finset.univ fun i : Fin ((K (F := F)).nSub 0) => iLoc d ↦{qV (F := F) c i} fi m d)
          ∗ bigSep Finset.univ fun c : Fin ((K (F := F)).nCore 0) => bigSep Finset.univ fun i : Fin ((K (F := F)).nSub 0) =>
              outPiece d (gridPt c i) (gathered (ft m d) (fi m d))) : sProp 𝕄) := by
  rw [← arrays_eq]
  exact bigSep_mono fun c _ => (Entails.of_eq (P_dn m d c)).trans (bigSep_mono fun i _ => tdP_elim m d c i)

/-! ## @main on the TensorCore -/

abbrev a0' : DevRef τ sig := Proc.devRef .tc (main_arg0 : Ref sig .tc)
abbrev a1' : DevRef τ sig := Proc.devRef .tc (main_arg1 : Ref sig .tc)
abbrev i' : DevRef τ sig := Proc.devRef .tc (main_arg2 : Ref sig .tc)
abbrev t' : DevRef τ sig := Proc.devRef .tc (main_v0 : Ref sig .tc)
abbrev o' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The two broadcasts: B as one batch, then over the 32 batches. -/
abbrev b1 (g : Vec F S16x257x257 .f32) : Vec F S1x16x257x257 .f32 :=
  broadcastInDim S1x16x257x257 ![1, 2, 3] Facts₀.bcast_S16x257x257_S1x16x257x257_1_2_3 g
abbrev b2 (g : Vec F S1x16x257x257 .f32) : Vec F S32x16x257x257 .f32 :=
  broadcastInDim S32x16x257x257 ![0, 1, 2, 3] Facts₀.bcast_S1x16x257x257_S32x16x257x257_0_1_2_3 g

abbrev opR : HloOp τ sig (Elt F) := StableHlo.reshape main_arg1 main_v0 rfl Facts₀.shapeCasts_S964x16_S15424
abbrev opB1 : HloOp τ sig (Elt F) :=
  StableHlo.unary main_v1 main_v2 (b1 : (⟨S16x257x257, .f32⟩ : BufTy).Contents (Elt F) → (⟨S1x16x257x257, .f32⟩ : BufTy).Contents (Elt F))
abbrev opB2 : HloOp τ sig (Elt F) :=
  StableHlo.unary main_v2 main_v3 (b2 : (⟨S1x16x257x257, .f32⟩ : BufTy).Contents (Elt F) → (⟨S32x16x257x257, .f32⟩ : BufTy).Contents (Elt F))
abbrev opAdd : HloOp τ sig (Elt F) :=
  StableHlo.binary main_arg0 main_v3 main_v4 (addf : (⟨S32x16x257x257, .f32⟩ : BufTy).Contents (Elt F) → (⟨S32x16x257x257, .f32⟩ : BufTy).Contents (Elt F) → (⟨S32x16x257x257, .f32⟩ : BufTy).Contents (Elt F))

open Idealize.ShloMosaic.StableHlo (held wp_hlo_within)

omit [FloatOps F] in
theorem held_pair (d : Dev nD) {x y : DevRef τ sig} (h : x ≠ y) (W : Valuation τ sig (Elt F)) :
    (held (T d) {x, y} W : sProp 𝕄) = iprop((((d, x) : Loc nD τ sig) ↦{fullShare} W x) ∗ ((d, y) : Loc nD τ sig) ↦{fullShare} W y) := by
  unfold held
  rw [SparseCore.bigSep_insert' (Finset.notMem_singleton.mpr h), bigSep_singleton]

omit [FloatOps F] in
theorem held_triple (d : Dev nD) {x y z : DevRef τ sig} (hxy : x ≠ y) (hxz : x ≠ z) (hyz : y ≠ z) (W : Valuation τ sig (Elt F)) :
    (held (T d) {x, y, z} W : sProp 𝕄)
      = iprop((((d, x) : Loc nD τ sig) ↦{fullShare} W x) ∗ (((d, y) : Loc nD τ sig) ↦{fullShare} W y) ∗ ((d, z) : Loc nD τ sig) ↦{fullShare} W z) := by
  unfold held
  rw [SparseCore.bigSep_insert' (by rw [Finset.mem_insert, Finset.mem_singleton]; exact fun e => e.elim hxy hxz),
    SparseCore.bigSep_insert' (Finset.notMem_singleton.mpr hyz), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (iLoc d ↦{fullShare} W main_arg2)
      ∗ (tLoc d ↦{fullShare} W main_v0) ∗ (oLoc d ↦{fullShare} W main_v1) ∗ (v2Loc d ↦{fullShare} W main_v2) ∗ (v3Loc d ↦{fullShare} W main_v3)
      ∗ v4Loc d ↦{fullShare} W main_v4) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and it with one array at other contents. -/
def V0 (d : Dev nD) : Valuation τ sig (Elt F) := fun b => m (d, b)
def V1 (d : Dev nD) (b : DevRef τ sig) (f : b.ty.Contents (Elt F)) : Valuation τ sig (Elt F) := Function.update (V0 m d) b f

/-- What @main leaves the claim: the three arguments at their launch contents, the result at its term. -/
abbrev FIN (d : Dev nD) : sProp 𝕄 :=
  iprop((a0Loc d ↦{fullShare} m (a0Loc d)) ∗ (a1Loc d ↦{fullShare} m (a1Loc d)) ∗ (iLoc d ↦{fullShare} m (iLoc d))
    ∗ (v4Loc d ↦{fullShare} kernelTerm (m (a0Loc d)) (m (a1Loc d)) (m (iLoc d))))

theorem hR : (opR (F := F)).bufs ⊆ ({a1', t'} : Finset (DevRef τ sig)) := show ({a1', t'} : Finset (DevRef τ sig)) ⊆ {a1', t'} by decide
theorem hB1 : (opB1 (F := F)).bufs ⊆ ({o', v2'} : Finset (DevRef τ sig)) := show ({o', v2'} : Finset (DevRef τ sig)) ⊆ {o', v2'} by decide
theorem hB2 : (opB2 (F := F)).bufs ⊆ ({v2', v3'} : Finset (DevRef τ sig)) := show ({v2', v3'} : Finset (DevRef τ sig)) ⊆ {v2', v3'} by decide
theorem hAdd : (opAdd (F := F)).bufs ⊆ ({a0', v3', v4'} : Finset (DevRef τ sig)) := show ({a0', v3', v4'} : Finset (DevRef τ sig)) ⊆ {a0', v3', v4'} by decide

theorem postR (d : Dev nD) :
    (held (T d) {a1', t'} ((opR (F := F)).result (V0 m d)) : sProp 𝕄) = iprop((a1Loc d ↦{fullShare} m (a1Loc d)) ∗ (tLoc d ↦{fullShare} ft m d)) := by
  rw [held_pair d (by decide),
    show (opR (F := F)).result (V0 m d) a1' = m (a1Loc d) from (opR (F := F)).result_of_not_mem (V0 m d) (b := a1') (show a1' ∉ ({t'} : Finset (DevRef τ sig)) by decide),
    show (opR (F := F)).result (V0 m d) t' = ft m d from StableHlo.reshape_result main_arg1 main_v0 rfl _ _ _ (V0 m d)]

theorem preB1 (d : Dev nD) (g : Buf (Elt F) (oLoc d)) :
    (held (T d) {o', v2'} (V1 m d o' g) : sProp 𝕄) = iprop((oLoc d ↦{fullShare} g) ∗ (v2Loc d ↦{fullShare} m (v2Loc d))) := by
  rw [held_pair d (by decide), show V1 m d o' g o' = g from Function.update_self _ _ _,
    show V1 m d o' g v2' = m (v2Loc d) from Function.update_of_ne (show v2' ≠ o' by decide) _ _]
theorem postB1 (d : Dev nD) (g : Buf (Elt F) (oLoc d)) :
    (held (T d) {o', v2'} ((opB1 (F := F)).result (V1 m d o' g)) : sProp 𝕄) = iprop((oLoc d ↦{fullShare} g) ∗ (v2Loc d ↦{fullShare} b1 g)) := by
  rw [held_pair d (by decide),
    show (opB1 (F := F)).result (V1 m d o' g) o' = g from
      ((opB1 (F := F)).result_of_not_mem (V1 m d o' g) (b := o') (show o' ∉ ({v2'} : Finset (DevRef τ sig)) by decide)).trans (Function.update_self _ _ _),
    show (opB1 (F := F)).result (V1 m d o' g) v2' = b1 g from
      (StableHlo.unary_result main_v1 main_v2 _ _ _ (V1 m d o' g)).trans (congrArg b1 (Function.update_self _ _ _))]

theorem preB2 (d : Dev nD) (g : Buf (Elt F) (v2Loc d)) :
    (held (T d) {v2', v3'} (V1 m d v2' g) : sProp 𝕄) = iprop((v2Loc d ↦{fullShare} g) ∗ (v3Loc d ↦{fullShare} m (v3Loc d))) := by
  rw [held_pair d (by decide), show V1 m d v2' g v2' = g from Function.update_self _ _ _,
    show V1 m d v2' g v3' = m (v3Loc d) from Function.update_of_ne (show v3' ≠ v2' by decide) _ _]
theorem postB2 (d : Dev nD) (g : Buf (Elt F) (v2Loc d)) :
    (held (T d) {v2', v3'} ((opB2 (F := F)).result (V1 m d v2' g)) : sProp 𝕄) = iprop((v2Loc d ↦{fullShare} g) ∗ (v3Loc d ↦{fullShare} b2 g)) := by
  rw [held_pair d (by decide),
    show (opB2 (F := F)).result (V1 m d v2' g) v2' = g from
      ((opB2 (F := F)).result_of_not_mem (V1 m d v2' g) (b := v2') (show v2' ∉ ({v3'} : Finset (DevRef τ sig)) by decide)).trans (Function.update_self _ _ _),
    show (opB2 (F := F)).result (V1 m d v2' g) v3' = b2 g from
      (StableHlo.unary_result main_v2 main_v3 _ _ _ (V1 m d v2' g)).trans (congrArg b2 (Function.update_self _ _ _))]

theorem preAdd (d : Dev nD) (g : Buf (Elt F) (v3Loc d)) :
    (held (T d) {a0', v3', v4'} (V1 m d v3' g) : sProp 𝕄)
      = iprop((a0Loc d ↦{fullShare} m (a0Loc d)) ∗ (v3Loc d ↦{fullShare} g) ∗ (v4Loc d ↦{fullShare} m (v4Loc d))) := by
  rw [held_triple d (by decide) (by decide) (by decide), show V1 m d v3' g v3' = g from Function.update_self _ _ _,
    show V1 m d v3' g a0' = m (a0Loc d) from Function.update_of_ne (show a0' ≠ v3' by decide) _ _,
    show V1 m d v3' g v4' = m (v4Loc d) from Function.update_of_ne (show v4' ≠ v3' by decide) _ _]
theorem postAdd (d : Dev nD) (g : Buf (Elt F) (v3Loc d)) :
    (held (T d) {a0', v3', v4'} ((opAdd (F := F)).result (V1 m d v3' g)) : sProp 𝕄)
      = iprop((a0Loc d ↦{fullShare} m (a0Loc d)) ∗ (v3Loc d ↦{fullShare} g) ∗ (v4Loc d ↦{fullShare} addf (m (a0Loc d)) g)) := by
  rw [held_triple d (by decide) (by decide) (by decide),
    show (opAdd (F := F)).result (V1 m d v3' g) a0' = m (a0Loc d) from
      ((opAdd (F := F)).result_of_not_mem (V1 m d v3' g) (b := a0') (show a0' ∉ ({v4'} : Finset (DevRef τ sig)) by decide)).trans (Function.update_of_ne (show a0' ≠ v3' by decide) _ _),
    show (opAdd (F := F)).result (V1 m d v3' g) v3' = g from
      ((opAdd (F := F)).result_of_not_mem (V1 m d v3' g) (b := v3') (show v3' ∉ ({v4'} : Finset (DevRef τ sig)) by decide)).trans (Function.update_self _ _ _),
    show (opAdd (F := F)).result (V1 m d v3' g) v4' = addf (m (a0Loc d)) g from
      (StableHlo.binary_result main_arg0 main_v3 main_v4 _ _ _ _ (V1 m d v3' g)).trans
        (congrArg₂ addf (Function.update_of_ne (show a0' ≠ v3' by decide) _ _) (Function.update_self _ _ _))]

/-- @main on device d's TensorCore: the reshape; the call, every subcore handed its read shares and its entries of B and
    giving them back at the gathered values; the two broadcasts and the addition. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hi, Ht, Ho, H2, H3, H4⟩, -, -⟩, -⟩
  -- the table as one row
  iapply (wp_hlo_within 𝒱 (SparseCore.T d) none Set.univ (op := opR) (S := {a1', t'}) hR (V := V0 m d)) $$ [Hb Ha1 Ht]
  · isplitl [Hb]; · iexact Hb
    rw [held_pair d (show a1' ≠ t' by decide)]
    isplitl [Ha1]; · iexact Ha1
    iexact Ht
  iintro ⟨Hb, Hheld⟩
  ihave Hh := (Entails.of_eq (postR m d)) $$ Hheld
  icases Hh with ⟨Ha1, Ht⟩
  rw [wp_ret]; imodintro
  -- the call
  ihave Ht' := (Entails.of_eq (shares_eq (tLoc d) (ft m d))) $$ Ht
  icases Ht' with ⟨Hkt, Htt⟩
  ihave Hi' := (Entails.of_eq (shares_eq (iLoc d) (fi m d))) $$ Hi
  icases Hi' with ⟨Hki, Hit⟩
  ihave Hot := (Entails.of_eq (out_split d (fo m d))) $$ Ho
  iapply ((K (F := F)).wp_run (D (F := F)) 𝒱 (EH := EH) (P := P m) κ d 0) $$ [Hst Htt Hit Hot Hkt Hki Hb Ha0 Ha1 H2 H3 H4]
  isplitr; · iexact Hctx
  isplitl [Hst]; · iexact Hst
  isplitl [Htt Hit Hot]
  · rw [st_eq]
    isplitl [Htt]; · iexact Htt
    isplitl [Hit]; · iexact Hit
    iexact Hot
  iintro ⟨Hst, Hdn⟩
  ihave Hdn' := (dn_elim m d) $$ Hdn
  icases Hdn' with ⟨Htt, Hit, Hot⟩
  ihave Ht := (Entails.of_eq (shares_eq (tLoc d) (ft m d)).symm) $$ [Hkt Htt]
  · isplitl [Hkt]; · iexact Hkt
    iexact Htt
  ihave Hi := (Entails.of_eq (shares_eq (iLoc d) (fi m d)).symm) $$ [Hki Hit]
  · isplitl [Hki]; · iexact Hki
    iexact Hit
  ihave Ho := (Entails.of_eq (out_split d (gathered (ft m d) (fi m d))).symm) $$ Hot
  -- B as one batch
  iapply (wp_hlo_within 𝒱 (SparseCore.T d) none Set.univ (op := opB1) (S := {o', v2'}) hB1 (V := V1 m d o' (gathered (ft m d) (fi m d)))) $$ [Hb Ho H2]
  · isplitl [Hb]; · iexact Hb
    rw [preB1]
    isplitl [Ho]; · iexact Ho
    iexact H2
  iintro ⟨Hb, Hheld⟩
  ihave Hh := (Entails.of_eq (postB1 m d _)) $$ Hheld
  icases Hh with ⟨Ho, H2⟩
  rw [wp_ret]; imodintro
  -- over the 32 batches
  iapply (wp_hlo_within 𝒱 (SparseCore.T d) none Set.univ (op := opB2) (S := {v2', v3'}) hB2 (V := V1 m d v2' (b1 (gathered (ft m d) (fi m d))))) $$ [Hb H2 H3]
  · isplitl [Hb]; · iexact Hb
    rw [preB2]
    isplitl [H2]; · iexact H2
    iexact H3
  iintro ⟨Hb, Hheld⟩
  ihave Hh := (Entails.of_eq (postB2 m d _)) $$ Hheld
  icases Hh with ⟨H2, H3⟩
  rw [wp_ret]; imodintro
  -- the addition
  iapply (wp_hlo_within 𝒱 (SparseCore.T d) none Set.univ (op := opAdd) (S := {a0', v3', v4'}) hAdd (V := V1 m d v3' (b2 (b1 (gathered (ft m d) (fi m d)))))) $$ [Hb Ha0 H3 H4]
  · isplitl [Hb]; · iexact Hb
    rw [preAdd]
    isplitl [Ha0]; · iexact Ha0
    isplitl [H3]; · iexact H3
    iexact H4
  iintro ⟨Hb, Hheld⟩
  ihave Hh := (Entails.of_eq (postAdd m d _)) $$ Hheld
  icases Hh with ⟨Ha0, H3, H4⟩
  rw [wp_ret]; imodintro; imodintro
  isplitl [Hst]; · iexact Hst
  isplitl [Ha0]; · iexact Ha0
  isplitl [Ha1]; · iexact Ha1
  isplitl [Hi]; · iexact Hi
  iexact H4

/-- What the final memory holds on device d. -/
def fq (d : Dev nD) (s' : Phys nD τ sig (Elt F)) : Prop :=
  s'.mem.mem (v4Loc d) = kernelTerm (m (a0Loc d)) (m (a1Loc d)) (m (iLoc d))
    ∧ s'.mem.mem (a0Loc d) = m (a0Loc d) ∧ s'.mem.mem (a1Loc d) = m (a1Loc d) ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Ha0, Ha1, Hi, H4⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := v4Loc d) (I := Finset.univ) (q := fullShare) (f := kernelTerm (m (a0Loc d)) (m (a1Loc d)) (m (iLoc d)))) $$ [HSI H4]
  · isplitl [HSI] <;> iassumption
  icases H with %h4
  ipureintro
  exact ⟨funext fun i => h4 i (Finset.mem_univ i), funext fun i => h0 i (Finset.mem_univ i), funext fun i => h1 i (Finset.mem_univ i),
    funext fun i => h2 i (Finset.mem_univ i)⟩

/-! ## The program's run -/

/-- The result is its term of the arguments, and the arguments are unchanged. -/
def QC : PUnit × MemSt nD τ sig (Elt F) → Prop := fun r => ∀ c : Dev nD,
  r.2.mem ((c.tc : Thread nD τ).loc main_v4)
      = kernelTerm (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

theorem run_main [∀ e, Nonempty (Elt F e)] (hB : BodySpec F) (hr : ∀ d y, (m (iLoc d) y).toNat < 964) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) kFacts v₀
    (fun q hq => match q with | 0 => nomatch hq)
    (fun q _ => match q with | 0 => tileObl m hB kFacts hr)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.KernelIdeal.Launch

end
-- ==== Proof.BlocksW.lean ====
/-
  The vocabulary the kernel's proof is written over. The kernel gathers a table of relative-position biases: its
  result is the array  B[h, r, j] = T[16 · I[r, j] + h]  over h < 16, r, j < 257, where T is the bias table read
  as one row of 964 · 16 numbers and I the array of row indices. Thirty-two vector subcores share the work: subcore
  w = 2 · s + c (s its number on its core, c the core) produces the eight rows r ∈ [8w, 8w + 8) of every head h, and
  the last one, w = 31, also the one remaining row r = 256. Here: the arrays as the subcores address them, the set
  of entries of B each subcore writes, and B itself as a function of T and I.
-/
import proofs.«201633_g9972914061550_cont_9to1c4b_803_29_alg».proof.Kernel
import proofs.«201633_g9972914061550_cont_9to1c4b_803_29_alg».proof.Proof.Gen.Kernel
import Idealize.ShloMosaic.Lib.ValueIdx

noncomputable section

namespace Cert.Kernel.Blocks

open Cert.Kernel Cert.Kernel.Gen
open Idealize.ShloMosaic Idealize.ShloMosaic.ValueIdx

variable {F : FTy → Type}

/-! ## The arrays, as a vector subcore addresses them -/

/-- The table T (one row of 15424 numbers), the indices I, the result B: whole arrays in HBM. -/
abbrev tabM : Memref sig .scVector .hbm S15424 .f32 := Memref.whole main_v0_scv
abbrev idxM : Memref sig .scVector .hbm S257x257 .i32 := Memref.whole main_arg2_scv
abbrev outM : Memref sig .scVector .hbm S16x257x257 .f32 := Memref.whole main_v1_scv
/-- A subcore's own copies: of T, of its nine rows of I, of its nine rows of B. -/
abbrev tabS : Memref sig .scVector .vmem S15424 .f32 := Memref.whole cc0_scratch0
abbrev idxS : Memref sig .scVector .vmem S9x257 .i32 := Memref.whole cc0_scratch1
abbrev outS : Memref sig .scVector .vmem S16x9x257 .f32 := Memref.whole cc0_scratch2

/-! ## What each subcore writes -/

/-- Rows [8w, 8w + 8) of every head: the box the subcore at grid point `L` copies its first eight rows to. -/
abbrev blkRect (L : grid0.Coords) : Rect S16x257x257 := Rect.unit (s := S16x257x257) (k0_off19 L) S16x8x257.size (k0_off19_inb L)
abbrev blkM (L : grid0.Coords) : Memref sig .scVector .hbm S16x8x257 .f32 := outM.slice (blkRect L) (fun _ => rfl)
abbrev blkSet (L : grid0.Coords) : Finset S16x257x257.Idx := (blkM L).view.set

/-- Row 256 of every head: the box the last subcore copies its ninth row to. -/
abbrev lastRect : Rect S16x257x257 := Rect.unit (s := S16x257x257) ![0, 256, 0] S16x1x257.size inb_S16x257x257_S16x1x257_0_256_0
abbrev lastM : Memref sig .scVector .hbm S16x1x257 .f32 := outM.slice lastRect (fun _ => rfl)
abbrev lastSet : Finset S16x257x257.Idx := lastM.view.set

/-- The rows of I a subcore reads: [8w, 8w + 8), and row 256. -/
abbrev idxRect (L : grid0.Coords) : Rect S257x257 := Rect.unit (s := S257x257) (k0_off1 L) S8x257.size (k0_off1_inb L)
abbrev idxRowsM (L : grid0.Coords) : Memref sig .scVector .hbm S8x257 .i32 := idxM.slice (idxRect L) (fun _ => rfl)

/-! ## The result as a function of the table and the indices -/

/-- The position in the table's one row of entry (h, r, j): 16 · I[r, j] + h, as a natural number. -/
def pos (fi : Vec F S257x257 .i32) (x : S16x257x257.Idx) : Nat :=
  (fi (ix2 (x 1) (x 2))).toNat * 16 + (x 0).val

/-- B[h, r, j] = T[16 · I[r, j] + h]  (the position taken modulo the row's length, which changes nothing while every
    index is below 964). -/
def gathered (ft : Vec F S15424 .f32) (fi : Vec F S257x257 .i32) : Vec F S16x257x257 .f32 :=
  fun x => ft (ix1 ⟨pos fi x % 15424, Nat.mod_lt _ (by decide)⟩)

theorem gathered_apply (ft : Vec F S15424 .f32) (fi : Vec F S257x257 .i32) (x : S16x257x257.Idx) (h : pos fi x < 15424) :
    gathered ft fi x = ft (ix1 ⟨pos fi x, h⟩) := by
  unfold gathered; congr 2; exact Fin.ext (Nat.mod_eq_of_lt h)

theorem pos_lt (fi : Vec F S257x257 .i32) (hr : ∀ y, (fi y).toNat < 964) (x : S16x257x257.Idx) : pos fi x < 15424 := by
  have h1 := hr (ix2 (x 1) (x 2)); have h2 : (x 0).val < 16 := (x 0).isLt
  unfold pos; omega

end Cert.Kernel.Blocks

end
-- ==== Proof.SetupW.lean ====
/-
  The launch of the gather kernel: the vocabulary its proof around the kernel body is written over.

  The device runs @main on its TensorCore:  T := reshape(table) (one row of 964 · 16 numbers),  B := the kernel's result
  on two SparseCores × sixteen vector subcores,  out := arg0 + broadcast(broadcast(B)).  The kernel's result is
  B[h, r, j] = T[16 · I[r, j] + h]  (Blocks.gathered). Here: the program as the launch theorem reads it, the ghost state (the
  launch handshakes' rounds beside the local transfers' counters: the kernel only makes local copies and waits for them),
  the locations of @main's arrays, what one vector subcore takes and gives back (tileIn / tileOut), the body's
  specification as a proposition (BodySpec), and what the handshakes carry (P): every subcore a read share of the whole
  table and of the whole index array, and the entries of B it writes — rows [8w, 8w + 8) of every head for subcore
  w = 2 · s + c, and row 256 for the last one.
-/
import proofs.«201633_g9972914061550_cont_9to1c4b_803_29_alg».proof.Proof.BlocksW
import Idealize.ShloMosaic.Lib.SparseCore.Launch
import Idealize.ShloMosaic.Lib.StableHlo.Run
import Idealize.ShloMosaic.Lib.Pipeline.Kit
import Idealize.ShloMosaic.Lib.Transfers
import Idealize.ShloMosaic.Lib.Tactic

noncomputable section

namespace Cert.Kernel.Launch

open Cert.Kernel Cert.Kernel.Gen Cert.Kernel.Blocks

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem kFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

/-- The handshakes' rounds, the left factor; the transfers' counters are found by instance in the right. -/
abbrev EH : Emb UH (MT nD τ sig (HIx 1) (Elt F) ℕ UU ℕ) := embL

/-! ## The arrays -/

abbrev a0Loc (d : Dev nD) : Loc nD τ sig := (SparseCore.T d).loc main_arg0
abbrev a1Loc (d : Dev nD) : Loc nD τ sig := (SparseCore.T d).loc main_arg1
abbrev tLoc (d : Dev nD) : Loc nD τ sig := (SparseCore.T d).loc main_v0
abbrev iLoc (d : Dev nD) : Loc nD τ sig := (SparseCore.T d).loc main_arg2
abbrev oLoc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4

/-- The table as one row: what @main's reshape computes from the 964 × 16 table. -/
abbrev rowOf (a1 : Vec F S964x16 .f32) : Vec F S15424 .f32 := shapeCast S15424 a1 Facts₀.shapeCasts_S964x16_S15424

/-- @main's result as a term of its three arguments: arg0 + B broadcast over the 32 batches. -/
def kernelTerm [FloatOps F] (a0 : Vec F S32x16x257x257 .f32) (a1 : Vec F S964x16 .f32) (a2 : Vec F S257x257 .i32) : Vec F S32x16x257x257 .f32 :=
  addf a0 (broadcastInDim S32x16x257x257 ![0, 1, 2, 3] Facts₀.bcast_S1x16x257x257_S32x16x257x257_0_1_2_3
    (broadcastInDim S1x16x257x257 ![1, 2, 3] Facts₀.bcast_S16x257x257_S1x16x257x257_1_2_3 (gathered (rowOf a1) a2)))

/-! ## One vector subcore's task -/

/-- The grid point of vector subcore s of SparseCore c. -/
def gridPt (c : Fin (grid0.bound 0)) (s : Fin (grid0.bound 1)) : grid0.Coords :=
  fun | 0 => c | 1 => s | ⟨_ + 2, h⟩ => absurd h (Nat.not_lt.2 (Nat.le_add_left _ _))

/-- The thread of the vector subcore at grid point L. -/
abbrev thrOf (d : Dev nD) (L : grid0.Coords) : Thread nD τ := SparseCore.V d ((L 0).castLE Facts₀.hcore0) ((L 1).castLE Facts₀.hsub0)

/-- What the subcore at L takes: read shares of the table and of the indices, whole; the entries of B it writes. -/
def tileIn (d : Dev nD) (L : grid0.Coords) (qT qI : PosShare TreeShare)
    (ft : Buf (Elt F) (tLoc d)) (fi : Buf (Elt F) (iLoc d)) (fo : Buf (Elt F) (oLoc d)) : sProp 𝕄 :=
  iprop((tLoc d ↦{qT} ft) ∗ (iLoc d ↦{qI} fi) ∗ (oLoc d ↦[blkSet L]{fullShare} fo)
    ∗ (if k0_cond1 L = 1#1 then oLoc d ↦[lastSet]{fullShare} fo else emp))

/-- What it gives back: the shares, and its entries of B at the gathered values. -/
def tileOut (d : Dev nD) (L : grid0.Coords) (qT qI : PosShare TreeShare)
    (ft : Buf (Elt F) (tLoc d)) (fi : Buf (Elt F) (iLoc d)) : sProp 𝕄 :=
  iprop((tLoc d ↦{qT} ft) ∗ (iLoc d ↦{qI} fi)
    ∗ (∃ f : Buf (Elt F) (oLoc d), ⌜∀ x ∈ blkSet L, f x = gathered ft fi x⌝ ∗ oLoc d ↦[blkSet L]{fullShare} f)
    ∗ (if k0_cond1 L = 1#1 then ∃ f : Buf (Elt F) (oLoc d), ⌜∀ x ∈ lastSet, f x = gathered ft fi x⌝ ∗ oLoc d ↦[lastSet]{fullShare} f else emp))

/-- The kernel body at a symbolic grid point: from the task's operands and the subcore's scoped storage to the task's
    results, every index of the table it reads in range. -/
def BodySpec (F : FTy → Type) [FloatOps F] : Prop :=
  ∀ (_hF : (K (F := F)).Facts) (d : Dev nD) (L : grid0.Coords) (qT qI : PosShare TreeShare)
    (ft : Buf (Elt F) (tLoc d)) (fi : Buf (Elt F) (iLoc d)) (fo : Buf (Elt F) (oLoc d)) (_hr : ∀ y, (fi y).toNat < 964)
    (O : CellTallies nD τ sig (HIx 1)) (W : Waits sig (HIx 1)) (_hO : ∀ g, O g none = 0),
    iprop(levAts (K (F := F)).L (K (F := F)).lev ∗ emp ∗ tileIn d L qT qI ft fi fo
        ∗ scopedBufs (thrOf d L) ∗ scopedSems0 (thrOf d L) ∗ owes (thrOf d L) O W)
      ⊢ wp frame (wpE (defs₀ (F := F)) 𝒱₀ (thrOf d L) none) Set.univ
          (cc0__sc_gather_body L tabM (Memref.isWhole_whole _) idxM (Memref.isWhole_whole _) outM (Memref.isWhole_whole _)
            tabS (Memref.isWhole_whole _) idxS (Memref.isWhole_whole _) outS (Memref.isWhole_whole _)
            cc0_scoped0 cc0_scoped1 cc0_scoped2 cc0_scoped3 cc0_scoped4)
          fun _ => iprop(tileOut d L qT qI ft fi ∗ scopedBufs (thrOf d L) ∗ scopedSems0 (thrOf d L)
            ∗ ∃ W', ⌜∀ p ∈ W', p ∈ W ∨ p.2 = none⌝ ∗ owes (thrOf d L) O W')

/-! ## What the handshakes carry -/

variable (m : (ℓ : Loc nD τ sig) → Buf (Elt F) ℓ) (ρ : Dev nD → PrngReg)

/-- The three arrays' contents when the call starts. -/
abbrev ft (d : Dev nD) : Buf (Elt F) (tLoc d) := rowOf (m (a1Loc d))
abbrev fi (d : Dev nD) : Buf (Elt F) (iLoc d) := m (iLoc d)
abbrev fo (d : Dev nD) : Buf (Elt F) (oLoc d) := m (oLoc d)

/-- The read shares: the full share's token for SparseCore c, and of that the token for its subcore i. -/
abbrev qC (c : Fin ((K (F := F)).nCore 0)) : PosShare TreeShare := shareTok fullShare ((K (F := F)).nCore 0) c
abbrev qV (c : Fin ((K (F := F)).nCore 0)) (i : Fin ((K (F := F)).nSub 0)) : PosShare TreeShare := shareTok (qC (F := F) c) ((K (F := F)).nSub 0) i

def goP (d : Dev nD) (c : Fin ((K (F := F)).nCore 0)) (i : Fin ((K (F := F)).nSub 0)) : sProp 𝕄 :=
  tileIn d (gridPt c i) (qV (F := F) c i) (qV (F := F) c i) (ft m d) (fi m d) (fo m d)
def tdP (d : Dev nD) (c : Fin ((K (F := F)).nCore 0)) (i : Fin ((K (F := F)).nSub 0)) : sProp 𝕄 :=
  tileOut d (gridPt c i) (qV (F := F) c i) (qV (F := F) c i) (ft m d) (fi m d)

/-- The call hands SparseCore c its subcores' operands and takes their results back; nothing of the launch's is
    consumed by the kernel's proof. -/
def P : (K (F := F)).Pay (nD := nD) (Val := Elt F) (Name := ℕ) (U := UU) where
  st := fun q d c => match q with | 0 => bigSep Finset.univ fun i : Fin ((K (F := F)).nSub 0) => goP m d c i
  dn := fun q d c => match q with | 0 => bigSep Finset.univ fun i : Fin ((K (F := F)).nSub 0) => tdP m d c i
  go := fun q d c i => match q with | 0 => goP m d c i
  td := fun q d c i => match q with | 0 => tdP m d c i
  x := fun _ _ => iprop(emp)

instance goP_storable (d : Dev nD) (c : Fin ((K (F := F)).nCore 0)) (i : Fin ((K (F := F)).nSub 0)) :
    BI.Storable (upEmb : UEmb _ 𝕄) (goP m d c i) := by
  unfold goP tileIn; split <;> infer_instance
instance tdP_storable (d : Dev nD) (c : Fin ((K (F := F)).nCore 0)) (i : Fin ((K (F := F)).nSub 0)) :
    BI.Storable (upEmb : UEmb _ 𝕄) (tdP m d c i) := by
  unfold tdP tileOut; split <;> infer_instance

instance P_storable : (P (F := F) m).IsStorable where
  st q d c := match q with | 0 => (inferInstance : BI.Storable (upEmb : UEmb _ 𝕄) (bigSep Finset.univ fun i : Fin ((K (F := F)).nSub 0) => goP m d c i))
  dn q d c := match q with | 0 => (inferInstance : BI.Storable (upEmb : UEmb _ 𝕄) (bigSep Finset.univ fun i : Fin ((K (F := F)).nSub 0) => tdP m d c i))
  go q d c i := match q with | 0 => goP_storable m d c i
  td q d c i := match q with | 0 => tdP_storable m d c i

theorem P_st (d : Dev nD) (c : Fin ((K (F := F)).nCore 0)) : (P (F := F) m).st 0 d c = bigSep Finset.univ fun i : Fin ((K (F := F)).nSub 0) => goP m d c i := rfl
theorem P_dn (d : Dev nD) (c : Fin ((K (F := F)).nCore 0)) : (P (F := F) m).dn 0 d c = bigSep Finset.univ fun i : Fin ((K (F := F)).nSub 0) => tdP m d c i := rfl
theorem P_go (d : Dev nD) (c : Fin ((K (F := F)).nCore 0)) (i : Fin ((K (F := F)).nSub 0)) : (P (F := F) m).go 0 d c i = goP m d c i := rfl
theorem P_td (d : Dev nD) (c : Fin ((K (F := F)).nCore 0)) (i : Fin ((K (F := F)).nSub 0)) : (P (F := F) m).td 0 d c i = tdP m d c i := rfl

end Cert.Kernel.Launch

end
-- ==== Proof.LaunchW.lean ====
/-
  The launch of the gather kernel, around its body.

  Given the body's specification at a symbolic grid point (Setup.BodySpec) and that every index of the index array is below
  964, the whole program runs: @main reshapes the table into one row T; hands every one of the 2 × 16 vector subcores a
  read share of T and of the index array I (the full share split into one token per SparseCore, each again into one per
  subcore) and the entries of B it writes — rows 16 s + 8 c ≤ r < 16 s + 8 c + 8 of every head for subcore s of SparseCore
  c, and row 256 for the subcore with 2 s + c = 31: 33 sets of rows, pairwise disjoint, covering 0 ≤ r < 257 —; takes them
  back, every entry of B at its gathered value B[h, r, j] = T[16 · I[r, j] + h]; broadcasts B over the 32 batches and adds
  it to arg0. The final memory holds arg0 + broadcast(B) in the result and the three arguments unchanged.
-/
import proofs.«201633_g9972914061550_cont_9to1c4b_803_29_alg».proof.Proof.SetupW

noncomputable section

namespace Cert.Kernel.Launch

open Cert.Kernel Cert.Kernel.Gen Cert.Kernel.Blocks

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)

/-! ## The launch theorem's obligations for the kernel -/

variable [FloatOps F]

theorem defs₀_vector (c : Fin τ.nSC) (s : Fin τ.nSub) :
    defs₀ (F := F) (.scVector c s) 0 ()
      = SparseCore.onTile Facts₀.hcore0 Facts₀.hsub0 (fun c s => cc0__sc_gather_body (gridPt c s)
          tabM (Memref.isWhole_whole _) idxM (Memref.isWhole_whole _) outM (Memref.isWhole_whole _)
          tabS (Memref.isWhole_whole _) idxS (Memref.isWhole_whole _) outS (Memref.isWhole_whole _)
          cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of every vector subcore of the grid is the body at its grid point. -/
theorem tileObl (hB : BodySpec F) (hF : (K (F := F)).Facts) (hr : ∀ d y, (m (iLoc d) y).toNat < 964) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hB hF d (gridPt ⟨_, hc.1⟩ ⟨_, hc.2⟩) (qV (F := F) c i) (qV (F := F) c i) (ft m d) (fi m d) (fo m d) (hr d) O W hO).trans
    (wp_mono frame _ _ fun _ => obl_post)

/-- A SparseCore's operands are its subcores' operands, its results theirs. -/
theorem vecSplit : (K (F := F)).VecSplit' (P m) 0 := by
  intro d c
  rw [P_st, P_dn]
  simp only [P_go, P_td]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The entries of B, subcore by subcore

Subcore (c, s) writes the rows r with 16 s + 8 c ≤ r < 16 s + 8 c + 8 of every head; the subcore with 2 s + c = 31 also
row 256. These 33 sets of rows are pairwise disjoint and cover 0 ≤ r < 257. -/

omit [FloatOps F] in
theorem blkSet_eq (L : grid0.Coords) : blkSet L = (blkRect L).set := View.set_slice_whole _ _
omit [FloatOps F] in
theorem lastSet_eq : lastSet = lastRect.set := View.set_slice_whole _ _

omit [FloatOps F] in
theorem mem_blkSet (L : grid0.Coords) (x : S16x257x257.Idx) :
    x ∈ blkSet L ↔ 16 * (L 1).val + 8 * (L 0).val ≤ (x 1).val ∧ (x 1).val < 16 * (L 1).val + 8 * (L 0).val + 8 := by
  rw [blkSet_eq, Rect.mem_set_unit, k0_off19_eq]
  refine ⟨fun h => h 1, fun h a => ?_⟩
  fin_cases a
  · exact ⟨Nat.zero_le _, (x 0).isLt⟩
  · exact h
  · exact ⟨Nat.zero_le _, (x 2).isLt⟩

omit [FloatOps F] in
theorem mem_lastSet (x : S16x257x257.Idx) : x ∈ lastSet ↔ (x 1).val = 256 := by
  rw [lastSet_eq, Rect.mem_set_unit]
  refine ⟨fun h => ?_, fun h a => ?_⟩
  · have h1 := h 1
    have h2 : 256 ≤ (x 1).val ∧ (x 1).val < 256 + 1 := h1
    omega
  · fin_cases a
    · exact ⟨Nat.zero_le _, (x 0).isLt⟩
    · exact (show 256 ≤ (x 1).val ∧ (x 1).val < 256 + 1 by omega)
    · exact ⟨Nat.zero_le _, (x 2).isLt⟩

omit [FloatOps F] in
theorem cond_iff : ∀ L : grid0.Coords, k0_cond1 L = 1#1 ↔ ((L 0).val = 1 ∧ (L 1).val = 15) := by decide +kernel

/-- Everything subcore (c, s) writes. -/
def piece (p : Fin (grid0.bound 0) × Fin (grid0.bound 1)) : Finset S16x257x257.Idx :=
  blkSet (gridPt p.1 p.2) ∪ (if k0_cond1 (gridPt p.1 p.2) = 1#1 then lastSet else ∅)

omit [FloatOps F] in
theorem mem_piece (p : Fin (grid0.bound 0) × Fin (grid0.bound 1)) (x : S16x257x257.Idx) :
    x ∈ piece p ↔ (16 * p.2.val + 8 * p.1.val ≤ (x 1).val ∧ (x 1).val < 16 * p.2.val + 8 * p.1.val + 8)
      ∨ (p.1.val = 1 ∧ p.2.val = 15 ∧ (x 1).val = 256) := by
  unfold piece
  rw [Finset.mem_union, mem_blkSet]
  refine or_congr Iff.rfl ?_
  by_cases h : k0_cond1 (gridPt p.1 p.2) = 1#1
  · rw [if_pos h, mem_lastSet]
    have := (cond_iff _).mp h
    exact ⟨fun e => ⟨this.1, this.2, e⟩, fun e => e.2.2⟩
  · rw [if_neg h]
    have : ¬ (p.1.val = 1 ∧ p.2.val = 15) := fun e => h ((cond_iff _).mpr e)
    exact ⟨fun e => absurd e (Finset.notMem_empty _), fun e => absurd ⟨e.1, e.2.1⟩ this⟩

omit [FloatOps F] in
theorem pieces_disjoint : ∀ p ∈ (Finset.univ : Finset (Fin (grid0.bound 0) × Fin (grid0.bound 1))), ∀ p' ∈ (Finset.univ : Finset (Fin (grid0.bound 0) × Fin (grid0.bound 1))),
    p ≠ p' → Disjoint (piece p) (piece p') := by
  intro p _ p' _ hne
  rw [Finset.disjoint_left]
  intro x hx hx'
  rw [mem_piece] at hx hx'
  have h1 : p.1.val < 2 := p.1.isLt
  have h2 : p.2.val < 16 := p.2.isLt
  have h1' : p'.1.val < 2 := p'.1.isLt
  have h2' : p'.2.val < 16 := p'.2.isLt
  apply hne
  refine Prod.ext (Fin.ext ?_) (Fin.ext ?_) <;> omega

omit [FloatOps F] in
theorem pieces_cover : (Finset.univ : Finset (Fin (grid0.bound 0) × Fin (grid0.bound 1))).biUnion piece = Finset.univ := by
  ext x
  simp only [Finset.mem_biUnion, Finset.mem_univ, true_and, iff_true]
  have hx : (x 1).val < 257 := (x 1).isLt
  by_cases h : (x 1).val = 256
  · exact ⟨(⟨1, by decide⟩, ⟨15, by decide⟩), (mem_piece _ _).mpr (Or.inr ⟨rfl, rfl, h⟩)⟩
  · refine ⟨(⟨(x 1).val / 8 % 2, Nat.mod_lt _ (by decide)⟩, ⟨(x 1).val / 16, by show (x 1).val / 16 < 16; omega⟩), (mem_piece _ _).mpr (Or.inl ?_)⟩
    show 16 * ((x 1).val / 16) + 8 * ((x 1).val / 8 % 2) ≤ (x 1).val ∧ (x 1).val < 16 * ((x 1).val / 16) + 8 * ((x 1).val / 8 % 2) + 8
    omega

/-- The entries subcore at L writes, at contents f. -/
def outPiece (d : Dev nD) (L : grid0.Coords) (f : Buf (Elt F) (oLoc d)) : sProp 𝕄 :=
  iprop((oLoc d ↦[blkSet L]{fullShare} f) ∗ (if k0_cond1 L = 1#1 then oLoc d ↦[lastSet]{fullShare} f else emp))

omit [FloatOps F] in
theorem blk_last_disjoint (L : grid0.Coords) : Disjoint (blkSet L) lastSet := by
  rw [Finset.disjoint_left]
  intro x hx hx'
  rw [mem_blkSet] at hx; rw [mem_lastSet] at hx'
  have h1 : (L 0).val < 2 := (L 0).isLt
  have h2 : (L 1).val < 16 := (L 1).isLt
  omega

omit [FloatOps F] in
theorem pts_piece (d : Dev nD) (p : Fin (grid0.bound 0) × Fin (grid0.bound 1)) (f : Buf (Elt F) (oLoc d)) :
    (oLoc d ↦[piece p]{fullShare} f : sProp 𝕄) = outPiece d (gridPt p.1 p.2) f := by
  unfold piece outPiece
  by_cases h : k0_cond1 (gridPt p.1 p.2) = 1#1
  · rw [if_pos h, if_pos h]
    have hu : (oLoc d ↦[blkSet (gridPt p.1 p.2) ∪ lastSet]{fullShare} f : sProp 𝕄)
        ⊣⊢ iprop((oLoc d ↦[blkSet (gridPt p.1 p.2)]{fullShare} f) ∗ oLoc d ↦[lastSet]{fullShare} f) :=
      pointsTo_union (ℓ := oLoc d) (blk_last_disjoint (gridPt p.1 p.2))
    exact BI.equiv_iff.mp ⟨hu.1, hu.2⟩
  · rw [if_neg h, if_neg h, Finset.union_empty]
    exact (BI.equiv_iff.mp sep_emp).symm

/-- B whole is every subcore's entries. -/
theorem out_split (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) => outPiece d (gridPt c i) f := by
  rw [← pieces_cover, pointsTo_biUnion Finset.univ (ℓ := oLoc d) piece pieces_disjoint, bigSep_univ_prod]
  exact bigSep_congr fun c _ => bigSep_congr fun i _ => pts_piece d (c, i) f

/-! ## The read shares of an array every subcore reads whole -/

/-- What is kept back while the subcores read: the remainders of the two splits. -/
def keep (ℓ : Loc nD τ sig) (f : Buf (Elt F) ℓ) : sProp 𝕄 :=
  iprop((ℓ ↦{shareDrop fullShare ((K (F := F)).nCore 0)} f)
    ∗ bigSep Finset.univ fun c : Fin ((K (F := F)).nCore 0) => ℓ ↦{shareDrop (qC (F := F) c) ((K (F := F)).nSub 0)} f)

omit [FloatOps F] in
/-- The whole array at the full share is what is kept back and one read share per subcore. -/
theorem shares_eq (ℓ : Loc nD τ sig) (f : Buf (Elt F) ℓ) :
    (ℓ ↦{fullShare} f : sProp 𝕄)
      = iprop(keep ℓ f ∗ bigSep Finset.univ fun c : Fin ((K (F := F)).nCore 0) => bigSep Finset.univ fun i : Fin ((K (F := F)).nSub 0) => ℓ ↦{qV (F := F) c i} f) := by
  unfold keep
  have h1 := Transfers.pointsTo_toks (Lvl := ℕ) (ℓ := ℓ) (S := Finset.univ) (f := f) (Val := Elt F) (Name := ℕ) (U := UU) (Ix := HIx 1) fullShare ((K (F := F)).nCore 0)
  have h2 : ∀ c : Fin ((K (F := F)).nCore 0), (ℓ ↦{qC (F := F) c} f : sProp 𝕄)
      = iprop((ℓ ↦{shareDrop (qC (F := F) c) ((K (F := F)).nSub 0)} f) ∗ bigSep Finset.univ fun i : Fin ((K (F := F)).nSub 0) => ℓ ↦{qV (F := F) c i} f) := fun c =>
    BI.equiv_iff.mp ⟨(Transfers.pointsTo_toks (Lvl := ℕ) (ℓ := ℓ) (S := Finset.univ) (f := f) (Val := Elt F) (Name := ℕ) (U := UU) (Ix := HIx 1) (qC (F := F) c) ((K (F := F)).nSub 0)).1,
      (Transfers.pointsTo_toks (Lvl := ℕ) (ℓ := ℓ) (S := Finset.univ) (f := f) (Val := Elt F) (Name := ℕ) (U := UU) (Ix := HIx 1) (qC (F := F) c) ((K (F := F)).nSub 0)).2⟩
  rw [BI.equiv_iff.mp ⟨h1.1, h1.2⟩, bigSep_congr fun c _ => h2 c, bigSep_sep']
  exact BI.equiv_iff.mp ⟨BI.sep_assoc', BI.sep_assoc⟩

/-! ## A SparseCore's operands and results, array by array -/

omit [FloatOps F] in
theorem goP_eq (d : Dev nD) (c : Fin ((K (F := F)).nCore 0)) (i : Fin ((K (F := F)).nSub 0)) :
    goP m d c i = iprop((tLoc d ↦{qV (F := F) c i} ft m d) ∗ (iLoc d ↦{qV (F := F) c i} fi m d) ∗ outPiece d (gridPt c i) (fo m d)) := rfl

omit [FloatOps F] in
/-- Entries held at contents that agree with g on them are held at g. -/
theorem pts_at {ℓ : Loc nD τ sig} {I : Finset (Idx ℓ)} {g : Buf (Elt F) ℓ} :
    iprop(∃ f : Buf (Elt F) ℓ, ⌜∀ x ∈ I, f x = g x⌝ ∗ ℓ ↦[I]{fullShare} f) ⊢ (ℓ ↦[I]{fullShare} g : sProp 𝕄) := by
  iintro ⟨%f, %hf, Hf⟩
  have e : (ℓ ↦[I]{fullShare} f : sProp 𝕄) = ℓ ↦[I]{fullShare} g := pointsTo_congr hf
  rw [← e]; iexact Hf

omit [FloatOps F] in
/-- A subcore's results are its shares and its entries of B at the gathered values. -/
theorem tdP_elim (d : Dev nD) (c : Fin ((K (F := F)).nCore 0)) (i : Fin ((K (F := F)).nSub 0)) :
    tdP m d c i ⊢ iprop((tLoc d ↦{qV (F := F) c i} ft m d) ∗ (iLoc d ↦{qV (F := F) c i} fi m d)
      ∗ outPiece d (gridPt c i) (gathered (ft m d) (fi m d))) := by
  unfold tdP tileOut outPiece
  by_cases h : k0_cond1 (gridPt c i) = 1#1
  · simp only [if_pos h]
    iintro ⟨Ht, Hi, Hf, Hg⟩
    isplitl [Ht]; · iexact Ht
    isplitl [Hi]; · iexact Hi
    isplitl [Hf]
    · iapply pts_at; iexact Hf
    · iapply pts_at; iexact Hg
  · simp only [if_neg h]
    iintro ⟨Ht, Hi, Hf, -⟩
    isplitl [Ht]; · iexact Ht
    isplitl [Hi]; · iexact Hi
    isplitl [Hf]
    · iapply pts_at; iexact Hf
    · iempintro

omit [FloatOps F] in
theorem arrays_eq (d : Dev nD) (g : Buf (Elt F) (oLoc d)) :
    (bigSep Finset.univ fun c : Fin ((K (F := F)).nCore 0) => bigSep Finset.univ fun i : Fin ((K (F := F)).nSub 0) =>
        iprop((tLoc d ↦{qV (F := F) c i} ft m d) ∗ (iLoc d ↦{qV (F := F) c i} fi m d) ∗ outPiece d (gridPt c i) g))
      = (iprop((bigSep Finset.univ fun c : Fin ((K (F := F)).nCore 0) => bigSep Finset.univ fun i : Fin ((K (F := F)).nSub 0) => tLoc d ↦{qV (F := F) c i} ft m d)
          ∗ (bigSep Finset.univ fun c : Fin ((K (F := F)).nCore 0) => bigSep Finset.univ fun i : Fin ((K (F := F)).nSub 0) => iLoc d ↦{qV (F := F) c i} fi m d)
          ∗ bigSep Finset.univ fun c : Fin ((K (F := F)).nCore 0) => bigSep Finset.univ fun i : Fin ((K (F := F)).nSub 0) => outPiece d (gridPt c i) g) : sProp 𝕄) := by
  rw [← bigSep_sep', ← bigSep_sep']
  refine bigSep_congr fun c _ => ?_
  rw [← bigSep_sep', ← bigSep_sep']

omit [FloatOps F] in
theorem st_eq (d : Dev nD) :
    (bigSep Finset.univ fun c : Fin ((K (F := F)).nCore 0) => (P (F := F) m).st 0 d c)
      = (iprop((bigSep Finset.univ fun c : Fin ((K (F := F)).nCore 0) => bigSep Finset.univ fun i : Fin ((K (F := F)).nSub 0) => tLoc d ↦{qV (F := F) c i} ft m d)
          ∗ (bigSep Finset.univ fun c : Fin ((K (F := F)).nCore 0) => bigSep Finset.univ fun i : Fin ((K (F := F)).nSub 0) => iLoc d ↦{qV (F := F) c i} fi m d)
          ∗ bigSep Finset.univ fun c : Fin ((K (F := F)).nCore 0) => bigSep Finset.univ fun i : Fin ((K (F := F)).nSub 0) => outPiece d (gridPt c i) (fo m d)) : sProp 𝕄) := by
  rw [← arrays_eq]; rfl

omit [FloatOps F] in
theorem dn_elim (d : Dev nD) :
    (bigSep Finset.univ fun c : Fin ((K (F := F)).nCore 0) => (P (F := F) m).dn 0 d c)
      ⊢ (iprop((bigSep Finset.univ fun c : Fin ((K (F := F)).nCore 0) => bigSep Finset.univ fun i : Fin ((K (F := F)).nSub 0) => tLoc d ↦{qV (F := F) c i} ft m d)
          ∗ (bigSep Finset.univ fun c : Fin ((K (F := F)).nCore 0) => bigSep Finset.univ fun i : Fin ((K (F := F)).nSub 0) => iLoc d ↦{qV (F := F) c i} fi m d)
          ∗ bigSep Finset.univ fun c : Fin ((K (F := F)).nCore 0) => bigSep Finset.univ fun i : Fin ((K (F := F)).nSub 0) =>
              outPiece d (gridPt c i) (gathered (ft m d) (fi m d))) : sProp 𝕄) := by
  rw [← arrays_eq]
  exact bigSep_mono fun c _ => (Entails.of_eq (P_dn m d c)).trans (bigSep_mono fun i _ => tdP_elim m d c i)

/-! ## @main on the TensorCore -/

abbrev a0' : DevRef τ sig := Proc.devRef .tc (main_arg0 : Ref sig .tc)
abbrev a1' : DevRef τ sig := Proc.devRef .tc (main_arg1 : Ref sig .tc)
abbrev i' : DevRef τ sig := Proc.devRef .tc (main_arg2 : Ref sig .tc)
abbrev t' : DevRef τ sig := Proc.devRef .tc (main_v0 : Ref sig .tc)
abbrev o' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The two broadcasts: B as one batch, then over the 32 batches. -/
abbrev b1 (g : Vec F S16x257x257 .f32) : Vec F S1x16x257x257 .f32 :=
  broadcastInDim S1x16x257x257 ![1, 2, 3] Facts₀.bcast_S16x257x257_S1x16x257x257_1_2_3 g
abbrev b2 (g : Vec F S1x16x257x257 .f32) : Vec F S32x16x257x257 .f32 :=
  broadcastInDim S32x16x257x257 ![0, 1, 2, 3] Facts₀.bcast_S1x16x257x257_S32x16x257x257_0_1_2_3 g

abbrev opR : HloOp τ sig (Elt F) := StableHlo.reshape main_arg1 main_v0 rfl Facts₀.shapeCasts_S964x16_S15424
abbrev opB1 : HloOp τ sig (Elt F) :=
  StableHlo.unary main_v1 main_v2 (b1 : (⟨S16x257x257, .f32⟩ : BufTy).Contents (Elt F) → (⟨S1x16x257x257, .f32⟩ : BufTy).Contents (Elt F))
abbrev opB2 : HloOp τ sig (Elt F) :=
  StableHlo.unary main_v2 main_v3 (b2 : (⟨S1x16x257x257, .f32⟩ : BufTy).Contents (Elt F) → (⟨S32x16x257x257, .f32⟩ : BufTy).Contents (Elt F))
abbrev opAdd : HloOp τ sig (Elt F) :=
  StableHlo.binary main_arg0 main_v3 main_v4 (addf : (⟨S32x16x257x257, .f32⟩ : BufTy).Contents (Elt F) → (⟨S32x16x257x257, .f32⟩ : BufTy).Contents (Elt F) → (⟨S32x16x257x257, .f32⟩ : BufTy).Contents (Elt F))

open Idealize.ShloMosaic.StableHlo (held wp_hlo_within)

omit [FloatOps F] in
theorem held_pair (d : Dev nD) {x y : DevRef τ sig} (h : x ≠ y) (W : Valuation τ sig (Elt F)) :
    (held (T d) {x, y} W : sProp 𝕄) = iprop((((d, x) : Loc nD τ sig) ↦{fullShare} W x) ∗ ((d, y) : Loc nD τ sig) ↦{fullShare} W y) := by
  unfold held
  rw [SparseCore.bigSep_insert' (Finset.notMem_singleton.mpr h), bigSep_singleton]

omit [FloatOps F] in
theorem held_triple (d : Dev nD) {x y z : DevRef τ sig} (hxy : x ≠ y) (hxz : x ≠ z) (hyz : y ≠ z) (W : Valuation τ sig (Elt F)) :
    (held (T d) {x, y, z} W : sProp 𝕄)
      = iprop((((d, x) : Loc nD τ sig) ↦{fullShare} W x) ∗ (((d, y) : Loc nD τ sig) ↦{fullShare} W y) ∗ ((d, z) : Loc nD τ sig) ↦{fullShare} W z) := by
  unfold held
  rw [SparseCore.bigSep_insert' (by rw [Finset.mem_insert, Finset.mem_singleton]; exact fun e => e.elim hxy hxz),
    SparseCore.bigSep_insert' (Finset.notMem_singleton.mpr hyz), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (iLoc d ↦{fullShare} W main_arg2)
      ∗ (tLoc d ↦{fullShare} W main_v0) ∗ (oLoc d ↦{fullShare} W main_v1) ∗ (v2Loc d ↦{fullShare} W main_v2) ∗ (v3Loc d ↦{fullShare} W main_v3)
      ∗ v4Loc d ↦{fullShare} W main_v4) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and it with one array at other contents. -/
def V0 (d : Dev nD) : Valuation τ sig (Elt F) := fun b => m (d, b)
def V1 (d : Dev nD) (b : DevRef τ sig) (f : b.ty.Contents (Elt F)) : Valuation τ sig (Elt F) := Function.update (V0 m d) b f

/-- What @main leaves the claim: the three arguments at their launch contents, the result at its term. -/
abbrev FIN (d : Dev nD) : sProp 𝕄 :=
  iprop((a0Loc d ↦{fullShare} m (a0Loc d)) ∗ (a1Loc d ↦{fullShare} m (a1Loc d)) ∗ (iLoc d ↦{fullShare} m (iLoc d))
    ∗ (v4Loc d ↦{fullShare} kernelTerm (m (a0Loc d)) (m (a1Loc d)) (m (iLoc d))))

theorem hR : (opR (F := F)).bufs ⊆ ({a1', t'} : Finset (DevRef τ sig)) := show ({a1', t'} : Finset (DevRef τ sig)) ⊆ {a1', t'} by decide
theorem hB1 : (opB1 (F := F)).bufs ⊆ ({o', v2'} : Finset (DevRef τ sig)) := show ({o', v2'} : Finset (DevRef τ sig)) ⊆ {o', v2'} by decide
theorem hB2 : (opB2 (F := F)).bufs ⊆ ({v2', v3'} : Finset (DevRef τ sig)) := show ({v2', v3'} : Finset (DevRef τ sig)) ⊆ {v2', v3'} by decide
theorem hAdd : (opAdd (F := F)).bufs ⊆ ({a0', v3', v4'} : Finset (DevRef τ sig)) := show ({a0', v3', v4'} : Finset (DevRef τ sig)) ⊆ {a0', v3', v4'} by decide

theorem postR (d : Dev nD) :
    (held (T d) {a1', t'} ((opR (F := F)).result (V0 m d)) : sProp 𝕄) = iprop((a1Loc d ↦{fullShare} m (a1Loc d)) ∗ (tLoc d ↦{fullShare} ft m d)) := by
  rw [held_pair d (by decide),
    show (opR (F := F)).result (V0 m d) a1' = m (a1Loc d) from (opR (F := F)).result_of_not_mem (V0 m d) (b := a1') (show a1' ∉ ({t'} : Finset (DevRef τ sig)) by decide),
    show (opR (F := F)).result (V0 m d) t' = ft m d from StableHlo.reshape_result main_arg1 main_v0 rfl _ _ _ (V0 m d)]

theorem preB1 (d : Dev nD) (g : Buf (Elt F) (oLoc d)) :
    (held (T d) {o', v2'} (V1 m d o' g) : sProp 𝕄) = iprop((oLoc d ↦{fullShare} g) ∗ (v2Loc d ↦{fullShare} m (v2Loc d))) := by
  rw [held_pair d (by decide), show V1 m d o' g o' = g from Function.update_self _ _ _,
    show V1 m d o' g v2' = m (v2Loc d) from Function.update_of_ne (show v2' ≠ o' by decide) _ _]
theorem postB1 (d : Dev nD) (g : Buf (Elt F) (oLoc d)) :
    (held (T d) {o', v2'} ((opB1 (F := F)).result (V1 m d o' g)) : sProp 𝕄) = iprop((oLoc d ↦{fullShare} g) ∗ (v2Loc d ↦{fullShare} b1 g)) := by
  rw [held_pair d (by decide),
    show (opB1 (F := F)).result (V1 m d o' g) o' = g from
      ((opB1 (F := F)).result_of_not_mem (V1 m d o' g) (b := o') (show o' ∉ ({v2'} : Finset (DevRef τ sig)) by decide)).trans (Function.update_self _ _ _),
    show (opB1 (F := F)).result (V1 m d o' g) v2' = b1 g from
      (StableHlo.unary_result main_v1 main_v2 _ _ _ (V1 m d o' g)).trans (congrArg b1 (Function.update_self _ _ _))]

theorem preB2 (d : Dev nD) (g : Buf (Elt F) (v2Loc d)) :
    (held (T d) {v2', v3'} (V1 m d v2' g) : sProp 𝕄) = iprop((v2Loc d ↦{fullShare} g) ∗ (v3Loc d ↦{fullShare} m (v3Loc d))) := by
  rw [held_pair d (by decide), show V1 m d v2' g v2' = g from Function.update_self _ _ _,
    show V1 m d v2' g v3' = m (v3Loc d) from Function.update_of_ne (show v3' ≠ v2' by decide) _ _]
theorem postB2 (d : Dev nD) (g : Buf (Elt F) (v2Loc d)) :
    (held (T d) {v2', v3'} ((opB2 (F := F)).result (V1 m d v2' g)) : sProp 𝕄) = iprop((v2Loc d ↦{fullShare} g) ∗ (v3Loc d ↦{fullShare} b2 g)) := by
  rw [held_pair d (by decide),
    show (opB2 (F := F)).result (V1 m d v2' g) v2' = g from
      ((opB2 (F := F)).result_of_not_mem (V1 m d v2' g) (b := v2') (show v2' ∉ ({v3'} : Finset (DevRef τ sig)) by decide)).trans (Function.update_self _ _ _),
    show (opB2 (F := F)).result (V1 m d v2' g) v3' = b2 g from
      (StableHlo.unary_result main_v2 main_v3 _ _ _ (V1 m d v2' g)).trans (congrArg b2 (Function.update_self _ _ _))]

theorem preAdd (d : Dev nD) (g : Buf (Elt F) (v3Loc d)) :
    (held (T d) {a0', v3', v4'} (V1 m d v3' g) : sProp 𝕄)
      = iprop((a0Loc d ↦{fullShare} m (a0Loc d)) ∗ (v3Loc d ↦{fullShare} g) ∗ (v4Loc d ↦{fullShare} m (v4Loc d))) := by
  rw [held_triple d (by decide) (by decide) (by decide), show V1 m d v3' g v3' = g from Function.update_self _ _ _,
    show V1 m d v3' g a0' = m (a0Loc d) from Function.update_of_ne (show a0' ≠ v3' by decide) _ _,
    show V1 m d v3' g v4' = m (v4Loc d) from Function.update_of_ne (show v4' ≠ v3' by decide) _ _]
theorem postAdd (d : Dev nD) (g : Buf (Elt F) (v3Loc d)) :
    (held (T d) {a0', v3', v4'} ((opAdd (F := F)).result (V1 m d v3' g)) : sProp 𝕄)
      = iprop((a0Loc d ↦{fullShare} m (a0Loc d)) ∗ (v3Loc d ↦{fullShare} g) ∗ (v4Loc d ↦{fullShare} addf (m (a0Loc d)) g)) := by
  rw [held_triple d (by decide) (by decide) (by decide),
    show (opAdd (F := F)).result (V1 m d v3' g) a0' = m (a0Loc d) from
      ((opAdd (F := F)).result_of_not_mem (V1 m d v3' g) (b := a0') (show a0' ∉ ({v4'} : Finset (DevRef τ sig)) by decide)).trans (Function.update_of_ne (show a0' ≠ v3' by decide) _ _),
    show (opAdd (F := F)).result (V1 m d v3' g) v3' = g from
      ((opAdd (F := F)).result_of_not_mem (V1 m d v3' g) (b := v3') (show v3' ∉ ({v4'} : Finset (DevRef τ sig)) by decide)).trans (Function.update_self _ _ _),
    show (opAdd (F := F)).result (V1 m d v3' g) v4' = addf (m (a0Loc d)) g from
      (StableHlo.binary_result main_arg0 main_v3 main_v4 _ _ _ _ (V1 m d v3' g)).trans
        (congrArg₂ addf (Function.update_of_ne (show a0' ≠ v3' by decide) _ _) (Function.update_self _ _ _))]

/-- @main on device d's TensorCore: the reshape; the call, every subcore handed its read shares and its entries of B and
    giving them back at the gathered values; the two broadcasts and the addition. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hi, Ht, Ho, H2, H3, H4⟩, -, -⟩, -⟩
  -- the table as one row
  iapply (wp_hlo_within 𝒱 (SparseCore.T d) none Set.univ (op := opR) (S := {a1', t'}) hR (V := V0 m d)) $$ [Hb Ha1 Ht]
  · isplitl [Hb]; · iexact Hb
    rw [held_pair d (show a1' ≠ t' by decide)]
    isplitl [Ha1]; · iexact Ha1
    iexact Ht
  iintro ⟨Hb, Hheld⟩
  ihave Hh := (Entails.of_eq (postR m d)) $$ Hheld
  icases Hh with ⟨Ha1, Ht⟩
  rw [wp_ret]; imodintro
  -- the call
  ihave Ht' := (Entails.of_eq (shares_eq (tLoc d) (ft m d))) $$ Ht
  icases Ht' with ⟨Hkt, Htt⟩
  ihave Hi' := (Entails.of_eq (shares_eq (iLoc d) (fi m d))) $$ Hi
  icases Hi' with ⟨Hki, Hit⟩
  ihave Hot := (Entails.of_eq (out_split d (fo m d))) $$ Ho
  iapply ((K (F := F)).wp_run (D (F := F)) 𝒱 (EH := EH) (P := P m) κ d 0) $$ [Hst Htt Hit Hot Hkt Hki Hb Ha0 Ha1 H2 H3 H4]
  isplitr; · iexact Hctx
  isplitl [Hst]; · iexact Hst
  isplitl [Htt Hit Hot]
  · rw [st_eq]
    isplitl [Htt]; · iexact Htt
    isplitl [Hit]; · iexact Hit
    iexact Hot
  iintro ⟨Hst, Hdn⟩
  ihave Hdn' := (dn_elim m d) $$ Hdn
  icases Hdn' with ⟨Htt, Hit, Hot⟩
  ihave Ht := (Entails.of_eq (shares_eq (tLoc d) (ft m d)).symm) $$ [Hkt Htt]
  · isplitl [Hkt]; · iexact Hkt
    iexact Htt
  ihave Hi := (Entails.of_eq (shares_eq (iLoc d) (fi m d)).symm) $$ [Hki Hit]
  · isplitl [Hki]; · iexact Hki
    iexact Hit
  ihave Ho := (Entails.of_eq (out_split d (gathered (ft m d) (fi m d))).symm) $$ Hot
  -- B as one batch
  iapply (wp_hlo_within 𝒱 (SparseCore.T d) none Set.univ (op := opB1) (S := {o', v2'}) hB1 (V := V1 m d o' (gathered (ft m d) (fi m d)))) $$ [Hb Ho H2]
  · isplitl [Hb]; · iexact Hb
    rw [preB1]
    isplitl [Ho]; · iexact Ho
    iexact H2
  iintro ⟨Hb, Hheld⟩
  ihave Hh := (Entails.of_eq (postB1 m d _)) $$ Hheld
  icases Hh with ⟨Ho, H2⟩
  rw [wp_ret]; imodintro
  -- over the 32 batches
  iapply (wp_hlo_within 𝒱 (SparseCore.T d) none Set.univ (op := opB2) (S := {v2', v3'}) hB2 (V := V1 m d v2' (b1 (gathered (ft m d) (fi m d))))) $$ [Hb H2 H3]
  · isplitl [Hb]; · iexact Hb
    rw [preB2]
    isplitl [H2]; · iexact H2
    iexact H3
  iintro ⟨Hb, Hheld⟩
  ihave Hh := (Entails.of_eq (postB2 m d _)) $$ Hheld
  icases Hh with ⟨H2, H3⟩
  rw [wp_ret]; imodintro
  -- the addition
  iapply (wp_hlo_within 𝒱 (SparseCore.T d) none Set.univ (op := opAdd) (S := {a0', v3', v4'}) hAdd (V := V1 m d v3' (b2 (b1 (gathered (ft m d) (fi m d)))))) $$ [Hb Ha0 H3 H4]
  · isplitl [Hb]; · iexact Hb
    rw [preAdd]
    isplitl [Ha0]; · iexact Ha0
    isplitl [H3]; · iexact H3
    iexact H4
  iintro ⟨Hb, Hheld⟩
  ihave Hh := (Entails.of_eq (postAdd m d _)) $$ Hheld
  icases Hh with ⟨Ha0, H3, H4⟩
  rw [wp_ret]; imodintro; imodintro
  isplitl [Hst]; · iexact Hst
  isplitl [Ha0]; · iexact Ha0
  isplitl [Ha1]; · iexact Ha1
  isplitl [Hi]; · iexact Hi
  iexact H4

/-- What the final memory holds on device d. -/
def fq (d : Dev nD) (s' : Phys nD τ sig (Elt F)) : Prop :=
  s'.mem.mem (v4Loc d) = kernelTerm (m (a0Loc d)) (m (a1Loc d)) (m (iLoc d))
    ∧ s'.mem.mem (a0Loc d) = m (a0Loc d) ∧ s'.mem.mem (a1Loc d) = m (a1Loc d) ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Ha0, Ha1, Hi, H4⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := v4Loc d) (I := Finset.univ) (q := fullShare) (f := kernelTerm (m (a0Loc d)) (m (a1Loc d)) (m (iLoc d)))) $$ [HSI H4]
  · isplitl [HSI] <;> iassumption
  icases H with %h4
  ipureintro
  exact ⟨funext fun i => h4 i (Finset.mem_univ i), funext fun i => h0 i (Finset.mem_univ i), funext fun i => h1 i (Finset.mem_univ i),
    funext fun i => h2 i (Finset.mem_univ i)⟩

/-! ## The program's run -/

/-- The result is its term of the arguments, and the arguments are unchanged. -/
def QC : PUnit × MemSt nD τ sig (Elt F) → Prop := fun r => ∀ c : Dev nD,
  r.2.mem ((c.tc : Thread nD τ).loc main_v4)
      = kernelTerm (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

theorem run_main [∀ e, Nonempty (Elt F e)] (hB : BodySpec F) (hr : ∀ d y, (m (iLoc d) y).toNat < 964) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) kFacts v₀
    (fun q hq => match q with | 0 => nomatch hq)
    (fun q _ => match q with | 0 => tileObl m hB kFacts hr)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Kernel.Launch

end
-- ==== Proof.RefValue.lean ====
import proofs.«201633_g9972914061550_cont_9to1c4b_803_29_alg».proof.Proof.Gen.ReferenceIdeal
import Idealize.ShloMosaic.Lib.StableHlo.Run
import Idealize.ShloMosaic.Lib.ValueIdx
import Idealize.ShloMosaic.Lib.ReduceAll
import Idealize.ShloMosaic.Lib.Pipeline.Value
import Idealize.ShloMosaic.Lib.IdealHost
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

variable {F : FTy → Type} [FloatOps F]

/-- The index array after the wrap: a negative entry has 964 added, any other is kept. -/
def wrapIdx (idx : IVec S66049 32) : IVec S66049 32 :=
  select (cmpi .slt idx (broadcastInDim S66049 ![] bcast_S_S66049 (constantI S_ 32 0#32)))
    (addi idx (broadcastInDim S66049 ![] bcast_S_S66049 (constantI S_ 32 964#32))) idx

/-- The wrapped index array as a column of one-entry start indices. -/
def startIdx (idx : IVec S66049 32) : IVec S66049x1 32 :=
  broadcastInDim S66049x1 ![0] bcast_S66049_S66049x1_0 (wrapIdx idx)

/-- The in-range mask, one bit per gathered row: the start index lies in `[0, 963]`. -/
def inRange (idx : IVec S66049 32) : IVec S66049 1 :=
  Host.reduce IntOp.andi
    (andi (cmpi .sge (startIdx idx) (broadcastInDim S66049x1 ![] bcast_S_S66049x1 (constantI S_ 32 0#32)))
      (cmpi .sle (startIdx idx)
        (broadcastInDim S66049x1 ![0, 1] bcast_S1x1_S66049x1_0_1
          (broadcastInDim S1x1 ![1] bcast_S1_S1x1_1 (constantI S1 32 963#32)))))
    (constantI S_ 1 1#1) reducesTo_S66049x1_S66049_d1 h_S_

/-- Rows of the table taken at the index array: the gathered row where the index is in range, the
    fill constant elsewhere. -/
def takeRows (tbl : FVec F S964x16 .f32) (idx : IVec S66049 32) : FVec F S66049x16 .f32 :=
  select (broadcastInDim S66049x16 ![0] bcast_S66049_S66049x16_0 (inRange idx))
    (Host.gather gather_S964x16_S66049x1_S66049x16_1_0_n_n_0_1_116 tbl (startIdx idx))
    (broadcastInDim S66049x16 ![] bcast_S_S66049x16 (constant S_ .f32 0x7FC00000#32))

/-- The reference's result as one term of its three argument arrays: the rows taken at the flattened
    index array, laid out `[257, 257, 16]`, moved to `[16, 257, 257]`, repeated over the 32 leading
    entries and added to the first argument. -/
def refTerm (a0 : FVec F S32x16x257x257 .f32) (a1 : FVec F S964x16 .f32) (a2 : IVec S257x257 32) :
    FVec F S32x16x257x257 .f32 :=
  addf a0
    (broadcastInDim S32x16x257x257 ![0, 1, 2, 3] bcast_S1x16x257x257_S32x16x257x257_0_1_2_3
      (broadcastInDim S1x16x257x257 ![1, 2, 3] bcast_S16x257x257_S1x16x257x257_1_2_3
        (transpose S16x257x257 [2, 0, 1]
          (shapeCast S257x257x16 (takeRows a1 (shapeCast S66049 a2 shapeCasts_S257x257_S66049))
            shapeCasts_S66049x16_S257x257x16)
          transposes_S257x257x16_S16x257x257_2_0_1)))

/-- The program's operations in order, the two calls unfolded over their buffer records. -/
abbrev ops : List (HloOp τ sig (Elt F)) :=
  [ reshape main_arg2 main_v0 rfl shapeCasts_S257x257_S66049,
    TRef.nullary main_call0.c (constantI S_ 32 0#32),
    TRef.unary main_call0.c main_call0.v0 (broadcastInDim S66049 ![] bcast_S_S66049),
    TRef.binary (.of main_v0) main_call0.v0 main_call0.v1 (cmpi .slt),
    TRef.nullary main_call0.c_0 (constantI S_ 32 964#32),
    TRef.unary main_call0.c_0 main_call0.v2 (broadcastInDim S66049 ![] bcast_S_S66049),
    TRef.binary (.of main_v0) main_call0.v2 main_call0.v3 addi,
    TRef.ternary main_call0.v1 main_call0.v3 (.of main_v0) main_call0.call0.v0 select,
    TRef.unary main_call0.call0.v0 main_call0.v5 (broadcastInDim S66049x1 ![0] bcast_S66049_S66049x1_0),
    TRef.nullary main_call0.c_1 (constantI S1 32 963#32),
    TRef.nullary main_call0.c_2 (constantI S_ 32 0#32),
    TRef.unary main_call0.c_2 main_call0.v6 (broadcastInDim S66049x1 ![] bcast_S_S66049x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S66049x1 ![0, 1] bcast_S1x1_S66049x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S66049x1_S66049_d1 h_S_),
    TRef.binary (.of main_arg1) main_call0.v5 main_call0.v13 (fun x i => Host.gather gather_S964x16_S66049x1_S66049x16_1_0_n_n_0_1_116 x i),
    TRef.unary main_call0.v12 main_call0.v14 (broadcastInDim S66049x16 ![0] bcast_S66049_S66049x16_0),
    TRef.nullary main_call0.cst (constant S_ .f32 0x7FC00000#32),
    TRef.unary main_call0.cst main_call0.v15 (broadcastInDim S66049x16 ![] bcast_S_S66049x16),
    TRef.ternary main_call0.v14 main_call0.v13 main_call0.v15 main_call0.v16 select,
    reshape main_v1 main_v2 rfl shapeCasts_S66049x16_S257x257x16,
    unary main_v2 main_v3 ((transpose S16x257x257 [2, 0, 1] · transposes_S257x257x16_S16x257x257_2_0_1) : (⟨S257x257x16, .f32⟩ : BufTy).Contents (Elt F) → (⟨S16x257x257, .f32⟩ : BufTy).Contents (Elt F)),
    unary main_v3 main_v4 (broadcastInDim S1x16x257x257 ![1, 2, 3] bcast_S16x257x257_S1x16x257x257_1_2_3 : (⟨S16x257x257, .f32⟩ : BufTy).Contents (Elt F) → (⟨S1x16x257x257, .f32⟩ : BufTy).Contents (Elt F)),
    unary main_v4 main_v5 (broadcastInDim S32x16x257x257 ![0, 1, 2, 3] bcast_S1x16x257x257_S32x16x257x257_0_1_2_3 : (⟨S1x16x257x257, .f32⟩ : BufTy).Contents (Elt F) → (⟨S32x16x257x257, .f32⟩ : BufTy).Contents (Elt F)),
    binary main_arg0 main_v5 main_v6 (addf : (⟨S32x16x257x257, .f32⟩ : BufTy).Contents (Elt F) → (⟨S32x16x257x257, .f32⟩ : BufTy).Contents (Elt F) → (⟨S32x16x257x257, .f32⟩ : BufTy).Contents (Elt F)) ]

set_option maxRecDepth 1024 in
/-- The program is that straight line: the two functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    reshape_bufs_sub .., unary_bufs_sub .., unary_bufs_sub .., unary_bufs_sub .., binary_bufs_sub ..⟩

/-- Every buffer after the line, as the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather in
set_option maxRecDepth 8192 in
set_option maxHeartbeats 2000000 in
/-- The fold at the result buffer is `refTerm` of the argument buffers' contents. Both sides are the same
    composition once the typed references' transports reduce (the identity at literal references); the
    reduction and the gather are kept folded, since the equation never looks inside them. -/
theorem out_eq (V : Valuation τ sig (Elt F)) :
    after ops V (main_v6 : DevRef τ sig)
      = refTerm (F := F) (V (main_arg0 : DevRef τ sig)) (V (main_arg1 : DevRef τ sig)) (V (main_arg2 : DevRef τ sig)) := by
  after_results
  unfold refTerm takeRows inRange startIdx wrapIdx
  rfl

/-- No operation writes the first argument's buffer. -/
theorem arg0_eq (V : Valuation τ sig (Elt F)) :
    after ops V (main_arg0 : DevRef τ sig) = V (main_arg0 : DevRef τ sig) := by
  after_results

/-- No operation writes the second argument's buffer. -/
theorem arg1_eq (V : Valuation τ sig (Elt F)) :
    after ops V (main_arg1 : DevRef τ sig) = V (main_arg1 : DevRef τ sig) := by
  after_results

/-- No operation writes the third argument's buffer. -/
theorem arg2_eq (V : Valuation τ sig (Elt F)) :
    after ops V (main_arg2 : DevRef τ sig) = V (main_arg2 : DevRef τ sig) := by
  after_results

/-- From any memory with zero counters every weakly fair execution of the program terminates with the
    result buffer at `refTerm` of the argument buffers' launch contents, the arguments unchanged. -/
theorem ref_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v6)
        = refTerm (F := Ideal) (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run defs _ _).mono (fun _ h c => ⟨(h c main_v6).trans (out_eq _), (h c main_arg0).trans (arg0_eq _),
      (h c main_arg1).trans (arg1_eq _), (h c main_arg2).trans (arg2_eq _)⟩)
    (run_main m g)

/-! ## The result read at an index -/

section At
variable {α : Type}

/-- The program's gather record: whole rows `[1, 16]` of the `[964, 16]` table at one-entry start indices. -/
abbrev G : GatherDims S964x16 S66049x1 S66049x16 := gather_S964x16_S66049x1_S66049x16_1_0_n_n_0_1_116

/-- The gather of whole rows read at `(t, h)`: the table at row the start index `idx[t, 0]`, read signed and
    clamped into `[0, 963]`, column `h`. -/
theorem gather_rows_apply {w : Nat} (x : S964x16.Idx → α) (idx : IVec S66049x1 w) (t : Fin 66049) (h : Fin 16) :
    Host.gather G x idx (ix2 t h)
      = x (ix2 ⟨min (idx (ix2 t (0 : Fin 1))).toInt.toNat 963, by omega⟩ h) := by
  unfold Host.gather
  congr 1
  funext a
  refine Fin.ext ?_
  show G.start (ix2 t h) idx a + G.batchCoord (ix2 t h) a + G.offCoord (ix2 t h) a = _
  rw [GatherDims.batchCoord_eq_zero _ _ _ List.not_mem_nil]
  match a with
  | ⟨0, _⟩ =>
    rw [GatherDims.offCoord_eq_zero _ _ _ (fun hm => ((GatherDims.mem_sKept _ _).mp hm).1 (List.mem_singleton.mpr rfl))]
    simp only [Nat.add_zero]
    unfold GatherDims.start
    rw [dif_pos (show (⟨0, by decide⟩ : Fin 2) ∈ G.startIndexMap from List.mem_singleton.mpr rfl)]
    have hsi : G.siIdx (ix2 t h) ⟨List.idxOf (⟨0, by decide⟩ : Fin 2) G.startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  | ⟨1, _⟩ =>
    have hs : G.start (ix2 t h) idx ⟨1, by decide⟩ = 0 := by
      unfold GatherDims.start
      rw [dif_neg (by decide)]
    have ho : G.offCoord (ix2 t h) ⟨1, by decide⟩ = h.val := by
      unfold GatherDims.offCoord
      rw [dif_pos (by decide)]
      rfl
    rw [hs, ho]
    show 0 + 0 + h.val = h.val
    omega

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A word below 964 reads the same signed as unsigned. -/
theorem toInt_of_lt {v : BitVec 32} (hv : v.toNat < 964) : v.toInt = (v.toNat : Int) := by
  rw [BitVec.toInt_eq_toNat_cond]
  rw [if_pos (by omega)]

/-- A word that read signed lies in `[0, 964)` is below 964 read unsigned. -/
theorem toNat_lt_of_signed {v : BitVec 32} (h0 : 0 ≤ v.toInt) (h1 : v.toInt < 964) : v.toNat < 964 := by
  have hlt := v.isLt
  rw [BitVec.toInt_eq_toNat_cond] at h0 h1
  by_cases hc : 2 * v.toNat < 2 ^ 32
  · rw [if_pos hc] at h1; omega
  · rw [if_neg hc] at h0; omega

/-- In range the wrap keeps the index. -/
theorem wrapIdx_apply (idx : IVec S66049 32) (k : S66049.Idx) (hk : (idx k).toNat < 964) : wrapIdx idx k = idx k := by
  have h0 : IntOp.cmpi .slt (idx k) 0#32 = 0#1 := by
    refine eq_zero_of_ne_one fun h1 => ?_
    have := IntOp.cmpi_slt.1 h1
    rw [toInt_of_lt hk] at this
    simp at this
    omega
  show Scalar.select (IntOp.cmpi .slt (idx k) 0#32) (IntOp.addi (idx k) 964#32) (idx k) = idx k
  rw [h0, select_zero]

end At

section At2

/-- The start index of row `t` is the wrapped index array's entry `t`. -/
theorem startIdx_apply (idx : IVec S66049 32) (t : Fin 66049) (u : Fin 1) :
    startIdx idx (ix2 t u) = wrapIdx idx (ix1 t) := by
  unfold startIdx
  refine broadcastInDim_apply _ _ _ _ (ix1 t) fun a => ?_
  match a with
  | ⟨0, _⟩ => rfl

/-- The in-range mask is 1 at every row when every entry of the index array is below 964. -/
theorem inRange_apply (idx : IVec S66049 32) (hidx : ∀ k, (idx k).toNat < 964) (t : S66049.Idx) :
    inRange idx t = 1#1 := by
  unfold inRange
  rw [Host.reduce_eq_foldl]
  refine foldl_andi_one _ (fun i => ?_) _
  obtain ⟨a, b, rfl⟩ : ∃ a b, i = ix2 a b := ⟨_, _, eq_ix2 i⟩
  show IntOp.andi (IntOp.cmpi .sge (startIdx idx (ix2 a b)) 0#32) (IntOp.cmpi .sle (startIdx idx (ix2 a b)) 963#32) = 1#1
  rw [startIdx_apply, wrapIdx_apply idx _ (hidx _)]
  refine IntOp.andi_eq_one.2 ⟨IntOp.cmpi_sge.2 ?_, IntOp.cmpi_sle.2 ?_⟩
  · rw [toInt_of_lt (hidx _)]; simp
  · rw [toInt_of_lt (hidx _)]
    have := hidx (ix1 a)
    simp
    omega

end At2

section At3

/-- A row taken at an in-range index array, read at `(t, h)`: the table's row at entry `t` of the index array,
    column `h`. In range the mask is 1, the wrap is not taken and the clamp does nothing. -/
theorem takeRows_apply (tbl : FVec F S964x16 .f32) (idx : IVec S66049 32) (hidx : ∀ k, (idx k).toNat < 964)
    (t : Fin 66049) (h : Fin 16) :
    takeRows tbl idx (ix2 t h) = tbl (ix2 ⟨(idx (ix1 t)).toNat, hidx _⟩ h) := by
  unfold takeRows
  rw [select_apply]
  have hm : broadcastInDim S66049x16 ![0] bcast_S66049_S66049x16_0 (inRange idx) (ix2 t h) = 1#1 :=
    inRange_apply idx hidx _
  rw [hm, select_one, gather_rows_apply]
  have hv : min (startIdx idx (ix2 t (0 : Fin 1))).toInt.toNat 963 = (idx (ix1 t)).toNat := by
    rw [startIdx_apply, wrapIdx_apply idx _ (hidx _), toInt_of_lt (hidx _), Int.toNat_natCast]
    have := hidx (ix1 t)
    omega
  refine congrArg tbl (funext fun a => ?_)
  match a with
  | ⟨0, _⟩ => exact Fin.ext hv
  | ⟨1, _⟩ => rfl

/-- THE REFERENCE'S RESULT AT `(b, h, i, j)`, for an index array in range: the first argument's entry plus the
    table's entry at row `a2[i, j]`, column `h`. -/
theorem ref_at (a0 : FVec Ideal S32x16x257x257 .f32) (a1 : FVec Ideal S964x16 .f32) (a2 : IVec S257x257 32)
    (hr : ∀ x : S257x257.Idx, (a2 x).toNat < 964) (b : Fin 32) (h : Fin 16) (i j : Fin 257) :
    refTerm a0 a1 a2 (ix4 b h i j) = a0 (ix4 b h i j) + a1 (ix2 ⟨(a2 (ix2 i j)).toNat, hr _⟩ h) := by
  unfold refTerm
  rw [addf_apply]
  refine congrArg (a0 (ix4 b h i j) + ·) ?_
  refine (broadcastInDim_apply _ _ _ (ix4 b h i j) (ix4 (0 : Fin 1) h i j) (fun a => ?_)).trans ?_
  · match a with
    | ⟨0, _⟩ => rfl
    | ⟨1, _⟩ => rfl
    | ⟨2, _⟩ => rfl
    | ⟨3, _⟩ => rfl
  refine (broadcastInDim_apply _ _ _ (ix4 (0 : Fin 1) h i j) (ix3 h i j) (fun a => ?_)).trans ?_
  · match a with
    | ⟨0, _⟩ => rfl
    | ⟨1, _⟩ => rfl
    | ⟨2, _⟩ => rfl
  refine (transpose_apply _ _ _ (ix3 h i j) (ix3 i j h) (fun a => ?_)).trans ?_
  · match a with
    | ⟨0, _⟩ => rfl
    | ⟨1, _⟩ => rfl
    | ⟨2, _⟩ => rfl
  have hij : i.val * 257 + j.val < 66049 := by omega
  refine (shapeCast_apply _ _ (ix3 i j h) (ix2 ⟨i.val * 257 + j.val, hij⟩ h) ?_).trans ?_
  · rw [Shape.rowMajor_val_two, Shape.rowMajor_val_three]
    rfl
  have hidx : ∀ k, (shapeCast S66049 a2 shapeCasts_S257x257_S66049 k).toNat < 964 := fun k => hr _
  rw [takeRows_apply a1 _ hidx]
  have hs : shapeCast S66049 a2 shapeCasts_S257x257_S66049 (ix1 ⟨i.val * 257 + j.val, hij⟩) = a2 (ix2 i j) :=
    shapeCast_apply _ _ _ _ (by rw [Shape.rowMajor_val_two, Shape.rowMajor_val_one]; rfl)
  refine congrArg a1 (funext fun a => ?_)
  match a with
  | ⟨0, _⟩ => exact Fin.ext (congrArg BitVec.toNat hs)
  | ⟨1, _⟩ => rfl

end At3

end Cert.ReferenceIdeal.RefValue

end
-- ==== Proof.Bridge.lean ====
/-
  The idealized kernel's result and the reference's result are one function of the three argument arrays, provided
  every entry of the index array is below 964: at index (b, h, i, j) both are  a0[b, h, i, j] + a1[a2[i, j], h].
  On the kernel's side the table is read as one row of 964 · 16 numbers at position 16 · a2[i, j] + h, which is
  row a2[i, j], column h of the table.
-/
import proofs.«201633_g9972914061550_cont_9to1c4b_803_29_alg».proof.Proof.Setup
import proofs.«201633_g9972914061550_cont_9to1c4b_803_29_alg».proof.Proof.RefValue
import Idealize.ShloMosaic.Lib.Pipeline.Value
import Idealize.ShloMosaic.Lib.ValueIdx

noncomputable section

namespace Cert.Bridge

open Idealize.ShloMosaic Idealize.ShloMosaic.ValueIdx

/-- The kernel's term at `(b, h, i, j)`, for an index array in range: the first argument's entry plus the table's
    entry at row `a2[i, j]`, column `h`. -/
theorem kernelTerm_at (a0 : FVec Ideal Cert.KernelIdeal.S32x16x257x257 .f32) (a1 : FVec Ideal Cert.KernelIdeal.S964x16 .f32)
    (a2 : IVec Cert.KernelIdeal.S257x257 32) (hr : ∀ x : Cert.KernelIdeal.S257x257.Idx, (a2 x).toNat < 964)
    (b : Fin 32) (h : Fin 16) (i j : Fin 257) :
    Cert.KernelIdeal.Launch.kernelTerm (F := Ideal) a0 a1 a2 (ix4 b h i j)
      = a0 (ix4 b h i j) + a1 (ix2 ⟨(a2 (ix2 i j)).toNat, hr _⟩ h) := by
  unfold Cert.KernelIdeal.Launch.kernelTerm
  rw [addf_apply]
  refine congrArg (a0 (ix4 b h i j) + ·) ?_
  refine (broadcastInDim_apply _ _ _ (ix4 b h i j) (ix4 (0 : Fin 1) h i j) (fun a => ?_)).trans ?_
  · match a with
    | ⟨0, _⟩ => rfl
    | ⟨1, _⟩ => rfl
    | ⟨2, _⟩ => rfl
    | ⟨3, _⟩ => rfl
  refine (broadcastInDim_apply _ _ _ (ix4 (0 : Fin 1) h i j) (ix3 h i j) (fun a => ?_)).trans ?_
  · match a with
    | ⟨0, _⟩ => rfl
    | ⟨1, _⟩ => rfl
    | ⟨2, _⟩ => rfl
  rw [Cert.KernelIdeal.Blocks.gathered_apply _ _ _ (Cert.KernelIdeal.Blocks.pos_lt a2 hr _)]
  exact shapeCast_apply _ _ _ _ (by rw [Shape.rowMajor_val_two, Shape.rowMajor_val_one]; rfl)

/-- For an index array in range the kernel's term and the reference's term are equal. -/
theorem kernel_eq_ref (a0 : FVec Ideal Cert.KernelIdeal.S32x16x257x257 .f32) (a1 : FVec Ideal Cert.KernelIdeal.S964x16 .f32)
    (a2 : IVec Cert.KernelIdeal.S257x257 32) (hr : ∀ x : Cert.KernelIdeal.S257x257.Idx, (a2 x).toNat < 964) :
    Cert.KernelIdeal.Launch.kernelTerm (F := Ideal) a0 a1 a2 = Cert.ReferenceIdeal.RefValue.refTerm (F := Ideal) a0 a1 a2 := by
  funext x
  obtain ⟨b, h, i, j, rfl⟩ : ∃ b h i j, x = ix4 b h i j := ⟨_, _, _, _, eq_ix4 x⟩
  rw [kernelTerm_at a0 a1 a2 hr]
  exact (Cert.ReferenceIdeal.RefValue.ref_at a0 a1 a2 hr b h i j).symm

end Cert.Bridge

end
-- ==== Proof.Own.lean ====
/-
  What one vector subcore owns, split into the pieces the kernel body uses and the rest. A vector subcore owns its
  scoped semaphores, each at zero, and its scoped buffers, each whole at some contents. The body uses five DMA
  semaphores and three scratch buffers; each is a member of the owned family, and they are pairwise distinct, so the
  family's separating conjunction is the eight of them beside the conjunction over the family with them erased.
-/
import proofs.«201633_g9972914061550_cont_9to1c4b_803_29_alg».proof.Proof.Setup
import Idealize.ShloMosaic.Lib.SparseCore.Launch

noncomputable section

namespace Cert.KernelIdeal.Own

open Cert.KernelIdeal Cert.KernelIdeal.Gen Cert.KernelIdeal.Blocks Cert.KernelIdeal.Launch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (c : Fin τ.nSC) (i : Fin τ.nSub)

/-! ## The five semaphore cells -/

abbrev cell0 : GSem nD τ sig := (V d c i, .dma cc0_scoped0.sem)
abbrev cell1 : GSem nD τ sig := (V d c i, .dma cc0_scoped1.sem)
abbrev cell2 : GSem nD τ sig := (V d c i, .dma cc0_scoped2.sem)
abbrev cell3 : GSem nD τ sig := (V d c i, .dma cc0_scoped3.sem)
abbrev cell4 : GSem nD τ sig := (V d c i, .dma cc0_scoped4.sem)

/-- Two cells of one thread differ when their semaphores do. -/
theorem cell_ne (thr : Thread nD τ) (a b : SemLoc sig) (h : a ≠ b) : ((thr, a) : GSem nD τ sig) ≠ (thr, b) :=
  fun e => h (congrArg Prod.snd e)

/-- A scoped DMA semaphore of the thread is one of its own cells. -/
theorem mem_own (a : SemLoc sig) (h : a.isScoped .scVector = true) : ((V d c i, a) : GSem nD τ sig) ∈ ownCells (V d c i) :=
  mem_ownCells.mpr ⟨rfl, h⟩

theorem ownSems0_V :
    (ownSems0 (V d c i) : sProp 𝕄)
      = iprop(semVal (cell0 d c i) 0 ∗ semVal (cell1 d c i) 0 ∗ semVal (cell2 d c i) 0 ∗ semVal (cell3 d c i) 0 ∗ semVal (cell4 d c i) 0
          ∗ bigSep ((((((ownCells (V d c i)).erase (cell0 d c i)).erase (cell1 d c i)).erase (cell2 d c i)).erase (cell3 d c i)).erase (cell4 d c i))
              fun g => semVal g 0) := by
  have m0 := mem_own d c i (.dma cc0_scoped0.sem) (by decide)
  have m1 := mem_own d c i (.dma cc0_scoped1.sem) (by decide)
  have m2 := mem_own d c i (.dma cc0_scoped2.sem) (by decide)
  have m3 := mem_own d c i (.dma cc0_scoped3.sem) (by decide)
  have m4 := mem_own d c i (.dma cc0_scoped4.sem) (by decide)
  have n10 := cell_ne (V d c i) (.dma cc0_scoped1.sem) (.dma cc0_scoped0.sem) (by decide)
  have n20 := cell_ne (V d c i) (.dma cc0_scoped2.sem) (.dma cc0_scoped0.sem) (by decide)
  have n21 := cell_ne (V d c i) (.dma cc0_scoped2.sem) (.dma cc0_scoped1.sem) (by decide)
  have n30 := cell_ne (V d c i) (.dma cc0_scoped3.sem) (.dma cc0_scoped0.sem) (by decide)
  have n31 := cell_ne (V d c i) (.dma cc0_scoped3.sem) (.dma cc0_scoped1.sem) (by decide)
  have n32 := cell_ne (V d c i) (.dma cc0_scoped3.sem) (.dma cc0_scoped2.sem) (by decide)
  have n40 := cell_ne (V d c i) (.dma cc0_scoped4.sem) (.dma cc0_scoped0.sem) (by decide)
  have n41 := cell_ne (V d c i) (.dma cc0_scoped4.sem) (.dma cc0_scoped1.sem) (by decide)
  have n42 := cell_ne (V d c i) (.dma cc0_scoped4.sem) (.dma cc0_scoped2.sem) (by decide)
  have n43 := cell_ne (V d c i) (.dma cc0_scoped4.sem) (.dma cc0_scoped3.sem) (by decide)
  unfold SparseCore.Cfg.ownSems0
  rw [SparseCore.bigSep_erase' m0,
    SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩),
    SparseCore.bigSep_erase' (Finset.mem_erase.mpr ⟨n43, Finset.mem_erase.mpr ⟨n42, Finset.mem_erase.mpr ⟨n41,
      Finset.mem_erase.mpr ⟨n40, m4⟩⟩⟩⟩)]

/-! ## The three scratch buffers -/

/-- A scratch buffer of the vector subcore is one of its own buffers. -/
theorem mem_ownR (b : Ref sig .scVector) (h : ((Proc.scVector c i : Proc τ).devRef b).owner = .proc (.scVector c i)) :
    (Proc.scVector c i : Proc τ).devRef b ∈ ownRefs (τ := τ) (sig := sig) (.scVector c i) :=
  SparseCore.Cfg.mem_ownRefs_of_owner (p := Proc.scVector c i) (b := (Proc.scVector c i).devRef b) h

/-- Two buffers of one processor differ when their references do. -/
theorem devRef_ne (a b : Ref sig .scVector) (h : a ≠ b) : (Proc.scVector c i : Proc τ).devRef a ≠ (Proc.scVector c i).devRef b :=
  fun e => h (Proc.devRef_injective _ e)

theorem ownBufs_V :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f)
          ∗ bigSep ((((ownRefs (τ := τ) (.scVector c i)).erase ((Proc.scVector c i).devRef cc0_scratch0)).erase
              ((Proc.scVector c i).devRef cc0_scratch1)).erase ((Proc.scVector c i).devRef cc0_scratch2))
              fun b => iprop(∃ f, ((d, b) : Loc nD τ sig) ↦{fullShare} f)) := by
  have m0 := mem_ownR c i cc0_scratch0 rfl
  have m1 := mem_ownR c i cc0_scratch1 rfl
  have m2 := mem_ownR c i cc0_scratch2 rfl
  have n10 := devRef_ne c i cc0_scratch1 cc0_scratch0 (by decide)
  have n20 := devRef_ne c i cc0_scratch2 cc0_scratch0 (by decide)
  have n21 := devRef_ne c i cc0_scratch2 cc0_scratch1 (by decide)
  unfold SparseCore.Cfg.ownBufs
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩)]

/-! ## The scratch memrefs' points-to, at the subcore's own locations -/

theorem pts_tabS (q : PosShare TreeShare) (f : Buf (Elt F) ((V d c i).loc cc0_scratch0)) :
    ((tabS : Memref sig .scVector .vmem S15424 .f32).view.loc (V d c i) ↦{q} f : sProp 𝕄) = ((V d c i).loc cc0_scratch0 ↦{q} f) := rfl
theorem pts_idxS (q : PosShare TreeShare) (f : Buf (Elt F) ((V d c i).loc cc0_scratch1)) :
    ((idxS : Memref sig .scVector .vmem S9x257 .i32).view.loc (V d c i) ↦{q} f : sProp 𝕄) = ((V d c i).loc cc0_scratch1 ↦{q} f) := rfl
theorem pts_outS (q : PosShare TreeShare) (f : Buf (Elt F) ((V d c i).loc cc0_scratch2)) :
    ((outS : Memref sig .scVector .vmem S16x9x257 .f32).view.loc (V d c i) ↦{q} f : sProp 𝕄) = ((V d c i).loc cc0_scratch2 ↦{q} f) := rfl

/-- The same with the points-to restricted to the memref's own element set, which is everything. -/
theorem pts_tabS_set (q : PosShare TreeShare) (f : Buf (Elt F) ((V d c i).loc cc0_scratch0)) :
    ((tabS : Memref sig .scVector .vmem S15424 .f32).view.loc (V d c i) ↦[(tabS : Memref sig .scVector .vmem S15424 .f32).view.set]{q} f : sProp 𝕄)
      = ((V d c i).loc cc0_scratch0 ↦{q} f) := by
  simp only [Memref.view_whole, View.set_whole]
theorem pts_idxS_set (q : PosShare TreeShare) (f : Buf (Elt F) ((V d c i).loc cc0_scratch1)) :
    ((idxS : Memref sig .scVector .vmem S9x257 .i32).view.loc (V d c i) ↦[(idxS : Memref sig .scVector .vmem S9x257 .i32).view.set]{q} f : sProp 𝕄)
      = ((V d c i).loc cc0_scratch1 ↦{q} f) := by
  simp only [Memref.view_whole, View.set_whole]
theorem pts_outS_set (q : PosShare TreeShare) (f : Buf (Elt F) ((V d c i).loc cc0_scratch2)) :
    ((outS : Memref sig .scVector .vmem S16x9x257 .f32).view.loc (V d c i) ↦[(outS : Memref sig .scVector .vmem S16x9x257 .f32).view.set]{q} f : sProp 𝕄)
      = ((V d c i).loc cc0_scratch2 ↦{q} f) := by
  simp only [Memref.view_whole, View.set_whole]

end Cert.KernelIdeal.Own

end
-- ==== Proof.Piece.lean ====
/-
  One step of a subcore's work, as pure facts about arrays. The subcore holds a copy `t` of the table's one row
  (15424 numbers), a copy `s` of nine rows of indices ([9, 257]) and fills `g`, nine rows of every head
  ([16, 9, 257]), aiming at  g[h, r, j] = t[16 · s[r, j] + h].  Sixteen indices at a time (a chunk of row r starting at
  column 16 c) are multiplied by sixteen, the head's number added, the table read at those positions and the sixteen
  numbers stored at (h, r, 16 c …). Here: the aim as a function, a chunk of indices read lane by lane, and that what
  such a step stores is the aim on the box it stores to.
-/
import proofs.«201633_g9972914061550_cont_9to1c4b_803_29_alg».proof.Proof.Blocks
import proofs.«201633_g9972914061550_cont_9to1c4b_803_29_alg».proof.Proof.PreRange
import Idealize.ShloMosaic.Lib.Pipeline.Value
import Idealize.ShloMosaic.Lib.Writes

noncomputable section

namespace Cert.KernelIdeal.Piece

open Cert.KernelIdeal Cert.KernelIdeal.Gen Cert.KernelIdeal.Blocks
open Idealize.ShloMosaic Idealize.ShloMosaic.ValueIdx

variable {F : FTy → Type} [FloatOps F]

/-- The aim: entry (h, r, j) of the subcore's rows is the table's number at position 16 · s[r, j] + h (taken modulo
    the row's length, which changes nothing while the index is below 964). -/
def aim (t : Vec F S15424 .f32) (s : Vec F S9x257 .i32) : Vec F S16x9x257 .f32 :=
  fun y => t (ix1 ⟨((s (ix2 (y 1) (y 2))).toNat * 16 + (y 0).val) % 15424, Nat.mod_lt _ (by decide)⟩)

/-- Sixteen consecutive indices of row `r` from column `16 c`, as the load of that box reads them: lane `x` is
    s[r, 16 c + x]. -/
theorem chunk_apply (s : Vec F S9x257 .i32) (off : Fin 2 → Nat) (inb : ∀ a, off a + S1x16.size a ≤ S9x257.size a)
    (r : Fin 9) (c : Fin 16) (e : off = ![r.val, 16 * c.val]) (x : S16.Idx) :
    shapeCast S16 (View.readAt (Elt F) idxS.view (Rect.unit (s := S9x257) off S1x16.size inb).toLoadRect s) shapeCasts_S1x16_S16 x
      = s (ix2 r ⟨16 * c.val + (x 0).val, by have := (x 0).isLt; have := c.isLt; simp at *; omega⟩) := by
  subst e
  refine (shapeCast_apply (s := S1x16) (t := S16) _ shapeCasts_S1x16_S16 x (ix2 (0 : Fin 1) (x 0)) ?_).trans ?_
  · rw [Shape.rowMajor_val_two, Shape.rowMajor_val_one]; simp
  · show s ((Rect.unit (s := S9x257) ![r.val, 16 * c.val] S1x16.size inb).toLoadRect.idx (ix2 (0 : Fin 1) (x 0))) = s _
    congr 1
    funext a
    apply Fin.ext
    rw [LoadRect.idx_apply]
    match a with
    | ⟨0, _⟩ => show r.val + 1 * 0 = r.val; omega
    | ⟨1, _⟩ => show 16 * c.val + 1 * (x 0).val = 16 * c.val + (x 0).val; omega

/-- What one step stores is the aim on its box: with `ch` the chunk of indices s[r, 16 c …] (each below 964) and
    `hw` the head's number as a word, lane x of the table read at 16 · ch + hw is t[16 · s[r, 16 c + x] + h], which is
    the aim at (h, r, 16 c + x), the element of the box [h, r, 16 c …] that lane lands on. -/
theorem piece_ok (t : Vec F S15424 .f32) (s : Vec F S9x257 .i32) (ch : IVec S16 32)
    (r : Fin 9) (c : Fin 16) (h : Fin 16) (hw : BitVec 32) (hhw : hw.toNat = h.val)
    (hch : ∀ x : S16.Idx, ∃ hlt, ch x = s (ix2 r ⟨16 * c.val + (x 0).val, hlt⟩))
    (hlt : ∀ x, (ch x).toNat < 964)
    (off : Fin 3 → Nat) (inb : ∀ a, off a + S1x1x16.size a ≤ S16x9x257.size a) (e : off = ![h.val, r.val, 16 * c.val])
    (hin : ∀ a x, ((![addi (muli ch (broadcast S16 16#32)) (broadcast S16 hw)] : Fin 1 → IVec S16 32) a x).toNat < S15424.size a)
    (x : S1x1x16.Idx) :
    shapeCast S1x1x16 (loadIdx (View.readAt (Elt F) tabS.view (LoadRect.whole S15424) t)
        ![addi (muli ch (broadcast S16 16#32)) (broadcast S16 hw)] hin) shapeCasts_S16_S1x1x16 x
      = aim t s ((Rect.unit (s := S16x9x257) off S1x1x16.size inb).emb x) := by
  subst e
  have hx0 : (x 0).val = 0 := by have := (x 0).isLt; simp at this; omega
  have hx1 : (x 1).val = 0 := by have := (x 1).isLt; simp at this; omega
  refine (shapeCast_apply (s := S16) (t := S1x1x16) _ shapeCasts_S16_S1x1x16 x (ix1 (x 2)) ?_).trans ?_
  · rw [Shape.rowMajor_val_one, Shape.rowMajor_val_three, hx0, hx1]; simp
  · have hl := Cert.PreRange.lane_mul16_add_splat ch hw (ix1 (x 2)) (hlt _) (by omega)
    obtain ⟨hb, hc⟩ := hch (ix1 (x 2))
    have hb' : 16 * c.val + (x 2).val < 257 := hb
    have E : (Rect.unit (s := S16x9x257) ![h.val, r.val, 16 * c.val] S1x1x16.size inb).emb x
        = (ix3 h r (⟨16 * c.val + (x 2).val, hb'⟩ : Fin 257) : S16x9x257.Idx) := by
      funext a; apply Fin.ext; rw [Rect.emb_apply]
      match a with
      | ⟨0, _⟩ => show h.val + 1 * (x 0).val = h.val; omega
      | ⟨1, _⟩ => show r.val + 1 * (x 1).val = r.val; omega
      | ⟨2, _⟩ => show 16 * c.val + 1 * (x 2).val = 16 * c.val + (x 2).val; omega
    refine Eq.trans ?_ (congrArg (aim t s) E).symm
    show t ((LoadRect.whole S15424).idx (idxAt ![addi (muli ch (broadcast S16 16#32)) (broadcast S16 hw)] hin (ix1 (x 2))))
      = t (ix1 ⟨((s (ix2 r (⟨16 * c.val + (x 2).val, hb'⟩ : Fin 257))).toNat * 16 + h.val) % 15424, Nat.mod_lt _ (by decide)⟩)
    congr 1
    funext a
    apply Fin.ext
    rw [LoadRect.idx_apply]
    match a with
    | ⟨0, _⟩ =>
      show 0 + 1 * (addi (muli ch (broadcast S16 16#32)) (broadcast S16 hw) (ix1 (x 2))).toNat
        = ((s (ix2 r (⟨16 * c.val + (x 2).val, hb'⟩ : Fin 257))).toNat * 16 + h.val) % 15424
      have hc' : (ch (ix1 (x 2))).toNat = (s (ix2 r (⟨16 * c.val + (x 2).val, hb'⟩ : Fin 257))).toNat := congrArg BitVec.toNat hc
      have h1 := hl.1
      have h2 := hl.2
      rw [hhw] at h1 h2
      rw [Nat.zero_add, Nat.one_mul, h1, ← hc', Nat.mod_eq_of_lt h2]

end Cert.KernelIdeal.Piece

end
-- ==== Proof.Fill.lean ====
/-
  What a run of stores leaves in a buffer, read at one element.
  (1) A list of unmasked stores through boxes, every payload agreeing with one function G of the shape: an element
      some box covers reads G, an element no box covers keeps what it held; so G holds on the union of the boxes
      and any set on which the prior contents already agreed with G.
  (2) An indexed store (a scatter) of a rank-one vector, every lane enabled, overwriting: when distinct lanes name
      distinct elements, the element lane k names holds lane k of the stored vector, and an element no lane names
      keeps its contents. By induction over the lanes, the fold generalised over its accumulator.
  (3) The scatter whose index vectors are (lane number, a constant row a, the constant column 256) into a
      [16, 9, 257] array: lane h names element (h, a, 256).
-/
import proofs.«201633_g9972914061550_cont_9to1c4b_803_29_alg».proof.KernelIdeal
import Idealize.ShloMosaic.Lib.Writes
import Idealize.ShloMosaic.Lib.ValueIdx
import Idealize.ShloMosaic.PureOps.ShapeOps

noncomputable section

namespace Cert.KernelIdeal.Fill

open Idealize.ShloMosaic Cert.KernelIdeal

/-! ## (1) Unmasked stores through boxes, all agreeing with one function -/

section Writes
variable {sig : RefSig} {κ : Kind} {sp : Space} {s : Shape} {e : EltTy} {Val : EltTy → Type}

/-- After stores whose payloads all agree with G, G holds wherever a box covers or the prior contents agreed. -/
theorem writes_agree (v : View sig κ sp s e) (f : v.ty.Contents Val) (G : s.Idx → Val e)
    (L : List (View.Piece Val s e)) (A : s.Idx → Prop)
    (hf : ∀ y, A y → v.read Val f y = G y)
    (hL : ∀ p ∈ L, ∀ x : p.1.shape.Idx, p.2 x = G (p.1.emb x)) :
    ∀ y, (A y ∨ ∃ p ∈ L, y ∈ p.1.set) → v.read Val (v.writes Val f L) y = G y := by
  intro y hy
  by_cases hc : ∃ p ∈ L, y ∈ p.1.set
  · exact View.read_writes_apply_of_pieces v f G L hL y hc
  · have hn : ∀ p ∈ L, y ∉ p.1.set := fun p hp hm => hc ⟨p, hp, hm⟩
    rw [View.read_writes_apply_of_forall_not_mem v f y L hn]
    rcases hy with hA | hE
    · exact hf y hA
    · exact absurd hE hc

/-- The same through a whole buffer, where reading is the identity. -/
theorem writes_agree_whole (b : Ref sig κ) (f : b.ty.Contents Val) (G : b.ty.shape.Idx → Val b.ty.elt)
    (L : List (View.Piece Val b.ty.shape b.ty.elt)) (A : b.ty.shape.Idx → Prop)
    (hf : ∀ y, A y → f y = G y)
    (hL : ∀ p ∈ L, ∀ x : p.1.shape.Idx, p.2 x = G (p.1.emb x)) :
    ∀ y, (A y ∨ ∃ p ∈ L, y ∈ p.1.set) → ((View.whole b).writes Val f L) y = G y :=
  writes_agree (View.whole b) f G L A hf hL

/-- The same with the view spelled as the whole memref's. -/
theorem writes_agree_memref_whole (b : Ref sig κ) (f : b.ty.Contents Val) (G : b.ty.shape.Idx → Val b.ty.elt)
    (L : List (View.Piece Val b.ty.shape b.ty.elt)) (A : b.ty.shape.Idx → Prop)
    (hf : ∀ y, A y → f y = G y)
    (hL : ∀ p ∈ L, ∀ x : p.1.shape.Idx, p.2 x = G (p.1.emb x)) :
    ∀ y, (A y ∨ ∃ p ∈ L, y ∈ p.1.set) → ((Memref.whole b).view.writes Val f L) y = G y :=
  writes_agree (View.whole b) f G L A hf hL

end Writes

/-! ## (2) The indexed store read at an index -/

section Scatter
variable {F : FTy → Type} [FloatOps F] {s : Shape} {e : EltTy} {d : Fin 1 → Nat}

/-- One lane of an overwriting, all-lanes-enabled indexed store: the element lane k names takes lane k's value. -/
def step (idxs : Fin s.rank → IVec ⟨1, d⟩ 32) (v : Vec F ⟨1, d⟩ e) (h : ∀ a x, (idxs a x).toNat < s.size a)
    (g : Vec F s e) (k : Fin (d 0)) : Vec F s e :=
  fun j => if (∀ a, (j a).val = ((idxAt idxs h (Shape.ofLane k)) a).val) then v (Shape.ofLane k) else g j

/-- The store is the fold of the lanes' steps. -/
theorem storeIdx_eq_foldl (f : Vec F s e) (idxs : Fin s.rank → IVec ⟨1, d⟩ 32) (v : Vec F ⟨1, d⟩ e)
    (h : ∀ a x, (idxs a x).toNat < s.size a) :
    storeIdx f idxs v (fun _ => 1#1) false h = (List.finRange (d 0)).foldl (step idxs v h) f := by
  unfold storeIdx
  congr 1
  funext g k
  have e1 : ((fun _ => 1#1 : IVec ⟨1, d⟩ 1) (Shape.ofLane k) = 1) := rfl
  dsimp only [step]
  rw [if_pos e1, if_neg Bool.false_ne_true]
  funext j
  unfold step
  by_cases hc : ∀ a, (j a).val = ((idxAt idxs h (Shape.ofLane k)) a).val
  · rw [if_pos hc, if_pos hc]
  · rw [if_neg hc, if_neg hc]

/-- The element test inside a step is equality of indices. -/
theorem test_iff (i j : s.Idx) : (∀ a, (j a).val = (i a).val) ↔ j = i :=
  ⟨fun h => funext fun a => Fin.ext (h a), fun h a => by rw [h]⟩

theorem step_hit (idxs : Fin s.rank → IVec ⟨1, d⟩ 32) (v : Vec F ⟨1, d⟩ e) (h : ∀ a x, (idxs a x).toNat < s.size a)
    (g : Vec F s e) (k : Fin (d 0)) : step idxs v h g k (idxAt idxs h (Shape.ofLane k)) = v (Shape.ofLane k) := by
  unfold step
  rw [if_pos (fun a => rfl)]

theorem step_miss (idxs : Fin s.rank → IVec ⟨1, d⟩ 32) (v : Vec F ⟨1, d⟩ e) (h : ∀ a x, (idxs a x).toNat < s.size a)
    (g : Vec F s e) (k : Fin (d 0)) (j : s.Idx) (hj : idxAt idxs h (Shape.ofLane k) ≠ j) : step idxs v h g k j = g j := by
  unfold step
  rw [if_neg (fun hh => hj ((test_iff _ _).1 hh).symm)]

/-- Lanes that do not name j leave j as it was. -/
theorem foldl_miss (idxs : Fin s.rank → IVec ⟨1, d⟩ 32) (v : Vec F ⟨1, d⟩ e) (h : ∀ a x, (idxs a x).toNat < s.size a)
    (j : s.Idx) : ∀ (l : List (Fin (d 0))) (g : Vec F s e), (∀ k ∈ l, idxAt idxs h (Shape.ofLane k) ≠ j) →
      l.foldl (step idxs v h) g j = g j
  | [], g, _ => rfl
  | k :: l, g, hl => by
    rw [List.foldl_cons, foldl_miss idxs v h j l _ (fun k' hk' => hl k' (List.mem_cons_of_mem _ hk')),
      step_miss idxs v h g k j (hl k List.mem_cons_self)]

/-- Among lanes naming distinct elements, the element lane k names ends with lane k's value. -/
theorem foldl_hit (idxs : Fin s.rank → IVec ⟨1, d⟩ 32) (v : Vec F ⟨1, d⟩ e) (h : ∀ a x, (idxs a x).toNat < s.size a)
    (hinj : ∀ k k', idxAt idxs h (Shape.ofLane k) = idxAt idxs h (Shape.ofLane k') → k = k') (k : Fin (d 0)) :
    ∀ (l : List (Fin (d 0))) (g : Vec F s e), l.Nodup → k ∈ l →
      l.foldl (step idxs v h) g (idxAt idxs h (Shape.ofLane k)) = v (Shape.ofLane k)
  | [], g, _, hk => absurd hk List.not_mem_nil
  | k' :: l, g, hnd, hk => by
    rw [List.foldl_cons]
    rcases List.mem_cons.1 hk with hkk | hkl
    · subst hkk
      have hnot : ∀ k'' ∈ l, idxAt idxs h (Shape.ofLane k'') ≠ idxAt idxs h (Shape.ofLane k) := fun k'' hk'' heq => by
        have e : k'' = k := hinj k'' k heq
        rw [e] at hk''
        exact (List.nodup_cons.1 hnd).1 hk''
      rw [foldl_miss idxs v h _ l _ hnot, step_hit]
    · exact foldl_hit idxs v h hinj k l _ (List.nodup_cons.1 hnd).2 hkl

/-- An overwriting indexed store with every lane enabled, distinct lanes naming distinct elements: the element lane k
    names holds lane k of the stored vector. -/
theorem storeIdx_hit (f : Vec F s e) (idxs : Fin s.rank → IVec ⟨1, d⟩ 32) (v : Vec F ⟨1, d⟩ e)
    (h : ∀ a x, (idxs a x).toNat < s.size a)
    (hinj : ∀ k k', idxAt idxs h (Shape.ofLane k) = idxAt idxs h (Shape.ofLane k') → k = k') (k : Fin (d 0)) :
    storeIdx f idxs v (fun _ => 1#1) false h (idxAt idxs h (Shape.ofLane k)) = v (Shape.ofLane k) := by
  rw [storeIdx_eq_foldl]
  exact foldl_hit idxs v h hinj k _ f (List.nodup_finRange _) (List.mem_finRange k)

/-- An element no lane names keeps its contents. -/
theorem storeIdx_miss (f : Vec F s e) (idxs : Fin s.rank → IVec ⟨1, d⟩ 32) (v : Vec F ⟨1, d⟩ e)
    (h : ∀ a x, (idxs a x).toNat < s.size a) (j : s.Idx) (hj : ∀ k, idxAt idxs h (Shape.ofLane k) ≠ j) :
    storeIdx f idxs v (fun _ => 1#1) false h j = f j := by
  rw [storeIdx_eq_foldl]
  exact foldl_miss idxs v h j _ f (fun k _ => hj k)

end Scatter

/-! ## (3) The scatter by (lane number, row a, column 256) into a [16, 9, 257] array -/

section KernelScatter
variable {F : FTy → Type} [FloatOps F]

/-- Lane k of a 16-lane register, as a rank-one index, is the index with coordinate k. -/
theorem ofLane_eq_ix1 (k : Fin 16) : (Shape.ofLane (d := ![16]) k : S16.Idx) = ValueIdx.ix1 k := by
  funext c
  match c with
  | ⟨0, _⟩ => rfl

/-- The lane-number vector of a 16-lane register holds k at lane k. -/
theorem iota_lane (hi : S16.Iotas .scVector 32 [0]) (x : S16.Idx) :
    (iota .scVector S16 32 [0] hi x).toNat = (x 0).val := by
  have hx : (x 0).val < 16 := (x 0).isLt
  have e : iota .scVector S16 32 [0] hi x = BitVec.ofNat 32 (x 0).val := by simp [iota]
  rw [e, BitVec.toNat_ofNat]
  exact Nat.mod_eq_of_lt (by omega)

variable (hi : S16.Iotas .scVector 32 [0]) (a : BitVec 32) (ha : a.toNat < 9)
  (hin : ∀ c x, ((![iota .scVector S16 32 [0] hi, broadcast S16 a, broadcast S16 256#32] : Fin 3 → IVec S16 32) c x).toNat
    < S16x9x257.size c)

/-- Lane k names element (k, a, 256). -/
theorem idxAt_lane (k : Fin 16) :
    idxAt (s := S16x9x257) ![iota .scVector S16 32 [0] hi, broadcast S16 a, broadcast S16 256#32] hin (Shape.ofLane (d := ![16]) k)
      = ValueIdx.ix3 k ⟨a.toNat, ha⟩ ⟨256, by decide⟩ := by
  funext c
  apply Fin.ext
  match c with
  | ⟨0, _⟩ => exact iota_lane hi _
  | ⟨1, _⟩ => rfl
  | ⟨2, _⟩ => rfl

/-- The element lane h names holds lane h of the stored vector. -/
theorem scatter_hit (f : Vec F S16x9x257 .f32) (v : Vec F S16 .f32) (h : Fin 16) :
    storeIdx f ![iota .scVector S16 32 [0] hi, broadcast S16 a, broadcast S16 256#32] v (fun _ => 1#1) false hin
      (ValueIdx.ix3 h ⟨a.toNat, ha⟩ ⟨256, by decide⟩) = v (ValueIdx.ix1 h) := by
  rw [← idxAt_lane hi a ha hin h, ← ofLane_eq_ix1 h]
  refine storeIdx_hit f _ v hin (fun k k' heq => ?_) h
  rw [idxAt_lane hi a ha hin k, idxAt_lane hi a ha hin k'] at heq
  exact congrFun heq ⟨0, by decide⟩

include ha in
/-- An element off row a or off column 256 keeps its contents. -/
theorem scatter_miss (f : Vec F S16x9x257 .f32) (v : Vec F S16 .f32) (y : S16x9x257.Idx)
    (hy : ¬ ((y 1).val = a.toNat ∧ (y 2).val = 256)) :
    storeIdx f ![iota .scVector S16 32 [0] hi, broadcast S16 a, broadcast S16 256#32] v (fun _ => 1#1) false hin y = f y := by
  refine storeIdx_miss f _ v hin y (fun k heq => hy ?_)
  rw [idxAt_lane hi a ha hin k] at heq
  subst heq
  exact ⟨rfl, rfl⟩

include ha in
/-- Both cases at once: after the scatter, element y holds lane y₀ of the stored vector when it lies on row a and
    column 256, and its old contents otherwise. -/
theorem scatter_apply (f : Vec F S16x9x257 .f32) (v : Vec F S16 .f32) (y : S16x9x257.Idx) :
    storeIdx f ![iota .scVector S16 32 [0] hi, broadcast S16 a, broadcast S16 256#32] v (fun _ => 1#1) false hin y
      = if (y 1).val = a.toNat ∧ (y 2).val = 256 then v (ValueIdx.ix1 (y 0)) else f y := by
  by_cases hc : (y 1).val = a.toNat ∧ (y 2).val = 256
  · rw [if_pos hc]
    have ey : y = ValueIdx.ix3 (y 0) ⟨a.toNat, ha⟩ ⟨256, by decide⟩ := by
      funext c
      match c with
      | ⟨0, _⟩ => rfl
      | ⟨1, _⟩ => exact Fin.ext hc.1
      | ⟨2, _⟩ => exact Fin.ext hc.2
    exact (congrArg (storeIdx f _ v (fun _ => 1#1) false hin) ey).trans (scatter_hit hi a ha hin f v (y 0))
  · rw [if_neg hc]
    exact scatter_miss hi a ha hin f v y hc

end KernelScatter

end Cert.KernelIdeal.Fill

end
-- ==== Proof.Landed.lean ====
/-
  What a vector subcore's scratch buffers hold after its copies, read at one index.
  (1) The table's copy: a whole-buffer write of the whole table leaves the table.
  (2) The index rows' copies: one unmasked store through a box of whole rows of the [9, 257] scratch. An element
      inside the box reads the payload at its offset within the box; an element outside keeps its contents. The two
      boxes are rows [0, 8) and row 8.
  (3) The payloads of those copies: a box of the [257, 257] index array read through, at an index z of the box, is
      the array at (offset + z₀, z₁); the boxes are the eight rows from 16 s + 8 c of the subcore (c, s), and row 256.
-/
import proofs.«201633_g9972914061550_cont_9to1c4b_803_29_alg».proof.Proof.Blocks
import proofs.«201633_g9972914061550_cont_9to1c4b_803_29_alg».proof.Proof.Gen.KernelIdeal
import Idealize.ShloMosaic.Lib.Writes
import Idealize.ShloMosaic.Lib.ValueIdx

noncomputable section

namespace Cert.KernelIdeal.Landed

open Cert.KernelIdeal Cert.KernelIdeal.Gen Cert.KernelIdeal.Blocks
open Idealize.ShloMosaic Idealize.ShloMosaic.ValueIdx

variable {F : FTy → Type}

/-! ## (1) The table -/

/-- An unmasked write of w through the whole table scratch leaves w. -/
theorem tab_write (f0 w : Vec F S15424 .f32) :
    (tabS : Memref sig .scVector .vmem S15424 .f32).view.write (Elt F) f0 w Finset.univ = w :=
  View.write_whole_univ _ _ _

/-- The whole table in HBM reads as its contents. -/
theorem tab_read (ft : Vec F S15424 .f32) :
    (tabM : Memref sig .scVector .hbm S15424 .f32).view.read (Elt F) ft = ft := rfl

/-- The table's copy lands the table. -/
theorem tab_landed (f0 ft : Vec F S15424 .f32) :
    (tabS : Memref sig .scVector .vmem S15424 .f32).view.write (Elt F) f0
      ((tabM : Memref sig .scVector .hbm S15424 .f32).view.read (Elt F) ft) Finset.univ = ft :=
  View.write_whole_univ _ _ _

/-! ## (2) The index rows -/

/-- Rows [0, 8) of the [9, 257] scratch, and row 8. -/
abbrev R8 : Rect S9x257 := Rect.unit (s := S9x257) ![0, 0] S8x257.size inb_S9x257_S8x257_0_0
abbrev R1 : Rect S9x257 := Rect.unit (s := S9x257) ![8, 0] S1x257.size inb_S9x257_S1x257_8_0

/-- One store through a box of the whole index scratch, read at the box's own index x. -/
theorem single_emb (f1 : Vec F S9x257 .i32) (R : Rect S9x257) (w : R.shape.Idx → BitVec 32) (x : R.shape.Idx) :
    ((idxS : Memref sig .scVector .vmem S9x257 .i32).view.writes (Elt F) f1 [⟨R, w⟩]) (R.emb x) = w x :=
  View.read_writes_cons_emb (idxS : Memref sig .scVector .vmem S9x257 .i32).view f1 R w [] x

/-- One store through a box of the whole index scratch, read outside the box. -/
theorem single_not_mem (f1 : Vec F S9x257 .i32) (R : Rect S9x257) (w : R.shape.Idx → BitVec 32) (y : S9x257.Idx)
    (hy : y ∉ R.set) :
    ((idxS : Memref sig .scVector .vmem S9x257 .i32).view.writes (Elt F) f1 [⟨R, w⟩]) y = f1 y :=
  View.read_writes_apply_of_forall_not_mem (idxS : Memref sig .scVector .vmem S9x257 .i32).view f1 y [⟨R, w⟩]
    (fun p hp => by rw [List.mem_singleton] at hp; subst hp; exact hy)

/-- Element (r, j) with r < 8 is the eight-row box's element (r, j). -/
theorem R8_emb (y : S9x257.Idx) (hy : (y 0).val < 8) : R8.emb (ix2 ⟨(y 0).val, hy⟩ (y 1)) = y := by
  funext a
  apply Fin.ext
  match a with
  | ⟨0, _⟩ => show 0 + 1 * (y 0).val = (y 0).val; omega
  | ⟨1, _⟩ => show 0 + 1 * (y 1).val = (y 1).val; omega

/-- Element (8, j) is the one-row box's element (0, j). -/
theorem R1_emb (y : S9x257.Idx) (hy : (y 0).val = 8) : R1.emb (ix2 (0 : Fin 1) (y 1)) = y := by
  funext a
  apply Fin.ext
  match a with
  | ⟨0, _⟩ => show 8 + 1 * 0 = (y 0).val; omega
  | ⟨1, _⟩ => show 0 + 1 * (y 1).val = (y 1).val; omega

/-- Rows [0, 8) after the eight-row store: the payload. -/
theorem rows8_hit (f1 : Vec F S9x257 .i32) (w : S8x257.Idx → BitVec 32) (y : S9x257.Idx) (hy : (y 0).val < 8) :
    ((idxS : Memref sig .scVector .vmem S9x257 .i32).view.writes (Elt F) f1
      [⟨Rect.unit (s := S9x257) ![0, 0] S8x257.size inb_S9x257_S8x257_0_0, w⟩]) y = w (ix2 ⟨(y 0).val, hy⟩ (y 1)) :=
  (congrArg ((idxS : Memref sig .scVector .vmem S9x257 .i32).view.writes (Elt F) f1 [⟨R8, w⟩]) (R8_emb y hy).symm).trans
    (single_emb f1 R8 w _)

/-- Row 8 after the eight-row store: untouched. -/
theorem rows8_miss (f1 : Vec F S9x257 .i32) (w : S8x257.Idx → BitVec 32) (y : S9x257.Idx) (hy : ¬ (y 0).val < 8) :
    ((idxS : Memref sig .scVector .vmem S9x257 .i32).view.writes (Elt F) f1
      [⟨Rect.unit (s := S9x257) ![0, 0] S8x257.size inb_S9x257_S8x257_0_0, w⟩]) y = f1 y := by
  refine single_not_mem f1 R8 w y (fun hm => hy ?_)
  have h := (Rect.mem_set_unit.1 hm ⟨0, by decide⟩).2
  exact h

/-- Row 8 after the one-row store: the payload. -/
theorem row9_hit (s : Vec F S9x257 .i32) (w : S1x257.Idx → BitVec 32) (y : S9x257.Idx) (hy : (y 0).val = 8) :
    ((idxS : Memref sig .scVector .vmem S9x257 .i32).view.writes (Elt F) s
      [⟨Rect.unit (s := S9x257) ![8, 0] S1x257.size inb_S9x257_S1x257_8_0, w⟩]) y = w (ix2 (0 : Fin 1) (y 1)) :=
  (congrArg ((idxS : Memref sig .scVector .vmem S9x257 .i32).view.writes (Elt F) s [⟨R1, w⟩]) (R1_emb y hy).symm).trans
    (single_emb s R1 w _)

/-- Rows [0, 8) after the one-row store: untouched. -/
theorem row9_miss (s : Vec F S9x257 .i32) (w : S1x257.Idx → BitVec 32) (y : S9x257.Idx) (hy : (y 0).val < 8) :
    ((idxS : Memref sig .scVector .vmem S9x257 .i32).view.writes (Elt F) s
      [⟨Rect.unit (s := S9x257) ![8, 0] S1x257.size inb_S9x257_S1x257_8_0, w⟩]) y = s y := by
  refine single_not_mem s R1 w y (fun hm => ?_)
  have h := (Rect.mem_set_unit.1 hm ⟨0, by decide⟩).1
  have h' : 8 ≤ (y 0).val := h
  omega

/-- Two stores, the later first in the list, are the later one over what the earlier one left. -/
theorem writes_two (f1 : Vec F S9x257 .i32) (p q : View.Piece (Elt F) S9x257 .i32) :
    (idxS : Memref sig .scVector .vmem S9x257 .i32).view.writes (Elt F) f1 [p, q]
      = (idxS : Memref sig .scVector .vmem S9x257 .i32).view.writes (Elt F)
          ((idxS : Memref sig .scVector .vmem S9x257 .i32).view.writes (Elt F) f1 [q]) [p] := rfl

/-! ## (3) The payloads: boxes of the index array read through -/

/-- The subcore's eight rows start at 16 s + 8 c and end by row 256. -/
theorem off_le (L : grid0.Coords) : 16 * (L 1).val + 8 * (L 0).val + 8 ≤ 257 := by
  have h := k0_off1_inb L ⟨0, by decide⟩
  rw [k0_off1_eq L] at h
  exact h

/-- The eight-row box of the index array at z is the array at (16 s + 8 c + z₀, z₁). -/
theorem idxRows_read (L : grid0.Coords) (fi : Vec F S257x257 .i32) (z : S8x257.Idx) :
    (idxRowsM L).view.read (Elt F) fi z
      = fi (ix2 (⟨16 * (L 1).val + 8 * (L 0).val + (z 0).val, by have := off_le L; have hz : (z 0).val < 8 := (z 0).isLt; omega⟩ : Fin 257) (z 1)) := by
  show fi ((idxRect L).emb z) = _
  congr 1
  funext a
  apply Fin.ext
  have e0 : k0_off1 L ⟨0, by decide⟩ = 16 * (L 1).val + 8 * (L 0).val := by rw [k0_off1_eq L]; rfl
  have e1 : k0_off1 L ⟨1, by decide⟩ = 0 := by rw [k0_off1_eq L]; rfl
  match a with
  | ⟨0, h0⟩ =>
    have e : (((idxRect L).emb z) ⟨0, h0⟩ : Nat) = k0_off1 L ⟨0, h0⟩ + 1 * (z ⟨0, h0⟩).val := rfl
    rw [e, e0]
    show 16 * (L 1).val + 8 * (L 0).val + 1 * (z 0).val = 16 * (L 1).val + 8 * (L 0).val + (z 0).val
    omega
  | ⟨1, h1⟩ =>
    have e : (((idxRect L).emb z) ⟨1, h1⟩ : Nat) = k0_off1 L ⟨1, h1⟩ + 1 * (z ⟨1, h1⟩).val := rfl
    rw [e, e1]
    show 0 + 1 * (z 1).val = (z 1).val
    omega

/-- Row 256 of the index array, as the last subcore slices it. -/
abbrev lastRowM : Memref sig .scVector .hbm S1x257 .i32 :=
  idxM.slice (Rect.unit (s := S257x257) ![256, 0] S1x257.size inb_S257x257_S1x257_256_0) (fun _ => rfl)

/-- The one-row box at row 256 read at z is the array at (256, z₁). -/
theorem lastRow_read (fi : Vec F S257x257 .i32) (z : S1x257.Idx) :
    lastRowM.view.read (Elt F) fi z = fi (ix2 (⟨256, by decide⟩ : Fin 257) (z 1)) := by
  show fi ((Rect.unit (s := S257x257) ![256, 0] S1x257.size inb_S257x257_S1x257_256_0).emb z) = _
  congr 1
  funext a
  apply Fin.ext
  have hz : (z 0).val = 0 := by have h1 : (z 0).val < 1 := (z 0).isLt; omega
  match a with
  | ⟨0, _⟩ => show 256 + 1 * (z 0).val = 256; omega
  | ⟨1, _⟩ => show 0 + 1 * (z 1).val = (z 1).val; omega

end Cert.KernelIdeal.Landed

end
-- ==== Proof.RowEnd.lean ====
/-
  The last step of a row, as a pure fact about arrays. For row a of a subcore's nine rows, every one of the sixteen
  lanes reads the row's last index s[a, 256]; lane h reads the table's one row at position 16 · s[a, 256] + h; the
  sixteen numbers are scattered to the entries (h, a, 256). If the scratch already held the aim on the rows before a
  and on the first 256 columns of row a, after the step it holds the aim on every row up to and including a.
  Also the side conditions the step meets: the index vectors lie inside the arrays they address.
-/
import proofs.«201633_g9972914061550_cont_9to1c4b_803_29_alg».proof.Proof.Piece
import proofs.«201633_g9972914061550_cont_9to1c4b_803_29_alg».proof.Proof.Fill

noncomputable section

namespace Cert.KernelIdeal.RowEnd

open Cert.KernelIdeal Cert.KernelIdeal.Gen Cert.KernelIdeal.Blocks
open Idealize.ShloMosaic Idealize.ShloMosaic.ValueIdx

variable {F : FTy → Type} [FloatOps F]

/-! ## The side conditions -/

/-- Row a (below 9) and column 256 name an entry of the [9, 257] index scratch, in every lane. -/
theorem inb_row (a : BitVec 32) (ha : a.toNat < 9) :
    ∀ c x, ((![broadcast S16 a, broadcast S16 256#32] : Fin 2 → IVec S16 32) c x).toNat < S9x257.size c := by
  intro c x
  match c with
  | ⟨0, _⟩ => exact ha
  | ⟨1, _⟩ => show (256#32).toNat < 257; decide

/-- Lane number, row a (below 9) and column 256 name an entry of the [16, 9, 257] scratch, in every lane. -/
theorem inb_entry (hi : S16.Iotas .scVector 32 [0]) (a : BitVec 32) (ha : a.toNat < 9) :
    ∀ c x, ((![iota .scVector S16 32 [0] hi, broadcast S16 a, broadcast S16 256#32] : Fin 3 → IVec S16 32) c x).toNat
      < S16x9x257.size c := by
  intro c x
  match c with
  | ⟨0, _⟩ =>
    show (iota .scVector S16 32 [0] hi x).toNat < 16
    rw [Fill.iota_lane hi x]
    exact (x 0).isLt
  | ⟨1, _⟩ => exact ha
  | ⟨2, _⟩ => show (256#32).toNat < 257; decide

/-- The two together: the check the step states of its three index vectors. -/
theorem chk17 (hi : S16.Iotas .scVector 32 [0]) (a : BitVec 32) (ha : a.toNat < 9) :
    k0_chk17 (iota .scVector S16 32 [0] hi) (broadcast S16 a) (broadcast S16 256#32) :=
  ⟨inb_row a ha, inb_entry hi a ha⟩

/-- Every lane of the load of the index scratch at (a, 256) is s[a, 256]. -/
theorem last_idx_apply (s : Vec F S9x257 .i32) (a : BitVec 32) (ha : a.toNat < 9)
    (hin1 : ∀ c x, ((![broadcast S16 a, broadcast S16 256#32] : Fin 2 → IVec S16 32) c x).toNat < S9x257.size c)
    (x : S16.Idx) :
    loadIdx (View.readAt (Elt F) idxS.view (LoadRect.whole S9x257) s) ![broadcast S16 a, broadcast S16 256#32] hin1 x
      = s (ix2 (⟨a.toNat, ha⟩ : Fin 9) (⟨256, by decide⟩ : Fin 257)) := by
  have e : View.readAt (Elt F) idxS.view (LoadRect.whole S9x257) s = s := Memref.readAt_whole (Elt F) cc0_scratch1 s
  rw [e]
  show s (idxAt ![broadcast S16 a, broadcast S16 256#32] hin1 x) = _
  refine congrArg s (funext fun c => Fin.ext ?_)
  match c with
  | ⟨0, _⟩ => rfl
  | ⟨1, _⟩ => rfl

/-- The positions 16 · s[a, 256] + lane lie inside the table's one row when s[a, 256] is below 964. -/
theorem inb_pos (s : Vec F S9x257 .i32) (hi : S16.Iotas .scVector 32 [0]) (a : BitVec 32) (ha : a.toNat < 9)
    (hsa : (s (ix2 (⟨a.toNat, ha⟩ : Fin 9) (⟨256, by decide⟩ : Fin 257))).toNat < 964)
    (hin1 : ∀ c x, ((![broadcast S16 a, broadcast S16 256#32] : Fin 2 → IVec S16 32) c x).toNat < S9x257.size c) :
    ∀ c x, ((![addi (muli (loadIdx (View.readAt (Elt F) idxS.view (LoadRect.whole S9x257) s) ![broadcast S16 a, broadcast S16 256#32] hin1)
        (broadcast S16 16#32)) (iota .scVector S16 32 [0] hi)] : Fin 1 → IVec S16 32) c x).toNat < S15424.size c :=
  Cert.PreRange.inb_iota .scVector hi _ fun x => by rw [last_idx_apply s a ha hin1 x]; exact hsa

/-! ## One store through the whole box -/

/-- A single unmasked store of `w` through the whole box of a whole buffer leaves `w`. -/
theorem writes_whole_piece {sig : RefSig} {κ : Kind} {Val : EltTy → Type} (b : Ref sig κ) (f w : b.ty.Contents Val)
    (y : b.ty.shape.Idx) :
    ((Memref.whole b).view.writes Val f [⟨Rect.whole b.ty.shape, w⟩]) y = w y := by
  have h := View.read_writes_cons_emb (View.whole b) f (Rect.whole b.ty.shape) w [] y
  rw [Rect.emb_whole_apply] at h
  exact h

/-! ## The step reaches the aim on the whole row -/

/-- After the row's last step the scratch holds the aim on every row up to and including a, given that it held it
    on the rows before a and on the first 256 columns of row a, and that s[a, 256] is below 964. -/
theorem row_end (t : Vec F S15424 .f32) (s : Vec F S9x257 .i32) (g : Vec F S16x9x257 .f32) (hi : S16.Iotas .scVector 32 [0])
    (a : BitVec 32) (ha : a.toNat < 9)
    (hsa : (s (ix2 (⟨a.toNat, ha⟩ : Fin 9) (⟨256, by decide⟩ : Fin 257))).toNat < 964)
    (hin1 : ∀ c x, ((![broadcast S16 a, broadcast S16 256#32] : Fin 2 → IVec S16 32) c x).toNat < S9x257.size c)
    (hin2 : ∀ c x, ((![addi (muli (loadIdx (View.readAt (Elt F) idxS.view (LoadRect.whole S9x257) s) ![broadcast S16 a, broadcast S16 256#32] hin1) (broadcast S16 16#32)) (iota .scVector S16 32 [0] hi)] : Fin 1 → IVec S16 32) c x).toNat < S15424.size c)
    (hin3 : ∀ c x, ((![iota .scVector S16 32 [0] hi, broadcast S16 a, broadcast S16 256#32] : Fin 3 → IVec S16 32) c x).toNat < S16x9x257.size c)
    (hg : ∀ y : S16x9x257.Idx, ((y 1).val < a.toNat ∨ ((y 1).val = a.toNat ∧ (y 2).val < 256)) → g y = Piece.aim t s y) :
    ∀ y : S16x9x257.Idx, (y 1).val < a.toNat + 1 →
      (outS.view.writes (Elt F) g [⟨Rect.whole S16x9x257,
          storeIdx (View.readAt (Elt F) outS.view (LoadRect.whole S16x9x257) g) ![iota .scVector S16 32 [0] hi, broadcast S16 a, broadcast S16 256#32]
            (loadIdx (View.readAt (Elt F) tabS.view (LoadRect.whole S15424) t)
              ![addi (muli (loadIdx (View.readAt (Elt F) idxS.view (LoadRect.whole S9x257) s) ![broadcast S16 a, broadcast S16 256#32] hin1) (broadcast S16 16#32)) (iota .scVector S16 32 [0] hi)] hin2)
            (fun _ => 1#1) false hin3⟩]) y = Piece.aim t s y := by
  intro y hy
  -- the one whole-box piece reads its payload at every index
  refine (writes_whole_piece cc0_scratch2 g _ y).trans ?_
  have eg : View.readAt (Elt F) outS.view (LoadRect.whole S16x9x257) g = g := Memref.readAt_whole (Elt F) cc0_scratch2 g
  have et : View.readAt (Elt F) tabS.view (LoadRect.whole S15424) t = t := Memref.readAt_whole (Elt F) cc0_scratch0 t
  rw [eg, Fill.scatter_apply hi a ha hin3]
  by_cases hc : (y 1).val = a.toNat ∧ (y 2).val = 256
  · rw [if_pos hc]
    -- lane y₀ of the table read at 16 · s[a, 256] + lane
    show View.readAt (Elt F) tabS.view (LoadRect.whole S15424) t (idxAt _ hin2 (ix1 (y 0))) = _
    rw [et]
    have hl := Cert.PreRange.lane_mul16_add_iota .scVector hi
      (loadIdx (View.readAt (Elt F) idxS.view (LoadRect.whole S9x257) s) ![broadcast S16 a, broadcast S16 256#32] hin1)
      (ix1 (y 0)) (by rw [last_idx_apply s a ha hin1]; exact hsa)
    rw [last_idx_apply s a ha hin1] at hl
    have ey : (ix2 (y 1) (y 2) : S9x257.Idx) = ix2 (⟨a.toNat, ha⟩ : Fin 9) (⟨256, by decide⟩ : Fin 257) := by
      funext c
      match c with
      | ⟨0, _⟩ => exact Fin.ext hc.1
      | ⟨1, _⟩ => exact Fin.ext hc.2
    unfold Piece.aim
    refine congrArg t (funext fun c => Fin.ext ?_)
    match c with
    | ⟨0, _⟩ =>
      show (addi (muli (loadIdx (View.readAt (Elt F) idxS.view (LoadRect.whole S9x257) s) ![broadcast S16 a, broadcast S16 256#32] hin1)
          (broadcast S16 16#32)) (iota .scVector S16 32 [0] hi) (ix1 (y 0))).toNat
        = ((s (ix2 (y 1) (y 2))).toNat * 16 + (y 0).val) % 15424
      rw [ey, hl.1, Nat.mod_eq_of_lt hl.2]
  · rw [if_neg hc]
    refine hg y ?_
    have h2 : (y 2).val < 257 := (y 2).isLt
    omega

end Cert.KernelIdeal.RowEnd

end
-- ==== Proof.BlockOut.lean ====
/-
  What a subcore's copy out leaves in B, read at an index. The subcore has filled g, its nine rows of every head
  ([16, 9, 257]), with  g[h, r, j] = t[16 · s[r, j] + h]  (Piece.aim), where t is its copy of the table's one row and s its
  nine rows of indices: rows 0 … 7 of s are rows 8w … 8w + 7 of I (8w = 16 · s' + 8 · c at grid point (c, s')), and for
  the last subcore row 8 of s is row 256 of I. Copying rows 0 … 7 of g onto rows 8w … 8w + 7 of B, and row 8 of g onto row
  256 of B, leaves at every entry (h, r, j) written the number  T[16 · I[r, j] + h]  (Blocks.gathered): an index equation,
  the box's offset added on the one side and carried by the rows of s on the other.
-/
import proofs.«201633_g9972914061550_cont_9to1c4b_803_29_alg».proof.Proof.Piece
import proofs.«201633_g9972914061550_cont_9to1c4b_803_29_alg».proof.Proof.Blocks
import Idealize.ShloMosaic.Lib.Writes
import Idealize.ShloMosaic.Lib.ValueIdx

noncomputable section

namespace Cert.KernelIdeal.BlockOut

open Cert.KernelIdeal Cert.KernelIdeal.Gen Cert.KernelIdeal.Blocks
open Idealize.ShloMosaic Idealize.ShloMosaic.ValueIdx

variable {F : FTy → Type} [FloatOps F]

/-- Rows 0 … 7 of every head of the subcore's rows, and row 8: the boxes the two copies out read. -/
abbrev srcRect : Rect S16x9x257 := Rect.unit (s := S16x9x257) ![0, 0, 0] S16x8x257.size Facts₀.inb_S16x9x257_S16x8x257_0_0_0
abbrev srcLast : Rect S16x9x257 := Rect.unit (s := S16x9x257) ![0, 8, 0] S16x1x257.size Facts₀.inb_S16x9x257_S16x1x257_0_8_0

/-- B after the subcore at L has copied rows 0 … 7 of g onto its eight rows, over contents fo. -/
abbrev blockTerm (L : grid0.Coords) (fo : Vec F S16x257x257 .f32) (g : Vec F S16x9x257 .f32) : Vec F S16x257x257 .f32 :=
  (blkM L).view.writes (Elt F) fo [⟨Rect.whole S16x8x257, (outS.slice srcRect (fun _ => rfl)).view.read (Elt F) g⟩]

/-- B after row 8 of g has been copied onto row 256, over contents fo. -/
abbrev lastTerm (fo : Vec F S16x257x257 .f32) (g : Vec F S16x9x257 .f32) : Vec F S16x257x257 .f32 :=
  lastM.view.writes (Elt F) fo [⟨Rect.whole S16x1x257, (outS.slice srcLast (fun _ => rfl)).view.read (Elt F) g⟩]

/-- The position read for an entry depends only on the index there and the head. -/
theorem at_pos (ft : Vec F S15424 .f32) {a b : Nat} (h : a = b) (ha : a % 15424 < 15424) (hb : b % 15424 < 15424) :
    ft (ix1 (⟨a % 15424, ha⟩ : Fin 15424)) = ft (ix1 (⟨b % 15424, hb⟩ : Fin 15424)) := by
  subst h; rfl

/-- Reading a whole array through a view is reading it at the view's indices. -/
theorem read_blk (L : grid0.Coords) (G : Vec F S16x257x257 .f32) (z : S16x8x257.Idx) :
    (blkM L).view.read (Elt F) G z = G ((blkM L).view.emb z) := by
  rw [View.read_apply, cast_eq]
theorem read_lastM (G : Vec F S16x257x257 .f32) (z : S16x1x257.Idx) :
    lastM.view.read (Elt F) G z = G (lastM.view.emb z) := by
  rw [View.read_apply, cast_eq]
theorem read_src (g : Vec F S16x9x257 .f32) (z : S16x8x257.Idx) :
    (outS.slice srcRect (fun _ => rfl)).view.read (Elt F) g z = g (srcRect.emb z) := by
  rw [View.read_apply, cast_eq]; rfl
theorem read_srcLast (g : Vec F S16x9x257 .f32) (z : S16x1x257.Idx) :
    (outS.slice srcLast (fun _ => rfl)).view.read (Elt F) g z = g (srcLast.emb z) := by
  rw [View.read_apply, cast_eq]; rfl

/-- The entry of B under index z of the box copied holds g at z read as an index of the nine rows. -/
theorem read_block (L : grid0.Coords) (fo : Vec F S16x257x257 .f32) (g : Vec F S16x9x257 .f32) (z : S16x8x257.Idx) :
    blockTerm L fo g ((blkM L).view.emb z) = g (srcRect.emb z) := by
  have h1 := View.read_writes_cons_emb (blkM L).view fo (Rect.whole S16x8x257)
    ((outS.slice srcRect (fun _ => rfl)).view.read (Elt F) g) [] z
  rw [Rect.emb_whole_apply, read_blk, read_src] at h1
  exact h1
theorem read_last (fo : Vec F S16x257x257 .f32) (g : Vec F S16x9x257 .f32) (z : S16x1x257.Idx) :
    lastTerm fo g (lastM.view.emb z) = g (srcLast.emb z) := by
  have h1 := View.read_writes_cons_emb lastM.view fo (Rect.whole S16x1x257)
    ((outS.slice srcLast (fun _ => rfl)).view.read (Elt F) g) [] z
  rw [Rect.emb_whole_apply, read_lastM, read_srcLast] at h1
  exact h1

/-- Coordinates of the entries: the box's offset and the index in the box. -/
theorem emb_blk (L : grid0.Coords) (z : S16x8x257.Idx) (a : Fin 3) :
    (((blkM L).view.emb z) a : Nat) = k0_off19 L a + 1 * (z a : Nat) := rfl
theorem emb_src (z : S16x8x257.Idx) (a : Fin 3) : ((srcRect.emb z) a : Nat) = (![0, 0, 0] : Fin 3 → Nat) a + 1 * (z a : Nat) := rfl
theorem emb_lastM (z : S16x1x257.Idx) (a : Fin 3) : ((lastM.view.emb z) a : Nat) = (![0, 256, 0] : Fin 3 → Nat) a + 1 * (z a : Nat) := rfl
theorem emb_srcLast (z : S16x1x257.Idx) (a : Fin 3) : ((srcLast.emb z) a : Nat) = (![0, 8, 0] : Fin 3 → Nat) a + 1 * (z a : Nat) := rfl

/-- Every entry of the subcore's eight rows of B holds its gathered value. -/
theorem block_out (L : grid0.Coords) (fo : Vec F S16x257x257 .f32) (g : Vec F S16x9x257 .f32) (t ft : Vec F S15424 .f32)
    (s : Vec F S9x257 .i32) (fi : Vec F S257x257 .i32)
    (hT : t = ft)
    (hS : ∀ y : S9x257.Idx, ∀ hy : (y 0).val < 8, ∃ hlt, s y = fi (ValueIdx.ix2 (⟨16 * (L 1).val + 8 * (L 0).val + (y 0).val, hlt⟩ : Fin 257) (y 1)))
    (hr : ∀ y, (fi y).toNat < 964)
    (hg : ∀ y : S16x9x257.Idx, (y 1).val < 8 → g y = Piece.aim t s y) :
    ∀ x ∈ blkSet L, blockTerm L fo g x = gathered ft fi x := by
  intro x hx
  obtain ⟨z, -, rfl⟩ := Finset.mem_map.mp hx
  subst hT
  -- the entry reads the payload at z, which is g at z read as an index of the nine rows
  rw [read_block]
  -- coordinates: of the entry of B, and of the entry of g
  have hk : k0_off19 L = ![0, 16 * (L 1).val + 8 * (L 0).val, 0] := k0_off19_eq L
  have hx0 : (((blkM L).view.emb z) 0 : Nat) = 0 + 1 * (z 0 : Nat) := by rw [emb_blk, hk]; rfl
  have hx1 : (((blkM L).view.emb z) 1 : Nat) = (16 * (L 1).val + 8 * (L 0).val) + 1 * (z 1 : Nat) := by rw [emb_blk, hk]; rfl
  have hx2 : (((blkM L).view.emb z) 2 : Nat) = 0 + 1 * (z 2 : Nat) := by rw [emb_blk, hk]; rfl
  have hy0 : ((srcRect.emb z) 0 : Nat) = 0 + 1 * (z 0 : Nat) := emb_src z 0
  have hy1 : ((srcRect.emb z) 1 : Nat) = 0 + 1 * (z 1 : Nat) := emb_src z 1
  have hy2 : ((srcRect.emb z) 2 : Nat) = 0 + 1 * (z 2 : Nat) := emb_src z 2
  have hz1 : (z 1 : Nat) < 8 := (z 1).isLt
  have hlt8 : ((srcRect.emb z) 1).val < 8 := by rw [hy1]; omega
  rw [hg _ hlt8]
  obtain ⟨hlt, hs⟩ := hS (ix2 ((srcRect.emb z) 1) ((srcRect.emb z) 2)) hlt8
  have hfi : fi (ValueIdx.ix2 (⟨16 * (L 1).val + 8 * (L 0).val + ((srcRect.emb z) 1).val, hlt⟩ : Fin 257) ((srcRect.emb z) 2))
      = fi (ix2 (((blkM L).view.emb z) 1) (((blkM L).view.emb z) 2)) := by
    congr 1
    funext a
    apply Fin.ext
    match a with
    | ⟨0, _⟩ =>
      show 16 * (L 1).val + 8 * (L 0).val + ((srcRect.emb z) 1).val = (((blkM L).view.emb z) 1 : Nat)
      rw [hx1, hy1]; omega
    | ⟨1, _⟩ =>
      show ((srcRect.emb z) 2 : Nat) = (((blkM L).view.emb z) 2 : Nat)
      rw [hx2, hy2]
  show t (ix1 (⟨((s (ix2 ((srcRect.emb z) 1) ((srcRect.emb z) 2))).toNat * 16 + ((srcRect.emb z) 0).val) % 15424, _⟩ : Fin 15424))
    = t (ix1 (⟨pos fi ((blkM L).view.emb z) % 15424, _⟩ : Fin 15424))
  refine at_pos t ?_ _ _
  unfold pos
  rw [hs, hfi, hy0, hx0]

/-- Every entry of row 256 of B holds its gathered value. -/
theorem last_out (fo : Vec F S16x257x257 .f32) (g : Vec F S16x9x257 .f32) (t ft : Vec F S15424 .f32)
    (s : Vec F S9x257 .i32) (fi : Vec F S257x257 .i32)
    (hT : t = ft)
    (hS : ∀ y : S9x257.Idx, (y 0).val = 8 → s y = fi (ValueIdx.ix2 (⟨256, by decide⟩ : Fin 257) (y 1)))
    (hr : ∀ y, (fi y).toNat < 964)
    (hg : ∀ y : S16x9x257.Idx, (y 1).val = 8 → g y = Piece.aim t s y) :
    ∀ x ∈ lastSet, lastTerm fo g x = gathered ft fi x := by
  intro x hx
  obtain ⟨z, -, rfl⟩ := Finset.mem_map.mp hx
  subst hT
  rw [read_last]
  have hx0 : ((lastM.view.emb z) 0 : Nat) = 0 + 1 * (z 0 : Nat) := emb_lastM z 0
  have hx1 : ((lastM.view.emb z) 1 : Nat) = 256 + 1 * (z 1 : Nat) := emb_lastM z 1
  have hx2 : ((lastM.view.emb z) 2 : Nat) = 0 + 1 * (z 2 : Nat) := emb_lastM z 2
  have hy0 : ((srcLast.emb z) 0 : Nat) = 0 + 1 * (z 0 : Nat) := emb_srcLast z 0
  have hy1 : ((srcLast.emb z) 1 : Nat) = 8 + 1 * (z 1 : Nat) := emb_srcLast z 1
  have hy2 : ((srcLast.emb z) 2 : Nat) = 0 + 1 * (z 2 : Nat) := emb_srcLast z 2
  have hz1 : (z 1 : Nat) < 1 := (z 1).isLt
  have h8 : ((srcLast.emb z) 1).val = 8 := by rw [hy1]; omega
  rw [hg _ h8]
  have hs := hS (ix2 ((srcLast.emb z) 1) ((srcLast.emb z) 2)) h8
  have hfi : fi (ValueIdx.ix2 (⟨256, by decide⟩ : Fin 257) ((srcLast.emb z) 2))
      = fi (ix2 ((lastM.view.emb z) 1) ((lastM.view.emb z) 2)) := by
    congr 1
    funext a
    apply Fin.ext
    match a with
    | ⟨0, _⟩ =>
      show 256 = ((lastM.view.emb z) 1 : Nat)
      rw [hx1]; omega
    | ⟨1, _⟩ =>
      show ((srcLast.emb z) 2 : Nat) = ((lastM.view.emb z) 2 : Nat)
      rw [hx2, hy2]
  show t (ix1 (⟨((s (ix2 ((srcLast.emb z) 1) ((srcLast.emb z) 2))).toNat * 16 + ((srcLast.emb z) 0).val) % 15424, _⟩ : Fin 15424))
    = t (ix1 (⟨pos fi (lastM.view.emb z) % 15424, _⟩ : Fin 15424))
  refine at_pos t ?_ _ _
  unfold pos
  rw [hs, hfi, hy0, hx0]

end Cert.KernelIdeal.BlockOut

end
-- ==== Proof.Body.lean ====
/-
  A vector subcore's task, at a symbolic grid point. The subcore copies the table's one row and its eight rows of
  indices into its own memory, fills its nine-row scratch row by row — sixteen indices at a time, for every head h the
  table read at 16 · index + h and stored at (h, row, columns), then the row's last column by one indexed load and one
  indexed store —, copies the eight rows out to its rows of the result, and, if it is the last subcore, does the same for
  row 256. The invariants say which entries of the scratch already hold their target, Piece.aim; what the copies move is
  read off at the end.
-/
import proofs.«201633_g9972914061550_cont_9to1c4b_803_29_alg».proof.Proof.Setup
import proofs.«201633_g9972914061550_cont_9to1c4b_803_29_alg».proof.Proof.Own
import proofs.«201633_g9972914061550_cont_9to1c4b_803_29_alg».proof.Proof.Piece
import proofs.«201633_g9972914061550_cont_9to1c4b_803_29_alg».proof.Proof.Fill
import proofs.«201633_g9972914061550_cont_9to1c4b_803_29_alg».proof.Proof.PreRange
import proofs.«201633_g9972914061550_cont_9to1c4b_803_29_alg».proof.Proof.Landed
import proofs.«201633_g9972914061550_cont_9to1c4b_803_29_alg».proof.Proof.RowEnd
import proofs.«201633_g9972914061550_cont_9to1c4b_803_29_alg».proof.Proof.BlockOut
import Idealize.ShloMosaic.Lib.SparseCore.Ops
import proofs.«201633_g9972914061550_cont_9to1c4b_803_29_alg».proof.Proof.Gen.KernelIdeal.Skeleton

noncomputable section

namespace Cert.KernelIdeal.Body

open Cert.KernelIdeal Cert.KernelIdeal.Gen Cert.KernelIdeal.Blocks Cert.KernelIdeal.Launch Cert.KernelIdeal.Piece

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- An element of row `r` whose column lies in [16 c, 16 c + 16) is in the box of its own head at (h, r, 16 c). -/
theorem mem_box (y : S16x9x257.Idx) (r c : Nat) (hy1 : (y 1).val = r) (hlo : 16 * c ≤ (y 2).val) (hhi : (y 2).val < 16 * c + 16)
    (off : Fin 3 → Nat) (inb : ∀ a, off a + S1x1x16.size a ≤ S16x9x257.size a) (e : off = ![(y 0).val, r, 16 * c]) :
    y ∈ (Rect.unit (s := S16x9x257) off S1x1x16.size inb).set := by
  subst e
  rw [Rect.mem_set_unit]
  intro a
  match a with
  | ⟨0, _⟩ => exact ⟨le_refl _, by show (y 0).val < (y 0).val + 1; omega⟩
  | ⟨1, _⟩ => exact ⟨by show r ≤ (y 1).val; omega, by show (y 1).val < r + 1; omega⟩
  | ⟨2, _⟩ => exact ⟨by show 16 * c ≤ (y 2).val; omega, by show (y 2).val < 16 * c + 16; omega⟩

/-- A loop counter from 0 by 1, below 8, read as a number. -/
theorem iv_toNat (k : Nat) (hk : k < 9) : (Scf.iv (0#32 : BitVec 32) 1#32 k).toNat = k := by
  unfold Scf.iv
  simp only [BitVec.zero_add, BitVec.mul_one, BitVec.toNat_ofNat]
  omega

variable [FloatOps F]

/-- The indexed load as the machine runs it: one load of the whole scratch, then the lanes picked out. -/
theorem loadIdx_prog (c : Thread nD τ) {Λ : Labels} {s t : Shape} {e : EltTy} (base : Memref sig c.2.kind .vmem s e)
    (idxs : Fin s.rank → IVec t 32) (h : ∀ a x, (idxs a x).toNat < s.size a) (hl : base.view.Loads) :
    (SparseCore.vectorLoadIdx (nD := nD) (F := F) (Λ := Λ) (p := c.2) base idxs h hl)
      = .op (.load base (.whole s) (View.loadsAt_whole hl)) fun f => .ret (loadIdx f idxs h) := rfl

/-- Before row `r`: the table and index copies as they are, and every row below `r` of the scratch at its target. -/
def invOut (d : Dev nD) (L : grid0.Coords) (t : Buf (Elt F) ((tabS).view.loc (thrOf d L))) (s : Buf (Elt F) ((idxS).view.loc (thrOf d L)))
    (r : Nat) (_ : PUnit) : sProp 𝕄 :=
  iprop(((tabS).view.loc (thrOf d L) ↦{fullShare} t) ∗ ((idxS).view.loc (thrOf d L) ↦{fullShare} s)
    ∗ (∃ g, ((outS).view.loc (thrOf d L) ↦{fullShare} g) ∗ ⌜∀ y : S16x9x257.Idx, (y 1).val < r → g y = aim t s y⌝))

/-- Inside row `r`, before its chunk `c`: also row `r` left of column 16 c. -/
def invIn (d : Dev nD) (L : grid0.Coords) (t : Buf (Elt F) ((tabS).view.loc (thrOf d L))) (s : Buf (Elt F) ((idxS).view.loc (thrOf d L)))
    (r : Nat) (c : Nat) (_ : PUnit) : sProp 𝕄 :=
  iprop(((tabS).view.loc (thrOf d L) ↦{fullShare} t) ∗ ((idxS).view.loc (thrOf d L) ↦{fullShare} s)
    ∗ (∃ g, ((outS).view.loc (thrOf d L) ↦{fullShare} g) ∗ ⌜∀ y : S16x9x257.Idx, ((y 1).val < r ∨ ((y 1).val = r ∧ (y 2).val < 16 * c)) → g y = aim t s y⌝))

set_option maxHeartbeats 16000000 in
theorem body : BodySpec F := by
  intro hF d L qT qI ft fi fo hr O W hO
  unfold tileIn tileOut
  simp only [cc0__sc_gather_body_eq_skeleton]; unfold cc0__sc_gather_body_skel
  rw [(K (F := F)).scopedBufs_V hF d ((L 0).castLE Facts₀.hcore0) ((L 1).castLE Facts₀.hsub0),
    SparseCore.Cfg.scopedSems0_V (Val := Elt F) d ((L 0).castLE Facts₀.hcore0) ((L 1).castLE Facts₀.hsub0),
    Own.ownSems0_V d _ _, Own.ownBufs_V d _ _]
  iintro ⟨#Hlv, -, ⟨Ht, Hi, Ho, Hlast⟩, ⟨⟨%f0, Hs0⟩, ⟨%f1, Hs1⟩, ⟨%f2, Hs2⟩, Hbrest⟩, ⟨Hc0, Hc1, Hc2, Hc3, Hc4, Hcrest⟩, HO⟩
  ihave Hmw := ((K (F := F)).mayWaits_none (thr := thrOf d L) hO) $$ Hlv
  have pts_t : ((tLoc d ↦{qT} ft : sProp 𝕄)) = ((tabM).view.loc (thrOf d L) ↦{qT} ft) := by
    simp only [Memref.view_whole, View.set_whole]
  have pts_i : ((iLoc d ↦{qI} fi : sProp 𝕄)) = ((idxM).view.loc (thrOf d L) ↦{qI} fi) := by
    simp only [Memref.view_whole, View.set_whole]
  ihave Ht' := (Entails.of_eq pts_t) $$ Ht
  ihave Hi' := (Entails.of_eq pts_i) $$ Hi
  ihave Hs0' := (Entails.of_eq (Own.pts_tabS (F := F) d _ _ fullShare f0).symm) $$ Hs0
  ihave Hs1' := (Entails.of_eq (Own.pts_idxS (F := F) d _ _ fullShare f1).symm) $$ Hs1
  ihave Hs2' := (Entails.of_eq (Own.pts_outS (F := F) d _ _ fullShare f2).symm) $$ Hs2
  sl_exec
  -- what the two copies left: the table's row itself, and rows [8w, 8w + 8) of the indices in the scratch's rows 0..7
  have hSfi : ∀ y : S9x257.Idx, ∀ hy : (y 0).val < 8, ∃ hlt,
      (idxS.view.writes (Elt F) f1 [⟨Rect.unit ![0, 0] S8x257.size inb_S9x257_S8x257_0_0, body.sl.dma0_1 d L fi⟩]) y
        = fi (ix2 (⟨16 * (L 1).val + 8 * (L 0).val + (y 0).val, hlt⟩ : Fin 257) (y 1)) := by
    intro y hy
    refine ⟨by have := Landed.off_le L; omega, ?_⟩
    rw [Landed.rows8_hit f1 _ y hy]
    exact Landed.idxRows_read L fi _
  have hTft : View.write (Elt F) tabS.view f0 (body.sl.dma0 d ft) Finset.univ = ft := Landed.tab_landed f0 ft
  generalize hT : View.write (Elt F) tabS.view f0 (body.sl.dma0 d ft) Finset.univ = t at hTft
  generalize hS : idxS.view.writes (Elt F) f1 [⟨Rect.unit ![0, 0] S8x257.size inb_S9x257_S8x257_0_0, body.sl.dma0_1 d L fi⟩] = s at hSfi
  have hs8 : ∀ y : S9x257.Idx, (y 0).val < 8 → (s y).toNat < 964 := fun y hy => by
    obtain ⟨_, e⟩ := hSfi y hy; rw [e]; exact hr _
  sl_for (invOut (F := F) d L t s) $$ [Hs0' Hs1' Hs2']
  case region =>
    intro k _
    have hk8 : k.val < 8 := lt_of_lt_of_le k.isLt k0_t1_abs.2.1
    unfold invOut
    iintro ⟨Ht, Hs, ⟨%g, Hg, %hg⟩⟩
    sl_exec
    sl_for (invIn (F := F) d L t s k.val) $$ [Ht Hs Hg]
    case region =>
      intro k2 _
      have hk2 : k2.val < 16 := lt_of_lt_of_le k2.isLt k0_t2_abs.2.1
      unfold invIn
      iintro ⟨Ht, Hs, ⟨%g, Hg, %hg⟩⟩
      have hch : ∀ x, ((shapeCast S16 (View.readAt (Elt F) idxS.view (Rect.unit (s := S9x257) (k0_off2 k k2) S1x16.size (k0_off2_inb k k2)).toLoadRect s) shapeCasts_S1x16_S16) x).toNat < 964 := fun x => by
        rw [chunk_apply s _ _ ⟨k.val, by omega⟩ ⟨k2.val, hk2⟩ (k0_off2_eq k k2) x]; exact hs8 _ hk8
      sl_exec (disch := exact Cert.PreRange.inb_splat _ hch _ (by decide))
      repeat (rw [SparseCore.vectorLoadIdx_bind (thrOf d L)]; sl_exec (disch := exact Cert.PreRange.inb_splat _ hch _ (by decide)))
      sl_step
      isplitl [Ht]; · iexact Ht
      isplitl [Hs]; · iexact Hs
      iexists _
      isplitl [Hg]; · iexact Hg
      ipureintro
      intro y hy
      have hchE : ∀ x : S16.Idx, ∃ hlt, (shapeCast S16 (View.readAt (Elt F) idxS.view (Rect.unit (s := S9x257) (k0_off2 k k2) S1x16.size (k0_off2_inb k k2)).toLoadRect s) shapeCasts_S1x16_S16) x
          = s (ix2 (⟨k.val, by omega⟩ : Fin 9) ⟨16 * (⟨k2.val, hk2⟩ : Fin 16).val + (x 0).val, hlt⟩) :=
        fun x => ⟨_, chunk_apply s _ _ ⟨k.val, by omega⟩ ⟨k2.val, hk2⟩ (k0_off2_eq k k2) x⟩
      refine Cert.KernelIdeal.Fill.writes_agree_memref_whole cc0_scratch2 g (aim t s) _ (fun y => (y 1).val < k.val ∨ ((y 1).val = k.val ∧ (y 2).val < 16 * k2.val)) hg ?hL y ?hcov
      case hL =>
        refine List.forall_mem_cons.2 ⟨fun x => piece_ok t s _ ⟨k.val, by omega⟩ ⟨k2.val, hk2⟩ 15 15#32 (by decide) hchE hch (k0_off18 k k2) (k0_off18_inb k k2) (k0_off18_eq k k2) _ x, ?_⟩
        refine List.forall_mem_cons.2 ⟨fun x => piece_ok t s _ ⟨k.val, by omega⟩ ⟨k2.val, hk2⟩ 14 14#32 (by decide) hchE hch (k0_off17 k k2) (k0_off17_inb k k2) (k0_off17_eq k k2) _ x, ?_⟩
        refine List.forall_mem_cons.2 ⟨fun x => piece_ok t s _ ⟨k.val, by omega⟩ ⟨k2.val, hk2⟩ 13 13#32 (by decide) hchE hch (k0_off16 k k2) (k0_off16_inb k k2) (k0_off16_eq k k2) _ x, ?_⟩
        refine List.forall_mem_cons.2 ⟨fun x => piece_ok t s _ ⟨k.val, by omega⟩ ⟨k2.val, hk2⟩ 12 12#32 (by decide) hchE hch (k0_off15 k k2) (k0_off15_inb k k2) (k0_off15_eq k k2) _ x, ?_⟩
        refine List.forall_mem_cons.2 ⟨fun x => piece_ok t s _ ⟨k.val, by omega⟩ ⟨k2.val, hk2⟩ 11 11#32 (by decide) hchE hch (k0_off14 k k2) (k0_off14_inb k k2) (k0_off14_eq k k2) _ x, ?_⟩
        refine List.forall_mem_cons.2 ⟨fun x => piece_ok t s _ ⟨k.val, by omega⟩ ⟨k2.val, hk2⟩ 10 10#32 (by decide) hchE hch (k0_off13 k k2) (k0_off13_inb k k2) (k0_off13_eq k k2) _ x, ?_⟩
        refine List.forall_mem_cons.2 ⟨fun x => piece_ok t s _ ⟨k.val, by omega⟩ ⟨k2.val, hk2⟩ 9 9#32 (by decide) hchE hch (k0_off12 k k2) (k0_off12_inb k k2) (k0_off12_eq k k2) _ x, ?_⟩
        refine List.forall_mem_cons.2 ⟨fun x => piece_ok t s _ ⟨k.val, by omega⟩ ⟨k2.val, hk2⟩ 8 8#32 (by decide) hchE hch (k0_off11 k k2) (k0_off11_inb k k2) (k0_off11_eq k k2) _ x, ?_⟩
        refine List.forall_mem_cons.2 ⟨fun x => piece_ok t s _ ⟨k.val, by omega⟩ ⟨k2.val, hk2⟩ 7 7#32 (by decide) hchE hch (k0_off10 k k2) (k0_off10_inb k k2) (k0_off10_eq k k2) _ x, ?_⟩
        refine List.forall_mem_cons.2 ⟨fun x => piece_ok t s _ ⟨k.val, by omega⟩ ⟨k2.val, hk2⟩ 6 6#32 (by decide) hchE hch (k0_off9 k k2) (k0_off9_inb k k2) (k0_off9_eq k k2) _ x, ?_⟩
        refine List.forall_mem_cons.2 ⟨fun x => piece_ok t s _ ⟨k.val, by omega⟩ ⟨k2.val, hk2⟩ 5 5#32 (by decide) hchE hch (k0_off8 k k2) (k0_off8_inb k k2) (k0_off8_eq k k2) _ x, ?_⟩
        refine List.forall_mem_cons.2 ⟨fun x => piece_ok t s _ ⟨k.val, by omega⟩ ⟨k2.val, hk2⟩ 4 4#32 (by decide) hchE hch (k0_off7 k k2) (k0_off7_inb k k2) (k0_off7_eq k k2) _ x, ?_⟩
        refine List.forall_mem_cons.2 ⟨fun x => piece_ok t s _ ⟨k.val, by omega⟩ ⟨k2.val, hk2⟩ 3 3#32 (by decide) hchE hch (k0_off6 k k2) (k0_off6_inb k k2) (k0_off6_eq k k2) _ x, ?_⟩
        refine List.forall_mem_cons.2 ⟨fun x => piece_ok t s _ ⟨k.val, by omega⟩ ⟨k2.val, hk2⟩ 2 2#32 (by decide) hchE hch (k0_off5 k k2) (k0_off5_inb k k2) (k0_off5_eq k k2) _ x, ?_⟩
        refine List.forall_mem_cons.2 ⟨fun x => piece_ok t s _ ⟨k.val, by omega⟩ ⟨k2.val, hk2⟩ 1 1#32 (by decide) hchE hch (k0_off4 k k2) (k0_off4_inb k k2) (k0_off4_eq k k2) _ x, ?_⟩
        refine List.forall_mem_cons.2 ⟨fun x => piece_ok t s _ ⟨k.val, by omega⟩ ⟨k2.val, hk2⟩ 0 0#32 (by decide) hchE hch (k0_off3 k k2) (k0_off3_inb k k2) (k0_off3_eq k k2) _ x, ?_⟩
        exact fun _ h => absurd h (List.not_mem_nil)
      case hcov =>
        rcases hy with h1 | ⟨h1, h2⟩
        · exact .inl (.inl h1)
        · by_cases h3 : (y 2).val < 16 * k2.val
          · exact .inl (.inr ⟨h1, h3⟩)
          · right
            have hy0 : (y 0).val < 16 := (y 0).isLt
            rcases (show (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 by omega) with h0 | h0 | h0 | h0 | h0 | h0 | h0 | h0 | h0 | h0 | h0 | h0 | h0 | h0 | h0 | h0
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem_box y k.val k2.val h1 (by omega) (by omega) (k0_off3 k k2) (k0_off3_inb k k2) (by rw [k0_off3_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem_box y k.val k2.val h1 (by omega) (by omega) (k0_off4 k k2) (k0_off4_inb k k2) (by rw [k0_off4_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem_box y k.val k2.val h1 (by omega) (by omega) (k0_off5 k k2) (k0_off5_inb k k2) (by rw [k0_off5_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem_box y k.val k2.val h1 (by omega) (by omega) (k0_off6 k k2) (k0_off6_inb k k2) (by rw [k0_off6_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem_box y k.val k2.val h1 (by omega) (by omega) (k0_off7 k k2) (k0_off7_inb k k2) (by rw [k0_off7_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), mem_box y k.val k2.val h1 (by omega) (by omega) (k0_off8 k k2) (k0_off8_inb k k2) (by rw [k0_off8_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.head _))))))))), mem_box y k.val k2.val h1 (by omega) (by omega) (k0_off9 k k2) (k0_off9_inb k k2) (by rw [k0_off9_eq, h0])⟩
            · exact ⟨_, List.Mem.tail _ (List.Mem.tail _ (List.Mem.tail _ (List.Mem.tail _ (List.Mem.tail _ (List.Mem.tail _ (List.Mem.tail _ (List.Mem.tail _ (List.Mem.head _)))))))), mem_box y k.val k2.val h1 (by omega) (by omega) (k0_off10 k k2) (k0_off10_inb k k2) (by rw [k0_off10_eq, h0])⟩
            · exact ⟨_, List.Mem.tail _ (List.Mem.tail _ (List.Mem.tail _ (List.Mem.tail _ (List.Mem.tail _ (List.Mem.tail _ (List.Mem.tail _ (List.Mem.head _))))))), mem_box y k.val k2.val h1 (by omega) (by omega) (k0_off11 k k2) (k0_off11_inb k k2) (by rw [k0_off11_eq, h0])⟩
            · exact ⟨_, List.Mem.tail _ (List.Mem.tail _ (List.Mem.tail _ (List.Mem.tail _ (List.Mem.tail _ (List.Mem.tail _ (List.Mem.head _)))))), mem_box y k.val k2.val h1 (by omega) (by omega) (k0_off12 k k2) (k0_off12_inb k k2) (by rw [k0_off12_eq, h0])⟩
            · exact ⟨_, List.Mem.tail _ (List.Mem.tail _ (List.Mem.tail _ (List.Mem.tail _ (List.Mem.tail _ (List.Mem.head _))))), mem_box y k.val k2.val h1 (by omega) (by omega) (k0_off13 k k2) (k0_off13_inb k k2) (by rw [k0_off13_eq, h0])⟩
            · exact ⟨_, List.Mem.tail _ (List.Mem.tail _ (List.Mem.tail _ (List.Mem.tail _ (List.Mem.head _)))), mem_box y k.val k2.val h1 (by omega) (by omega) (k0_off14 k k2) (k0_off14_inb k k2) (by rw [k0_off14_eq, h0])⟩
            · exact ⟨_, List.Mem.tail _ (List.Mem.tail _ (List.Mem.tail _ (List.Mem.head _))), mem_box y k.val k2.val h1 (by omega) (by omega) (k0_off15 k k2) (k0_off15_inb k k2) (by rw [k0_off15_eq, h0])⟩
            · exact ⟨_, List.Mem.tail _ (List.Mem.tail _ (List.Mem.head _)), mem_box y k.val k2.val h1 (by omega) (by omega) (k0_off16 k k2) (k0_off16_inb k k2) (by rw [k0_off16_eq, h0])⟩
            · exact ⟨_, List.Mem.tail _ (List.Mem.head _), mem_box y k.val k2.val h1 (by omega) (by omega) (k0_off17 k k2) (k0_off17_inb k k2) (by rw [k0_off17_eq, h0])⟩
            · exact ⟨_, List.Mem.head _, mem_box y k.val k2.val h1 (by omega) (by omega) (k0_off18 k k2) (k0_off18_inb k k2) (by rw [k0_off18_eq, h0])⟩
    · unfold invIn
      isplitl [Ht]; · iexact Ht
      isplitl [Hs]; · iexact Hs
      iexists _
      isplitl [Hg]; · iexact Hg
      ipureintro
      intro y hy
      rcases hy with h | ⟨_, h⟩
      · exact hg y h
      · omega
    iintro %_ HI
    unfold invIn
    icases HI with ⟨Ht, Hs, ⟨%g', Hg, %hg'⟩⟩
    have ha8 : (Scf.iv (0#32 : BitVec 32) 1#32 k.val).toNat = k.val := iv_toNat k.val (by omega)
    have ha : (Scf.iv (0#32 : BitVec 32) 1#32 k.val).toNat < 9 := by omega
    have hsa : (s (ix2 (⟨(Scf.iv (0#32 : BitVec 32) 1#32 k.val).toNat, ha⟩ : Fin 9) (⟨256, by decide⟩ : Fin 257))).toNat < 964 :=
      hs8 _ (by show (Scf.iv (0#32 : BitVec 32) 1#32 k.val).toNat < 8; omega)
    have ht2 : Scf.trips k0_t2_loop.lb k0_t2_loop.ub k0_t2_loop.st = 16 := by decide
    sl_exec (disch := exact RowEnd.chk17 _ _ ha)
    rw [SparseCore.vectorLoadIdx_bind (thrOf d L)]
    sl_exec (disch := exact RowEnd.inb_pos s _ _ ha hsa _)
    rw [SparseCore.vectorLoadIdx_bind (thrOf d L)]
    sl_exec
    rw [SparseCore.vectorStoreIdx_bind (thrOf d L)]
    sl_exec
    sl_step
    isplitl [Ht]; · iexact Ht
    isplitl [Hs]; · iexact Hs
    iexists _
    isplitl [Hg]; · iexact Hg
    ipureintro
    have hg'' : ∀ y : S16x9x257.Idx, ((y 1).val < (Scf.iv (0#32 : BitVec 32) 1#32 k.val).toNat
        ∨ ((y 1).val = (Scf.iv (0#32 : BitVec 32) 1#32 k.val).toNat ∧ (y 2).val < 256)) → g' y = aim t s y := fun y hy => by
      refine hg' y ?_
      rw [ht2]; rw [ha8] at hy; exact hy
    intro y hy
    exact RowEnd.row_end t s g' _ _ ha hsa _ _ _ hg'' y (by rw [ha8]; exact hy)
  · unfold invOut
    isplitl [Hs0']; · iexact Hs0'
    isplitl [Hs1']; · iexact Hs1'
    iexists _
    isplitl [Hs2']; · iexact Hs2'
    ipureintro; intro y hy; exact absurd hy (Nat.not_lt_zero _)
  iintro %_ HI
  unfold invOut
  icases HI with ⟨Hs0, Hs1, ⟨%g8, Hs2, %hg8⟩⟩
  have pts_o : ∀ f : Buf (Elt F) (oLoc d), ((oLoc d ↦[blkSet L]{fullShare} f : sProp 𝕄)) = ((blkM L).view.loc (thrOf d L) ↦[(blkM L).view.set]{fullShare} f) := fun _ => rfl
  ihave Ho' := (Entails.of_eq (pts_o fo)) $$ Ho
  sl_exec
  have ht1 : Scf.trips k0_t1_loop.lb k0_t1_loop.ub k0_t1_loop.st = 8 := by decide
  have hg8' : ∀ y : S16x9x257.Idx, (y 1).val < 8 → g8 y = aim t s y := fun y hy => hg8 y (by rw [ht1]; exact hy)
  by_cases k0_h1 : k0_cond1 L = 1#1
  · have pts_l : ∀ f : Buf (Elt F) (oLoc d), ((oLoc d ↦[lastSet]{fullShare} f : sProp 𝕄)) = ((lastM).view.loc (thrOf d L) ↦[(lastM).view.set]{fullShare} f) := fun _ => rfl
    ihave Hlast1 := (Entails.of_eq (if_pos k0_h1)) $$ Hlast
    ihave Hlast' := (Entails.of_eq (pts_l fo)) $$ Hlast1
    sl_exec
    -- row 8 of the index scratch now holds row 256 of the indices; the rows below are as they were
    have hS9 : ∀ y : S9x257.Idx, (y 0).val = 8 →
        (idxS.view.writes (Elt F) s [⟨Rect.unit ![8, 0] S1x257.size inb_S9x257_S1x257_8_0, body.sl.dma0_4 d fi⟩]) y
          = fi (ix2 (⟨256, by decide⟩ : Fin 257) (y 1)) := by
      intro y hy
      rw [Landed.row9_hit s _ y hy]
      exact Landed.lastRow_read fi _
    have hS9m : ∀ y : S9x257.Idx, (y 0).val < 8 →
        (idxS.view.writes (Elt F) s [⟨Rect.unit ![8, 0] S1x257.size inb_S9x257_S1x257_8_0, body.sl.dma0_4 d fi⟩]) y = s y :=
      fun y hy => Landed.row9_miss s _ y hy
    generalize hS9d : idxS.view.writes (Elt F) s [⟨Rect.unit ![8, 0] S1x257.size inb_S9x257_S1x257_8_0, body.sl.dma0_4 d fi⟩] = s9 at hS9 hS9m
    have hs9 : ∀ y : S9x257.Idx, (y 0).val = 8 → (s9 y).toNat < 964 := fun y hy => by rw [hS9 y hy]; exact hr _
    have haim : ∀ y : S16x9x257.Idx, (y 1).val < 8 → aim t s9 y = aim t s y := fun y hy => by
      have e : s9 (ix2 (y 1) (y 2)) = s (ix2 (y 1) (y 2)) := hS9m _ hy
      show t (ix1 ⟨((s9 (ix2 (y 1) (y 2))).toNat * 16 + (y 0).val) % 15424, Nat.mod_lt _ (by decide)⟩)
        = t (ix1 ⟨((s (ix2 (y 1) (y 2))).toNat * 16 + (y 0).val) % 15424, Nat.mod_lt _ (by decide)⟩)
      rw [e]
    sl_for (invIn (F := F) d L t s9 8) $$ [Hs0 Hs1 Hs2]
    case region =>
      intro k3 _
      have hk3 : k3.val < 16 := lt_of_lt_of_le k3.isLt k0_t3_abs.2.1
      unfold invIn
      iintro ⟨Ht, Hs, ⟨%g, Hg, %hg⟩⟩
      have hch : ∀ x, ((shapeCast S16 (View.readAt (Elt F) idxS.view (Rect.unit (s := S9x257) (k0_off20 k3) S1x16.size (k0_off20_inb L k3 k0_h1)).toLoadRect s9) shapeCasts_S1x16_S16) x).toNat < 964 := fun x => by
        rw [chunk_apply s9 _ _ ⟨8, by omega⟩ ⟨k3.val, hk3⟩ (k0_off20_eq k3) x]; exact hs9 _ rfl
      sl_exec (disch := exact fun _ => Cert.PreRange.inb_splat _ hch _ (by decide))
      repeat ((first | rw [SparseCore.vectorLoadIdx_bind (thrOf d L)] | rw [loadIdx_prog (thrOf d L)]); sl_exec (disch := exact fun _ => Cert.PreRange.inb_splat _ hch _ (by decide)))
      sl_step
      isplitl [Ht]; · iexact Ht
      isplitl [Hs]; · iexact Hs
      iexists _
      isplitl [Hg]; · iexact Hg
      ipureintro
      intro y hy
      have hchE : ∀ x : S16.Idx, ∃ hlt, (shapeCast S16 (View.readAt (Elt F) idxS.view (Rect.unit (s := S9x257) (k0_off20 k3) S1x16.size (k0_off20_inb L k3 k0_h1)).toLoadRect s9) shapeCasts_S1x16_S16) x
          = s9 (ix2 (⟨8, by omega⟩ : Fin 9) ⟨16 * (⟨k3.val, hk3⟩ : Fin 16).val + (x 0).val, hlt⟩) :=
        fun x => ⟨_, chunk_apply s9 _ _ ⟨8, by omega⟩ ⟨k3.val, hk3⟩ (k0_off20_eq k3) x⟩
      refine Cert.KernelIdeal.Fill.writes_agree_memref_whole cc0_scratch2 g (aim t s9) _ (fun y => (y 1).val < 8 ∨ ((y 1).val = 8 ∧ (y 2).val < 16 * k3.val)) hg ?hL y ?hcov
      case hL =>
        refine List.forall_mem_cons.2 ⟨fun x => piece_ok t s9 _ ⟨8, by omega⟩ ⟨k3.val, hk3⟩ 15 15#32 (by decide) hchE hch (k0_off36 k3) (k0_off36_inb L k3 k0_h1) (k0_off36_eq k3) _ x, ?_⟩
        refine List.forall_mem_cons.2 ⟨fun x => piece_ok t s9 _ ⟨8, by omega⟩ ⟨k3.val, hk3⟩ 14 14#32 (by decide) hchE hch (k0_off35 k3) (k0_off35_inb L k3 k0_h1) (k0_off35_eq k3) _ x, ?_⟩
        refine List.forall_mem_cons.2 ⟨fun x => piece_ok t s9 _ ⟨8, by omega⟩ ⟨k3.val, hk3⟩ 13 13#32 (by decide) hchE hch (k0_off34 k3) (k0_off34_inb L k3 k0_h1) (k0_off34_eq k3) _ x, ?_⟩
        refine List.forall_mem_cons.2 ⟨fun x => piece_ok t s9 _ ⟨8, by omega⟩ ⟨k3.val, hk3⟩ 12 12#32 (by decide) hchE hch (k0_off33 k3) (k0_off33_inb L k3 k0_h1) (k0_off33_eq k3) _ x, ?_⟩
        refine List.forall_mem_cons.2 ⟨fun x => piece_ok t s9 _ ⟨8, by omega⟩ ⟨k3.val, hk3⟩ 11 11#32 (by decide) hchE hch (k0_off32 k3) (k0_off32_inb L k3 k0_h1) (k0_off32_eq k3) _ x, ?_⟩
        refine List.forall_mem_cons.2 ⟨fun x => piece_ok t s9 _ ⟨8, by omega⟩ ⟨k3.val, hk3⟩ 10 10#32 (by decide) hchE hch (k0_off31 k3) (k0_off31_inb L k3 k0_h1) (k0_off31_eq k3) _ x, ?_⟩
        refine List.forall_mem_cons.2 ⟨fun x => piece_ok t s9 _ ⟨8, by omega⟩ ⟨k3.val, hk3⟩ 9 9#32 (by decide) hchE hch (k0_off30 k3) (k0_off30_inb L k3 k0_h1) (k0_off30_eq k3) _ x, ?_⟩
        refine List.forall_mem_cons.2 ⟨fun x => piece_ok t s9 _ ⟨8, by omega⟩ ⟨k3.val, hk3⟩ 8 8#32 (by decide) hchE hch (k0_off29 k3) (k0_off29_inb L k3 k0_h1) (k0_off29_eq k3) _ x, ?_⟩
        refine List.forall_mem_cons.2 ⟨fun x => piece_ok t s9 _ ⟨8, by omega⟩ ⟨k3.val, hk3⟩ 7 7#32 (by decide) hchE hch (k0_off28 k3) (k0_off28_inb L k3 k0_h1) (k0_off28_eq k3) _ x, ?_⟩
        refine List.forall_mem_cons.2 ⟨fun x => piece_ok t s9 _ ⟨8, by omega⟩ ⟨k3.val, hk3⟩ 6 6#32 (by decide) hchE hch (k0_off27 k3) (k0_off27_inb L k3 k0_h1) (k0_off27_eq k3) _ x, ?_⟩
        refine List.forall_mem_cons.2 ⟨fun x => piece_ok t s9 _ ⟨8, by omega⟩ ⟨k3.val, hk3⟩ 5 5#32 (by decide) hchE hch (k0_off26 k3) (k0_off26_inb L k3 k0_h1) (k0_off26_eq k3) _ x, ?_⟩
        refine List.forall_mem_cons.2 ⟨fun x => piece_ok t s9 _ ⟨8, by omega⟩ ⟨k3.val, hk3⟩ 4 4#32 (by decide) hchE hch (k0_off25 k3) (k0_off25_inb L k3 k0_h1) (k0_off25_eq k3) _ x, ?_⟩
        refine List.forall_mem_cons.2 ⟨fun x => piece_ok t s9 _ ⟨8, by omega⟩ ⟨k3.val, hk3⟩ 3 3#32 (by decide) hchE hch (k0_off24 k3) (k0_off24_inb L k3 k0_h1) (k0_off24_eq k3) _ x, ?_⟩
        refine List.forall_mem_cons.2 ⟨fun x => piece_ok t s9 _ ⟨8, by omega⟩ ⟨k3.val, hk3⟩ 2 2#32 (by decide) hchE hch (k0_off23 k3) (k0_off23_inb L k3 k0_h1) (k0_off23_eq k3) _ x, ?_⟩
        refine List.forall_mem_cons.2 ⟨fun x => piece_ok t s9 _ ⟨8, by omega⟩ ⟨k3.val, hk3⟩ 1 1#32 (by decide) hchE hch (k0_off22 k3) (k0_off22_inb L k3 k0_h1) (k0_off22_eq k3) _ x, ?_⟩
        refine List.forall_mem_cons.2 ⟨fun x => piece_ok t s9 _ ⟨8, by omega⟩ ⟨k3.val, hk3⟩ 0 0#32 (by decide) hchE hch (k0_off21 k3) (k0_off21_inb L k3 k0_h1) (k0_off21_eq k3) _ x, ?_⟩
        exact fun _ h => absurd h (List.not_mem_nil)
      case hcov =>
        rcases hy with h1 | ⟨h1, h2⟩
        · exact .inl (.inl h1)
        · by_cases h3 : (y 2).val < 16 * k3.val
          · exact .inl (.inr ⟨h1, h3⟩)
          · right
            have hy0 : (y 0).val < 16 := (y 0).isLt
            rcases (show (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 by omega) with h0 | h0 | h0 | h0 | h0 | h0 | h0 | h0 | h0 | h0 | h0 | h0 | h0 | h0 | h0 | h0
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem_box y 8 k3.val h1 (by omega) (by omega) (k0_off21 k3) (k0_off21_inb L k3 k0_h1) (by rw [k0_off21_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem_box y 8 k3.val h1 (by omega) (by omega) (k0_off22 k3) (k0_off22_inb L k3 k0_h1) (by rw [k0_off22_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem_box y 8 k3.val h1 (by omega) (by omega) (k0_off23 k3) (k0_off23_inb L k3 k0_h1) (by rw [k0_off23_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem_box y 8 k3.val h1 (by omega) (by omega) (k0_off24 k3) (k0_off24_inb L k3 k0_h1) (by rw [k0_off24_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem_box y 8 k3.val h1 (by omega) (by omega) (k0_off25 k3) (k0_off25_inb L k3 k0_h1) (by rw [k0_off25_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), mem_box y 8 k3.val h1 (by omega) (by omega) (k0_off26 k3) (k0_off26_inb L k3 k0_h1) (by rw [k0_off26_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.head _))))))))), mem_box y 8 k3.val h1 (by omega) (by omega) (k0_off27 k3) (k0_off27_inb L k3 k0_h1) (by rw [k0_off27_eq, h0])⟩
            · exact ⟨_, List.Mem.tail _ (List.Mem.tail _ (List.Mem.tail _ (List.Mem.tail _ (List.Mem.tail _ (List.Mem.tail _ (List.Mem.tail _ (List.Mem.tail _ (List.Mem.head _)))))))), mem_box y 8 k3.val h1 (by omega) (by omega) (k0_off28 k3) (k0_off28_inb L k3 k0_h1) (by rw [k0_off28_eq, h0])⟩
            · exact ⟨_, List.Mem.tail _ (List.Mem.tail _ (List.Mem.tail _ (List.Mem.tail _ (List.Mem.tail _ (List.Mem.tail _ (List.Mem.tail _ (List.Mem.head _))))))), mem_box y 8 k3.val h1 (by omega) (by omega) (k0_off29 k3) (k0_off29_inb L k3 k0_h1) (by rw [k0_off29_eq, h0])⟩
            · exact ⟨_, List.Mem.tail _ (List.Mem.tail _ (List.Mem.tail _ (List.Mem.tail _ (List.Mem.tail _ (List.Mem.tail _ (List.Mem.head _)))))), mem_box y 8 k3.val h1 (by omega) (by omega) (k0_off30 k3) (k0_off30_inb L k3 k0_h1) (by rw [k0_off30_eq, h0])⟩
            · exact ⟨_, List.Mem.tail _ (List.Mem.tail _ (List.Mem.tail _ (List.Mem.tail _ (List.Mem.tail _ (List.Mem.head _))))), mem_box y 8 k3.val h1 (by omega) (by omega) (k0_off31 k3) (k0_off31_inb L k3 k0_h1) (by rw [k0_off31_eq, h0])⟩
            · exact ⟨_, List.Mem.tail _ (List.Mem.tail _ (List.Mem.tail _ (List.Mem.tail _ (List.Mem.head _)))), mem_box y 8 k3.val h1 (by omega) (by omega) (k0_off32 k3) (k0_off32_inb L k3 k0_h1) (by rw [k0_off32_eq, h0])⟩
            · exact ⟨_, List.Mem.tail _ (List.Mem.tail _ (List.Mem.tail _ (List.Mem.head _))), mem_box y 8 k3.val h1 (by omega) (by omega) (k0_off33 k3) (k0_off33_inb L k3 k0_h1) (by rw [k0_off33_eq, h0])⟩
            · exact ⟨_, List.Mem.tail _ (List.Mem.tail _ (List.Mem.head _)), mem_box y 8 k3.val h1 (by omega) (by omega) (k0_off34 k3) (k0_off34_inb L k3 k0_h1) (by rw [k0_off34_eq, h0])⟩
            · exact ⟨_, List.Mem.tail _ (List.Mem.head _), mem_box y 8 k3.val h1 (by omega) (by omega) (k0_off35 k3) (k0_off35_inb L k3 k0_h1) (by rw [k0_off35_eq, h0])⟩
            · exact ⟨_, List.Mem.head _, mem_box y 8 k3.val h1 (by omega) (by omega) (k0_off36 k3) (k0_off36_inb L k3 k0_h1) (by rw [k0_off36_eq, h0])⟩
    · unfold invIn
      isplitl [Hs0]; · iexact Hs0
      isplitl [Hs1]; · iexact Hs1
      iexists _
      isplitl [Hs2]; · iexact Hs2
      ipureintro
      intro y hy
      rcases hy with h | ⟨_, h⟩
      · rw [haim y h]; exact hg8' y h
      · omega
    iintro %_ HI
    unfold invIn
    icases HI with ⟨Hs0, Hs1, ⟨%g9, Hs2, %hg9⟩⟩
    have ht3 : Scf.trips k0_t3_loop.lb k0_t3_loop.ub k0_t3_loop.st = 16 := by decide
    have ha9 : (8#32 : BitVec 32).toNat < 9 := by decide
    have hsa9 : (s9 (ix2 (⟨(8#32 : BitVec 32).toNat, ha9⟩ : Fin 9) (⟨256, by decide⟩ : Fin 257))).toNat < 964 := hs9 _ rfl
    have hg9' : ∀ y : S16x9x257.Idx, ((y 1).val < (8#32 : BitVec 32).toNat ∨ ((y 1).val = (8#32 : BitVec 32).toNat ∧ (y 2).val < 256)) → g9 y = aim t s9 y :=
      fun y hy => hg9 y (by rw [ht3]; exact hy)
    sl_exec (disch := exact ⟨fun _ => RowEnd.inb_row _ ha9, fun _ => RowEnd.inb_entry _ _ ha9⟩)
    rw [SparseCore.vectorLoadIdx_bind (thrOf d L)]
    sl_exec (disch := exact fun _ => RowEnd.inb_pos s9 _ _ ha9 hsa9 _)
    rw [SparseCore.vectorLoadIdx_bind (thrOf d L)]
    sl_exec
    rw [SparseCore.vectorStoreIdx_bind (thrOf d L)]
    sl_exec
    sl_step
    isplitl [Ht' Hi' Ho' Hlast']
    · isplitl [Ht']; · iapply (Entails.of_eq pts_t.symm); iexact Ht'
      isplitl [Hi']; · iapply (Entails.of_eq pts_i.symm); iexact Hi'
      isplitl [Ho']
      · iexists _; isplitr
        swap
        · iapply (Entails.of_eq (pts_o _).symm); iexact Ho'
        · ipureintro
          exact BlockOut.block_out L _ g8 t ft s fi hTft hSfi hr hg8'
      · iapply (Entails.of_eq (if_pos k0_h1).symm)
        iexists _; isplitr
        swap
        · iapply (Entails.of_eq (pts_l _).symm); iexact Hlast'
        · ipureintro
          refine BlockOut.last_out fo _ t ft s9 fi hTft hS9 hr (fun y hy => ?_)
          exact RowEnd.row_end t s9 g9 _ _ ha9 hsa9 _ _ _ hg9' y (by rw [hy]; decide)
    isplitl [Hs0 Hs1 Hs2 Hbrest]
    · isplitl [Hs0]; · iexists _; iapply (Entails.of_eq (Own.pts_tabS (F := F) d _ _ fullShare _)); iexact Hs0
      isplitl [Hs1]; · iexists _; iapply (Entails.of_eq (Own.pts_idxS (F := F) d _ _ fullShare _)); iexact Hs1
      isplitl [Hs2]; · iexists _; iapply (Entails.of_eq (Own.pts_outS (F := F) d _ _ fullShare _)); iexact Hs2
      iexact Hbrest
    isplitl [Hc0 Hc1 Hc2 Hc3 Hc4 Hcrest]
    · isplitl [Hc0]; · iexact Hc0
      isplitl [Hc1]; · iexact Hc1
      isplitl [Hc2]; · iexact Hc2
      isplitl [Hc3]; · iexact Hc3
      isplitl [Hc4]; · iexact Hc4
      iexact Hcrest
    iexists _; isplitr
    swap
    · iexact HO
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      · exact .inl hp
  · rw [if_neg k0_h1, if_neg k0_h1]
    sl_exec
    sl_step
    isplitl [Ht' Hi' Ho']
    · isplitl [Ht']; · iapply (Entails.of_eq pts_t.symm); iexact Ht'
      isplitl [Hi']; · iapply (Entails.of_eq pts_i.symm); iexact Hi'
      isplitl [Ho']
      · iexists ((blkM L).view.writes (Elt F) fo [⟨Rect.whole S16x8x257, body.sl.dma0_2 d L g8⟩])
        isplitr
        · ipureintro
          exact BlockOut.block_out L fo g8 t ft s fi hTft hSfi hr hg8'
        · iapply (Entails.of_eq (pts_o _).symm)
          iexact Ho'
      · iempintro
    isplitl [Hs0 Hs1 Hs2 Hbrest]
    · isplitl [Hs0]; · iexists _; iapply (Entails.of_eq (Own.pts_tabS (F := F) d _ _ fullShare _)); iexact Hs0
      isplitl [Hs1]; · iexists _; iapply (Entails.of_eq (Own.pts_idxS (F := F) d _ _ fullShare _)); iexact Hs1
      isplitl [Hs2]; · iexists _; iapply (Entails.of_eq (Own.pts_outS (F := F) d _ _ fullShare _)); iexact Hs2
      iexact Hbrest
    isplitl [Hc0 Hc1 Hc2 Hc3 Hc4 Hcrest]
    · isplitl [Hc0]; · iexact Hc0
      isplitl [Hc1]; · iexact Hc1
      isplitl [Hc2]; · iexact Hc2
      isplitl [Hc3]; · iexact Hc3
      isplitl [Hc4]; · iexact Hc4
      iexact Hcrest
    iexists _; isplitr
    swap
    · iexact HO
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      · exact .inl hp

end Cert.KernelIdeal.Body

end
-- ==== Proof.OwnW.lean ====
/-
  What one vector subcore owns, split into the pieces the kernel body uses and the rest. A vector subcore owns its
  scoped semaphores, each at zero, and its scoped buffers, each whole at some contents. The body uses five DMA
  semaphores and three scratch buffers; each is a member of the owned family, and they are pairwise distinct, so the
  family's separating conjunction is the eight of them beside the conjunction over the family with them erased.
-/
import proofs.«201633_g9972914061550_cont_9to1c4b_803_29_alg».proof.Proof.SetupW
import Idealize.ShloMosaic.Lib.SparseCore.Launch

noncomputable section

namespace Cert.Kernel.Own

open Cert.Kernel Cert.Kernel.Gen Cert.Kernel.Blocks Cert.Kernel.Launch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (c : Fin τ.nSC) (i : Fin τ.nSub)

/-! ## The five semaphore cells -/

abbrev cell0 : GSem nD τ sig := (V d c i, .dma cc0_scoped0.sem)
abbrev cell1 : GSem nD τ sig := (V d c i, .dma cc0_scoped1.sem)
abbrev cell2 : GSem nD τ sig := (V d c i, .dma cc0_scoped2.sem)
abbrev cell3 : GSem nD τ sig := (V d c i, .dma cc0_scoped3.sem)
abbrev cell4 : GSem nD τ sig := (V d c i, .dma cc0_scoped4.sem)

/-- Two cells of one thread differ when their semaphores do. -/
theorem cell_ne (thr : Thread nD τ) (a b : SemLoc sig) (h : a ≠ b) : ((thr, a) : GSem nD τ sig) ≠ (thr, b) :=
  fun e => h (congrArg Prod.snd e)

/-- A scoped DMA semaphore of the thread is one of its own cells. -/
theorem mem_own (a : SemLoc sig) (h : a.isScoped .scVector = true) : ((V d c i, a) : GSem nD τ sig) ∈ ownCells (V d c i) :=
  mem_ownCells.mpr ⟨rfl, h⟩

theorem ownSems0_V :
    (ownSems0 (V d c i) : sProp 𝕄)
      = iprop(semVal (cell0 d c i) 0 ∗ semVal (cell1 d c i) 0 ∗ semVal (cell2 d c i) 0 ∗ semVal (cell3 d c i) 0 ∗ semVal (cell4 d c i) 0
          ∗ bigSep ((((((ownCells (V d c i)).erase (cell0 d c i)).erase (cell1 d c i)).erase (cell2 d c i)).erase (cell3 d c i)).erase (cell4 d c i))
              fun g => semVal g 0) := by
  have m0 := mem_own d c i (.dma cc0_scoped0.sem) (by decide)
  have m1 := mem_own d c i (.dma cc0_scoped1.sem) (by decide)
  have m2 := mem_own d c i (.dma cc0_scoped2.sem) (by decide)
  have m3 := mem_own d c i (.dma cc0_scoped3.sem) (by decide)
  have m4 := mem_own d c i (.dma cc0_scoped4.sem) (by decide)
  have n10 := cell_ne (V d c i) (.dma cc0_scoped1.sem) (.dma cc0_scoped0.sem) (by decide)
  have n20 := cell_ne (V d c i) (.dma cc0_scoped2.sem) (.dma cc0_scoped0.sem) (by decide)
  have n21 := cell_ne (V d c i) (.dma cc0_scoped2.sem) (.dma cc0_scoped1.sem) (by decide)
  have n30 := cell_ne (V d c i) (.dma cc0_scoped3.sem) (.dma cc0_scoped0.sem) (by decide)
  have n31 := cell_ne (V d c i) (.dma cc0_scoped3.sem) (.dma cc0_scoped1.sem) (by decide)
  have n32 := cell_ne (V d c i) (.dma cc0_scoped3.sem) (.dma cc0_scoped2.sem) (by decide)
  have n40 := cell_ne (V d c i) (.dma cc0_scoped4.sem) (.dma cc0_scoped0.sem) (by decide)
  have n41 := cell_ne (V d c i) (.dma cc0_scoped4.sem) (.dma cc0_scoped1.sem) (by decide)
  have n42 := cell_ne (V d c i) (.dma cc0_scoped4.sem) (.dma cc0_scoped2.sem) (by decide)
  have n43 := cell_ne (V d c i) (.dma cc0_scoped4.sem) (.dma cc0_scoped3.sem) (by decide)
  unfold SparseCore.Cfg.ownSems0
  rw [SparseCore.bigSep_erase' m0,
    SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩),
    SparseCore.bigSep_erase' (Finset.mem_erase.mpr ⟨n43, Finset.mem_erase.mpr ⟨n42, Finset.mem_erase.mpr ⟨n41,
      Finset.mem_erase.mpr ⟨n40, m4⟩⟩⟩⟩)]

/-! ## The three scratch buffers -/

/-- A scratch buffer of the vector subcore is one of its own buffers. -/
theorem mem_ownR (b : Ref sig .scVector) (h : ((Proc.scVector c i : Proc τ).devRef b).owner = .proc (.scVector c i)) :
    (Proc.scVector c i : Proc τ).devRef b ∈ ownRefs (τ := τ) (sig := sig) (.scVector c i) :=
  SparseCore.Cfg.mem_ownRefs_of_owner (p := Proc.scVector c i) (b := (Proc.scVector c i).devRef b) h

/-- Two buffers of one processor differ when their references do. -/
theorem devRef_ne (a b : Ref sig .scVector) (h : a ≠ b) : (Proc.scVector c i : Proc τ).devRef a ≠ (Proc.scVector c i).devRef b :=
  fun e => h (Proc.devRef_injective _ e)

theorem ownBufs_V :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f)
          ∗ bigSep ((((ownRefs (τ := τ) (.scVector c i)).erase ((Proc.scVector c i).devRef cc0_scratch0)).erase
              ((Proc.scVector c i).devRef cc0_scratch1)).erase ((Proc.scVector c i).devRef cc0_scratch2))
              fun b => iprop(∃ f, ((d, b) : Loc nD τ sig) ↦{fullShare} f)) := by
  have m0 := mem_ownR c i cc0_scratch0 rfl
  have m1 := mem_ownR c i cc0_scratch1 rfl
  have m2 := mem_ownR c i cc0_scratch2 rfl
  have n10 := devRef_ne c i cc0_scratch1 cc0_scratch0 (by decide)
  have n20 := devRef_ne c i cc0_scratch2 cc0_scratch0 (by decide)
  have n21 := devRef_ne c i cc0_scratch2 cc0_scratch1 (by decide)
  unfold SparseCore.Cfg.ownBufs
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩)]

/-! ## The scratch memrefs' points-to, at the subcore's own locations -/

theorem pts_tabS (q : PosShare TreeShare) (f : Buf (Elt F) ((V d c i).loc cc0_scratch0)) :
    ((tabS : Memref sig .scVector .vmem S15424 .f32).view.loc (V d c i) ↦{q} f : sProp 𝕄) = ((V d c i).loc cc0_scratch0 ↦{q} f) := rfl
theorem pts_idxS (q : PosShare TreeShare) (f : Buf (Elt F) ((V d c i).loc cc0_scratch1)) :
    ((idxS : Memref sig .scVector .vmem S9x257 .i32).view.loc (V d c i) ↦{q} f : sProp 𝕄) = ((V d c i).loc cc0_scratch1 ↦{q} f) := rfl
theorem pts_outS (q : PosShare TreeShare) (f : Buf (Elt F) ((V d c i).loc cc0_scratch2)) :
    ((outS : Memref sig .scVector .vmem S16x9x257 .f32).view.loc (V d c i) ↦{q} f : sProp 𝕄) = ((V d c i).loc cc0_scratch2 ↦{q} f) := rfl

/-- The same with the points-to restricted to the memref's own element set, which is everything. -/
theorem pts_tabS_set (q : PosShare TreeShare) (f : Buf (Elt F) ((V d c i).loc cc0_scratch0)) :
    ((tabS : Memref sig .scVector .vmem S15424 .f32).view.loc (V d c i) ↦[(tabS : Memref sig .scVector .vmem S15424 .f32).view.set]{q} f : sProp 𝕄)
      = ((V d c i).loc cc0_scratch0 ↦{q} f) := by
  simp only [Memref.view_whole, View.set_whole]
theorem pts_idxS_set (q : PosShare TreeShare) (f : Buf (Elt F) ((V d c i).loc cc0_scratch1)) :
    ((idxS : Memref sig .scVector .vmem S9x257 .i32).view.loc (V d c i) ↦[(idxS : Memref sig .scVector .vmem S9x257 .i32).view.set]{q} f : sProp 𝕄)
      = ((V d c i).loc cc0_scratch1 ↦{q} f) := by
  simp only [Memref.view_whole, View.set_whole]
theorem pts_outS_set (q : PosShare TreeShare) (f : Buf (Elt F) ((V d c i).loc cc0_scratch2)) :
    ((outS : Memref sig .scVector .vmem S16x9x257 .f32).view.loc (V d c i) ↦[(outS : Memref sig .scVector .vmem S16x9x257 .f32).view.set]{q} f : sProp 𝕄)
      = ((V d c i).loc cc0_scratch2 ↦{q} f) := by
  simp only [Memref.view_whole, View.set_whole]

end Cert.Kernel.Own

end
-- ==== Proof.PieceW.lean ====
/-
  One step of a subcore's work, as pure facts about arrays. The subcore holds a copy `t` of the table's one row
  (15424 numbers), a copy `s` of nine rows of indices ([9, 257]) and fills `g`, nine rows of every head
  ([16, 9, 257]), aiming at  g[h, r, j] = t[16 · s[r, j] + h].  Sixteen indices at a time (a chunk of row r starting at
  column 16 c) are multiplied by sixteen, the head's number added, the table read at those positions and the sixteen
  numbers stored at (h, r, 16 c …). Here: the aim as a function, a chunk of indices read lane by lane, and that what
  such a step stores is the aim on the box it stores to.
-/
import proofs.«201633_g9972914061550_cont_9to1c4b_803_29_alg».proof.Proof.BlocksW
import proofs.«201633_g9972914061550_cont_9to1c4b_803_29_alg».proof.Proof.PreRange
import Idealize.ShloMosaic.Lib.Pipeline.Value
import Idealize.ShloMosaic.Lib.Writes

noncomputable section

namespace Cert.Kernel.Piece

open Cert.Kernel Cert.Kernel.Gen Cert.Kernel.Blocks
open Idealize.ShloMosaic Idealize.ShloMosaic.ValueIdx

variable {F : FTy → Type} [FloatOps F]

/-- The aim: entry (h, r, j) of the subcore's rows is the table's number at position 16 · s[r, j] + h (taken modulo
    the row's length, which changes nothing while the index is below 964). -/
def aim (t : Vec F S15424 .f32) (s : Vec F S9x257 .i32) : Vec F S16x9x257 .f32 :=
  fun y => t (ix1 ⟨((s (ix2 (y 1) (y 2))).toNat * 16 + (y 0).val) % 15424, Nat.mod_lt _ (by decide)⟩)

/-- Sixteen consecutive indices of row `r` from column `16 c`, as the load of that box reads them: lane `x` is
    s[r, 16 c + x]. -/
theorem chunk_apply (s : Vec F S9x257 .i32) (off : Fin 2 → Nat) (inb : ∀ a, off a + S1x16.size a ≤ S9x257.size a)
    (r : Fin 9) (c : Fin 16) (e : off = ![r.val, 16 * c.val]) (x : S16.Idx) :
    shapeCast S16 (View.readAt (Elt F) idxS.view (Rect.unit (s := S9x257) off S1x16.size inb).toLoadRect s) shapeCasts_S1x16_S16 x
      = s (ix2 r ⟨16 * c.val + (x 0).val, by have := (x 0).isLt; have := c.isLt; simp at *; omega⟩) := by
  subst e
  refine (shapeCast_apply (s := S1x16) (t := S16) _ shapeCasts_S1x16_S16 x (ix2 (0 : Fin 1) (x 0)) ?_).trans ?_
  · rw [Shape.rowMajor_val_two, Shape.rowMajor_val_one]; simp
  · show s ((Rect.unit (s := S9x257) ![r.val, 16 * c.val] S1x16.size inb).toLoadRect.idx (ix2 (0 : Fin 1) (x 0))) = s _
    congr 1
    funext a
    apply Fin.ext
    rw [LoadRect.idx_apply]
    match a with
    | ⟨0, _⟩ => show r.val + 1 * 0 = r.val; omega
    | ⟨1, _⟩ => show 16 * c.val + 1 * (x 0).val = 16 * c.val + (x 0).val; omega

/-- What one step stores is the aim on its box: with `ch` the chunk of indices s[r, 16 c …] (each below 964) and
    `hw` the head's number as a word, lane x of the table read at 16 · ch + hw is t[16 · s[r, 16 c + x] + h], which is
    the aim at (h, r, 16 c + x), the element of the box [h, r, 16 c …] that lane lands on. -/
theorem piece_ok (t : Vec F S15424 .f32) (s : Vec F S9x257 .i32) (ch : IVec S16 32)
    (r : Fin 9) (c : Fin 16) (h : Fin 16) (hw : BitVec 32) (hhw : hw.toNat = h.val)
    (hch : ∀ x : S16.Idx, ∃ hlt, ch x = s (ix2 r ⟨16 * c.val + (x 0).val, hlt⟩))
    (hlt : ∀ x, (ch x).toNat < 964)
    (off : Fin 3 → Nat) (inb : ∀ a, off a + S1x1x16.size a ≤ S16x9x257.size a) (e : off = ![h.val, r.val, 16 * c.val])
    (hin : ∀ a x, ((![addi (muli ch (broadcast S16 16#32)) (broadcast S16 hw)] : Fin 1 → IVec S16 32) a x).toNat < S15424.size a)
    (x : S1x1x16.Idx) :
    shapeCast S1x1x16 (loadIdx (View.readAt (Elt F) tabS.view (LoadRect.whole S15424) t)
        ![addi (muli ch (broadcast S16 16#32)) (broadcast S16 hw)] hin) shapeCasts_S16_S1x1x16 x
      = aim t s ((Rect.unit (s := S16x9x257) off S1x1x16.size inb).emb x) := by
  subst e
  have hx0 : (x 0).val = 0 := by have := (x 0).isLt; simp at this; omega
  have hx1 : (x 1).val = 0 := by have := (x 1).isLt; simp at this; omega
  refine (shapeCast_apply (s := S16) (t := S1x1x16) _ shapeCasts_S16_S1x1x16 x (ix1 (x 2)) ?_).trans ?_
  · rw [Shape.rowMajor_val_one, Shape.rowMajor_val_three, hx0, hx1]; simp
  · have hl := Cert.PreRange.lane_mul16_add_splat ch hw (ix1 (x 2)) (hlt _) (by omega)
    obtain ⟨hb, hc⟩ := hch (ix1 (x 2))
    have hb' : 16 * c.val + (x 2).val < 257 := hb
    have E : (Rect.unit (s := S16x9x257) ![h.val, r.val, 16 * c.val] S1x1x16.size inb).emb x
        = (ix3 h r (⟨16 * c.val + (x 2).val, hb'⟩ : Fin 257) : S16x9x257.Idx) := by
      funext a; apply Fin.ext; rw [Rect.emb_apply]
      match a with
      | ⟨0, _⟩ => show h.val + 1 * (x 0).val = h.val; omega
      | ⟨1, _⟩ => show r.val + 1 * (x 1).val = r.val; omega
      | ⟨2, _⟩ => show 16 * c.val + 1 * (x 2).val = 16 * c.val + (x 2).val; omega
    refine Eq.trans ?_ (congrArg (aim t s) E).symm
    show t ((LoadRect.whole S15424).idx (idxAt ![addi (muli ch (broadcast S16 16#32)) (broadcast S16 hw)] hin (ix1 (x 2))))
      = t (ix1 ⟨((s (ix2 r (⟨16 * c.val + (x 2).val, hb'⟩ : Fin 257))).toNat * 16 + h.val) % 15424, Nat.mod_lt _ (by decide)⟩)
    congr 1
    funext a
    apply Fin.ext
    rw [LoadRect.idx_apply]
    match a with
    | ⟨0, _⟩ =>
      show 0 + 1 * (addi (muli ch (broadcast S16 16#32)) (broadcast S16 hw) (ix1 (x 2))).toNat
        = ((s (ix2 r (⟨16 * c.val + (x 2).val, hb'⟩ : Fin 257))).toNat * 16 + h.val) % 15424
      have hc' : (ch (ix1 (x 2))).toNat = (s (ix2 r (⟨16 * c.val + (x 2).val, hb'⟩ : Fin 257))).toNat := congrArg BitVec.toNat hc
      have h1 := hl.1
      have h2 := hl.2
      rw [hhw] at h1 h2
      rw [Nat.zero_add, Nat.one_mul, h1, ← hc', Nat.mod_eq_of_lt h2]

end Cert.Kernel.Piece

end
-- ==== Proof.FillW.lean ====
/-
  What a run of stores leaves in a buffer, read at one element.
  (1) A list of unmasked stores through boxes, every payload agreeing with one function G of the shape: an element
      some box covers reads G, an element no box covers keeps what it held; so G holds on the union of the boxes
      and any set on which the prior contents already agreed with G.
  (2) An indexed store (a scatter) of a rank-one vector, every lane enabled, overwriting: when distinct lanes name
      distinct elements, the element lane k names holds lane k of the stored vector, and an element no lane names
      keeps its contents. By induction over the lanes, the fold generalised over its accumulator.
  (3) The scatter whose index vectors are (lane number, a constant row a, the constant column 256) into a
      [16, 9, 257] array: lane h names element (h, a, 256).
-/
import proofs.«201633_g9972914061550_cont_9to1c4b_803_29_alg».proof.Kernel
import Idealize.ShloMosaic.Lib.Writes
import Idealize.ShloMosaic.Lib.ValueIdx
import Idealize.ShloMosaic.PureOps.ShapeOps

noncomputable section

namespace Cert.Kernel.Fill

open Idealize.ShloMosaic Cert.Kernel

/-! ## (1) Unmasked stores through boxes, all agreeing with one function -/

section Writes
variable {sig : RefSig} {κ : Kind} {sp : Space} {s : Shape} {e : EltTy} {Val : EltTy → Type}

/-- After stores whose payloads all agree with G, G holds wherever a box covers or the prior contents agreed. -/
theorem writes_agree (v : View sig κ sp s e) (f : v.ty.Contents Val) (G : s.Idx → Val e)
    (L : List (View.Piece Val s e)) (A : s.Idx → Prop)
    (hf : ∀ y, A y → v.read Val f y = G y)
    (hL : ∀ p ∈ L, ∀ x : p.1.shape.Idx, p.2 x = G (p.1.emb x)) :
    ∀ y, (A y ∨ ∃ p ∈ L, y ∈ p.1.set) → v.read Val (v.writes Val f L) y = G y := by
  intro y hy
  by_cases hc : ∃ p ∈ L, y ∈ p.1.set
  · exact View.read_writes_apply_of_pieces v f G L hL y hc
  · have hn : ∀ p ∈ L, y ∉ p.1.set := fun p hp hm => hc ⟨p, hp, hm⟩
    rw [View.read_writes_apply_of_forall_not_mem v f y L hn]
    rcases hy with hA | hE
    · exact hf y hA
    · exact absurd hE hc

/-- The same through a whole buffer, where reading is the identity. -/
theorem writes_agree_whole (b : Ref sig κ) (f : b.ty.Contents Val) (G : b.ty.shape.Idx → Val b.ty.elt)
    (L : List (View.Piece Val b.ty.shape b.ty.elt)) (A : b.ty.shape.Idx → Prop)
    (hf : ∀ y, A y → f y = G y)
    (hL : ∀ p ∈ L, ∀ x : p.1.shape.Idx, p.2 x = G (p.1.emb x)) :
    ∀ y, (A y ∨ ∃ p ∈ L, y ∈ p.1.set) → ((View.whole b).writes Val f L) y = G y :=
  writes_agree (View.whole b) f G L A hf hL

/-- The same with the view spelled as the whole memref's. -/
theorem writes_agree_memref_whole (b : Ref sig κ) (f : b.ty.Contents Val) (G : b.ty.shape.Idx → Val b.ty.elt)
    (L : List (View.Piece Val b.ty.shape b.ty.elt)) (A : b.ty.shape.Idx → Prop)
    (hf : ∀ y, A y → f y = G y)
    (hL : ∀ p ∈ L, ∀ x : p.1.shape.Idx, p.2 x = G (p.1.emb x)) :
    ∀ y, (A y ∨ ∃ p ∈ L, y ∈ p.1.set) → ((Memref.whole b).view.writes Val f L) y = G y :=
  writes_agree (View.whole b) f G L A hf hL

end Writes

/-! ## (2) The indexed store read at an index -/

section Scatter
variable {F : FTy → Type} [FloatOps F] {s : Shape} {e : EltTy} {d : Fin 1 → Nat}

/-- One lane of an overwriting, all-lanes-enabled indexed store: the element lane k names takes lane k's value. -/
def step (idxs : Fin s.rank → IVec ⟨1, d⟩ 32) (v : Vec F ⟨1, d⟩ e) (h : ∀ a x, (idxs a x).toNat < s.size a)
    (g : Vec F s e) (k : Fin (d 0)) : Vec F s e :=
  fun j => if (∀ a, (j a).val = ((idxAt idxs h (Shape.ofLane k)) a).val) then v (Shape.ofLane k) else g j

/-- The store is the fold of the lanes' steps. -/
theorem storeIdx_eq_foldl (f : Vec F s e) (idxs : Fin s.rank → IVec ⟨1, d⟩ 32) (v : Vec F ⟨1, d⟩ e)
    (h : ∀ a x, (idxs a x).toNat < s.size a) :
    storeIdx f idxs v (fun _ => 1#1) false h = (List.finRange (d 0)).foldl (step idxs v h) f := by
  unfold storeIdx
  congr 1
  funext g k
  have e1 : ((fun _ => 1#1 : IVec ⟨1, d⟩ 1) (Shape.ofLane k) = 1) := rfl
  dsimp only [step]
  rw [if_pos e1, if_neg Bool.false_ne_true]
  funext j
  unfold step
  by_cases hc : ∀ a, (j a).val = ((idxAt idxs h (Shape.ofLane k)) a).val
  · rw [if_pos hc, if_pos hc]
  · rw [if_neg hc, if_neg hc]

/-- The element test inside a step is equality of indices. -/
theorem test_iff (i j : s.Idx) : (∀ a, (j a).val = (i a).val) ↔ j = i :=
  ⟨fun h => funext fun a => Fin.ext (h a), fun h a => by rw [h]⟩

theorem step_hit (idxs : Fin s.rank → IVec ⟨1, d⟩ 32) (v : Vec F ⟨1, d⟩ e) (h : ∀ a x, (idxs a x).toNat < s.size a)
    (g : Vec F s e) (k : Fin (d 0)) : step idxs v h g k (idxAt idxs h (Shape.ofLane k)) = v (Shape.ofLane k) := by
  unfold step
  rw [if_pos (fun a => rfl)]

theorem step_miss (idxs : Fin s.rank → IVec ⟨1, d⟩ 32) (v : Vec F ⟨1, d⟩ e) (h : ∀ a x, (idxs a x).toNat < s.size a)
    (g : Vec F s e) (k : Fin (d 0)) (j : s.Idx) (hj : idxAt idxs h (Shape.ofLane k) ≠ j) : step idxs v h g k j = g j := by
  unfold step
  rw [if_neg (fun hh => hj ((test_iff _ _).1 hh).symm)]

/-- Lanes that do not name j leave j as it was. -/
theorem foldl_miss (idxs : Fin s.rank → IVec ⟨1, d⟩ 32) (v : Vec F ⟨1, d⟩ e) (h : ∀ a x, (idxs a x).toNat < s.size a)
    (j : s.Idx) : ∀ (l : List (Fin (d 0))) (g : Vec F s e), (∀ k ∈ l, idxAt idxs h (Shape.ofLane k) ≠ j) →
      l.foldl (step idxs v h) g j = g j
  | [], g, _ => rfl
  | k :: l, g, hl => by
    rw [List.foldl_cons, foldl_miss idxs v h j l _ (fun k' hk' => hl k' (List.mem_cons_of_mem _ hk')),
      step_miss idxs v h g k j (hl k List.mem_cons_self)]

/-- Among lanes naming distinct elements, the element lane k names ends with lane k's value. -/
theorem foldl_hit (idxs : Fin s.rank → IVec ⟨1, d⟩ 32) (v : Vec F ⟨1, d⟩ e) (h : ∀ a x, (idxs a x).toNat < s.size a)
    (hinj : ∀ k k', idxAt idxs h (Shape.ofLane k) = idxAt idxs h (Shape.ofLane k') → k = k') (k : Fin (d 0)) :
    ∀ (l : List (Fin (d 0))) (g : Vec F s e), l.Nodup → k ∈ l →
      l.foldl (step idxs v h) g (idxAt idxs h (Shape.ofLane k)) = v (Shape.ofLane k)
  | [], g, _, hk => absurd hk List.not_mem_nil
  | k' :: l, g, hnd, hk => by
    rw [List.foldl_cons]
    rcases List.mem_cons.1 hk with hkk | hkl
    · subst hkk
      have hnot : ∀ k'' ∈ l, idxAt idxs h (Shape.ofLane k'') ≠ idxAt idxs h (Shape.ofLane k) := fun k'' hk'' heq => by
        have e : k'' = k := hinj k'' k heq
        rw [e] at hk''
        exact (List.nodup_cons.1 hnd).1 hk''
      rw [foldl_miss idxs v h _ l _ hnot, step_hit]
    · exact foldl_hit idxs v h hinj k l _ (List.nodup_cons.1 hnd).2 hkl

/-- An overwriting indexed store with every lane enabled, distinct lanes naming distinct elements: the element lane k
    names holds lane k of the stored vector. -/
theorem storeIdx_hit (f : Vec F s e) (idxs : Fin s.rank → IVec ⟨1, d⟩ 32) (v : Vec F ⟨1, d⟩ e)
    (h : ∀ a x, (idxs a x).toNat < s.size a)
    (hinj : ∀ k k', idxAt idxs h (Shape.ofLane k) = idxAt idxs h (Shape.ofLane k') → k = k') (k : Fin (d 0)) :
    storeIdx f idxs v (fun _ => 1#1) false h (idxAt idxs h (Shape.ofLane k)) = v (Shape.ofLane k) := by
  rw [storeIdx_eq_foldl]
  exact foldl_hit idxs v h hinj k _ f (List.nodup_finRange _) (List.mem_finRange k)

/-- An element no lane names keeps its contents. -/
theorem storeIdx_miss (f : Vec F s e) (idxs : Fin s.rank → IVec ⟨1, d⟩ 32) (v : Vec F ⟨1, d⟩ e)
    (h : ∀ a x, (idxs a x).toNat < s.size a) (j : s.Idx) (hj : ∀ k, idxAt idxs h (Shape.ofLane k) ≠ j) :
    storeIdx f idxs v (fun _ => 1#1) false h j = f j := by
  rw [storeIdx_eq_foldl]
  exact foldl_miss idxs v h j _ f (fun k _ => hj k)

end Scatter

/-! ## (3) The scatter by (lane number, row a, column 256) into a [16, 9, 257] array -/

section KernelScatter
variable {F : FTy → Type} [FloatOps F]

/-- Lane k of a 16-lane register, as a rank-one index, is the index with coordinate k. -/
theorem ofLane_eq_ix1 (k : Fin 16) : (Shape.ofLane (d := ![16]) k : S16.Idx) = ValueIdx.ix1 k := by
  funext c
  match c with
  | ⟨0, _⟩ => rfl

/-- The lane-number vector of a 16-lane register holds k at lane k. -/
theorem iota_lane (hi : S16.Iotas .scVector 32 [0]) (x : S16.Idx) :
    (iota .scVector S16 32 [0] hi x).toNat = (x 0).val := by
  have hx : (x 0).val < 16 := (x 0).isLt
  have e : iota .scVector S16 32 [0] hi x = BitVec.ofNat 32 (x 0).val := by simp [iota]
  rw [e, BitVec.toNat_ofNat]
  exact Nat.mod_eq_of_lt (by omega)

variable (hi : S16.Iotas .scVector 32 [0]) (a : BitVec 32) (ha : a.toNat < 9)
  (hin : ∀ c x, ((![iota .scVector S16 32 [0] hi, broadcast S16 a, broadcast S16 256#32] : Fin 3 → IVec S16 32) c x).toNat
    < S16x9x257.size c)

/-- Lane k names element (k, a, 256). -/
theorem idxAt_lane (k : Fin 16) :
    idxAt (s := S16x9x257) ![iota .scVector S16 32 [0] hi, broadcast S16 a, broadcast S16 256#32] hin (Shape.ofLane (d := ![16]) k)
      = ValueIdx.ix3 k ⟨a.toNat, ha⟩ ⟨256, by decide⟩ := by
  funext c
  apply Fin.ext
  match c with
  | ⟨0, _⟩ => exact iota_lane hi _
  | ⟨1, _⟩ => rfl
  | ⟨2, _⟩ => rfl

/-- The element lane h names holds lane h of the stored vector. -/
theorem scatter_hit (f : Vec F S16x9x257 .f32) (v : Vec F S16 .f32) (h : Fin 16) :
    storeIdx f ![iota .scVector S16 32 [0] hi, broadcast S16 a, broadcast S16 256#32] v (fun _ => 1#1) false hin
      (ValueIdx.ix3 h ⟨a.toNat, ha⟩ ⟨256, by decide⟩) = v (ValueIdx.ix1 h) := by
  rw [← idxAt_lane hi a ha hin h, ← ofLane_eq_ix1 h]
  refine storeIdx_hit f _ v hin (fun k k' heq => ?_) h
  rw [idxAt_lane hi a ha hin k, idxAt_lane hi a ha hin k'] at heq
  exact congrFun heq ⟨0, by decide⟩

include ha in
/-- An element off row a or off column 256 keeps its contents. -/
theorem scatter_miss (f : Vec F S16x9x257 .f32) (v : Vec F S16 .f32) (y : S16x9x257.Idx)
    (hy : ¬ ((y 1).val = a.toNat ∧ (y 2).val = 256)) :
    storeIdx f ![iota .scVector S16 32 [0] hi, broadcast S16 a, broadcast S16 256#32] v (fun _ => 1#1) false hin y = f y := by
  refine storeIdx_miss f _ v hin y (fun k heq => hy ?_)
  rw [idxAt_lane hi a ha hin k] at heq
  subst heq
  exact ⟨rfl, rfl⟩

include ha in
/-- Both cases at once: after the scatter, element y holds lane y₀ of the stored vector when it lies on row a and
    column 256, and its old contents otherwise. -/
theorem scatter_apply (f : Vec F S16x9x257 .f32) (v : Vec F S16 .f32) (y : S16x9x257.Idx) :
    storeIdx f ![iota .scVector S16 32 [0] hi, broadcast S16 a, broadcast S16 256#32] v (fun _ => 1#1) false hin y
      = if (y 1).val = a.toNat ∧ (y 2).val = 256 then v (ValueIdx.ix1 (y 0)) else f y := by
  by_cases hc : (y 1).val = a.toNat ∧ (y 2).val = 256
  · rw [if_pos hc]
    have ey : y = ValueIdx.ix3 (y 0) ⟨a.toNat, ha⟩ ⟨256, by decide⟩ := by
      funext c
      match c with
      | ⟨0, _⟩ => rfl
      | ⟨1, _⟩ => exact Fin.ext hc.1
      | ⟨2, _⟩ => exact Fin.ext hc.2
    exact (congrArg (storeIdx f _ v (fun _ => 1#1) false hin) ey).trans (scatter_hit hi a ha hin f v (y 0))
  · rw [if_neg hc]
    exact scatter_miss hi a ha hin f v y hc

end KernelScatter

end Cert.Kernel.Fill

end
-- ==== Proof.LandedW.lean ====
/-
  What a vector subcore's scratch buffers hold after its copies, read at one index.
  (1) The table's copy: a whole-buffer write of the whole table leaves the table.
  (2) The index rows' copies: one unmasked store through a box of whole rows of the [9, 257] scratch. An element
      inside the box reads the payload at its offset within the box; an element outside keeps its contents. The two
      boxes are rows [0, 8) and row 8.
  (3) The payloads of those copies: a box of the [257, 257] index array read through, at an index z of the box, is
      the array at (offset + z₀, z₁); the boxes are the eight rows from 16 s + 8 c of the subcore (c, s), and row 256.
-/
import proofs.«201633_g9972914061550_cont_9to1c4b_803_29_alg».proof.Proof.BlocksW
import proofs.«201633_g9972914061550_cont_9to1c4b_803_29_alg».proof.Proof.Gen.Kernel
import Idealize.ShloMosaic.Lib.Writes
import Idealize.ShloMosaic.Lib.ValueIdx

noncomputable section

namespace Cert.Kernel.Landed

open Cert.Kernel Cert.Kernel.Gen Cert.Kernel.Blocks
open Idealize.ShloMosaic Idealize.ShloMosaic.ValueIdx

variable {F : FTy → Type}

/-! ## (1) The table -/

/-- An unmasked write of w through the whole table scratch leaves w. -/
theorem tab_write (f0 w : Vec F S15424 .f32) :
    (tabS : Memref sig .scVector .vmem S15424 .f32).view.write (Elt F) f0 w Finset.univ = w :=
  View.write_whole_univ _ _ _

/-- The whole table in HBM reads as its contents. -/
theorem tab_read (ft : Vec F S15424 .f32) :
    (tabM : Memref sig .scVector .hbm S15424 .f32).view.read (Elt F) ft = ft := rfl

/-- The table's copy lands the table. -/
theorem tab_landed (f0 ft : Vec F S15424 .f32) :
    (tabS : Memref sig .scVector .vmem S15424 .f32).view.write (Elt F) f0
      ((tabM : Memref sig .scVector .hbm S15424 .f32).view.read (Elt F) ft) Finset.univ = ft :=
  View.write_whole_univ _ _ _

/-! ## (2) The index rows -/

/-- Rows [0, 8) of the [9, 257] scratch, and row 8. -/
abbrev R8 : Rect S9x257 := Rect.unit (s := S9x257) ![0, 0] S8x257.size inb_S9x257_S8x257_0_0
abbrev R1 : Rect S9x257 := Rect.unit (s := S9x257) ![8, 0] S1x257.size inb_S9x257_S1x257_8_0

/-- One store through a box of the whole index scratch, read at the box's own index x. -/
theorem single_emb (f1 : Vec F S9x257 .i32) (R : Rect S9x257) (w : R.shape.Idx → BitVec 32) (x : R.shape.Idx) :
    ((idxS : Memref sig .scVector .vmem S9x257 .i32).view.writes (Elt F) f1 [⟨R, w⟩]) (R.emb x) = w x :=
  View.read_writes_cons_emb (idxS : Memref sig .scVector .vmem S9x257 .i32).view f1 R w [] x

/-- One store through a box of the whole index scratch, read outside the box. -/
theorem single_not_mem (f1 : Vec F S9x257 .i32) (R : Rect S9x257) (w : R.shape.Idx → BitVec 32) (y : S9x257.Idx)
    (hy : y ∉ R.set) :
    ((idxS : Memref sig .scVector .vmem S9x257 .i32).view.writes (Elt F) f1 [⟨R, w⟩]) y = f1 y :=
  View.read_writes_apply_of_forall_not_mem (idxS : Memref sig .scVector .vmem S9x257 .i32).view f1 y [⟨R, w⟩]
    (fun p hp => by rw [List.mem_singleton] at hp; subst hp; exact hy)

/-- Element (r, j) with r < 8 is the eight-row box's element (r, j). -/
theorem R8_emb (y : S9x257.Idx) (hy : (y 0).val < 8) : R8.emb (ix2 ⟨(y 0).val, hy⟩ (y 1)) = y := by
  funext a
  apply Fin.ext
  match a with
  | ⟨0, _⟩ => show 0 + 1 * (y 0).val = (y 0).val; omega
  | ⟨1, _⟩ => show 0 + 1 * (y 1).val = (y 1).val; omega

/-- Element (8, j) is the one-row box's element (0, j). -/
theorem R1_emb (y : S9x257.Idx) (hy : (y 0).val = 8) : R1.emb (ix2 (0 : Fin 1) (y 1)) = y := by
  funext a
  apply Fin.ext
  match a with
  | ⟨0, _⟩ => show 8 + 1 * 0 = (y 0).val; omega
  | ⟨1, _⟩ => show 0 + 1 * (y 1).val = (y 1).val; omega

/-- Rows [0, 8) after the eight-row store: the payload. -/
theorem rows8_hit (f1 : Vec F S9x257 .i32) (w : S8x257.Idx → BitVec 32) (y : S9x257.Idx) (hy : (y 0).val < 8) :
    ((idxS : Memref sig .scVector .vmem S9x257 .i32).view.writes (Elt F) f1
      [⟨Rect.unit (s := S9x257) ![0, 0] S8x257.size inb_S9x257_S8x257_0_0, w⟩]) y = w (ix2 ⟨(y 0).val, hy⟩ (y 1)) :=
  (congrArg ((idxS : Memref sig .scVector .vmem S9x257 .i32).view.writes (Elt F) f1 [⟨R8, w⟩]) (R8_emb y hy).symm).trans
    (single_emb f1 R8 w _)

/-- Row 8 after the eight-row store: untouched. -/
theorem rows8_miss (f1 : Vec F S9x257 .i32) (w : S8x257.Idx → BitVec 32) (y : S9x257.Idx) (hy : ¬ (y 0).val < 8) :
    ((idxS : Memref sig .scVector .vmem S9x257 .i32).view.writes (Elt F) f1
      [⟨Rect.unit (s := S9x257) ![0, 0] S8x257.size inb_S9x257_S8x257_0_0, w⟩]) y = f1 y := by
  refine single_not_mem f1 R8 w y (fun hm => hy ?_)
  have h := (Rect.mem_set_unit.1 hm ⟨0, by decide⟩).2
  exact h

/-- Row 8 after the one-row store: the payload. -/
theorem row9_hit (s : Vec F S9x257 .i32) (w : S1x257.Idx → BitVec 32) (y : S9x257.Idx) (hy : (y 0).val = 8) :
    ((idxS : Memref sig .scVector .vmem S9x257 .i32).view.writes (Elt F) s
      [⟨Rect.unit (s := S9x257) ![8, 0] S1x257.size inb_S9x257_S1x257_8_0, w⟩]) y = w (ix2 (0 : Fin 1) (y 1)) :=
  (congrArg ((idxS : Memref sig .scVector .vmem S9x257 .i32).view.writes (Elt F) s [⟨R1, w⟩]) (R1_emb y hy).symm).trans
    (single_emb s R1 w _)

/-- Rows [0, 8) after the one-row store: untouched. -/
theorem row9_miss (s : Vec F S9x257 .i32) (w : S1x257.Idx → BitVec 32) (y : S9x257.Idx) (hy : (y 0).val < 8) :
    ((idxS : Memref sig .scVector .vmem S9x257 .i32).view.writes (Elt F) s
      [⟨Rect.unit (s := S9x257) ![8, 0] S1x257.size inb_S9x257_S1x257_8_0, w⟩]) y = s y := by
  refine single_not_mem s R1 w y (fun hm => ?_)
  have h := (Rect.mem_set_unit.1 hm ⟨0, by decide⟩).1
  have h' : 8 ≤ (y 0).val := h
  omega

/-- Two stores, the later first in the list, are the later one over what the earlier one left. -/
theorem writes_two (f1 : Vec F S9x257 .i32) (p q : View.Piece (Elt F) S9x257 .i32) :
    (idxS : Memref sig .scVector .vmem S9x257 .i32).view.writes (Elt F) f1 [p, q]
      = (idxS : Memref sig .scVector .vmem S9x257 .i32).view.writes (Elt F)
          ((idxS : Memref sig .scVector .vmem S9x257 .i32).view.writes (Elt F) f1 [q]) [p] := rfl

/-! ## (3) The payloads: boxes of the index array read through -/

/-- The subcore's eight rows start at 16 s + 8 c and end by row 256. -/
theorem off_le (L : grid0.Coords) : 16 * (L 1).val + 8 * (L 0).val + 8 ≤ 257 := by
  have h := k0_off1_inb L ⟨0, by decide⟩
  rw [k0_off1_eq L] at h
  exact h

/-- The eight-row box of the index array at z is the array at (16 s + 8 c + z₀, z₁). -/
theorem idxRows_read (L : grid0.Coords) (fi : Vec F S257x257 .i32) (z : S8x257.Idx) :
    (idxRowsM L).view.read (Elt F) fi z
      = fi (ix2 (⟨16 * (L 1).val + 8 * (L 0).val + (z 0).val, by have := off_le L; have hz : (z 0).val < 8 := (z 0).isLt; omega⟩ : Fin 257) (z 1)) := by
  show fi ((idxRect L).emb z) = _
  congr 1
  funext a
  apply Fin.ext
  have e0 : k0_off1 L ⟨0, by decide⟩ = 16 * (L 1).val + 8 * (L 0).val := by rw [k0_off1_eq L]; rfl
  have e1 : k0_off1 L ⟨1, by decide⟩ = 0 := by rw [k0_off1_eq L]; rfl
  match a with
  | ⟨0, h0⟩ =>
    have e : (((idxRect L).emb z) ⟨0, h0⟩ : Nat) = k0_off1 L ⟨0, h0⟩ + 1 * (z ⟨0, h0⟩).val := rfl
    rw [e, e0]
    show 16 * (L 1).val + 8 * (L 0).val + 1 * (z 0).val = 16 * (L 1).val + 8 * (L 0).val + (z 0).val
    omega
  | ⟨1, h1⟩ =>
    have e : (((idxRect L).emb z) ⟨1, h1⟩ : Nat) = k0_off1 L ⟨1, h1⟩ + 1 * (z ⟨1, h1⟩).val := rfl
    rw [e, e1]
    show 0 + 1 * (z 1).val = (z 1).val
    omega

/-- Row 256 of the index array, as the last subcore slices it. -/
abbrev lastRowM : Memref sig .scVector .hbm S1x257 .i32 :=
  idxM.slice (Rect.unit (s := S257x257) ![256, 0] S1x257.size inb_S257x257_S1x257_256_0) (fun _ => rfl)

/-- The one-row box at row 256 read at z is the array at (256, z₁). -/
theorem lastRow_read (fi : Vec F S257x257 .i32) (z : S1x257.Idx) :
    lastRowM.view.read (Elt F) fi z = fi (ix2 (⟨256, by decide⟩ : Fin 257) (z 1)) := by
  show fi ((Rect.unit (s := S257x257) ![256, 0] S1x257.size inb_S257x257_S1x257_256_0).emb z) = _
  congr 1
  funext a
  apply Fin.ext
  have hz : (z 0).val = 0 := by have h1 : (z 0).val < 1 := (z 0).isLt; omega
  match a with
  | ⟨0, _⟩ => show 256 + 1 * (z 0).val = 256; omega
  | ⟨1, _⟩ => show 0 + 1 * (z 1).val = (z 1).val; omega

end Cert.Kernel.Landed

end
-- ==== Proof.RowEndW.lean ====
/-
  The last step of a row, as a pure fact about arrays. For row a of a subcore's nine rows, every one of the sixteen
  lanes reads the row's last index s[a, 256]; lane h reads the table's one row at position 16 · s[a, 256] + h; the
  sixteen numbers are scattered to the entries (h, a, 256). If the scratch already held the aim on the rows before a
  and on the first 256 columns of row a, after the step it holds the aim on every row up to and including a.
  Also the side conditions the step meets: the index vectors lie inside the arrays they address.
-/
import proofs.«201633_g9972914061550_cont_9to1c4b_803_29_alg».proof.Proof.PieceW
import proofs.«201633_g9972914061550_cont_9to1c4b_803_29_alg».proof.Proof.FillW

noncomputable section

namespace Cert.Kernel.RowEnd

open Cert.Kernel Cert.Kernel.Gen Cert.Kernel.Blocks
open Idealize.ShloMosaic Idealize.ShloMosaic.ValueIdx

variable {F : FTy → Type} [FloatOps F]

/-! ## The side conditions -/

/-- Row a (below 9) and column 256 name an entry of the [9, 257] index scratch, in every lane. -/
theorem inb_row (a : BitVec 32) (ha : a.toNat < 9) :
    ∀ c x, ((![broadcast S16 a, broadcast S16 256#32] : Fin 2 → IVec S16 32) c x).toNat < S9x257.size c := by
  intro c x
  match c with
  | ⟨0, _⟩ => exact ha
  | ⟨1, _⟩ => show (256#32).toNat < 257; decide

/-- Lane number, row a (below 9) and column 256 name an entry of the [16, 9, 257] scratch, in every lane. -/
theorem inb_entry (hi : S16.Iotas .scVector 32 [0]) (a : BitVec 32) (ha : a.toNat < 9) :
    ∀ c x, ((![iota .scVector S16 32 [0] hi, broadcast S16 a, broadcast S16 256#32] : Fin 3 → IVec S16 32) c x).toNat
      < S16x9x257.size c := by
  intro c x
  match c with
  | ⟨0, _⟩ =>
    show (iota .scVector S16 32 [0] hi x).toNat < 16
    rw [Fill.iota_lane hi x]
    exact (x 0).isLt
  | ⟨1, _⟩ => exact ha
  | ⟨2, _⟩ => show (256#32).toNat < 257; decide

/-- The two together: the check the step states of its three index vectors. -/
theorem chk17 (hi : S16.Iotas .scVector 32 [0]) (a : BitVec 32) (ha : a.toNat < 9) :
    k0_chk17 (iota .scVector S16 32 [0] hi) (broadcast S16 a) (broadcast S16 256#32) :=
  ⟨inb_row a ha, inb_entry hi a ha⟩

/-- Every lane of the load of the index scratch at (a, 256) is s[a, 256]. -/
theorem last_idx_apply (s : Vec F S9x257 .i32) (a : BitVec 32) (ha : a.toNat < 9)
    (hin1 : ∀ c x, ((![broadcast S16 a, broadcast S16 256#32] : Fin 2 → IVec S16 32) c x).toNat < S9x257.size c)
    (x : S16.Idx) :
    loadIdx (View.readAt (Elt F) idxS.view (LoadRect.whole S9x257) s) ![broadcast S16 a, broadcast S16 256#32] hin1 x
      = s (ix2 (⟨a.toNat, ha⟩ : Fin 9) (⟨256, by decide⟩ : Fin 257)) := by
  have e : View.readAt (Elt F) idxS.view (LoadRect.whole S9x257) s = s := Memref.readAt_whole (Elt F) cc0_scratch1 s
  rw [e]
  show s (idxAt ![broadcast S16 a, broadcast S16 256#32] hin1 x) = _
  refine congrArg s (funext fun c => Fin.ext ?_)
  match c with
  | ⟨0, _⟩ => rfl
  | ⟨1, _⟩ => rfl

/-- The positions 16 · s[a, 256] + lane lie inside the table's one row when s[a, 256] is below 964. -/
theorem inb_pos (s : Vec F S9x257 .i32) (hi : S16.Iotas .scVector 32 [0]) (a : BitVec 32) (ha : a.toNat < 9)
    (hsa : (s (ix2 (⟨a.toNat, ha⟩ : Fin 9) (⟨256, by decide⟩ : Fin 257))).toNat < 964)
    (hin1 : ∀ c x, ((![broadcast S16 a, broadcast S16 256#32] : Fin 2 → IVec S16 32) c x).toNat < S9x257.size c) :
    ∀ c x, ((![addi (muli (loadIdx (View.readAt (Elt F) idxS.view (LoadRect.whole S9x257) s) ![broadcast S16 a, broadcast S16 256#32] hin1)
        (broadcast S16 16#32)) (iota .scVector S16 32 [0] hi)] : Fin 1 → IVec S16 32) c x).toNat < S15424.size c :=
  Cert.PreRange.inb_iota .scVector hi _ fun x => by rw [last_idx_apply s a ha hin1 x]; exact hsa

/-! ## One store through the whole box -/

/-- A single unmasked store of `w` through the whole box of a whole buffer leaves `w`. -/
theorem writes_whole_piece {sig : RefSig} {κ : Kind} {Val : EltTy → Type} (b : Ref sig κ) (f w : b.ty.Contents Val)
    (y : b.ty.shape.Idx) :
    ((Memref.whole b).view.writes Val f [⟨Rect.whole b.ty.shape, w⟩]) y = w y := by
  have h := View.read_writes_cons_emb (View.whole b) f (Rect.whole b.ty.shape) w [] y
  rw [Rect.emb_whole_apply] at h
  exact h

/-! ## The step reaches the aim on the whole row -/

/-- After the row's last step the scratch holds the aim on every row up to and including a, given that it held it
    on the rows before a and on the first 256 columns of row a, and that s[a, 256] is below 964. -/
theorem row_end (t : Vec F S15424 .f32) (s : Vec F S9x257 .i32) (g : Vec F S16x9x257 .f32) (hi : S16.Iotas .scVector 32 [0])
    (a : BitVec 32) (ha : a.toNat < 9)
    (hsa : (s (ix2 (⟨a.toNat, ha⟩ : Fin 9) (⟨256, by decide⟩ : Fin 257))).toNat < 964)
    (hin1 : ∀ c x, ((![broadcast S16 a, broadcast S16 256#32] : Fin 2 → IVec S16 32) c x).toNat < S9x257.size c)
    (hin2 : ∀ c x, ((![addi (muli (loadIdx (View.readAt (Elt F) idxS.view (LoadRect.whole S9x257) s) ![broadcast S16 a, broadcast S16 256#32] hin1) (broadcast S16 16#32)) (iota .scVector S16 32 [0] hi)] : Fin 1 → IVec S16 32) c x).toNat < S15424.size c)
    (hin3 : ∀ c x, ((![iota .scVector S16 32 [0] hi, broadcast S16 a, broadcast S16 256#32] : Fin 3 → IVec S16 32) c x).toNat < S16x9x257.size c)
    (hg : ∀ y : S16x9x257.Idx, ((y 1).val < a.toNat ∨ ((y 1).val = a.toNat ∧ (y 2).val < 256)) → g y = Piece.aim t s y) :
    ∀ y : S16x9x257.Idx, (y 1).val < a.toNat + 1 →
      (outS.view.writes (Elt F) g [⟨Rect.whole S16x9x257,
          storeIdx (View.readAt (Elt F) outS.view (LoadRect.whole S16x9x257) g) ![iota .scVector S16 32 [0] hi, broadcast S16 a, broadcast S16 256#32]
            (loadIdx (View.readAt (Elt F) tabS.view (LoadRect.whole S15424) t)
              ![addi (muli (loadIdx (View.readAt (Elt F) idxS.view (LoadRect.whole S9x257) s) ![broadcast S16 a, broadcast S16 256#32] hin1) (broadcast S16 16#32)) (iota .scVector S16 32 [0] hi)] hin2)
            (fun _ => 1#1) false hin3⟩]) y = Piece.aim t s y := by
  intro y hy
  -- the one whole-box piece reads its payload at every index
  refine (writes_whole_piece cc0_scratch2 g _ y).trans ?_
  have eg : View.readAt (Elt F) outS.view (LoadRect.whole S16x9x257) g = g := Memref.readAt_whole (Elt F) cc0_scratch2 g
  have et : View.readAt (Elt F) tabS.view (LoadRect.whole S15424) t = t := Memref.readAt_whole (Elt F) cc0_scratch0 t
  rw [eg, Fill.scatter_apply hi a ha hin3]
  by_cases hc : (y 1).val = a.toNat ∧ (y 2).val = 256
  · rw [if_pos hc]
    -- lane y₀ of the table read at 16 · s[a, 256] + lane
    show View.readAt (Elt F) tabS.view (LoadRect.whole S15424) t (idxAt _ hin2 (ix1 (y 0))) = _
    rw [et]
    have hl := Cert.PreRange.lane_mul16_add_iota .scVector hi
      (loadIdx (View.readAt (Elt F) idxS.view (LoadRect.whole S9x257) s) ![broadcast S16 a, broadcast S16 256#32] hin1)
      (ix1 (y 0)) (by rw [last_idx_apply s a ha hin1]; exact hsa)
    rw [last_idx_apply s a ha hin1] at hl
    have ey : (ix2 (y 1) (y 2) : S9x257.Idx) = ix2 (⟨a.toNat, ha⟩ : Fin 9) (⟨256, by decide⟩ : Fin 257) := by
      funext c
      match c with
      | ⟨0, _⟩ => exact Fin.ext hc.1
      | ⟨1, _⟩ => exact Fin.ext hc.2
    unfold Piece.aim
    refine congrArg t (funext fun c => Fin.ext ?_)
    match c with
    | ⟨0, _⟩ =>
      show (addi (muli (loadIdx (View.readAt (Elt F) idxS.view (LoadRect.whole S9x257) s) ![broadcast S16 a, broadcast S16 256#32] hin1)
          (broadcast S16 16#32)) (iota .scVector S16 32 [0] hi) (ix1 (y 0))).toNat
        = ((s (ix2 (y 1) (y 2))).toNat * 16 + (y 0).val) % 15424
      rw [ey, hl.1, Nat.mod_eq_of_lt hl.2]
  · rw [if_neg hc]
    refine hg y ?_
    have h2 : (y 2).val < 257 := (y 2).isLt
    omega

end Cert.Kernel.RowEnd

end
-- ==== Proof.BlockOutW.lean ====
/-
  What a subcore's copy out leaves in B, read at an index. The subcore has filled g, its nine rows of every head
  ([16, 9, 257]), with  g[h, r, j] = t[16 · s[r, j] + h]  (Piece.aim), where t is its copy of the table's one row and s its
  nine rows of indices: rows 0 … 7 of s are rows 8w … 8w + 7 of I (8w = 16 · s' + 8 · c at grid point (c, s')), and for
  the last subcore row 8 of s is row 256 of I. Copying rows 0 … 7 of g onto rows 8w … 8w + 7 of B, and row 8 of g onto row
  256 of B, leaves at every entry (h, r, j) written the number  T[16 · I[r, j] + h]  (Blocks.gathered): an index equation,
  the box's offset added on the one side and carried by the rows of s on the other.
-/
import proofs.«201633_g9972914061550_cont_9to1c4b_803_29_alg».proof.Proof.PieceW
import proofs.«201633_g9972914061550_cont_9to1c4b_803_29_alg».proof.Proof.BlocksW
import Idealize.ShloMosaic.Lib.Writes
import Idealize.ShloMosaic.Lib.ValueIdx

noncomputable section

namespace Cert.Kernel.BlockOut

open Cert.Kernel Cert.Kernel.Gen Cert.Kernel.Blocks
open Idealize.ShloMosaic Idealize.ShloMosaic.ValueIdx

variable {F : FTy → Type} [FloatOps F]

/-- Rows 0 … 7 of every head of the subcore's rows, and row 8: the boxes the two copies out read. -/
abbrev srcRect : Rect S16x9x257 := Rect.unit (s := S16x9x257) ![0, 0, 0] S16x8x257.size Facts₀.inb_S16x9x257_S16x8x257_0_0_0
abbrev srcLast : Rect S16x9x257 := Rect.unit (s := S16x9x257) ![0, 8, 0] S16x1x257.size Facts₀.inb_S16x9x257_S16x1x257_0_8_0

/-- B after the subcore at L has copied rows 0 … 7 of g onto its eight rows, over contents fo. -/
abbrev blockTerm (L : grid0.Coords) (fo : Vec F S16x257x257 .f32) (g : Vec F S16x9x257 .f32) : Vec F S16x257x257 .f32 :=
  (blkM L).view.writes (Elt F) fo [⟨Rect.whole S16x8x257, (outS.slice srcRect (fun _ => rfl)).view.read (Elt F) g⟩]

/-- B after row 8 of g has been copied onto row 256, over contents fo. -/
abbrev lastTerm (fo : Vec F S16x257x257 .f32) (g : Vec F S16x9x257 .f32) : Vec F S16x257x257 .f32 :=
  lastM.view.writes (Elt F) fo [⟨Rect.whole S16x1x257, (outS.slice srcLast (fun _ => rfl)).view.read (Elt F) g⟩]

/-- The position read for an entry depends only on the index there and the head. -/
theorem at_pos (ft : Vec F S15424 .f32) {a b : Nat} (h : a = b) (ha : a % 15424 < 15424) (hb : b % 15424 < 15424) :
    ft (ix1 (⟨a % 15424, ha⟩ : Fin 15424)) = ft (ix1 (⟨b % 15424, hb⟩ : Fin 15424)) := by
  subst h; rfl

/-- Reading a whole array through a view is reading it at the view's indices. -/
theorem read_blk (L : grid0.Coords) (G : Vec F S16x257x257 .f32) (z : S16x8x257.Idx) :
    (blkM L).view.read (Elt F) G z = G ((blkM L).view.emb z) := by
  rw [View.read_apply, cast_eq]
theorem read_lastM (G : Vec F S16x257x257 .f32) (z : S16x1x257.Idx) :
    lastM.view.read (Elt F) G z = G (lastM.view.emb z) := by
  rw [View.read_apply, cast_eq]
theorem read_src (g : Vec F S16x9x257 .f32) (z : S16x8x257.Idx) :
    (outS.slice srcRect (fun _ => rfl)).view.read (Elt F) g z = g (srcRect.emb z) := by
  rw [View.read_apply, cast_eq]; rfl
theorem read_srcLast (g : Vec F S16x9x257 .f32) (z : S16x1x257.Idx) :
    (outS.slice srcLast (fun _ => rfl)).view.read (Elt F) g z = g (srcLast.emb z) := by
  rw [View.read_apply, cast_eq]; rfl

/-- The entry of B under index z of the box copied holds g at z read as an index of the nine rows. -/
theorem read_block (L : grid0.Coords) (fo : Vec F S16x257x257 .f32) (g : Vec F S16x9x257 .f32) (z : S16x8x257.Idx) :
    blockTerm L fo g ((blkM L).view.emb z) = g (srcRect.emb z) := by
  have h1 := View.read_writes_cons_emb (blkM L).view fo (Rect.whole S16x8x257)
    ((outS.slice srcRect (fun _ => rfl)).view.read (Elt F) g) [] z
  rw [Rect.emb_whole_apply, read_blk, read_src] at h1
  exact h1
theorem read_last (fo : Vec F S16x257x257 .f32) (g : Vec F S16x9x257 .f32) (z : S16x1x257.Idx) :
    lastTerm fo g (lastM.view.emb z) = g (srcLast.emb z) := by
  have h1 := View.read_writes_cons_emb lastM.view fo (Rect.whole S16x1x257)
    ((outS.slice srcLast (fun _ => rfl)).view.read (Elt F) g) [] z
  rw [Rect.emb_whole_apply, read_lastM, read_srcLast] at h1
  exact h1

/-- Coordinates of the entries: the box's offset and the index in the box. -/
theorem emb_blk (L : grid0.Coords) (z : S16x8x257.Idx) (a : Fin 3) :
    (((blkM L).view.emb z) a : Nat) = k0_off19 L a + 1 * (z a : Nat) := rfl
theorem emb_src (z : S16x8x257.Idx) (a : Fin 3) : ((srcRect.emb z) a : Nat) = (![0, 0, 0] : Fin 3 → Nat) a + 1 * (z a : Nat) := rfl
theorem emb_lastM (z : S16x1x257.Idx) (a : Fin 3) : ((lastM.view.emb z) a : Nat) = (![0, 256, 0] : Fin 3 → Nat) a + 1 * (z a : Nat) := rfl
theorem emb_srcLast (z : S16x1x257.Idx) (a : Fin 3) : ((srcLast.emb z) a : Nat) = (![0, 8, 0] : Fin 3 → Nat) a + 1 * (z a : Nat) := rfl

/-- Every entry of the subcore's eight rows of B holds its gathered value. -/
theorem block_out (L : grid0.Coords) (fo : Vec F S16x257x257 .f32) (g : Vec F S16x9x257 .f32) (t ft : Vec F S15424 .f32)
    (s : Vec F S9x257 .i32) (fi : Vec F S257x257 .i32)
    (hT : t = ft)
    (hS : ∀ y : S9x257.Idx, ∀ hy : (y 0).val < 8, ∃ hlt, s y = fi (ValueIdx.ix2 (⟨16 * (L 1).val + 8 * (L 0).val + (y 0).val, hlt⟩ : Fin 257) (y 1)))
    (hr : ∀ y, (fi y).toNat < 964)
    (hg : ∀ y : S16x9x257.Idx, (y 1).val < 8 → g y = Piece.aim t s y) :
    ∀ x ∈ blkSet L, blockTerm L fo g x = gathered ft fi x := by
  intro x hx
  obtain ⟨z, -, rfl⟩ := Finset.mem_map.mp hx
  subst hT
  -- the entry reads the payload at z, which is g at z read as an index of the nine rows
  rw [read_block]
  -- coordinates: of the entry of B, and of the entry of g
  have hk : k0_off19 L = ![0, 16 * (L 1).val + 8 * (L 0).val, 0] := k0_off19_eq L
  have hx0 : (((blkM L).view.emb z) 0 : Nat) = 0 + 1 * (z 0 : Nat) := by rw [emb_blk, hk]; rfl
  have hx1 : (((blkM L).view.emb z) 1 : Nat) = (16 * (L 1).val + 8 * (L 0).val) + 1 * (z 1 : Nat) := by rw [emb_blk, hk]; rfl
  have hx2 : (((blkM L).view.emb z) 2 : Nat) = 0 + 1 * (z 2 : Nat) := by rw [emb_blk, hk]; rfl
  have hy0 : ((srcRect.emb z) 0 : Nat) = 0 + 1 * (z 0 : Nat) := emb_src z 0
  have hy1 : ((srcRect.emb z) 1 : Nat) = 0 + 1 * (z 1 : Nat) := emb_src z 1
  have hy2 : ((srcRect.emb z) 2 : Nat) = 0 + 1 * (z 2 : Nat) := emb_src z 2
  have hz1 : (z 1 : Nat) < 8 := (z 1).isLt
  have hlt8 : ((srcRect.emb z) 1).val < 8 := by rw [hy1]; omega
  rw [hg _ hlt8]
  obtain ⟨hlt, hs⟩ := hS (ix2 ((srcRect.emb z) 1) ((srcRect.emb z) 2)) hlt8
  have hfi : fi (ValueIdx.ix2 (⟨16 * (L 1).val + 8 * (L 0).val + ((srcRect.emb z) 1).val, hlt⟩ : Fin 257) ((srcRect.emb z) 2))
      = fi (ix2 (((blkM L).view.emb z) 1) (((blkM L).view.emb z) 2)) := by
    congr 1
    funext a
    apply Fin.ext
    match a with
    | ⟨0, _⟩ =>
      show 16 * (L 1).val + 8 * (L 0).val + ((srcRect.emb z) 1).val = (((blkM L).view.emb z) 1 : Nat)
      rw [hx1, hy1]; omega
    | ⟨1, _⟩ =>
      show ((srcRect.emb z) 2 : Nat) = (((blkM L).view.emb z) 2 : Nat)
      rw [hx2, hy2]
  show t (ix1 (⟨((s (ix2 ((srcRect.emb z) 1) ((srcRect.emb z) 2))).toNat * 16 + ((srcRect.emb z) 0).val) % 15424, _⟩ : Fin 15424))
    = t (ix1 (⟨pos fi ((blkM L).view.emb z) % 15424, _⟩ : Fin 15424))
  refine at_pos t ?_ _ _
  unfold pos
  rw [hs, hfi, hy0, hx0]

/-- Every entry of row 256 of B holds its gathered value. -/
theorem last_out (fo : Vec F S16x257x257 .f32) (g : Vec F S16x9x257 .f32) (t ft : Vec F S15424 .f32)
    (s : Vec F S9x257 .i32) (fi : Vec F S257x257 .i32)
    (hT : t = ft)
    (hS : ∀ y : S9x257.Idx, (y 0).val = 8 → s y = fi (ValueIdx.ix2 (⟨256, by decide⟩ : Fin 257) (y 1)))
    (hr : ∀ y, (fi y).toNat < 964)
    (hg : ∀ y : S16x9x257.Idx, (y 1).val = 8 → g y = Piece.aim t s y) :
    ∀ x ∈ lastSet, lastTerm fo g x = gathered ft fi x := by
  intro x hx
  obtain ⟨z, -, rfl⟩ := Finset.mem_map.mp hx
  subst hT
  rw [read_last]
  have hx0 : ((lastM.view.emb z) 0 : Nat) = 0 + 1 * (z 0 : Nat) := emb_lastM z 0
  have hx1 : ((lastM.view.emb z) 1 : Nat) = 256 + 1 * (z 1 : Nat) := emb_lastM z 1
  have hx2 : ((lastM.view.emb z) 2 : Nat) = 0 + 1 * (z 2 : Nat) := emb_lastM z 2
  have hy0 : ((srcLast.emb z) 0 : Nat) = 0 + 1 * (z 0 : Nat) := emb_srcLast z 0
  have hy1 : ((srcLast.emb z) 1 : Nat) = 8 + 1 * (z 1 : Nat) := emb_srcLast z 1
  have hy2 : ((srcLast.emb z) 2 : Nat) = 0 + 1 * (z 2 : Nat) := emb_srcLast z 2
  have hz1 : (z 1 : Nat) < 1 := (z 1).isLt
  have h8 : ((srcLast.emb z) 1).val = 8 := by rw [hy1]; omega
  rw [hg _ h8]
  have hs := hS (ix2 ((srcLast.emb z) 1) ((srcLast.emb z) 2)) h8
  have hfi : fi (ValueIdx.ix2 (⟨256, by decide⟩ : Fin 257) ((srcLast.emb z) 2))
      = fi (ix2 ((lastM.view.emb z) 1) ((lastM.view.emb z) 2)) := by
    congr 1
    funext a
    apply Fin.ext
    match a with
    | ⟨0, _⟩ =>
      show 256 = ((lastM.view.emb z) 1 : Nat)
      rw [hx1]; omega
    | ⟨1, _⟩ =>
      show ((srcLast.emb z) 2 : Nat) = ((lastM.view.emb z) 2 : Nat)
      rw [hx2, hy2]
  show t (ix1 (⟨((s (ix2 ((srcLast.emb z) 1) ((srcLast.emb z) 2))).toNat * 16 + ((srcLast.emb z) 0).val) % 15424, _⟩ : Fin 15424))
    = t (ix1 (⟨pos fi (lastM.view.emb z) % 15424, _⟩ : Fin 15424))
  refine at_pos t ?_ _ _
  unfold pos
  rw [hs, hfi, hy0, hx0]

end Cert.Kernel.BlockOut

end
-- ==== Proof.BodyW.lean ====
/-
  A vector subcore's task, at a symbolic grid point. The subcore copies the table's one row and its eight rows of
  indices into its own memory, fills its nine-row scratch row by row — sixteen indices at a time, for every head h the
  table read at 16 · index + h and stored at (h, row, columns), then the row's last column by one indexed load and one
  indexed store —, copies the eight rows out to its rows of the result, and, if it is the last subcore, does the same for
  row 256. The invariants say which entries of the scratch already hold their target, Piece.aim; what the copies move is
  read off at the end.
-/
import proofs.«201633_g9972914061550_cont_9to1c4b_803_29_alg».proof.Proof.SetupW
import proofs.«201633_g9972914061550_cont_9to1c4b_803_29_alg».proof.Proof.OwnW
import proofs.«201633_g9972914061550_cont_9to1c4b_803_29_alg».proof.Proof.PieceW
import proofs.«201633_g9972914061550_cont_9to1c4b_803_29_alg».proof.Proof.FillW
import proofs.«201633_g9972914061550_cont_9to1c4b_803_29_alg».proof.Proof.PreRange
import proofs.«201633_g9972914061550_cont_9to1c4b_803_29_alg».proof.Proof.LandedW
import proofs.«201633_g9972914061550_cont_9to1c4b_803_29_alg».proof.Proof.RowEndW
import proofs.«201633_g9972914061550_cont_9to1c4b_803_29_alg».proof.Proof.BlockOutW
import Idealize.ShloMosaic.Lib.SparseCore.Ops
import proofs.«201633_g9972914061550_cont_9to1c4b_803_29_alg».proof.Proof.Gen.Kernel.Skeleton

noncomputable section

namespace Cert.Kernel.Body

open Cert.Kernel Cert.Kernel.Gen Cert.Kernel.Blocks Cert.Kernel.Launch Cert.Kernel.Piece

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- An element of row `r` whose column lies in [16 c, 16 c + 16) is in the box of its own head at (h, r, 16 c). -/
theorem mem_box (y : S16x9x257.Idx) (r c : Nat) (hy1 : (y 1).val = r) (hlo : 16 * c ≤ (y 2).val) (hhi : (y 2).val < 16 * c + 16)
    (off : Fin 3 → Nat) (inb : ∀ a, off a + S1x1x16.size a ≤ S16x9x257.size a) (e : off = ![(y 0).val, r, 16 * c]) :
    y ∈ (Rect.unit (s := S16x9x257) off S1x1x16.size inb).set := by
  subst e
  rw [Rect.mem_set_unit]
  intro a
  match a with
  | ⟨0, _⟩ => exact ⟨le_refl _, by show (y 0).val < (y 0).val + 1; omega⟩
  | ⟨1, _⟩ => exact ⟨by show r ≤ (y 1).val; omega, by show (y 1).val < r + 1; omega⟩
  | ⟨2, _⟩ => exact ⟨by show 16 * c ≤ (y 2).val; omega, by show (y 2).val < 16 * c + 16; omega⟩

/-- A loop counter from 0 by 1, below 8, read as a number. -/
theorem iv_toNat (k : Nat) (hk : k < 9) : (Scf.iv (0#32 : BitVec 32) 1#32 k).toNat = k := by
  unfold Scf.iv
  simp only [BitVec.zero_add, BitVec.mul_one, BitVec.toNat_ofNat]
  omega

variable [FloatOps F]

/-- The indexed load as the machine runs it: one load of the whole scratch, then the lanes picked out. -/
theorem loadIdx_prog (c : Thread nD τ) {Λ : Labels} {s t : Shape} {e : EltTy} (base : Memref sig c.2.kind .vmem s e)
    (idxs : Fin s.rank → IVec t 32) (h : ∀ a x, (idxs a x).toNat < s.size a) (hl : base.view.Loads) :
    (SparseCore.vectorLoadIdx (nD := nD) (F := F) (Λ := Λ) (p := c.2) base idxs h hl)
      = .op (.load base (.whole s) (View.loadsAt_whole hl)) fun f => .ret (loadIdx f idxs h) := rfl

/-- Before row `r`: the table and index copies as they are, and every row below `r` of the scratch at its target. -/
def invOut (d : Dev nD) (L : grid0.Coords) (t : Buf (Elt F) ((tabS).view.loc (thrOf d L))) (s : Buf (Elt F) ((idxS).view.loc (thrOf d L)))
    (r : Nat) (_ : PUnit) : sProp 𝕄 :=
  iprop(((tabS).view.loc (thrOf d L) ↦{fullShare} t) ∗ ((idxS).view.loc (thrOf d L) ↦{fullShare} s)
    ∗ (∃ g, ((outS).view.loc (thrOf d L) ↦{fullShare} g) ∗ ⌜∀ y : S16x9x257.Idx, (y 1).val < r → g y = aim t s y⌝))

/-- Inside row `r`, before its chunk `c`: also row `r` left of column 16 c. -/
def invIn (d : Dev nD) (L : grid0.Coords) (t : Buf (Elt F) ((tabS).view.loc (thrOf d L))) (s : Buf (Elt F) ((idxS).view.loc (thrOf d L)))
    (r : Nat) (c : Nat) (_ : PUnit) : sProp 𝕄 :=
  iprop(((tabS).view.loc (thrOf d L) ↦{fullShare} t) ∗ ((idxS).view.loc (thrOf d L) ↦{fullShare} s)
    ∗ (∃ g, ((outS).view.loc (thrOf d L) ↦{fullShare} g) ∗ ⌜∀ y : S16x9x257.Idx, ((y 1).val < r ∨ ((y 1).val = r ∧ (y 2).val < 16 * c)) → g y = aim t s y⌝))

set_option maxHeartbeats 16000000 in
theorem body : BodySpec F := by
  intro hF d L qT qI ft fi fo hr O W hO
  unfold tileIn tileOut
  simp only [cc0__sc_gather_body_eq_skeleton]; unfold cc0__sc_gather_body_skel
  rw [(K (F := F)).scopedBufs_V hF d ((L 0).castLE Facts₀.hcore0) ((L 1).castLE Facts₀.hsub0),
    SparseCore.Cfg.scopedSems0_V (Val := Elt F) d ((L 0).castLE Facts₀.hcore0) ((L 1).castLE Facts₀.hsub0),
    Own.ownSems0_V d _ _, Own.ownBufs_V d _ _]
  iintro ⟨#Hlv, -, ⟨Ht, Hi, Ho, Hlast⟩, ⟨⟨%f0, Hs0⟩, ⟨%f1, Hs1⟩, ⟨%f2, Hs2⟩, Hbrest⟩, ⟨Hc0, Hc1, Hc2, Hc3, Hc4, Hcrest⟩, HO⟩
  ihave Hmw := ((K (F := F)).mayWaits_none (thr := thrOf d L) hO) $$ Hlv
  have pts_t : ((tLoc d ↦{qT} ft : sProp 𝕄)) = ((tabM).view.loc (thrOf d L) ↦{qT} ft) := by
    simp only [Memref.view_whole, View.set_whole]
  have pts_i : ((iLoc d ↦{qI} fi : sProp 𝕄)) = ((idxM).view.loc (thrOf d L) ↦{qI} fi) := by
    simp only [Memref.view_whole, View.set_whole]
  ihave Ht' := (Entails.of_eq pts_t) $$ Ht
  ihave Hi' := (Entails.of_eq pts_i) $$ Hi
  ihave Hs0' := (Entails.of_eq (Own.pts_tabS (F := F) d _ _ fullShare f0).symm) $$ Hs0
  ihave Hs1' := (Entails.of_eq (Own.pts_idxS (F := F) d _ _ fullShare f1).symm) $$ Hs1
  ihave Hs2' := (Entails.of_eq (Own.pts_outS (F := F) d _ _ fullShare f2).symm) $$ Hs2
  sl_exec
  -- what the two copies left: the table's row itself, and rows [8w, 8w + 8) of the indices in the scratch's rows 0..7
  have hSfi : ∀ y : S9x257.Idx, ∀ hy : (y 0).val < 8, ∃ hlt,
      (idxS.view.writes (Elt F) f1 [⟨Rect.unit ![0, 0] S8x257.size inb_S9x257_S8x257_0_0, body.sl.dma0_1 d L fi⟩]) y
        = fi (ix2 (⟨16 * (L 1).val + 8 * (L 0).val + (y 0).val, hlt⟩ : Fin 257) (y 1)) := by
    intro y hy
    refine ⟨by have := Landed.off_le L; omega, ?_⟩
    rw [Landed.rows8_hit f1 _ y hy]
    exact Landed.idxRows_read L fi _
  have hTft : View.write (Elt F) tabS.view f0 (body.sl.dma0 d ft) Finset.univ = ft := Landed.tab_landed f0 ft
  generalize hT : View.write (Elt F) tabS.view f0 (body.sl.dma0 d ft) Finset.univ = t at hTft
  generalize hS : idxS.view.writes (Elt F) f1 [⟨Rect.unit ![0, 0] S8x257.size inb_S9x257_S8x257_0_0, body.sl.dma0_1 d L fi⟩] = s at hSfi
  have hs8 : ∀ y : S9x257.Idx, (y 0).val < 8 → (s y).toNat < 964 := fun y hy => by
    obtain ⟨_, e⟩ := hSfi y hy; rw [e]; exact hr _
  sl_for (invOut (F := F) d L t s) $$ [Hs0' Hs1' Hs2']
  case region =>
    intro k _
    have hk8 : k.val < 8 := lt_of_lt_of_le k.isLt k0_t1_abs.2.1
    unfold invOut
    iintro ⟨Ht, Hs, ⟨%g, Hg, %hg⟩⟩
    sl_exec
    sl_for (invIn (F := F) d L t s k.val) $$ [Ht Hs Hg]
    case region =>
      intro k2 _
      have hk2 : k2.val < 16 := lt_of_lt_of_le k2.isLt k0_t2_abs.2.1
      unfold invIn
      iintro ⟨Ht, Hs, ⟨%g, Hg, %hg⟩⟩
      have hch : ∀ x, ((shapeCast S16 (View.readAt (Elt F) idxS.view (Rect.unit (s := S9x257) (k0_off2 k k2) S1x16.size (k0_off2_inb k k2)).toLoadRect s) shapeCasts_S1x16_S16) x).toNat < 964 := fun x => by
        rw [chunk_apply s _ _ ⟨k.val, by omega⟩ ⟨k2.val, hk2⟩ (k0_off2_eq k k2) x]; exact hs8 _ hk8
      sl_exec (disch := exact Cert.PreRange.inb_splat _ hch _ (by decide))
      repeat (rw [SparseCore.vectorLoadIdx_bind (thrOf d L)]; sl_exec (disch := exact Cert.PreRange.inb_splat _ hch _ (by decide)))
      sl_step
      isplitl [Ht]; · iexact Ht
      isplitl [Hs]; · iexact Hs
      iexists _
      isplitl [Hg]; · iexact Hg
      ipureintro
      intro y hy
      have hchE : ∀ x : S16.Idx, ∃ hlt, (shapeCast S16 (View.readAt (Elt F) idxS.view (Rect.unit (s := S9x257) (k0_off2 k k2) S1x16.size (k0_off2_inb k k2)).toLoadRect s) shapeCasts_S1x16_S16) x
          = s (ix2 (⟨k.val, by omega⟩ : Fin 9) ⟨16 * (⟨k2.val, hk2⟩ : Fin 16).val + (x 0).val, hlt⟩) :=
        fun x => ⟨_, chunk_apply s _ _ ⟨k.val, by omega⟩ ⟨k2.val, hk2⟩ (k0_off2_eq k k2) x⟩
      refine Cert.Kernel.Fill.writes_agree_memref_whole cc0_scratch2 g (aim t s) _ (fun y => (y 1).val < k.val ∨ ((y 1).val = k.val ∧ (y 2).val < 16 * k2.val)) hg ?hL y ?hcov
      case hL =>
        refine List.forall_mem_cons.2 ⟨fun x => piece_ok t s _ ⟨k.val, by omega⟩ ⟨k2.val, hk2⟩ 15 15#32 (by decide) hchE hch (k0_off18 k k2) (k0_off18_inb k k2) (k0_off18_eq k k2) _ x, ?_⟩
        refine List.forall_mem_cons.2 ⟨fun x => piece_ok t s _ ⟨k.val, by omega⟩ ⟨k2.val, hk2⟩ 14 14#32 (by decide) hchE hch (k0_off17 k k2) (k0_off17_inb k k2) (k0_off17_eq k k2) _ x, ?_⟩
        refine List.forall_mem_cons.2 ⟨fun x => piece_ok t s _ ⟨k.val, by omega⟩ ⟨k2.val, hk2⟩ 13 13#32 (by decide) hchE hch (k0_off16 k k2) (k0_off16_inb k k2) (k0_off16_eq k k2) _ x, ?_⟩
        refine List.forall_mem_cons.2 ⟨fun x => piece_ok t s _ ⟨k.val, by omega⟩ ⟨k2.val, hk2⟩ 12 12#32 (by decide) hchE hch (k0_off15 k k2) (k0_off15_inb k k2) (k0_off15_eq k k2) _ x, ?_⟩
        refine List.forall_mem_cons.2 ⟨fun x => piece_ok t s _ ⟨k.val, by omega⟩ ⟨k2.val, hk2⟩ 11 11#32 (by decide) hchE hch (k0_off14 k k2) (k0_off14_inb k k2) (k0_off14_eq k k2) _ x, ?_⟩
        refine List.forall_mem_cons.2 ⟨fun x => piece_ok t s _ ⟨k.val, by omega⟩ ⟨k2.val, hk2⟩ 10 10#32 (by decide) hchE hch (k0_off13 k k2) (k0_off13_inb k k2) (k0_off13_eq k k2) _ x, ?_⟩
        refine List.forall_mem_cons.2 ⟨fun x => piece_ok t s _ ⟨k.val, by omega⟩ ⟨k2.val, hk2⟩ 9 9#32 (by decide) hchE hch (k0_off12 k k2) (k0_off12_inb k k2) (k0_off12_eq k k2) _ x, ?_⟩
        refine List.forall_mem_cons.2 ⟨fun x => piece_ok t s _ ⟨k.val, by omega⟩ ⟨k2.val, hk2⟩ 8 8#32 (by decide) hchE hch (k0_off11 k k2) (k0_off11_inb k k2) (k0_off11_eq k k2) _ x, ?_⟩
        refine List.forall_mem_cons.2 ⟨fun x => piece_ok t s _ ⟨k.val, by omega⟩ ⟨k2.val, hk2⟩ 7 7#32 (by decide) hchE hch (k0_off10 k k2) (k0_off10_inb k k2) (k0_off10_eq k k2) _ x, ?_⟩
        refine List.forall_mem_cons.2 ⟨fun x => piece_ok t s _ ⟨k.val, by omega⟩ ⟨k2.val, hk2⟩ 6 6#32 (by decide) hchE hch (k0_off9 k k2) (k0_off9_inb k k2) (k0_off9_eq k k2) _ x, ?_⟩
        refine List.forall_mem_cons.2 ⟨fun x => piece_ok t s _ ⟨k.val, by omega⟩ ⟨k2.val, hk2⟩ 5 5#32 (by decide) hchE hch (k0_off8 k k2) (k0_off8_inb k k2) (k0_off8_eq k k2) _ x, ?_⟩
        refine List.forall_mem_cons.2 ⟨fun x => piece_ok t s _ ⟨k.val, by omega⟩ ⟨k2.val, hk2⟩ 4 4#32 (by decide) hchE hch (k0_off7 k k2) (k0_off7_inb k k2) (k0_off7_eq k k2) _ x, ?_⟩
        refine List.forall_mem_cons.2 ⟨fun x => piece_ok t s _ ⟨k.val, by omega⟩ ⟨k2.val, hk2⟩ 3 3#32 (by decide) hchE hch (k0_off6 k k2) (k0_off6_inb k k2) (k0_off6_eq k k2) _ x, ?_⟩
        refine List.forall_mem_cons.2 ⟨fun x => piece_ok t s _ ⟨k.val, by omega⟩ ⟨k2.val, hk2⟩ 2 2#32 (by decide) hchE hch (k0_off5 k k2) (k0_off5_inb k k2) (k0_off5_eq k k2) _ x, ?_⟩
        refine List.forall_mem_cons.2 ⟨fun x => piece_ok t s _ ⟨k.val, by omega⟩ ⟨k2.val, hk2⟩ 1 1#32 (by decide) hchE hch (k0_off4 k k2) (k0_off4_inb k k2) (k0_off4_eq k k2) _ x, ?_⟩
        refine List.forall_mem_cons.2 ⟨fun x => piece_ok t s _ ⟨k.val, by omega⟩ ⟨k2.val, hk2⟩ 0 0#32 (by decide) hchE hch (k0_off3 k k2) (k0_off3_inb k k2) (k0_off3_eq k k2) _ x, ?_⟩
        exact fun _ h => absurd h (List.not_mem_nil)
      case hcov =>
        rcases hy with h1 | ⟨h1, h2⟩
        · exact .inl (.inl h1)
        · by_cases h3 : (y 2).val < 16 * k2.val
          · exact .inl (.inr ⟨h1, h3⟩)
          · right
            have hy0 : (y 0).val < 16 := (y 0).isLt
            rcases (show (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 by omega) with h0 | h0 | h0 | h0 | h0 | h0 | h0 | h0 | h0 | h0 | h0 | h0 | h0 | h0 | h0 | h0
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem_box y k.val k2.val h1 (by omega) (by omega) (k0_off3 k k2) (k0_off3_inb k k2) (by rw [k0_off3_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem_box y k.val k2.val h1 (by omega) (by omega) (k0_off4 k k2) (k0_off4_inb k k2) (by rw [k0_off4_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem_box y k.val k2.val h1 (by omega) (by omega) (k0_off5 k k2) (k0_off5_inb k k2) (by rw [k0_off5_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem_box y k.val k2.val h1 (by omega) (by omega) (k0_off6 k k2) (k0_off6_inb k k2) (by rw [k0_off6_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem_box y k.val k2.val h1 (by omega) (by omega) (k0_off7 k k2) (k0_off7_inb k k2) (by rw [k0_off7_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), mem_box y k.val k2.val h1 (by omega) (by omega) (k0_off8 k k2) (k0_off8_inb k k2) (by rw [k0_off8_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.head _))))))))), mem_box y k.val k2.val h1 (by omega) (by omega) (k0_off9 k k2) (k0_off9_inb k k2) (by rw [k0_off9_eq, h0])⟩
            · exact ⟨_, List.Mem.tail _ (List.Mem.tail _ (List.Mem.tail _ (List.Mem.tail _ (List.Mem.tail _ (List.Mem.tail _ (List.Mem.tail _ (List.Mem.tail _ (List.Mem.head _)))))))), mem_box y k.val k2.val h1 (by omega) (by omega) (k0_off10 k k2) (k0_off10_inb k k2) (by rw [k0_off10_eq, h0])⟩
            · exact ⟨_, List.Mem.tail _ (List.Mem.tail _ (List.Mem.tail _ (List.Mem.tail _ (List.Mem.tail _ (List.Mem.tail _ (List.Mem.tail _ (List.Mem.head _))))))), mem_box y k.val k2.val h1 (by omega) (by omega) (k0_off11 k k2) (k0_off11_inb k k2) (by rw [k0_off11_eq, h0])⟩
            · exact ⟨_, List.Mem.tail _ (List.Mem.tail _ (List.Mem.tail _ (List.Mem.tail _ (List.Mem.tail _ (List.Mem.tail _ (List.Mem.head _)))))), mem_box y k.val k2.val h1 (by omega) (by omega) (k0_off12 k k2) (k0_off12_inb k k2) (by rw [k0_off12_eq, h0])⟩
            · exact ⟨_, List.Mem.tail _ (List.Mem.tail _ (List.Mem.tail _ (List.Mem.tail _ (List.Mem.tail _ (List.Mem.head _))))), mem_box y k.val k2.val h1 (by omega) (by omega) (k0_off13 k k2) (k0_off13_inb k k2) (by rw [k0_off13_eq, h0])⟩
            · exact ⟨_, List.Mem.tail _ (List.Mem.tail _ (List.Mem.tail _ (List.Mem.tail _ (List.Mem.head _)))), mem_box y k.val k2.val h1 (by omega) (by omega) (k0_off14 k k2) (k0_off14_inb k k2) (by rw [k0_off14_eq, h0])⟩
            · exact ⟨_, List.Mem.tail _ (List.Mem.tail _ (List.Mem.tail _ (List.Mem.head _))), mem_box y k.val k2.val h1 (by omega) (by omega) (k0_off15 k k2) (k0_off15_inb k k2) (by rw [k0_off15_eq, h0])⟩
            · exact ⟨_, List.Mem.tail _ (List.Mem.tail _ (List.Mem.head _)), mem_box y k.val k2.val h1 (by omega) (by omega) (k0_off16 k k2) (k0_off16_inb k k2) (by rw [k0_off16_eq, h0])⟩
            · exact ⟨_, List.Mem.tail _ (List.Mem.head _), mem_box y k.val k2.val h1 (by omega) (by omega) (k0_off17 k k2) (k0_off17_inb k k2) (by rw [k0_off17_eq, h0])⟩
            · exact ⟨_, List.Mem.head _, mem_box y k.val k2.val h1 (by omega) (by omega) (k0_off18 k k2) (k0_off18_inb k k2) (by rw [k0_off18_eq, h0])⟩
    · unfold invIn
      isplitl [Ht]; · iexact Ht
      isplitl [Hs]; · iexact Hs
      iexists _
      isplitl [Hg]; · iexact Hg
      ipureintro
      intro y hy
      rcases hy with h | ⟨_, h⟩
      · exact hg y h
      · omega
    iintro %_ HI
    unfold invIn
    icases HI with ⟨Ht, Hs, ⟨%g', Hg, %hg'⟩⟩
    have ha8 : (Scf.iv (0#32 : BitVec 32) 1#32 k.val).toNat = k.val := iv_toNat k.val (by omega)
    have ha : (Scf.iv (0#32 : BitVec 32) 1#32 k.val).toNat < 9 := by omega
    have hsa : (s (ix2 (⟨(Scf.iv (0#32 : BitVec 32) 1#32 k.val).toNat, ha⟩ : Fin 9) (⟨256, by decide⟩ : Fin 257))).toNat < 964 :=
      hs8 _ (by show (Scf.iv (0#32 : BitVec 32) 1#32 k.val).toNat < 8; omega)
    have ht2 : Scf.trips k0_t2_loop.lb k0_t2_loop.ub k0_t2_loop.st = 16 := by decide
    sl_exec (disch := exact RowEnd.chk17 _ _ ha)
    rw [SparseCore.vectorLoadIdx_bind (thrOf d L)]
    sl_exec (disch := exact RowEnd.inb_pos s _ _ ha hsa _)
    rw [SparseCore.vectorLoadIdx_bind (thrOf d L)]
    sl_exec
    rw [SparseCore.vectorStoreIdx_bind (thrOf d L)]
    sl_exec
    sl_step
    isplitl [Ht]; · iexact Ht
    isplitl [Hs]; · iexact Hs
    iexists _
    isplitl [Hg]; · iexact Hg
    ipureintro
    have hg'' : ∀ y : S16x9x257.Idx, ((y 1).val < (Scf.iv (0#32 : BitVec 32) 1#32 k.val).toNat
        ∨ ((y 1).val = (Scf.iv (0#32 : BitVec 32) 1#32 k.val).toNat ∧ (y 2).val < 256)) → g' y = aim t s y := fun y hy => by
      refine hg' y ?_
      rw [ht2]; rw [ha8] at hy; exact hy
    intro y hy
    exact RowEnd.row_end t s g' _ _ ha hsa _ _ _ hg'' y (by rw [ha8]; exact hy)
  · unfold invOut
    isplitl [Hs0']; · iexact Hs0'
    isplitl [Hs1']; · iexact Hs1'
    iexists _
    isplitl [Hs2']; · iexact Hs2'
    ipureintro; intro y hy; exact absurd hy (Nat.not_lt_zero _)
  iintro %_ HI
  unfold invOut
  icases HI with ⟨Hs0, Hs1, ⟨%g8, Hs2, %hg8⟩⟩
  have pts_o : ∀ f : Buf (Elt F) (oLoc d), ((oLoc d ↦[blkSet L]{fullShare} f : sProp 𝕄)) = ((blkM L).view.loc (thrOf d L) ↦[(blkM L).view.set]{fullShare} f) := fun _ => rfl
  ihave Ho' := (Entails.of_eq (pts_o fo)) $$ Ho
  sl_exec
  have ht1 : Scf.trips k0_t1_loop.lb k0_t1_loop.ub k0_t1_loop.st = 8 := by decide
  have hg8' : ∀ y : S16x9x257.Idx, (y 1).val < 8 → g8 y = aim t s y := fun y hy => hg8 y (by rw [ht1]; exact hy)
  by_cases k0_h1 : k0_cond1 L = 1#1
  · have pts_l : ∀ f : Buf (Elt F) (oLoc d), ((oLoc d ↦[lastSet]{fullShare} f : sProp 𝕄)) = ((lastM).view.loc (thrOf d L) ↦[(lastM).view.set]{fullShare} f) := fun _ => rfl
    ihave Hlast1 := (Entails.of_eq (if_pos k0_h1)) $$ Hlast
    ihave Hlast' := (Entails.of_eq (pts_l fo)) $$ Hlast1
    sl_exec
    -- row 8 of the index scratch now holds row 256 of the indices; the rows below are as they were
    have hS9 : ∀ y : S9x257.Idx, (y 0).val = 8 →
        (idxS.view.writes (Elt F) s [⟨Rect.unit ![8, 0] S1x257.size inb_S9x257_S1x257_8_0, body.sl.dma0_4 d fi⟩]) y
          = fi (ix2 (⟨256, by decide⟩ : Fin 257) (y 1)) := by
      intro y hy
      rw [Landed.row9_hit s _ y hy]
      exact Landed.lastRow_read fi _
    have hS9m : ∀ y : S9x257.Idx, (y 0).val < 8 →
        (idxS.view.writes (Elt F) s [⟨Rect.unit ![8, 0] S1x257.size inb_S9x257_S1x257_8_0, body.sl.dma0_4 d fi⟩]) y = s y :=
      fun y hy => Landed.row9_miss s _ y hy
    generalize hS9d : idxS.view.writes (Elt F) s [⟨Rect.unit ![8, 0] S1x257.size inb_S9x257_S1x257_8_0, body.sl.dma0_4 d fi⟩] = s9 at hS9 hS9m
    have hs9 : ∀ y : S9x257.Idx, (y 0).val = 8 → (s9 y).toNat < 964 := fun y hy => by rw [hS9 y hy]; exact hr _
    have haim : ∀ y : S16x9x257.Idx, (y 1).val < 8 → aim t s9 y = aim t s y := fun y hy => by
      have e : s9 (ix2 (y 1) (y 2)) = s (ix2 (y 1) (y 2)) := hS9m _ hy
      show t (ix1 ⟨((s9 (ix2 (y 1) (y 2))).toNat * 16 + (y 0).val) % 15424, Nat.mod_lt _ (by decide)⟩)
        = t (ix1 ⟨((s (ix2 (y 1) (y 2))).toNat * 16 + (y 0).val) % 15424, Nat.mod_lt _ (by decide)⟩)
      rw [e]
    sl_for (invIn (F := F) d L t s9 8) $$ [Hs0 Hs1 Hs2]
    case region =>
      intro k3 _
      have hk3 : k3.val < 16 := lt_of_lt_of_le k3.isLt k0_t3_abs.2.1
      unfold invIn
      iintro ⟨Ht, Hs, ⟨%g, Hg, %hg⟩⟩
      have hch : ∀ x, ((shapeCast S16 (View.readAt (Elt F) idxS.view (Rect.unit (s := S9x257) (k0_off20 k3) S1x16.size (k0_off20_inb L k3 k0_h1)).toLoadRect s9) shapeCasts_S1x16_S16) x).toNat < 964 := fun x => by
        rw [chunk_apply s9 _ _ ⟨8, by omega⟩ ⟨k3.val, hk3⟩ (k0_off20_eq k3) x]; exact hs9 _ rfl
      sl_exec (disch := exact fun _ => Cert.PreRange.inb_splat _ hch _ (by decide))
      repeat ((first | rw [SparseCore.vectorLoadIdx_bind (thrOf d L)] | rw [loadIdx_prog (thrOf d L)]); sl_exec (disch := exact fun _ => Cert.PreRange.inb_splat _ hch _ (by decide)))
      sl_step
      isplitl [Ht]; · iexact Ht
      isplitl [Hs]; · iexact Hs
      iexists _
      isplitl [Hg]; · iexact Hg
      ipureintro
      intro y hy
      have hchE : ∀ x : S16.Idx, ∃ hlt, (shapeCast S16 (View.readAt (Elt F) idxS.view (Rect.unit (s := S9x257) (k0_off20 k3) S1x16.size (k0_off20_inb L k3 k0_h1)).toLoadRect s9) shapeCasts_S1x16_S16) x
          = s9 (ix2 (⟨8, by omega⟩ : Fin 9) ⟨16 * (⟨k3.val, hk3⟩ : Fin 16).val + (x 0).val, hlt⟩) :=
        fun x => ⟨_, chunk_apply s9 _ _ ⟨8, by omega⟩ ⟨k3.val, hk3⟩ (k0_off20_eq k3) x⟩
      refine Cert.Kernel.Fill.writes_agree_memref_whole cc0_scratch2 g (aim t s9) _ (fun y => (y 1).val < 8 ∨ ((y 1).val = 8 ∧ (y 2).val < 16 * k3.val)) hg ?hL y ?hcov
      case hL =>
        refine List.forall_mem_cons.2 ⟨fun x => piece_ok t s9 _ ⟨8, by omega⟩ ⟨k3.val, hk3⟩ 15 15#32 (by decide) hchE hch (k0_off36 k3) (k0_off36_inb L k3 k0_h1) (k0_off36_eq k3) _ x, ?_⟩
        refine List.forall_mem_cons.2 ⟨fun x => piece_ok t s9 _ ⟨8, by omega⟩ ⟨k3.val, hk3⟩ 14 14#32 (by decide) hchE hch (k0_off35 k3) (k0_off35_inb L k3 k0_h1) (k0_off35_eq k3) _ x, ?_⟩
        refine List.forall_mem_cons.2 ⟨fun x => piece_ok t s9 _ ⟨8, by omega⟩ ⟨k3.val, hk3⟩ 13 13#32 (by decide) hchE hch (k0_off34 k3) (k0_off34_inb L k3 k0_h1) (k0_off34_eq k3) _ x, ?_⟩
        refine List.forall_mem_cons.2 ⟨fun x => piece_ok t s9 _ ⟨8, by omega⟩ ⟨k3.val, hk3⟩ 12 12#32 (by decide) hchE hch (k0_off33 k3) (k0_off33_inb L k3 k0_h1) (k0_off33_eq k3) _ x, ?_⟩
        refine List.forall_mem_cons.2 ⟨fun x => piece_ok t s9 _ ⟨8, by omega⟩ ⟨k3.val, hk3⟩ 11 11#32 (by decide) hchE hch (k0_off32 k3) (k0_off32_inb L k3 k0_h1) (k0_off32_eq k3) _ x, ?_⟩
        refine List.forall_mem_cons.2 ⟨fun x => piece_ok t s9 _ ⟨8, by omega⟩ ⟨k3.val, hk3⟩ 10 10#32 (by decide) hchE hch (k0_off31 k3) (k0_off31_inb L k3 k0_h1) (k0_off31_eq k3) _ x, ?_⟩
        refine List.forall_mem_cons.2 ⟨fun x => piece_ok t s9 _ ⟨8, by omega⟩ ⟨k3.val, hk3⟩ 9 9#32 (by decide) hchE hch (k0_off30 k3) (k0_off30_inb L k3 k0_h1) (k0_off30_eq k3) _ x, ?_⟩
        refine List.forall_mem_cons.2 ⟨fun x => piece_ok t s9 _ ⟨8, by omega⟩ ⟨k3.val, hk3⟩ 8 8#32 (by decide) hchE hch (k0_off29 k3) (k0_off29_inb L k3 k0_h1) (k0_off29_eq k3) _ x, ?_⟩
        refine List.forall_mem_cons.2 ⟨fun x => piece_ok t s9 _ ⟨8, by omega⟩ ⟨k3.val, hk3⟩ 7 7#32 (by decide) hchE hch (k0_off28 k3) (k0_off28_inb L k3 k0_h1) (k0_off28_eq k3) _ x, ?_⟩
        refine List.forall_mem_cons.2 ⟨fun x => piece_ok t s9 _ ⟨8, by omega⟩ ⟨k3.val, hk3⟩ 6 6#32 (by decide) hchE hch (k0_off27 k3) (k0_off27_inb L k3 k0_h1) (k0_off27_eq k3) _ x, ?_⟩
        refine List.forall_mem_cons.2 ⟨fun x => piece_ok t s9 _ ⟨8, by omega⟩ ⟨k3.val, hk3⟩ 5 5#32 (by decide) hchE hch (k0_off26 k3) (k0_off26_inb L k3 k0_h1) (k0_off26_eq k3) _ x, ?_⟩
        refine List.forall_mem_cons.2 ⟨fun x => piece_ok t s9 _ ⟨8, by omega⟩ ⟨k3.val, hk3⟩ 4 4#32 (by decide) hchE hch (k0_off25 k3) (k0_off25_inb L k3 k0_h1) (k0_off25_eq k3) _ x, ?_⟩
        refine List.forall_mem_cons.2 ⟨fun x => piece_ok t s9 _ ⟨8, by omega⟩ ⟨k3.val, hk3⟩ 3 3#32 (by decide) hchE hch (k0_off24 k3) (k0_off24_inb L k3 k0_h1) (k0_off24_eq k3) _ x, ?_⟩
        refine List.forall_mem_cons.2 ⟨fun x => piece_ok t s9 _ ⟨8, by omega⟩ ⟨k3.val, hk3⟩ 2 2#32 (by decide) hchE hch (k0_off23 k3) (k0_off23_inb L k3 k0_h1) (k0_off23_eq k3) _ x, ?_⟩
        refine List.forall_mem_cons.2 ⟨fun x => piece_ok t s9 _ ⟨8, by omega⟩ ⟨k3.val, hk3⟩ 1 1#32 (by decide) hchE hch (k0_off22 k3) (k0_off22_inb L k3 k0_h1) (k0_off22_eq k3) _ x, ?_⟩
        refine List.forall_mem_cons.2 ⟨fun x => piece_ok t s9 _ ⟨8, by omega⟩ ⟨k3.val, hk3⟩ 0 0#32 (by decide) hchE hch (k0_off21 k3) (k0_off21_inb L k3 k0_h1) (k0_off21_eq k3) _ x, ?_⟩
        exact fun _ h => absurd h (List.not_mem_nil)
      case hcov =>
        rcases hy with h1 | ⟨h1, h2⟩
        · exact .inl (.inl h1)
        · by_cases h3 : (y 2).val < 16 * k3.val
          · exact .inl (.inr ⟨h1, h3⟩)
          · right
            have hy0 : (y 0).val < 16 := (y 0).isLt
            rcases (show (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 by omega) with h0 | h0 | h0 | h0 | h0 | h0 | h0 | h0 | h0 | h0 | h0 | h0 | h0 | h0 | h0 | h0
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem_box y 8 k3.val h1 (by omega) (by omega) (k0_off21 k3) (k0_off21_inb L k3 k0_h1) (by rw [k0_off21_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem_box y 8 k3.val h1 (by omega) (by omega) (k0_off22 k3) (k0_off22_inb L k3 k0_h1) (by rw [k0_off22_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem_box y 8 k3.val h1 (by omega) (by omega) (k0_off23 k3) (k0_off23_inb L k3 k0_h1) (by rw [k0_off23_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem_box y 8 k3.val h1 (by omega) (by omega) (k0_off24 k3) (k0_off24_inb L k3 k0_h1) (by rw [k0_off24_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem_box y 8 k3.val h1 (by omega) (by omega) (k0_off25 k3) (k0_off25_inb L k3 k0_h1) (by rw [k0_off25_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), mem_box y 8 k3.val h1 (by omega) (by omega) (k0_off26 k3) (k0_off26_inb L k3 k0_h1) (by rw [k0_off26_eq, h0])⟩
            · exact ⟨_, List.Mem.tail _ (List.Mem.tail _ (List.Mem.tail _ (List.Mem.tail _ (List.Mem.tail _ (List.Mem.tail _ (List.Mem.tail _ (List.Mem.tail _ (List.Mem.tail _ (List.Mem.head _))))))))), mem_box y 8 k3.val h1 (by omega) (by omega) (k0_off27 k3) (k0_off27_inb L k3 k0_h1) (by rw [k0_off27_eq, h0])⟩
            · exact ⟨_, List.Mem.tail _ (List.Mem.tail _ (List.Mem.tail _ (List.Mem.tail _ (List.Mem.tail _ (List.Mem.tail _ (List.Mem.tail _ (List.Mem.tail _ (List.Mem.head _)))))))), mem_box y 8 k3.val h1 (by omega) (by omega) (k0_off28 k3) (k0_off28_inb L k3 k0_h1) (by rw [k0_off28_eq, h0])⟩
            · exact ⟨_, List.Mem.tail _ (List.Mem.tail _ (List.Mem.tail _ (List.Mem.tail _ (List.Mem.tail _ (List.Mem.tail _ (List.Mem.tail _ (List.Mem.head _))))))), mem_box y 8 k3.val h1 (by omega) (by omega) (k0_off29 k3) (k0_off29_inb L k3 k0_h1) (by rw [k0_off29_eq, h0])⟩
            · exact ⟨_, List.Mem.tail _ (List.Mem.tail _ (List.Mem.tail _ (List.Mem.tail _ (List.Mem.tail _ (List.Mem.tail _ (List.Mem.head _)))))), mem_box y 8 k3.val h1 (by omega) (by omega) (k0_off30 k3) (k0_off30_inb L k3 k0_h1) (by rw [k0_off30_eq, h0])⟩
            · exact ⟨_, List.Mem.tail _ (List.Mem.tail _ (List.Mem.tail _ (List.Mem.tail _ (List.Mem.tail _ (List.Mem.head _))))), mem_box y 8 k3.val h1 (by omega) (by omega) (k0_off31 k3) (k0_off31_inb L k3 k0_h1) (by rw [k0_off31_eq, h0])⟩
            · exact ⟨_, List.Mem.tail _ (List.Mem.tail _ (List.Mem.tail _ (List.Mem.tail _ (List.Mem.head _)))), mem_box y 8 k3.val h1 (by omega) (by omega) (k0_off32 k3) (k0_off32_inb L k3 k0_h1) (by rw [k0_off32_eq, h0])⟩
            · exact ⟨_, List.Mem.tail _ (List.Mem.tail _ (List.Mem.tail _ (List.Mem.head _))), mem_box y 8 k3.val h1 (by omega) (by omega) (k0_off33 k3) (k0_off33_inb L k3 k0_h1) (by rw [k0_off33_eq, h0])⟩
            · exact ⟨_, List.Mem.tail _ (List.Mem.tail _ (List.Mem.head _)), mem_box y 8 k3.val h1 (by omega) (by omega) (k0_off34 k3) (k0_off34_inb L k3 k0_h1) (by rw [k0_off34_eq, h0])⟩
            · exact ⟨_, List.Mem.tail _ (List.Mem.head _), mem_box y 8 k3.val h1 (by omega) (by omega) (k0_off35 k3) (k0_off35_inb L k3 k0_h1) (by rw [k0_off35_eq, h0])⟩
            · exact ⟨_, List.Mem.head _, mem_box y 8 k3.val h1 (by omega) (by omega) (k0_off36 k3) (k0_off36_inb L k3 k0_h1) (by rw [k0_off36_eq, h0])⟩
    · unfold invIn
      isplitl [Hs0]; · iexact Hs0
      isplitl [Hs1]; · iexact Hs1
      iexists _
      isplitl [Hs2]; · iexact Hs2
      ipureintro
      intro y hy
      rcases hy with h | ⟨_, h⟩
      · rw [haim y h]; exact hg8' y h
      · omega
    iintro %_ HI
    unfold invIn
    icases HI with ⟨Hs0, Hs1, ⟨%g9, Hs2, %hg9⟩⟩
    have ht3 : Scf.trips k0_t3_loop.lb k0_t3_loop.ub k0_t3_loop.st = 16 := by decide
    have ha9 : (8#32 : BitVec 32).toNat < 9 := by decide
    have hsa9 : (s9 (ix2 (⟨(8#32 : BitVec 32).toNat, ha9⟩ : Fin 9) (⟨256, by decide⟩ : Fin 257))).toNat < 964 := hs9 _ rfl
    have hg9' : ∀ y : S16x9x257.Idx, ((y 1).val < (8#32 : BitVec 32).toNat ∨ ((y 1).val = (8#32 : BitVec 32).toNat ∧ (y 2).val < 256)) → g9 y = aim t s9 y :=
      fun y hy => hg9 y (by rw [ht3]; exact hy)
    sl_exec (disch := exact ⟨fun _ => RowEnd.inb_row _ ha9, fun _ => RowEnd.inb_entry _ _ ha9⟩)
    rw [SparseCore.vectorLoadIdx_bind (thrOf d L)]
    sl_exec (disch := exact fun _ => RowEnd.inb_pos s9 _ _ ha9 hsa9 _)
    rw [SparseCore.vectorLoadIdx_bind (thrOf d L)]
    sl_exec
    rw [SparseCore.vectorStoreIdx_bind (thrOf d L)]
    sl_exec
    sl_step
    isplitl [Ht' Hi' Ho' Hlast']
    · isplitl [Ht']; · iapply (Entails.of_eq pts_t.symm); iexact Ht'
      isplitl [Hi']; · iapply (Entails.of_eq pts_i.symm); iexact Hi'
      isplitl [Ho']
      · iexists _; isplitr
        swap
        · iapply (Entails.of_eq (pts_o _).symm); iexact Ho'
        · ipureintro
          exact BlockOut.block_out L _ g8 t ft s fi hTft hSfi hr hg8'
      · iapply (Entails.of_eq (if_pos k0_h1).symm)
        iexists _; isplitr
        swap
        · iapply (Entails.of_eq (pts_l _).symm); iexact Hlast'
        · ipureintro
          refine BlockOut.last_out fo _ t ft s9 fi hTft hS9 hr (fun y hy => ?_)
          exact RowEnd.row_end t s9 g9 _ _ ha9 hsa9 _ _ _ hg9' y (by rw [hy]; decide)
    isplitl [Hs0 Hs1 Hs2 Hbrest]
    · isplitl [Hs0]; · iexists _; iapply (Entails.of_eq (Own.pts_tabS (F := F) d _ _ fullShare _)); iexact Hs0
      isplitl [Hs1]; · iexists _; iapply (Entails.of_eq (Own.pts_idxS (F := F) d _ _ fullShare _)); iexact Hs1
      isplitl [Hs2]; · iexists _; iapply (Entails.of_eq (Own.pts_outS (F := F) d _ _ fullShare _)); iexact Hs2
      iexact Hbrest
    isplitl [Hc0 Hc1 Hc2 Hc3 Hc4 Hcrest]
    · isplitl [Hc0]; · iexact Hc0
      isplitl [Hc1]; · iexact Hc1
      isplitl [Hc2]; · iexact Hc2
      isplitl [Hc3]; · iexact Hc3
      isplitl [Hc4]; · iexact Hc4
      iexact Hcrest
    iexists _; isplitr
    swap
    · iexact HO
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      · exact .inl hp
  · rw [if_neg k0_h1, if_neg k0_h1]
    sl_exec
    sl_step
    isplitl [Ht' Hi' Ho']
    · isplitl [Ht']; · iapply (Entails.of_eq pts_t.symm); iexact Ht'
      isplitl [Hi']; · iapply (Entails.of_eq pts_i.symm); iexact Hi'
      isplitl [Ho']
      · iexists ((blkM L).view.writes (Elt F) fo [⟨Rect.whole S16x8x257, body.sl.dma0_2 d L g8⟩])
        isplitr
        · ipureintro
          exact BlockOut.block_out L fo g8 t ft s fi hTft hSfi hr hg8'
        · iapply (Entails.of_eq (pts_o _).symm)
          iexact Ho'
      · iempintro
    isplitl [Hs0 Hs1 Hs2 Hbrest]
    · isplitl [Hs0]; · iexists _; iapply (Entails.of_eq (Own.pts_tabS (F := F) d _ _ fullShare _)); iexact Hs0
      isplitl [Hs1]; · iexists _; iapply (Entails.of_eq (Own.pts_idxS (F := F) d _ _ fullShare _)); iexact Hs1
      isplitl [Hs2]; · iexists _; iapply (Entails.of_eq (Own.pts_outS (F := F) d _ _ fullShare _)); iexact Hs2
      iexact Hbrest
    isplitl [Hc0 Hc1 Hc2 Hc3 Hc4 Hcrest]
    · isplitl [Hc0]; · iexact Hc0
      isplitl [Hc1]; · iexact Hc1
      isplitl [Hc2]; · iexact Hc2
      isplitl [Hc3]; · iexact Hc3
      isplitl [Hc4]; · iexact Hc4
      iexact Hcrest
    iexists _; isplitr
    swap
    · iexact HO
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      · exact .inl hp

end Cert.Kernel.Body

end
-- ==== Proof.lean ====
/-
  A bias gathered from a table and added to an array: the kernel and its reference compute one function.

  From an array x of shape [32, 16, 257, 257], a table of shape [964, 16] and an index array of shape [257, 257], both
  programs compute   out[b, h, i, j] = x[b, h, i, j] + B[h, i, j],   B[h, i, j] = table[index[i, j], h]:
  the table's rows gathered at the index array, the head axis moved in front, the result repeated over the 32 batches
  and added to x. The reference gathers whole rows of the table and transposes; the kernel reads the table as one row
  of 964 · 16 numbers at the positions 16 · index[i, j] + h.

  The index array has to lie in [0, 964). The kernel reads through indexed loads, which have no step when an index
  names no element of the array they address: that the kernel runs at all (the two frame claims) already needs every
  index in range. The precondition states it, as the signed comparisons 0 ≤ v and v < 964 folded by "and" over the
  index array; a word with both properties is below 964 read unsigned. The reference runs from any memory (out of
  range it would wrap, clamp and fill; in range none of the three is taken), and in range it reads the same entry.
  The value needs no finiteness: both programs only move numbers and perform one addition per element, the same one,
  so the results agree as extended reals whatever the numbers are.

  How the five conjuncts follow.
  - The kernel as printed and its idealization: from a memory with the index array in range, every weakly fair
    execution terminates with the result array at the kernel's term of the three arguments and the arguments
    unchanged. This is the kernel's run, once at each float instance, from the specification of the kernel body.
    The two frame claims keep its last three conjuncts.
  - The reference: from any memory its run ends with the result at the reference's term of the arguments and the
    arguments unchanged; its frame claim keeps the last three conjuncts.
  - The idealization rewrote no operation: there is nothing to preserve.
  - At the ideal instance, from memories that agree on the arguments: the common result is the kernel's term of the
    arguments. The reference ends at its own term of its own arguments, which are the kernel's; and for an index array
    in range the two terms are equal entry by entry, both being x[b, h, i, j] + table[index[i, j], h].
-/
import proofs.«201633_g9972914061550_cont_9to1c4b_803_29_alg».proof.Defs
import proofs.«201633_g9972914061550_cont_9to1c4b_803_29_alg».proof.Proof.Gen.Kernel
import proofs.«201633_g9972914061550_cont_9to1c4b_803_29_alg».proof.Proof.Gen.Kernel.Skeleton
import proofs.«201633_g9972914061550_cont_9to1c4b_803_29_alg».proof.Proof.Gen.KernelIdeal
import proofs.«201633_g9972914061550_cont_9to1c4b_803_29_alg».proof.Proof.Gen.KernelIdeal.Skeleton
import proofs.«201633_g9972914061550_cont_9to1c4b_803_29_alg».proof.Proof.Gen.ReferenceIdeal
import proofs.«201633_g9972914061550_cont_9to1c4b_803_29_alg».proof.Proof.Gen.Pre_finite_inputs
import Idealize.ShloMosaic.Adequacy
import Idealize.ShloMosaic.Init
import proofs.«201633_g9972914061550_cont_9to1c4b_803_29_alg».proof.Proof.PreRange
import proofs.«201633_g9972914061550_cont_9to1c4b_803_29_alg».proof.Proof.Launch
import proofs.«201633_g9972914061550_cont_9to1c4b_803_29_alg».proof.Proof.LaunchW
import proofs.«201633_g9972914061550_cont_9to1c4b_803_29_alg».proof.Proof.RefValue
import proofs.«201633_g9972914061550_cont_9to1c4b_803_29_alg».proof.Proof.Bridge
import proofs.«201633_g9972914061550_cont_9to1c4b_803_29_alg».proof.Proof.Body
import proofs.«201633_g9972914061550_cont_9to1c4b_803_29_alg».proof.Proof.BodyW

noncomputable section

namespace Cert.Proof

open Idealize.ShloMosaic Idealize.SL.Sem

/-- The idealized kernel's run: from a memory whose index array is in range, every weakly fair execution terminates
    with the result at the kernel's term of the arguments and the arguments unchanged. -/
abbrev KernelRunIdeal : Prop :=
  ∀ (m : (ℓ : Loc Cert.KernelIdeal.nD Cert.KernelIdeal.τ Cert.KernelIdeal.sig) → Buf (Elt Ideal) ℓ) (ρ : Dev Cert.KernelIdeal.nD → PrngReg),
    (∀ (d : Dev Cert.KernelIdeal.nD) (y : Cert.KernelIdeal.S257x257.Idx), (m (Cert.KernelIdeal.Launch.iLoc d) y).toNat < 964) →
    θ_run (Cert.KernelIdeal.defs (F := Ideal)) (Cert.KernelIdeal.threads (F := Ideal)) ⟨m, fun _ => 0, ρ⟩ (fun r => ∀ c : Dev Cert.KernelIdeal.nD,
      r.2.mem ((c.tc : Thread Cert.KernelIdeal.nD Cert.KernelIdeal.τ).loc Cert.KernelIdeal.main_v4)
        = Cert.KernelIdeal.Launch.kernelTerm (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

/-- The same for the kernel as printed, at the bit-exact instance; the frame claim does not look at `term`. -/
abbrev KernelRunBits (term : FVec Bits Cert.Kernel.S32x16x257x257 .f32 → FVec Bits Cert.Kernel.S964x16 .f32 → IVec Cert.Kernel.S257x257 32 → FVec Bits Cert.Kernel.S32x16x257x257 .f32) : Prop :=
  ∀ (m : (ℓ : Loc Cert.Kernel.nD Cert.Kernel.τ Cert.Kernel.sig) → Buf (Elt Bits) ℓ) (ρ : Dev Cert.Kernel.nD → PrngReg),
    (∀ (d : Dev Cert.Kernel.nD) (y : Cert.Kernel.S257x257.Idx), (m ((SparseCore.T d : Thread Cert.Kernel.nD Cert.Kernel.τ).loc Cert.Kernel.main_arg2) y).toNat < 964) →
    θ_run (Cert.Kernel.defs (F := Bits)) (Cert.Kernel.threads (F := Bits)) ⟨m, fun _ => 0, ρ⟩ (fun r => ∀ c : Dev Cert.Kernel.nD,
      r.2.mem ((c.tc : Thread Cert.Kernel.nD Cert.Kernel.τ).loc Cert.Kernel.main_v4)
        = term
            (m ((c.tc : Thread Cert.Kernel.nD Cert.Kernel.τ).loc Cert.Kernel.main_arg0))
            (m ((c.tc : Thread Cert.Kernel.nD Cert.Kernel.τ).loc Cert.Kernel.main_arg1))
            (m ((c.tc : Thread Cert.Kernel.nD Cert.Kernel.τ).loc Cert.Kernel.main_arg2))
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

section Claims
variable {term : FVec Bits Cert.Kernel.S32x16x257x257 .f32 → FVec Bits Cert.Kernel.S964x16 .f32 → IVec Cert.Kernel.S257x257 32 → FVec Bits Cert.Kernel.S32x16x257x257 .f32}

/-- The printed kernel runs and keeps its arguments: the precondition puts the index array in range. -/
theorem frame_k (runB : KernelRunBits term) : Cert.frame_Kernel (hKernel := Cert.Kernel.Gen.facts) (hPre_finite_inputs := Cert.Pre_finite_inputs.Gen.facts) :=
  fun m ρ hpre =>
    (θ_run (Cert.Kernel.defs (F := Bits)) _ _).mono (fun _ h c => (h c).2)
      (runB m ρ fun d y => Cert.PreRange.idx_range _ _ _ (hpre d) y)

/-- The idealized kernel runs and keeps its arguments. -/
theorem frame_ki (runI : KernelRunIdeal) : Cert.frame_KernelIdeal (hKernelIdeal := Cert.KernelIdeal.Gen.facts) (hPre_finite_inputs := Cert.Pre_finite_inputs.Gen.facts) :=
  fun m ρ hpre =>
    (θ_run (Cert.KernelIdeal.defs (F := Ideal)) _ _).mono (fun _ h c => (h c).2)
      (runI m ρ fun d y => Cert.PreRange.idx_range _ _ _ (hpre d) y)

/-- The reference runs and keeps its arguments, from any memory. -/
theorem frame_ri : Cert.frame_ReferenceIdeal (hReferenceIdeal := Cert.ReferenceIdeal.Gen.facts) (hPre_finite_inputs := Cert.Pre_finite_inputs.Gen.facts) :=
  fun m ρ _ =>
    (θ_run (Cert.ReferenceIdeal.defs (F := Ideal)) _ _).mono (fun _ h c => (h c).2)
      (Cert.ReferenceIdeal.RefValue.ref_run m ρ)

theorem preserves : Cert.preserves_Kernel_KernelIdeal := trivial

/-- At the ideal instance, from memories agreeing on the arguments, both programs end at one result: the kernel's
    term of the arguments, which for an index array in range is the reference's. -/
theorem algebraic (runI : KernelRunIdeal) : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr : ∀ (d : Dev Cert.KernelIdeal.nD) (y : Cert.KernelIdeal.S257x257.Idx),
      (m (Cert.KernelIdeal.Launch.iLoc d) y).toNat < 964 := fun d y => Cert.PreRange.idx_range _ _ _ (hpre d) y
  refine ⟨_, runI m ρ hr, ?_⟩
  refine (θ_run (Cert.ReferenceIdeal.defs (F := Ideal)) _ _).mono (fun _ h c => ⟨(h c).1.trans ?_, (h c).2⟩)
    (Cert.ReferenceIdeal.RefValue.ref_run m' ρ')
  rw [(hagree c).1, (hagree c).2.1, (hagree c).2.2]
  exact (Cert.Bridge.kernel_eq_ref _ _ _ (hr c)).symm

/-- Everything the certificate claims, given the two kernel runs. -/
theorem claim_of_runs (runB : KernelRunBits term) (runI : KernelRunIdeal) : Cert.Claim :=
  ⟨Cert.Kernel.Gen.facts, Cert.KernelIdeal.Gen.facts, Cert.ReferenceIdeal.Gen.facts, Cert.Pre_finite_inputs.Gen.facts,
    frame_k runB, frame_ki runI, frame_ri, preserves, algebraic runI⟩

/-- The idealized kernel's run under its body specification. -/
theorem runI_of_body (hB : Cert.KernelIdeal.Launch.BodySpec Ideal) : KernelRunIdeal :=
  fun m ρ hr => Cert.KernelIdeal.Launch.run_main (F := Ideal) m ρ hB hr

/-- The printed kernel's run under its body specification. -/
theorem runB_of_body (hB : Cert.Kernel.Launch.BodySpec Bits) : KernelRunBits (Cert.Kernel.Launch.kernelTerm (F := Bits)) :=
  fun m ρ hr => Cert.Kernel.Launch.run_main (F := Bits) m ρ hB hr

/-- Everything the certificate claims, given the kernel body's specification at both instances. -/
theorem claim_of_body (hBB : Cert.Kernel.Launch.BodySpec Bits) (hBI : Cert.KernelIdeal.Launch.BodySpec Ideal) : Cert.Claim :=
  claim_of_runs (runB_of_body hBB) (runI_of_body hBI)

end Claims

/-- Everything the certificate claims. -/
theorem claim : Cert.Claim := claim_of_body (Cert.Kernel.Body.body (F := Bits)) (Cert.KernelIdeal.Body.body (F := Ideal))

end Cert.Proof

end
